-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S16384x26 : Shape := ⟨2, ![16384, 26]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : FVec F S100000x128 .f32) (main_arg1 : IVec S16384x26 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384x26 32 := broadcastInDim S16384x26 ![] bcast_S_S16384x26 main_c_0
  let main_v5 : IVec S16384x26 1 := cmpi .sge main_arg1 main_v4
  let main_c_1 : IVec S_ 32 := constantI S_ 32 99999#32
  let main_v6 : IVec S16384x26 32 := broadcastInDim S16384x26 ![] bcast_S_S16384x26 main_c_1
  let main_v7 : IVec S16384x26 1 := cmpi .sle main_arg1 main_v6
  let main_v8 : IVec S16384x26 1 := andi main_v5 main_v7
  let main_c_2 : IVec S_ 1 := constantI S_ 1 1#1
  let main_v9 : IVec S_ 1 := (fun x v => Host.reduce IntOp.andi x v reducesTo_S16384x26_S_d0_1 h_S_) main_v8 main_c_2
  let main_v10 : IVec S_ 1 := andi main_v3 main_v9
  main_v10
-- ==== Kernel.lean ====
abbrev S100000x128 : Shape := ⟨2, ![100000, 128]⟩
abbrev S16384x26 : Shape := ⟨2, ![16384, 26]⟩
abbrev S26x16384 : Shape := ⟨2, ![26, 16384]⟩
abbrev S425984 : Shape := ⟨1, ![425984]⟩
abbrev S26x16384x128 : Shape := ⟨3, ![26, 16384, 128]⟩
abbrev S13312 : Shape := ⟨1, ![13312]⟩
abbrev S8x32x128 : Shape := ⟨3, ![8, 32, 128]⟩
abbrev S_ : Shape := ⟨0, ![]⟩
abbrev S1x32x128 : Shape := ⟨3, ![1, 32, 128]⟩
abbrev S32x128 : Shape := ⟨2, ![32, 128]⟩
abbrev S32 : Shape := ⟨1, ![32]⟩
abbrev S16384x26x128 : Shape := ⟨3, ![16384, 26, 128]⟩

abbrev nBuf : Table → Nat
  | .hbm => 6
  | .local .scVector .vmem => 2
  | _ => 0

abbrev bufTy : (tb : Table) → Fin (nBuf tb) → BufTy
  | .hbm, ⟨0, _⟩ => ⟨S100000x128, .f32⟩
  | .hbm, ⟨1, _⟩ => ⟨S16384x26, .i32⟩
  | .hbm, ⟨2, _⟩ => ⟨S26x16384, .i32⟩
  | .hbm, ⟨3, _⟩ => ⟨S425984, .i32⟩
  | .hbm, ⟨4, _⟩ => ⟨S26x16384x128, .f32⟩
  | .hbm, ⟨5, _⟩ => ⟨S16384x26x128, .f32⟩
  | .local .scVector .vmem, ⟨0, _⟩ => ⟨S13312, .i32⟩
  | .local .scVector .vmem, ⟨1, _⟩ => ⟨S8x32x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c416_i32 : BitVec 32 := 416#32
  let v2 : BitVec 32 := Scalar.muli v1 c416_i32
  let c32_i32 : BitVec 32 := 32#32
  let v3 : BitVec 32 := Scalar.muli v2 c32_i32
  ![v3.toNat]
def k0_off2 (i : grid0.Coords) (c0_i32_33 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c416_i32 : BitVec 32 := 416#32
  let v2 : BitVec 32 := Scalar.muli v1 c416_i32
  let v32 : BitVec 32 := Scalar.addi v2 c0_i32_33
  let c0_i32_34 : BitVec 32 := 0#32
  let v34 : BitVec 1 := Scalar.cmpi .sgt v32 c0_i32_34
  let v35 : BitVec 32 := Scalar.extui v34
  let c0_i32_35 : BitVec 32 := 0#32
  let v36 : BitVec 1 := Scalar.cmpi .slt v32 c0_i32_35
  let v37 : BitVec 32 := Scalar.extui v36
  let v38 : BitVec 32 := Scalar.subi v35 v37
  let c512_i32 : BitVec 32 := 512#32
  let c0_i32_36 : BitVec 32 := 0#32
  let v39 : BitVec 1 := Scalar.cmpi .sgt c512_i32 c0_i32_36
  let v40 : BitVec 32 := Scalar.extui v39
  let c0_i32_37 : BitVec 32 := 0#32
  let v41 : BitVec 1 := Scalar.cmpi .slt c512_i32 c0_i32_37
  let v42 : BitVec 32 := Scalar.extui v41
  let v43 : BitVec 32 := Scalar.subi v40 v42
  let v44 : BitVec 1 := Scalar.cmpi .ne v38 v43
  let v45 : BitVec 32 := Scalar.remsi v32 c512_i32
  let c0_i32_38 : BitVec 32 := 0#32
  let v46 : BitVec 1 := Scalar.cmpi .ne v45 c0_i32_38
  let v47 : BitVec 1 := Scalar.andi v44 v46
  let v33 : BitVec 32 := Scalar.divsi v32 c512_i32
  let c1_i32_39 : BitVec 32 := 1#32
  let v48 : BitVec 32 := Scalar.subi v33 c1_i32_39
  let v49 : BitVec 32 := Scalar.select v47 v48 v33
  let c512_i32_40 : BitVec 32 := 512#32
  let c0_i32_41 : BitVec 32 := 0#32
  let v50 : BitVec 1 := Scalar.cmpi .eq c512_i32_40 c0_i32_41
  let c1_i32_42 : BitVec 32 := 1#32
  let v51 : BitVec 32 := Scalar.select v50 c1_i32_42 c512_i32_40
  let v52 : BitVec 32 := Scalar.remsi v32 v51
  let c0_i32_44 : BitVec 32 := 0#32
  let v54 : BitVec 1 := Scalar.cmpi .slt v52 c0_i32_44
  let c0_i32_45 : BitVec 32 := 0#32
  let v55 : BitVec 1 := Scalar.cmpi .slt v51 c0_i32_45
  let v56 : BitVec 1 := Scalar.xori v54 v55
  let c0_i32_43 : BitVec 32 := 0#32
  let v53 : BitVec 1 := Scalar.cmpi .ne v52 c0_i32_43
  let v57 : BitVec 1 := Scalar.andi v56 v53
  let v58 : BitVec 32 := Scalar.addi v52 v51
  let v59 : BitVec 32 := Scalar.select v57 v58 v52
  let c32_i32_46 : BitVec 32 := 32#32
  let v60 : BitVec 32 := Scalar.muli v59 c32_i32_46
  let c0_i32_50 : BitVec 32 := 0#32
  ![v49.toNat, v60.toNat, 0]
def k0_off2_at (r : Fin 16) : BitVec 32 :=
  if r.val < 8 then
    if r.val < 4 then
      if r.val < 2 then
        if r.val < 1 then
          0#32
        else
          1#32
      else
        if r.val < 3 then
          2#32
        else
          3#32
    else
      if r.val < 6 then
        if r.val < 5 then
          4#32
        else
          5#32
      else
        if r.val < 7 then
          6#32
        else
          7#32
  else
    if r.val < 12 then
      if r.val < 10 then
        if r.val < 9 then
          408#32
        else
          409#32
      else
        if r.val < 11 then
          410#32
        else
          411#32
    else
      if r.val < 14 then
        if r.val < 13 then
          412#32
        else
          413#32
      else
        if r.val < 15 then
          414#32
        else
          415#32
@[reducible] def k0_t1_loop : Scf.Loop 32 :=
  let c1_i32_422 : BitVec 32 := 1#32
  let c50_i32 : BitVec 32 := 50#32
  let v610 : BitVec 32 := Scalar.addi c1_i32_422 c50_i32
  let c1_i32_423 : BitVec 32 := 1#32
  ⟨c1_i32_422, v610, c1_i32_423⟩
def k0_off3 (k0_t1 : Fin k0_t1_loop.trips) (c0_i32_865 : BitVec 32) : Fin 1 → Nat :=
  let c1_i32_422 : BitVec 32 := 1#32
  let c1_i32_423 : BitVec 32 := 1#32
  let arg23 : BitVec 32 := Scf.iv c1_i32_422 c1_i32_423 k0_t1
  let c8_i32 : BitVec 32 := 8#32
  let v1317 : BitVec 32 := Scalar.muli arg23 c8_i32
  let v1318 : BitVec 32 := Scalar.addi v1317 c0_i32_865
  let c32_i32_866 : BitVec 32 := 32#32
  let v1319 : BitVec 32 := Scalar.muli v1318 c32_i32_866
  ![v1319.toNat]
def k0_off4 (i : grid0.Coords) (k0_t1 : Fin k0_t1_loop.trips) (c0_i32_865 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c416_i32 : BitVec 32 := 416#32
  let v2 : BitVec 32 := Scalar.muli v1 c416_i32
  let c1_i32_422 : BitVec 32 := 1#32
  let c1_i32_423 : BitVec 32 := 1#32
  let arg23 : BitVec 32 := Scf.iv c1_i32_422 c1_i32_423 k0_t1
  let c8_i32 : BitVec 32 := 8#32
  let v1317 : BitVec 32 := Scalar.muli arg23 c8_i32
  let v1318 : BitVec 32 := Scalar.addi v1317 c0_i32_865
  let v1324 : BitVec 32 := Scalar.addi v2 v1318
  let c0_i32_873 : BitVec 32 := 0#32
  let v1326 : BitVec 1 := Scalar.cmpi .sgt v1324 c0_i32_873
  let v1327 : BitVec 32 := Scalar.extui v1326
  let c0_i32_874 : BitVec 32 := 0#32
  let v1328 : BitVec 1 := Scalar.cmpi .slt v1324 c0_i32_874
  let v1329 : BitVec 32 := Scalar.extui v1328
  let v1330 : BitVec 32 := Scalar.subi v1327 v1329
  let c512_i32_872 : BitVec 32 := 512#32
  let c0_i32_875 : BitVec 32 := 0#32
  let v1331 : BitVec 1 := Scalar.cmpi .sgt c512_i32_872 c0_i32_875
  let v1332 : BitVec 32 := Scalar.extui v1331
  let c0_i32_876 : BitVec 32 := 0#32
  let v1333 : BitVec 1 := Scalar.cmpi .slt c512_i32_872 c0_i32_876
  let v1334 : BitVec 32 := Scalar.extui v1333
  let v1335 : BitVec 32 := Scalar.subi v1332 v1334
  let v1336 : BitVec 1 := Scalar.cmpi .ne v1330 v1335
  let v1337 : BitVec 32 := Scalar.remsi v1324 c512_i32_872
  let c0_i32_877 : BitVec 32 := 0#32
  let v1338 : BitVec 1 := Scalar.cmpi .ne v1337 c0_i32_877
  let v1339 : BitVec 1 := Scalar.andi v1336 v1338
  let v1325 : BitVec 32 := Scalar.divsi v1324 c512_i32_872
  let c1_i32_878 : BitVec 32 := 1#32
  let v1340 : BitVec 32 := Scalar.subi v1325 c1_i32_878
  let v1341 : BitVec 32 := Scalar.select v1339 v1340 v1325
  let c512_i32_879 : BitVec 32 := 512#32
  let c0_i32_880 : BitVec 32 := 0#32
  let v1342 : BitVec 1 := Scalar.cmpi .eq c512_i32_879 c0_i32_880
  let c1_i32_881 : BitVec 32 := 1#32
  let v1343 : BitVec 32 := Scalar.select v1342 c1_i32_881 c512_i32_879
  let v1344 : BitVec 32 := Scalar.remsi v1324 v1343
  let c0_i32_883 : BitVec 32 := 0#32
  let v1346 : BitVec 1 := Scalar.cmpi .slt v1344 c0_i32_883
  let c0_i32_884 : BitVec 32 := 0#32
  let v1347 : BitVec 1 := Scalar.cmpi .slt v1343 c0_i32_884
  let v1348 : BitVec 1 := Scalar.xori v1346 v1347
  let c0_i32_882 : BitVec 32 := 0#32
  let v1345 : BitVec 1 := Scalar.cmpi .ne v1344 c0_i32_882
  let v1349 : BitVec 1 := Scalar.andi v1348 v1345
  let v1350 : BitVec 32 := Scalar.addi v1344 v1343
  let v1351 : BitVec 32 := Scalar.select v1349 v1350 v1344
  let c32_i32_885 : BitVec 32 := 32#32
  let v1352 : BitVec 32 := Scalar.muli v1351 c32_i32_885
  let c0_i32_889 : BitVec 32 := 0#32
  ![v1341.toNat, v1352.toNat, 0]
def k0_off5 (k0_t1 : Fin k0_t1_loop.trips) (c0_i32_865 : BitVec 32) : Fin 1 → Nat :=
  let c1_i32_422 : BitVec 32 := 1#32
  let c1_i32_423 : BitVec 32 := 1#32
  let arg23 : BitVec 32 := Scf.iv c1_i32_422 c1_i32_423 k0_t1
  let c8_i32 : BitVec 32 := 8#32
  let v1317 : BitVec 32 := Scalar.muli arg23 c8_i32
  let v1318 : BitVec 32 := Scalar.addi v1317 c0_i32_865
  let c6_i32_893 : BitVec 32 := 6#32
  let v1361 : BitVec 32 := Scalar.addi v1318 c6_i32_893
  let c32_i32_915 : BitVec 32 := 32#32
  let v1399 : BitVec 32 := Scalar.muli v1361 c32_i32_915
  ![v1399.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x26_S26x16384_1_0 : S16384x26.Transposes [1, 0] S26x16384
  shapeCasts_S26x16384_S425984 : S26x16384.ShapeCasts S425984
  inb_S8x32x128_S1x32x128_0_0_0 : ∀ a, (![0, 0, 0] : Fin 3 → Nat) a + S1x32x128.size a ≤ S8x32x128.size a
  squeezes_S1x32x128_S32x128 : S1x32x128.Squeezes S32x128
  inb_S13312_S32_0 : ∀ a, (![0] : Fin 1 → Nat) a + S32.size a ≤ S13312.size a
  inb_S100000x128_S100000x128_0_0 : ∀ a, (![0, 0] : Fin 2 → Nat) a + S100000x128.size a ≤ S100000x128.size a
  gathers_S100000x128_S32x128 : S100000x128.Gathers 0 S32x128
  inb_S8x32x128_S1x32x128_1_0_0 : ∀ a, (![1, 0, 0] : Fin 3 → Nat) a + S1x32x128.size a ≤ S8x32x128.size a
  inb_S13312_S32_32 : ∀ a, (![32] : Fin 1 → Nat) a + S32.size a ≤ S13312.size a
  inb_S8x32x128_S1x32x128_2_0_0 : ∀ a, (![2, 0, 0] : Fin 3 → Nat) a + S1x32x128.size a ≤ S8x32x128.size a
  inb_S13312_S32_64 : ∀ a, (![64] : Fin 1 → Nat) a + S32.size a ≤ S13312.size a
  inb_S8x32x128_S1x32x128_3_0_0 : ∀ a, (![3, 0, 0] : Fin 3 → Nat) a + S1x32x128.size a ≤ S8x32x128.size a
  inb_S13312_S32_96 : ∀ a, (![96] : Fin 1 → Nat) a + S32.size a ≤ S13312.size a
  inb_S8x32x128_S1x32x128_4_0_0 : ∀ a, (![4, 0, 0] : Fin 3 → Nat) a + S1x32x128.size a ≤ S8x32x128.size a
  inb_S13312_S32_128 : ∀ a, (![128] : Fin 1 → Nat) a + S32.size a ≤ S13312.size a
  inb_S8x32x128_S1x32x128_5_0_0 : ∀ a, (![5, 0, 0] : Fin 3 → Nat) a + S1x32x128.size a ≤ S8x32x128.size a
  inb_S13312_S32_160 : ∀ a, (![160] : Fin 1 → Nat) a + S32.size a ≤ S13312.size a
  inb_S8x32x128_S1x32x128_6_0_0 : ∀ a, (![6, 0, 0] : Fin 3 → Nat) a + S1x32x128.size a ≤ S8x32x128.size a
  inb_S13312_S32_192 : ∀ a, (![192] : Fin 1 → Nat) a + S32.size a ≤ S13312.size a
  inb_S8x32x128_S1x32x128_7_0_0 : ∀ a, (![7, 0, 0] : Fin 3 → Nat) a + S1x32x128.size a ≤ S8x32x128.size a
  inb_S13312_S32_224 : ∀ a, (![224] : Fin 1 → Nat) a + S32.size a ≤ S13312.size a
  inb_S13312_S32_256 : ∀ a, (![256] : Fin 1 → Nat) a + S32.size a ≤ S13312.size a
  inb_S13312_S32_288 : ∀ a, (![288] : Fin 1 → Nat) a + S32.size a ≤ S13312.size a
  inb_S13312_S32_320 : ∀ a, (![320] : Fin 1 → Nat) a + S32.size a ≤ S13312.size a
  inb_S13312_S32_352 : ∀ a, (![352] : Fin 1 → Nat) a + S32.size a ≤ S13312.size a
  inb_S13312_S32_384 : ∀ a, (![384] : Fin 1 → Nat) a + S32.size a ≤ S13312.size a
  inb_S13312_S32_416 : ∀ a, (![416] : Fin 1 → Nat) a + S32.size a ≤ S13312.size a
  inb_S13312_S32_13056 : ∀ a, (![13056] : Fin 1 → Nat) a + S32.size a ≤ S13312.size a
  inb_S13312_S32_13248 : ∀ a, (![13248] : Fin 1 → Nat) a + S32.size a ≤ S13312.size a
  inb_S13312_S32_13088 : ∀ a, (![13088] : Fin 1 → Nat) a + S32.size a ≤ S13312.size a
  inb_S13312_S32_13280 : ∀ a, (![13280] : Fin 1 → Nat) a + S32.size a ≤ S13312.size a
  inb_S13312_S32_13120 : ∀ a, (![13120] : Fin 1 → Nat) a + S32.size a ≤ S13312.size a
  inb_S13312_S32_13152 : ∀ a, (![13152] : Fin 1 → Nat) a + S32.size a ≤ S13312.size a
  inb_S13312_S32_13184 : ∀ a, (![13184] : Fin 1 → Nat) a + S32.size a ≤ S13312.size a
  inb_S13312_S32_13216 : ∀ a, (![13216] : Fin 1 → Nat) a + S32.size a ≤ S13312.size a
  transposes_S26x16384x128_S16384x26x128_1_0_2 : S26x16384x128.Transposes [1, 0, 2] S16384x26x128
  hcc0_scratch2 : 0 + S_.numel ≤ 17
  hcc0_scratch3 : 1 + S_.numel ≤ 17
  hcc0_scratch4 : 2 + S_.numel ≤ 17
  hcc0_scratch5 : 3 + S_.numel ≤ 17
  hcc0_scratch6 : 4 + S_.numel ≤ 17
  hcc0_scratch7 : 5 + S_.numel ≤ 17
  hcc0_scratch8 : 6 + S_.numel ≤ 17
  hcc0_scratch9 : 7 + S_.numel ≤ 17
  hcc0_scratch10 : 8 + S_.numel ≤ 17
  hcc0_scratch11 : 9 + S_.numel ≤ 17
  hcc0_scratch12 : 10 + S_.numel ≤ 17
  hcc0_scratch13 : 11 + S_.numel ≤ 17
  hcc0_scratch14 : 12 + S_.numel ≤ 17
  hcc0_scratch15 : 13 + S_.numel ≤ 17
  hcc0_scratch16 : 14 + S_.numel ≤ 17
  hcc0_scratch17 : 15 + S_.numel ≤ 17
  hcc0_scoped0 : 16 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S13312.size a ≤ S425984.size a
  k0_off2_inb : ∀ i : grid0.Coords, ∀ (r : Fin 16), ∀ a, (k0_off2 i (k0_off2_at r)) a + S1x32x128.size a ≤ S26x16384x128.size a
  k0_t1_ok : k0_t1_loop.OK
  k0_off3_inb : ∀ k0_t1 : Fin k0_t1_loop.trips, ∀ (r : Fin 8), ∀ a, (k0_off3 k0_t1 (BitVec.ofNat 32 r.val)) a + S32.size a ≤ S13312.size a
  k0_off4_inb : ∀ (i : grid0.Coords) (k0_t1 : Fin k0_t1_loop.trips), ∀ (r : Fin 8), ∀ a, (k0_off4 i k0_t1 (BitVec.ofNat 32 r.val)) a + S1x32x128.size a ≤ S26x16384x128.size a
  k0_off5_inb : ∀ k0_t1 : Fin k0_t1_loop.trips, ∀ (r : Fin 8), ∀ a, (k0_off5 k0_t1 (BitVec.ofNat 32 r.val)) a + S32.size a ≤ S13312.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scratch12 : DmaSems sig S_ := SemArray.consecutive 10 S_ hcc0_scratch12
abbrev cc0_scratch13 : DmaSems sig S_ := SemArray.consecutive 11 S_ hcc0_scratch13
abbrev cc0_scratch14 : DmaSems sig S_ := SemArray.consecutive 12 S_ hcc0_scratch14
abbrev cc0_scratch15 : DmaSems sig S_ := SemArray.consecutive 13 S_ hcc0_scratch15
abbrev cc0_scratch16 : DmaSems sig S_ := SemArray.consecutive 14 S_ hcc0_scratch16
abbrev cc0_scratch17 : DmaSems sig S_ := SemArray.consecutive 15 S_ hcc0_scratch17
abbrev cc0_scoped0 : DmaSems sig S_ := SemArray.consecutive 16 S_ hcc0_scoped0

class Facts : Prop extends Facts₀ where

variable [Facts]
-- ==== ReferenceIdeal.lean ====
abbrev S100000x128 : Shape := ⟨2, ![100000, 128]⟩
abbrev S16384x26 : Shape := ⟨2, ![16384, 26]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x128 : Shape := ⟨3, ![16384, 26, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384x26, .i32⟩
  | .hbm, ⟨2, _⟩ => ⟨S_, .i32⟩
  | .hbm, ⟨3, _⟩ => ⟨S16384x26, .i32⟩
  | .hbm, ⟨4, _⟩ => ⟨S16384x26, .i1⟩
  | .hbm, ⟨5, _⟩ => ⟨S_, .i32⟩
  | .hbm, ⟨6, _⟩ => ⟨S16384x26, .i32⟩
  | .hbm, ⟨7, _⟩ => ⟨S16384x26, .i32⟩
  | .hbm, ⟨8, _⟩ => ⟨S16384x26, .i32⟩
  | .hbm, ⟨9, _⟩ => ⟨S16384x26x1, .i32⟩
  | .hbm, ⟨10, _⟩ => ⟨S1, .i32⟩
  | .hbm, ⟨11, _⟩ => ⟨S_, .i32⟩
  | .hbm, ⟨12, _⟩ => ⟨S16384x26x1, .i32⟩
  | .hbm, ⟨13, _⟩ => ⟨S16384x26x1, .i1⟩
  | .hbm, ⟨14, _⟩ => ⟨S1x1x1, .i32⟩
  | .hbm, ⟨15, _⟩ => ⟨S16384x26x1, .i32⟩
  | .hbm, ⟨16, _⟩ => ⟨S16384x26x1, .i1⟩
  | .hbm, ⟨17, _⟩ => ⟨S16384x26x1, .i1⟩
  | .hbm, ⟨18, _⟩ => ⟨S_, .i1⟩
  | .hbm, ⟨19, _⟩ => ⟨S16384x26, .i1⟩
  | .hbm, ⟨20, _⟩ => ⟨S16384x26x128, .f32⟩
  | .hbm, ⟨21, _⟩ => ⟨S16384x26x128, .i1⟩
  | .hbm, ⟨22, _⟩ => ⟨S_, .f32⟩
  | .hbm, ⟨23, _⟩ => ⟨S16384x26x128, .f32⟩
  | .hbm, ⟨24, _⟩ => ⟨S16384x26x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  bcast_S16384x26_S16384x26x128_0_1 : S16384x26.BroadcastsInDim S16384x26x128 (![0, 1] : Fin 2 → Fin S16384x26x128.rank)
  bcast_S_S16384x26x128 : S_.BroadcastsInDim S16384x26x128 (![] : Fin 0 → Fin S16384x26x128.rank)
  gather_S100000x128_S16384x26x1_S16384x26x128_2_0_n_n_0_2_1128_wf : GatherDims.WF S100000x128 S16384x26x1 S16384x26x128 [2] [0] [] [0] [] 2 ![1, 128]

variable [Facts₀]

def gather_S100000x128_S16384x26x1_S16384x26x128_2_0_n_n_0_2_1128 : GatherDims S100000x128 S16384x26x1 S16384x26x128 where
  offsetDims := [2]
  collapsedSliceDims := [0]
  operandBatchingDims := []
  startIndicesBatchingDims := []
  startIndexMap := [0]
  indexVectorDim := 2
  sliceSizes := ![1, 128]
  wf := gather_S100000x128_S16384x26x1_S16384x26x128_2_0_n_n_0_2_1128_wf

class Facts : Prop extends Facts₀ where

variable [Facts]
-- ==== Proof.Spec.lean ====
/-
  The function both programs compute: an embedding lookup. The table has 100000 rows of 128 numbers; the index array has
  16384 rows of 26 row numbers. Entry (n, s, k) of the result is entry k of the table's row number idx[n, s].
  The row number is taken modulo 100000 so that the function is total; on indices in range (`InRange`) the modulus is
  the identity, and that is the only case either program is run in.
-/
import Idealize.ShloMosaic.PureOps.Ideal
import Idealize.ShloMosaic.Lib.ValueIdx

namespace Cert.Proof.Spec

open Idealize.ShloMosaic Idealize.ShloMosaic.ValueIdx

abbrev TblS : Shape := ⟨2, ![100000, 128]⟩
abbrev IdxS : Shape := ⟨2, ![16384, 26]⟩
abbrev OutS : Shape := ⟨3, ![16384, 26, 128]⟩

/-- The table row that position (n, s) of the index array names. -/
def row (idx : IVec IdxS 32) (n : Fin 16384) (s : Fin 26) : Fin 100000 :=
  ⟨(idx (ix2 n s)).toNat % 100000, Nat.mod_lt _ (by decide)⟩

/-- The lookup: entry (n, s, k) is entry k of row idx[n, s] of the table. -/
def take {α : Type} (tbl : TblS.Idx → α) (idx : IVec IdxS 32) : OutS.Idx → α :=
  fun i => tbl (ix2 (row idx (i 0) (i 1)) (i 2))

/-- Every row number names a row of the table. -/
def InRange (idx : IVec IdxS 32) : Prop := ∀ j : IdxS.Idx, (idx j).toNat < 100000

theorem row_val {idx : IVec IdxS 32} (h : InRange idx) (n : Fin 16384) (s : Fin 26) :
    (row idx n s).val = (idx (ix2 n s)).toNat := Nat.mod_eq_of_lt (h _)

end Cert.Proof.Spec
-- ==== Proof.PreRange.lean ====
/-
  The precondition decoded. The printed predicate is the conjunction of two statements, each a reduction by "and"
  over a whole array down to one word: every table entry is finite, and every index word v satisfies
  0 ≤ v ≤ 99999 as a signed word. Only the second is used here: a word in [0, 99999] signed is its own unsigned
  value, below 100000, which is what `Spec.InRange` asks.
-/
import proofs.«207811_g81140522156160_cont_9to1c4b_295_10_alg».proof.Pre_input_domain
import proofs.«207811_g81140522156160_cont_9to1c4b_295_10_alg».proof.Proof.Gen.Pre_input_domain
import proofs.«207811_g81140522156160_cont_9to1c4b_295_10_alg».proof.Proof.Spec
import Idealize.ShloMosaic.Lib.ReduceAll
import Idealize.ShloMosaic.Lib.Affine

namespace Cert.Proof.PreRange

open Idealize.ShloMosaic

/-- The rank-0 shape has one index. -/
instance : Subsingleton Cert.Pre_input_domain.S_.Idx := ⟨fun a b => funext fun d => d.elim0⟩

/-- A 32-bit word between 0 and 99999 as a signed number is below 100000 as an unsigned one. -/
theorem toNat_lt_of_signed_range (v : BitVec 32)
    (h0 : IntOp.cmpi .sge v 0#32 = 1#1) (h1 : IntOp.cmpi .sle v 99999#32 = 1#1) : v.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  have hv := v.isLt
  rw [BitVec.toInt_eq_toNat_cond] at h0 h1
  split at h0 <;> omega

/-- The precondition gives the index range the lookup is specified on. -/
theorem inRange_of_pre {F : FTy → Type} [FloatOps F] [Cert.Pre_input_domain.Facts]
    (a0 : FVec F Cert.Pre_input_domain.S100000x128 .f32) (a1 : IVec Cert.Pre_input_domain.S16384x26 32)
    (h : Cert.Pre_input_domain.fn (F := F) a0 a1 = fun _ => 1#1) : Cert.Proof.Spec.InRange a1 := by
  intro j
  have e := congrFun h ValueIdx.ix0
  dsimp only [Cert.Pre_input_domain.fn] at e
  -- the conjunction of the two reductions; the second is the one about the indices
  have e2 := (IntOp.andi_eq_one.1 e).2
  -- every element of the reduced array is 1
  have ej := Host.reduce_andi_all _ _ _ _ _ e2 j
  -- that element is (0 ≤ v) and (v ≤ 99999) at the word v = a1 j
  have ej' := IntOp.andi_eq_one.1 ej
  exact toNat_lt_of_signed_range (a1 j) ej'.1 ej'.2

end Cert.Proof.PreRange
-- ==== Proof.RefRun.lean ====
/-
  The reference program's run. The program is one straight line of 23 array operations: it moves negative row numbers up
  by the table's height, gathers the table's rows at the row numbers (the gather clamps each into the table), and
  replaces by a fill value every position whose row number is out of range. Its run is read back as the fold of those
  operations over the launch contents; the fold at the result buffer is one composed term of the table and the row
  numbers; and on row numbers in range (0 ≤ v ≤ 99999) that term is the lookup `Spec.take`: nothing is wrapped,
  nothing is clamped, nothing is masked.
-/
import proofs.«207811_g81140522156160_cont_9to1c4b_295_10_alg».proof.ReferenceIdeal
import proofs.«207811_g81140522156160_cont_9to1c4b_295_10_alg».proof.Proof.Gen.ReferenceIdeal
import proofs.«207811_g81140522156160_cont_9to1c4b_295_10_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.Lib.Affine
import Idealize.ShloMosaic.PureOps.Reduce

noncomputable section

namespace Cert.Proof.Ref

open Cert.ReferenceIdeal Cert.ReferenceIdeal.Gen Idealize.ShloMosaic Idealize.ShloMosaic.TcCoe Idealize.SL.Sem
open Idealize.ShloMosaic.StableHlo Idealize.ShloMosaic.ValueIdx

variable {F : FTy → Type} [FloatOps F]

/-- The program's 23 operations in order, the inner call's one select written out over that call's buffer: the wrap
    of negative row numbers (six operations and the select), the start indices as a column (one), the range test of
    the start indices (ten, ending in the reduction over the unit axis), the gather (one), and the mask's broadcast,
    the fill value, its broadcast and the select between the gathered rows and the fill value (four). -/
abbrev ops : List (HloOp τ sig (Elt F)) :=
  [ TRef.nullary main_call0.c (constantI S_ 32 0#32),
    TRef.unary main_call0.c main_call0.v0 (broadcastInDim S16384x26 ![] bcast_S_S16384x26),
    TRef.binary (.of main_arg1) main_call0.v0 main_call0.v1 (cmpi .slt),
    TRef.nullary main_call0.c_0 (constantI S_ 32 100000#32),
    TRef.unary main_call0.c_0 main_call0.v2 (broadcastInDim S16384x26 ![] bcast_S_S16384x26),
    TRef.binary (.of main_arg1) main_call0.v2 main_call0.v3 addi,
    TRef.ternary main_call0.v1 main_call0.v3 (.of main_arg1) main_call0.call0.v0 select,
    TRef.unary main_call0.call0.v0 main_call0.v5 (broadcastInDim S16384x26x1 ![0, 1] bcast_S16384x26_S16384x26x1_0_1),
    TRef.nullary main_call0.c_1 (constantI S1 32 99999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg0) main_call0.v5 main_call0.v13 (fun x i => Host.gather gather_S100000x128_S16384x26x1_S16384x26x128_2_0_n_n_0_2_1128 x i),
    TRef.unary main_call0.v12 main_call0.v14 (broadcastInDim S16384x26x128 ![0, 1] bcast_S16384x26_S16384x26x128_0_1),
    TRef.nullary main_call0.cst (constant S_ .f32 0x7FC00000#32),
    TRef.unary main_call0.cst main_call0.v15 (broadcastInDim S16384x26x128 ![] bcast_S_S16384x26x128),
    TRef.ternary main_call0.v14 main_call0.v13 main_call0.v15 main_call0.v16 select ]

set_option maxRecDepth 1024 in
/-- The program is that straight line: the two functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- Every weakly fair execution of the program terminates with each buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term

What the operations compute of the table and the row numbers, one definition per stage. -/

/-- The row numbers with the negative ones moved up by the table's height. -/
def wrapped (idx : IVec S16384x26 32) : IVec S16384x26 32 :=
  select (cmpi .slt idx (broadcastInDim S16384x26 ![] bcast_S_S16384x26 (constantI S_ 32 0#32)))
    (addi idx (broadcastInDim S16384x26 ![] bcast_S_S16384x26 (constantI S_ 32 100000#32))) idx

/-- The start indices of the gather: the wrapped row numbers as a column. -/
def starts (idx : IVec S16384x26 32) : IVec S16384x26x1 32 :=
  broadcastInDim S16384x26x1 ![0, 1] bcast_S16384x26_S16384x26x1_0_1 (wrapped idx)

/-- Per start index, whether it names a row of the table. -/
def inside (idx : IVec S16384x26 32) : IVec S16384x26x1 1 :=
  andi (cmpi .sge (starts idx) (broadcastInDim S16384x26x1 ![] bcast_S_S16384x26x1 (constantI S_ 32 0#32)))
    (cmpi .sle (starts idx) (broadcastInDim S16384x26x1 ![0, 1, 2] bcast_S1x1x1_S16384x26x1_0_1_2
      (broadcastInDim S1x1x1 ![2] bcast_S1_S1x1x1_2 (constantI S1 32 99999#32))))

/-- Per position, whether its row number is in range: the conjunction over the unit axis. -/
def mask (idx : IVec S16384x26 32) : IVec S16384x26 1 :=
  Host.reduce IntOp.andi (inside idx) (constantI S_ 1 1#1) reducesTo_S16384x26x1_S16384x26_d2 h_S_

/-- The result: the gathered rows where the row number is in range, the fill value elsewhere. -/
def out (tbl : FVec F S100000x128 .f32) (idx : IVec S16384x26 32) : FVec F S16384x26x128 .f32 :=
  select (broadcastInDim S16384x26x128 ![0, 1] bcast_S16384x26_S16384x26x128_0_1 (mask idx))
    (Host.gather gather_S100000x128_S16384x26x1_S16384x26x128_2_0_n_n_0_2_1128 tbl (starts idx))
    (broadcastInDim S16384x26x128 ![] bcast_S_S16384x26x128 (constant S_ .f32 0x7FC00000#32))

/-! ## Words in range -/

/-- A word below 100000 reads the same signed and unsigned. -/
theorem toInt_of_lt (v : BitVec 32) (h : v.toNat < 100000) : v.toInt = (v.toNat : Int) := by
  rw [BitVec.toInt_eq_toNat_cond]; split <;> omega

theorem slt_zero_of_lt (v : BitVec 32) (h : v.toNat < 100000) : IntOp.cmpi .slt v 0#32 = 0#1 := by
  refine eq_zero_of_ne_one fun e => ?_
  rw [IntOp.cmpi_slt, toInt_of_lt v h, show (0#32 : BitVec 32).toInt = 0 from by decide] at e
  omega

theorem sge_zero_of_lt (v : BitVec 32) (h : v.toNat < 100000) : IntOp.cmpi .sge v 0#32 = 1#1 := by
  rw [IntOp.cmpi_sge, toInt_of_lt v h, show (0#32 : BitVec 32).toInt = 0 from by decide]
  omega

theorem sle_max_of_lt (v : BitVec 32) (h : v.toNat < 100000) : IntOp.cmpi .sle v 99999#32 = 1#1 := by
  rw [IntOp.cmpi_sle, toInt_of_lt v h, show (99999#32 : BitVec 32).toInt = 99999 from by decide]
  omega

/-! ## The stages at an index, on row numbers in range -/

variable {idx : IVec S16384x26 32}

/-- In range nothing is wrapped. -/
theorem wrapped_apply (h : Cert.Proof.Spec.InRange idx) (j : S16384x26.Idx) : wrapped idx j = idx j := by
  show Scalar.select (IntOp.cmpi .slt (idx j) _) _ (idx j) = idx j
  rw [broadcastInDim_scalar_apply]
  show Scalar.select (IntOp.cmpi .slt (idx j) 0#32) _ (idx j) = idx j
  rw [slt_zero_of_lt _ (h j), select_zero]

/-- The start index of position (n, s) is its row number. -/
theorem starts_apply (h : Cert.Proof.Spec.InRange idx) (n : Fin 16384) (s : Fin 26) (z : Fin 1) :
    starts idx (ix3 n s z) = idx (ix2 n s) := by
  unfold starts
  rw [broadcastInDim_apply _ _ _ _ (ix2 n s) (fun a => by
    match a with
    | ⟨0, _⟩ => rfl
    | ⟨1, _⟩ => rfl), wrapped_apply h]

/-- In range every start index passes the range test. -/
theorem inside_apply (h : Cert.Proof.Spec.InRange idx) (i : S16384x26x1.Idx) : inside idx i = 1#1 := by
  obtain ⟨n, s, z, rfl⟩ : ∃ n s z, i = ix3 n s z := ⟨_, _, _, eq_ix3 i⟩
  show IntOp.andi (IntOp.cmpi .sge (starts idx (ix3 n s z)) _) (IntOp.cmpi .sle (starts idx (ix3 n s z)) _) = 1#1
  rw [starts_apply h, broadcastInDim_scalar_apply]
  rw [broadcastInDim_apply _ _ _ _ (ix3 (0 : Fin 1) (0 : Fin 1) (0 : Fin 1)) (fun a => by
    match a with
    | ⟨0, _⟩ => rfl
    | ⟨1, _⟩ => rfl
    | ⟨2, _⟩ => rfl)]
  rw [broadcastInDim_apply _ _ _ _ (ix1 (0 : Fin 1)) (fun a => by
    match a with
    | ⟨0, _⟩ => rfl)]
  show IntOp.andi (IntOp.cmpi .sge (idx (ix2 n s)) 0#32) (IntOp.cmpi .sle (idx (ix2 n s)) 99999#32) = 1#1
  rw [sge_zero_of_lt _ (h _), sle_max_of_lt _ (h _)]
  decide

/-- A left fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- In range the mask is all ones. -/
theorem mask_apply (h : Cert.Proof.Spec.InRange idx) (j : S16384x26.Idx) : mask idx j = 1#1 := by
  unfold mask
  rw [Host.reduce_eq_foldl]
  exact foldl_andi_one _ _ fun i _ => inside_apply h i

/-! ## The gather at an index -/

local notation "G" => gather_S100000x128_S16384x26x1_S16384x26x128_2_0_n_n_0_2_1128

/-- The table's row axis is collapsed and the one axis the start index names: the operand coordinate is the start
    index at (n, s, 0), read signed and clamped into [0, 99999]. -/
theorem gather_row {w : Nat} (st : IVec S16384x26x1 w) (n : Fin 16384) (s : Fin 26) (k : Fin 128) :
    GatherDims.start G (ix3 n s k) st (0 : Fin 2) + GatherDims.batchCoord G (ix3 n s k) (0 : Fin 2)
        + GatherDims.offCoord G (ix3 n s k) (0 : Fin 2)
      = min (st (ix3 n s (0 : Fin 1))).toInt.toNat 99999 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GatherDims.startIndexMap G from List.mem_singleton.mpr rfl)]
  have hsi : GatherDims.siIdx G (ix3 n s k) ⟨List.idxOf (0 : Fin 2) (GatherDims.startIndexMap G),
      List.idxOf_lt_length_iff.2 (List.mem_singleton.mpr rfl)⟩ = ix3 n s (0 : Fin 1) := by
    funext b; refine Fin.ext ?_
    match b with
    | ⟨0, _⟩ => rfl
    | ⟨1, _⟩ => rfl
    | ⟨2, _⟩ => rfl
  rw [hsi]
  rfl

/-- The table's column axis is the one offset axis and no start index names it: the operand coordinate is the
    result's last coordinate. -/
theorem gather_col {w : Nat} (st : IVec S16384x26x1 w) (n : Fin 16384) (s : Fin 26) (k : Fin 128) :
    GatherDims.start G (ix3 n s k) st (1 : Fin 2) + GatherDims.batchCoord G (ix3 n s k) (1 : Fin 2)
        + GatherDims.offCoord G (ix3 n s k) (1 : Fin 2)
      = k.val := by
  rw [GatherDims.batchCoord_eq_zero _ _ _ List.not_mem_nil]
  unfold GatherDims.start
  rw [dif_neg (show ¬ (1 : Fin 2) ∈ GatherDims.startIndexMap G from by decide)]
  unfold GatherDims.offCoord
  rw [dif_pos (show (1 : Fin 2) ∈ GatherDims.sKept G from by decide)]
  simp only [Nat.zero_add]
  rfl

/-- The gather read at (n, s, k): row the clamped start index of (n, s), column k. -/
theorem gather_apply {α : Type} {w : Nat} (x : S100000x128.Idx → α) (st : IVec S16384x26x1 w)
    (n : Fin 16384) (s : Fin 26) (k : Fin 128) :
    Host.gather G x st (ix3 n s k) = x (ix2 ⟨min (st (ix3 n s (0 : Fin 1))).toInt.toNat 99999, by omega⟩ k) := by
  unfold Host.gather
  congr 1
  funext a
  refine Fin.ext ?_
  match a with
  | ⟨0, _⟩ => exact gather_row st n s k
  | ⟨1, _⟩ => exact gather_col st n s k

/-! ## The result on row numbers in range -/

/-- On row numbers in range the result at (n, s, k) is entry k of the row the position names: the mask is all ones, so
    the select takes the gathered row; the start index is the row number, not negative and at most 99999, so the
    clamp leaves it. -/
theorem out_apply (tbl : FVec F S100000x128 .f32) (h : Cert.Proof.Spec.InRange idx) (n : Fin 16384) (s : Fin 26) (k : Fin 128) :
    out tbl idx (ix3 n s k) = tbl (ix2 (Cert.Proof.Spec.row idx n s) k) := by
  unfold out
  rw [select_apply, broadcastInDim_apply _ _ _ _ (ix2 n s) (fun a => by
    match a with
    | ⟨0, _⟩ => rfl
    | ⟨1, _⟩ => rfl), mask_apply h, select_one, gather_apply]
  have hj := h (ix2 n s)
  have hr : (⟨min (starts idx (ix3 n s (0 : Fin 1))).toInt.toNat 99999, by omega⟩ : Fin 100000)
      = Cert.Proof.Spec.row idx n s := by
    refine Fin.ext ?_
    show min (starts idx (ix3 n s (0 : Fin 1))).toInt.toNat 99999 = (idx (ix2 n s)).toNat % 100000
    rw [starts_apply h, toInt_of_lt _ hj, Int.toNat_natCast, Nat.mod_eq_of_lt hj]
    omega
  rw [hr]

/-- On row numbers in range the result is the lookup. -/
theorem out_eq_take (tbl : FVec F S100000x128 .f32) (h : Cert.Proof.Spec.InRange idx) :
    out tbl idx = Cert.Proof.Spec.take tbl idx := by
  funext i
  obtain ⟨n, s, k, rfl⟩ : ∃ n s k, i = ix3 n s k := ⟨_, _, _, eq_ix3 i⟩
  exact out_apply tbl h n s k

/-! ## The run -/

attribute [local irreducible] Host.reduce Host.gather in
set_option maxRecDepth 8192 in
/-- The fold of the operations at the result buffer is the composed term of the two arguments' contents: each
    operation's result at the buffer it writes, the typed references' transports the identity at these literal
    references. The reduction and the gather stay folded: the equation does not look inside them. -/
theorem after_out (V : Valuation τ sig (Elt F)) :
    after ops V (main_v0 : DevRef τ sig) = out (V (main_arg0 : DevRef τ sig)) (V (main_arg1 : DevRef τ sig)) := by
  after_results
  rfl

theorem after_arg0 (V : Valuation τ sig (Elt F)) :
    after ops V (main_arg0 : DevRef τ sig) = V (main_arg0 : DevRef τ sig) := by
  after_results

theorem after_arg1 (V : Valuation τ sig (Elt F)) :
    after ops V (main_arg1 : DevRef τ sig) = V (main_arg1 : DevRef τ sig) := by
  after_results

/-- At the ideal instance, from any memory whose row numbers are in range: every weakly fair execution of the program
    terminates with the result buffer at the lookup of the launch contents and the arguments unchanged. -/
theorem run (m' : (ℓ : Loc nD τ sig) → Buf (Elt Ideal) ℓ) (g' : Dev nD → PrngReg)
    (hin : ∀ c : Dev nD, Cert.Proof.Spec.InRange (m' ((c.tc : Thread nD τ).loc main_arg1))) :
    θ_run (Cert.ReferenceIdeal.defs (F := Ideal)) (onTc (τ := τ) (Cert.ReferenceIdeal.main (F := Ideal))) ⟨m', fun _ => 0, g'⟩
      (fun r => ∀ c : Dev nD,
        r.2.mem ((c.tc : Thread nD τ).loc main_v0)
            = Cert.Proof.Spec.take (m' ((c.tc : Thread nD τ).loc main_arg0)) (m' ((c.tc : Thread nD τ).loc main_arg1))
        ∧ r.2.mem ((c.tc : Thread nD τ).loc main_arg0) = m' ((c.tc : Thread nD τ).loc main_arg0)
        ∧ r.2.mem ((c.tc : Thread nD τ).loc main_arg1) = m' ((c.tc : Thread nD τ).loc main_arg1)) :=
  (θ_run defs _ _).mono (fun _ h c =>
      ⟨(h c main_v0).trans ((after_out _).trans (out_eq_take _ (hin c))),
        (h c main_arg0).trans (after_arg0 _),
        (h c main_arg1).trans (after_arg1 _)⟩)
    (run_main m' g')

end Cert.Proof.Ref

end
-- ==== Proof.KI.Setup.lean ====
/-
  Shared definitions for the lookup kernel read at any float instance: the launch configuration, the ghost-state algebra,
  the arrays' locations, the closed-form offsets of the 32-row chunks, the two pure functions (the flattened index array
  and the array the kernel leaves in its output), and what each handshake carries.

  The kernel's 32 workers (2 cores x 16 subcores, worker w = 2 * subcore + core) each own 416 consecutive chunks of 32
  rows of the flattened index array (rows [13312 w, 13312 (w + 1))). Chunk number cg = 416 w + k of the flattened array is
  rows [32 cg, 32 cg + 32), which in the output array of shape 26 x 16384 x 128 is the block at
  (cg / 512, 32 * (cg % 512), 0) of size 1 x 32 x 128, because 16384 = 512 * 32.
-/
import proofs.«207811_g81140522156160_cont_9to1c4b_295_10_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«207811_g81140522156160_cont_9to1c4b_295_10_alg».proof.Proof.Gen.KernelIdeal
import proofs.«207811_g81140522156160_cont_9to1c4b_295_10_alg».proof.Proof.Gen.KernelIdeal.Skeleton
import proofs.«207811_g81140522156160_cont_9to1c4b_295_10_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev tLoc (d : Dev nD) : Loc nD τ sig := (SparseCore.T d).loc main_arg0
abbrev aLoc (d : Dev nD) : Loc nD τ sig := (SparseCore.T d).loc main_arg1
abbrev pLoc (d : Dev nD) : Loc nD τ sig := (SparseCore.T d).loc main_v0
abbrev fLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

abbrev tV : Memref sig Kind.scVector Space.hbm S100000x128 EltTy.f32 := Memref.whole main_arg0_scv
abbrev fV : Memref sig Kind.scVector Space.hbm S425984 EltTy.i32 := Memref.whole main_v1_scv
abbrev oV : Memref sig Kind.scVector Space.hbm S26x16384x128 EltTy.f32 := Memref.whole main_v2_scv
abbrev sV : Memref sig Kind.scVector Space.vmem S13312 EltTy.i32 := Memref.whole cc0_scratch0
abbrev rV : Memref sig Kind.scVector Space.vmem S8x32x128 EltTy.f32 := Memref.whole cc0_scratch1

/-! ## Workers, chunks and their offsets -/

/-- The grid point of core `c`, subcore `s`. -/
def crd (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Worker number of a grid point: 2 * subcore + core. -/
def wk (L : grid0.Coords) : ℕ := 2 * (L 1).val + (L 0).val

theorem wk_lt (L : grid0.Coords) : wk L < 32 := by
  have h0 : (L 0).val < 2 := (L 0).isLt
  have h1 : (L 1).val < 16 := (L 1).isLt
  unfold wk; omega

/-- Global chunk number of the worker's chunk `k`. -/
def cg (L : grid0.Coords) (k : Fin 416) : ℕ := 416 * wk L + k.val

theorem cg_lt (L : grid0.Coords) (k : Fin 416) : cg L k < 13312 := by
  have := wk_lt L; have := k.isLt; unfold cg; omega

/-- Where chunk `k` of worker `L` sits in the 26 x 16384 x 128 output. -/
def offC (L : grid0.Coords) (k : Fin 416) : Fin 3 → ℕ := ![cg L k / 512, (cg L k % 512) * 32, 0]

theorem offC_inb (L : grid0.Coords) (k : Fin 416) : ∀ a, offC L k a + S1x32x128.size a ≤ S26x16384x128.size a := by
  have h := cg_lt L k
  intro a
  match a with
  | ⟨0, _⟩ => show cg L k / 512 + 1 ≤ 26; omega
  | ⟨1, _⟩ => show (cg L k % 512) * 32 + 32 ≤ 16384; omega
  | ⟨2, _⟩ => show 0 + 128 ≤ 128; omega

/-- The worker's slice of the flattened index array, spelt as the kernel slices it. -/
abbrev fSl (L : grid0.Coords) : Memref sig .scVector .hbm S13312 .i32 :=
  (fV).slice (Rect.unit (s := S425984) (k0_off1 L) S13312.size (k0_off1_inb L)) (fun _ => rfl)

/-- Chunk `k` of the worker's part of the output, squeezed to 32 x 128. -/
abbrev oCh (L : grid0.Coords) (k : Fin 416) : Memref sig .scVector .hbm S32x128 .f32 :=
  ((oV).slice (Rect.unit (s := S26x16384x128) (offC L k) S1x32x128.size (offC_inb L k)) (fun _ => rfl)).squeeze S32x128 squeezes_S1x32x128_S32x128

/-! ## The two pure functions -/

/-- The flattened index array: position r = 16384 * s + n holds idx[n, s]. Stated as the host operations compute it
    (a transpose, then a reshape). -/
def flatOf (a : IVec S16384x26 32) : IVec S425984 32 :=
  shapeCast S425984 (transpose S26x16384 [1, 0] a transposes_S16384x26_S26x16384_1_0) shapeCasts_S26x16384_S425984

/-- What the kernel leaves in its 26 x 16384 x 128 output: entry (s, n, k) is entry k of the table's row number
    flat[16384 * s + n] (modulo 100000, the identity on indices in range). -/
def outG {α : Type} (tbl : S100000x128.Idx → α) (fl : IVec S425984 32) : S26x16384x128.Idx → α :=
  fun i => tbl (ix2 (⟨(fl (ix1 ⟨(i 0).val * 16384 + (i 1).val, by
      have h0 : (i 0).val < 26 := (i 0).isLt
      have h1 : (i 1).val < 16384 := (i 1).isLt
      show _ < 425984; omega⟩)).toNat % 100000, Nat.mod_lt _ (by decide)⟩ : Fin 100000) (i 2))

/-! ## Shares of the table: a share halved `n` times has 2 ^ n leaves -/

/-- Leaf `i` of the depth-`n` halving of the share `q`: the bits of `i`, most significant first, choose left or right. -/
def leaf : (n : ℕ) → PosShare TreeShare → ℕ → PosShare TreeShare
  | 0, q, _ => q
  | n + 1, q, i => if i % 2 ^ (n + 1) < 2 ^ n then leaf n q.left i else leaf n q.right i

/-- The share of the table that worker `w` is handed: the TensorCore keeps the left half for itself, the right half
    is halved five times among the 32 workers. -/
abbrev tq (w : ℕ) : PosShare TreeShare := leaf 5 (fullShare : PosShare TreeShare).right w

variable (m : (ℓ : Loc nD τ sig) → Buf (Elt F) ℓ) (ρ : Dev nD → PrngReg)

/-- The flattened indices of the launch memory. -/
abbrev flat0 (d : Dev nD) : Buf (Elt F) (fLoc d) := flatOf (m (aLoc d))
/-- The output the kernel leaves, from the launch memory. -/
abbrev out0 (d : Dev nD) : Buf (Elt F) (oLoc d) := outG (m (tLoc d)) (flatOf (m (aLoc d)))

/-! ## What the handshakes carry -/

abbrev tblPts (d : Dev nD) (q : PosShare TreeShare) : sProp 𝕄 := tLoc d ↦{q} m (tLoc d)
abbrev idxPts (d : Dev nD) (L : grid0.Coords) (fl : Buf (Elt F) (fLoc d)) : sProp 𝕄 := fLoc d ↦[(fSl L).view.set]{fullShare} fl
abbrev outPts (d : Dev nD) (L : grid0.Coords) (f : Buf (Elt F) (oLoc d)) : sProp 𝕄 :=
  bigSep Finset.univ fun k : Fin 416 => oLoc d ↦[(oCh L k).view.set]{fullShare} f

/-- What a worker is handed: its share of the table, its slice of the flattened indices, its 416 chunks of the output. -/
def goP (d : Dev nD) (L : grid0.Coords) : sProp 𝕄 :=
  iprop(tblPts m d (tq (wk L)) ∗ idxPts d L (flat0 m d) ∗ outPts d L (m (oLoc d)))
/-- What it hands back: the slice, and its chunks holding the gathered rows. -/
def tdP (d : Dev nD) (L : grid0.Coords) : sProp 𝕄 :=
  iprop(idxPts d L (flat0 m d) ∗ outPts d L (out0 m d))

/-- The grid point of task `i` of SparseCore `c` of the call. -/
def crdK (c : Fin ((K (F := F)).nCore 0)) (i : Fin ((K (F := F)).nSub 0)) : grid0.Coords :=
  crd ⟨c.val, c.isLt⟩ ⟨i.val, i.isLt⟩

/-- Each SparseCore takes and returns its sixteen workers' resources together; a worker its own. -/
def P : (K (F := F)).Pay (nD := nD) (Val := Elt F) (Name := ℕ) (U := UU) where
  st := fun q d c => match q with | 0 => bigSep Finset.univ fun i : Fin ((K (F := F)).nSub 0) => goP m d (crdK c i)
  dn := fun q d c => match q with | 0 => bigSep Finset.univ fun i : Fin ((K (F := F)).nSub 0) => tdP m d (crdK c i)
  go := fun q d c i => match q with | 0 => goP m d (crdK c i)
  td := fun q d c i => match q with | 0 => tdP m d (crdK c i)
  x := fun _ _ => iprop(emp)

instance P_storable : (P (F := F) m).IsStorable where
  st q d c := match q with
    | 0 => by unfold P goP; infer_instance
  dn q d c := match q with
    | 0 => by unfold P tdP; infer_instance
  go q d c i := match q with
    | 0 => by unfold P goP; infer_instance
  td q d c i := match q with
    | 0 => by unfold P tdP; infer_instance

/-- What the proof asks of the launch memory: every index names a row of the table. -/
def PreOK : Prop := ∀ d : Dev nD, Cert.Proof.Spec.InRange (m (aLoc d))

end Cert.Proof.KI

end
-- ==== Proof.KI.Offsets.lean ====
/-
  The output-chunk offsets in closed form. The program computes, in 32-bit words, the worker number 2 * subcore + core,
  the global chunk number v = 416 * worker + chunk, and then the floor quotient and the remainder of v by 512, each
  spelt through the truncating division and remainder with a sign correction. All the words involved are small and not
  negative (v < 13312), so nothing wraps and no correction fires: the offsets are (v / 512, (v % 512) * 32, 0), which is
  where chunk v sits in the 26 x 16384 x 128 output.
-/
import proofs.«207811_g81140522156160_cont_9to1c4b_295_10_alg».proof.Proof.KI.Setup
import Idealize.ShloMosaic.Lib.Affine

namespace Cert.Proof.KI

open Cert.KernelIdeal Cert.KernelIdeal.Gen
open Idealize.ShloMosaic

/-- The sixteen chunk numbers of the straight-line part are chunk numbers of a worker: 0 to 7 and 408 to 415. -/
theorem off2_at_lt : ∀ r : Fin 16, (k0_off2_at r).toNat < 416 := by decide

/-- The loop runs 50 times. -/
theorem trips_eq : k0_t1_loop.trips = 50 := by decide

/-- The straight-line part's chunk offsets, at each of its sixteen chunk numbers. -/
theorem off2_eq : ∀ (L : grid0.Coords) (r : Fin 16),
    k0_off2 L (k0_off2_at r) = offC L ⟨(k0_off2_at r).toNat, off2_at_lt r⟩ := by decide +kernel

/-- The loop's chunk offsets: in trip t the r-th access is at chunk 8 * (t + 1) + r of the worker. -/
theorem off4_eq : ∀ (L : grid0.Coords) (t : Fin k0_t1_loop.trips) (r : Fin 8),
    k0_off4 L t (BitVec.ofNat 32 r.val)
      = offC L ⟨8 * (t.val + 1) + r.val, by have := t.isLt; have := r.isLt; have := trips_eq; omega⟩ := by
  intro i k0_t1 r
  have r_r : r.val < 8 := r.isLt
  have h_c0_i32_865 : Affine.IsInt (BitVec.ofNat 32 r.val) ((r.val : Int)) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c416_i32 : Affine.IsInt 416#32 (416) := Affine.ofNat _ (by omega)
  have h_v2 : Affine.IsInt _ (832 * ((i 1).val : Int) + 416 * ((i 0).val : Int)) := Affine.muli h_v1 h_c416_i32 (by omega)
  have h_c1_i32_422 : Affine.IsInt 1#32 (1) := Affine.ofNat _ (by omega)
  have h_c1_i32_423 : Affine.IsInt 1#32 (1) := Affine.ofNat _ (by omega)
  have r_k0_t1 : k0_t1.val < 50 := Nat.lt_of_lt_of_le k0_t1.isLt k0_t1_abs.2.1
  have h_arg23 : Affine.IsInt _ ((k0_t1.val : Int) + 1) := Affine.iv h_c1_i32_422 h_c1_i32_423 k0_t1.val (by omega)
  have c_arg23 : (k0_t1.val : Int) + 1 ≤ 51 - 1 := Affine.iv_lt k0_t1_abs.1 k0_t1.isLt k0_t1_abs.2.2 h_arg23
  have h_c8_i32 : Affine.IsInt 8#32 (8) := Affine.ofNat _ (by omega)
  have h_v1317 : Affine.IsInt _ (8 * (k0_t1.val : Int) + 8) := Affine.muli h_arg23 h_c8_i32 (by omega)
  have h_v1318 : Affine.IsInt _ (8 * (k0_t1.val : Int) + (r.val : Int) + 8) := Affine.addi h_v1317 h_c0_i32_865 (by omega)
  have h_v1324 : Affine.IsInt _ (832 * ((i 1).val : Int) + 416 * ((i 0).val : Int) + 8 * (k0_t1.val : Int) + (r.val : Int) + 8) := Affine.addi h_v2 h_v1318 (by omega)
  have h_c0_i32_873 : Affine.IsInt 0#32 (0) := Affine.ofNat _ (by omega)
  have h_v1326 : Affine.Holds _ := Affine.sgt_holds h_v1324 h_c0_i32_873 (by omega)
  have h_v1327 : Affine.IsInt _ (1) := Affine.extui_holds h_v1326 (by omega)
  have h_c0_i32_874 : Affine.IsInt 0#32 (0) := Affine.ofNat _ (by omega)
  have h_v1328 : Affine.Fails _ := Affine.slt_fails h_v1324 h_c0_i32_874 (by omega)
  have h_v1329 : Affine.IsInt _ (0) := Affine.extui_fails h_v1328 (by omega)
  have h_v1330 : Affine.IsInt _ (1) := Affine.subi h_v1327 h_v1329 (by omega)
  have h_c512_i32_872 : Affine.IsInt 512#32 (512) := Affine.ofNat _ (by omega)
  have h_c0_i32_875 : Affine.IsInt 0#32 (0) := Affine.ofNat _ (by omega)
  have h_v1331 : Affine.Holds _ := Affine.sgt_holds h_c512_i32_872 h_c0_i32_875 (by omega)
  have h_v1332 : Affine.IsInt _ (1) := Affine.extui_holds h_v1331 (by omega)
  have h_c0_i32_876 : Affine.IsInt 0#32 (0) := Affine.ofNat _ (by omega)
  have h_v1333 : Affine.Fails _ := Affine.slt_fails h_c512_i32_872 h_c0_i32_876 (by omega)
  have h_v1334 : Affine.IsInt _ (0) := Affine.extui_fails h_v1333 (by omega)
  have h_v1335 : Affine.IsInt _ (1) := Affine.subi h_v1332 h_v1334 (by omega)
  have h_v1336 : Affine.Fails _ := Affine.ne_fails h_v1330 h_v1335 (by omega)
  have h_v1337 : Affine.IsInt _ (((832 * ((i 1).val : Int) + 416 * ((i 0).val : Int) + 8 * (k0_t1.val : Int) + (r.val : Int) + 8) % 512)) := Affine.remsi h_v1324 h_c512_i32_872 (by omega)
  have h_c0_i32_877 : Affine.IsInt 0#32 (0) := Affine.ofNat _ (by omega)
  have h_v1338 : Affine.Term _ := Affine.cmpi_term .ne h_v1337 h_c0_i32_877
  have h_v1339 : Affine.Fails _ := Affine.andi_fails_left h_v1336 h_v1338
  have h_v1325 : Affine.IsInt _ (((832 * ((i 1).val : Int) + 416 * ((i 0).val : Int) + 8 * (k0_t1.val : Int) + (r.val : Int) + 8) / 512)) := Affine.divsi h_v1324 h_c512_i32_872 (by omega)
  have h_c1_i32_878 : Affine.IsInt 1#32 (1) := Affine.ofNat _ (by omega)
  have h_v1340 : Affine.IsInt _ (((832 * ((i 1).val : Int) + 416 * ((i 0).val : Int) + 8 * (k0_t1.val : Int) + (r.val : Int) + 8) / 512) - 1) := Affine.subi h_v1325 h_c1_i32_878 (by omega)
  have h_v1341 : Affine.IsInt _ (((832 * ((i 1).val : Int) + 416 * ((i 0).val : Int) + 8 * (k0_t1.val : Int) + (r.val : Int) + 8) / 512)) := Affine.select_fails h_v1339 h_v1340 h_v1325 (by omega)
  have h_c512_i32_879 : Affine.IsInt 512#32 (512) := Affine.ofNat _ (by omega)
  have h_c0_i32_880 : Affine.IsInt 0#32 (0) := Affine.ofNat _ (by omega)
  have h_v1342 : Affine.Fails _ := Affine.eq_fails h_c512_i32_879 h_c0_i32_880 (by omega)
  have h_c1_i32_881 : Affine.IsInt 1#32 (1) := Affine.ofNat _ (by omega)
  have h_v1343 : Affine.IsInt _ (512) := Affine.select_fails h_v1342 h_c1_i32_881 h_c512_i32_879 (by omega)
  have h_v1344 : Affine.IsInt _ (((832 * ((i 1).val : Int) + 416 * ((i 0).val : Int) + 8 * (k0_t1.val : Int) + (r.val : Int) + 8) % 512)) := Affine.remsi h_v1324 h_v1343 (by omega)
  have h_c0_i32_883 : Affine.IsInt 0#32 (0) := Affine.ofNat _ (by omega)
  have h_v1346 : Affine.Fails _ := Affine.slt_fails h_v1344 h_c0_i32_883 (by omega)
  have h_c0_i32_884 : Affine.IsInt 0#32 (0) := Affine.ofNat _ (by omega)
  have h_v1347 : Affine.Fails _ := Affine.slt_fails h_v1343 h_c0_i32_884 (by omega)
  have h_v1348 : Affine.Fails _ := Affine.xori_ff h_v1346 h_v1347
  have h_c0_i32_882 : Affine.IsInt 0#32 (0) := Affine.ofNat _ (by omega)
  have h_v1345 : Affine.Term _ := Affine.cmpi_term .ne h_v1344 h_c0_i32_882
  have h_v1349 : Affine.Fails _ := Affine.andi_fails_left h_v1348 h_v1345
  have h_v1350 : Affine.IsInt _ (((832 * ((i 1).val : Int) + 416 * ((i 0).val : Int) + 8 * (k0_t1.val : Int) + (r.val : Int) + 8) % 512) + 512) := Affine.addi h_v1344 h_v1343 (by omega)
  have h_v1351 : Affine.IsInt _ (((832 * ((i 1).val : Int) + 416 * ((i 0).val : Int) + 8 * (k0_t1.val : Int) + (r.val : Int) + 8) % 512)) := Affine.select_fails h_v1349 h_v1350 h_v1344 (by omega)
  have h_c32_i32_885 : Affine.IsInt 32#32 (32) := Affine.ofNat _ (by omega)
  have h_v1352 : Affine.IsInt _ (32 * ((832 * ((i 1).val : Int) + 416 * ((i 0).val : Int) + 8 * (k0_t1.val : Int) + (r.val : Int) + 8) % 512)) := Affine.muli h_v1351 h_c32_i32_885 (by omega)
  have h_c0_i32_889 : Affine.IsInt 0#32 (0) := Affine.ofNat _ (by omega)
  have e1 : ((832 * ((i 1).val : Int) + 416 * ((i 0).val : Int) + 8 * (k0_t1.val : Int) + (r.val : Int) + 8) / 512) = (((416 * (2 * (i 1).val + (i 0).val) + (8 * (k0_t1.val + 1) + r.val)) / 512 : Nat) : Int) := by omega
  have e2 : 32 * ((832 * ((i 1).val : Int) + 416 * ((i 0).val : Int) + 8 * (k0_t1.val : Int) + (r.val : Int) + 8) % 512) = (((416 * (2 * (i 1).val + (i 0).val) + (8 * (k0_t1.val + 1) + r.val)) % 512 * 32 : Nat) : Int) := by omega
  exact Affine.vec_cons h_v1341 e1 <| Affine.vec_cons h_v1352 e2 rfl

end Cert.Proof.KI
-- ==== Proof.KI.Inv.lean ====
/-
  The loop's invariant. Before trip t (t = 0, …, 49; the trip handles chunks 8 (t + 1), …, 8 (t + 1) + 7):
  the gathers of chunks 8 (t + 1) + b, b = 0, …, 5, are in flight into row buffers 0, …, 5, each on its own semaphore, each
  holding its buffer, its 32 entries of the index scratch and one of the table's read shares (which one moves with the trip); the copies out of chunks
  8 (t + 1) − 2 and 8 (t + 1) − 1 are in flight from buffers 6 and 7; the other semaphores read zero; the index scratch is held piece by piece
  but for the six slices in flight; the chunks below 8 (t + 1) − 2 of the output hold the gathered rows, the chunks from
  8 (t + 1) on are untouched. Every payload in flight is known by its values: entry x of the chunk is the output
  function at the chunk's position x.
-/
import proofs.«207811_g81140522156160_cont_9to1c4b_295_10_alg».proof.Proof.KI.Setup
import proofs.«207811_g81140522156160_cont_9to1c4b_295_10_alg».proof.Proof.KI.Offsets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
/-- The worker's thread. -/
abbrev TH : Thread nD τ := V d (cV L) (jV L)

/-! ## The row buffers, the table as the gathers address it, the list slices, the chunks -/

/-- Row buffer `r`. -/
abbrev slotAt (r : ℕ) (hr : ∀ a, (![r, 0, 0] : Fin 3 → ℕ) a + S1x32x128.size a ≤ S8x32x128.size a) : Memref sig .scVector .vmem S32x128 .f32 :=
  ((rV).slice (Rect.unit (s := S8x32x128) ![r, 0, 0] S1x32x128.size hr) (fun _ => rfl)).squeeze S32x128 squeezes_S1x32x128_S32x128

abbrev tVw : Memref sig .scVector .hbm S100000x128 .f32 :=
  (tV).slice (Rect.unit (s := S100000x128) ![0, 0] S100000x128.size inb_S100000x128_S100000x128_0_0) (fun _ => rfl)

/-- A chunk number, total. -/
def ck (n : ℕ) : Fin 416 := ⟨n % 416, Nat.mod_lt _ (by decide)⟩

/-- The 32 entries of the index scratch that chunk `n` gathers by. -/
abbrev lstAt (off : ℕ) (h : ∀ a, (![off] : Fin 1 → ℕ) a + S32.size a ≤ S13312.size a) : Memref sig .scVector .vmem S32 .i32 :=
  (sV).slice (Rect.unit (s := S13312) ![off] S32.size h) (fun _ => rfl)

theorem lstK_inb (c : Fin 416) : ∀ a, (![32 * c.val] : Fin 1 → ℕ) a + S32.size a ≤ S13312.size a := by
  intro a
  have h := c.isLt
  match a with
  | ⟨0, _⟩ => show 32 * c.val + 32 ≤ 13312; omega

/-- The 32 entries of the index scratch that chunk `c` gathers by: entries [32 c, 32 c + 32). -/
abbrev lstK (c : Fin 416) : Memref sig .scVector .vmem S32 .i32 := lstAt (32 * c.val) (lstK_inb c)

/-- The list slice of chunk 8 (t + 1) + b. -/
abbrev lstC (t b : ℕ) : Memref sig .scVector .vmem S32 .i32 := lstK (ck (8 * (t + 1) + b))

/-- The semaphore cell number `j` of the worker. -/
abbrev cell (j : Fin 17) : GSem nD τ sig := (TH d L, SemLoc.dma (⟨j.val, j.isLt⟩ : DmaSem sig))

/-- What the index scratch holds once the index fetch has landed. -/
abbrev fiOf (fs : Buf (Elt F) ((TH d L).loc cc0_scratch0)) : Buf (Elt F) ((TH d L).loc cc0_scratch0) :=
  View.write (Elt F) (sV).view fs ((fSl L).view.read (Elt F) (flat0 m d)) Finset.univ

/-- A payload of chunk `c` known by its values. -/
def PayOf (c : Fin 416) (pay : S32x128.Idx → Elt F .f32) : Prop :=
  ∀ x : S32x128.Idx, pay x = out0 m d ((oCh L c).view.emb x)

variable (fs : Buf (Elt F) ((TH d L).loc cc0_scratch0))

/-- The gather of chunk 8 (t + 1) + b in flight into row buffer `r` on cell `b`: what the buffer will hold reads back as the
    chunk's payload. -/
def Gfl (t b : ℕ) (hb : b < 17) (r : ℕ) (hr : ∀ a, (![r, 0, 0] : Fin 3 → ℕ) a + S1x32x128.size a ≤ S8x32x128.size a) (tok : PosShare TreeShare) : sProp 𝕄 :=
  iprop(∃ (fc : Buf (Elt F) ((TH d L).loc cc0_scratch1)) (pay : S32x128.Idx → Elt F .f32), ⌜PayOf m d L (ck (8 * (t + 1) + b)) pay⌝ ∗
    ⌜(slotAt r hr).view.read (Elt F) fc = pay⌝ ∗
    Transfers.Flight countersEmb (TH d L) (SemLoc.dma (⟨b, hb⟩ : DmaSem sig)) (default : HIx 1) 131072
      iprop((((slotAt r hr).view.loc (TH d L) ↦[(slotAt r hr).view.set]{fullShare} fc)
          ∗ ((lstC t b).view.loc (TH d L) ↦[(lstC t b).view.set]{fullShare} fiOf m d L fs))
        ∗ ((tVw).view.loc (TH d L) ↦[(tVw).view.set]{tok} m (tLoc d))))

/-- The copy out of chunk `c` in flight from buffer `sl` on cell `j`. -/
def Ofl (c : Fin 416) (j : ℕ) (hj : j < 17) (r : ℕ) (hr : ∀ a, (![r, 0, 0] : Fin 3 → ℕ) a + S1x32x128.size a ≤ S8x32x128.size a) : sProp 𝕄 :=
  iprop(∃ (fo : Buf (Elt F) (oLoc d)) (fb : Buf (Elt F) ((TH d L).loc cc0_scratch1)) (pay : S32x128.Idx → Elt F .f32), ⌜PayOf m d L c pay⌝ ∗
    Transfers.Flight countersEmb (TH d L) (SemLoc.dma (⟨j, hj⟩ : DmaSem sig)) (default : HIx 1) 131072
      iprop(((oCh L c).view.loc (TH d L) ↦[(oCh L c).view.set]{fullShare} (oCh L c).view.writes (Elt F) fo [⟨Rect.whole S32x128, pay⟩])
        ∗ ((slotAt r hr).view.loc (TH d L) ↦[(slotAt r hr).view.set]{fullShare} fb)))

/-- The index scratch but for the six list slices in flight, piece by piece: the slices of the chunks below 8 (t + 1)
    and from 8 (t + 1) + 6 on. -/
def Sheld (t : ℕ) : sProp 𝕄 :=
  bigSep (Finset.univ.filter fun c : Fin 416 => c.val < 8 * (t + 1) ∨ 8 * (t + 1) + 6 ≤ c.val) fun c =>
    (lstK c).view.loc (TH d L) ↦[(lstK c).view.set]{fullShare} fiOf m d L fs

/-- The chunks written: those below 8 (t + 1) − 2. -/
def Odone (t : ℕ) : sProp 𝕄 :=
  bigSep (Finset.univ.filter fun c : Fin 416 => c.val + 2 < 8 * (t + 1)) fun c => oLoc d ↦[(oCh L c).view.set]{fullShare} out0 m d
/-- The chunks untouched: those from 8 (t + 1) on. -/
def Ofut (t : ℕ) : sProp 𝕄 :=
  bigSep (Finset.univ.filter fun c : Fin 416 => 8 * (t + 1) ≤ c.val) fun c => oLoc d ↦[(oCh L c).view.set]{fullShare} m (oLoc d)

abbrev tokq (i : Fin 8) : PosShare TreeShare := Transfers.shareTok (tq (wk L)) 8 i

/-- Which of the table's read shares the gather into buffer `b` holds before trip `t`: each new gather takes the share the
    wait just before it returned, so over one trip the six shares in use move round by two. -/
abbrev tokc (t b : ℕ) : Fin 8 := ⟨(b + 2 * t) % 6, by omega⟩

/-- The table's read share number `i` but for the table's own elements: nothing, kept beside its flight. -/
abbrev tokRest (i : Fin 8) : sProp 𝕄 :=
  (tV).view.loc (TH d L) ↦[Finset.univ \ (tVw).view.set]{Transfers.shareTok (tq (wk L)) 8 i} m (tLoc d)

/-- The invariant before trip `t`. -/
def inv (O : CellTallies nD τ sig (HIx 1)) (W : Waits sig (HIx 1)) (t : ℕ) (_ : PUnit) : sProp 𝕄 :=
  iprop(Transfers.MayWaits (TH d L) (default : HIx 1) O
    ∗ Gfl m d L fs t 0 (by decide) 0 inb_S8x32x128_S1x32x128_0_0_0 (Transfers.shareTok (tq (wk L)) 8 (tokc t 0)) ∗ Gfl m d L fs t 1 (by decide) 1 inb_S8x32x128_S1x32x128_1_0_0 (Transfers.shareTok (tq (wk L)) 8 (tokc t 1)) ∗ Gfl m d L fs t 2 (by decide) 2 inb_S8x32x128_S1x32x128_2_0_0 (Transfers.shareTok (tq (wk L)) 8 (tokc t 2))
    ∗ Gfl m d L fs t 3 (by decide) 3 inb_S8x32x128_S1x32x128_3_0_0 (Transfers.shareTok (tq (wk L)) 8 (tokc t 3)) ∗ Gfl m d L fs t 4 (by decide) 4 inb_S8x32x128_S1x32x128_4_0_0 (Transfers.shareTok (tq (wk L)) 8 (tokc t 4)) ∗ Gfl m d L fs t 5 (by decide) 5 inb_S8x32x128_S1x32x128_5_0_0 (Transfers.shareTok (tq (wk L)) 8 (tokc t 5))
    ∗ tokRest m d L (tokc t 0) ∗ tokRest m d L (tokc t 1) ∗ tokRest m d L (tokc t 2) ∗ tokRest m d L (tokc t 3) ∗ tokRest m d L (tokc t 4) ∗ tokRest m d L (tokc t 5)
    ∗ ((tV).view.loc (TH d L) ↦{Transfers.shareTok (tq (wk L)) 8 6} m (tLoc d)) ∗ ((tV).view.loc (TH d L) ↦{Transfers.shareTok (tq (wk L)) 8 7} m (tLoc d))
    ∗ Ofl m d L (ck (8 * (t + 1) - 2)) 14 (by decide) 6 inb_S8x32x128_S1x32x128_6_0_0 ∗ Ofl m d L (ck (8 * (t + 1) - 1)) 15 (by decide) 7 inb_S8x32x128_S1x32x128_7_0_0
    ∗ semVal (cell d L 6) 0 ∗ semVal (cell d L 7) 0
    ∗ semVal (cell d L 8) 0 ∗ semVal (cell d L 9) 0 ∗ semVal (cell d L 10) 0 ∗ semVal (cell d L 11) 0 ∗ semVal (cell d L 12) 0 ∗ semVal (cell d L 13) 0
    ∗ semVal (cell d L 16) 0
    ∗ Sheld m d L fs t
    ∗ Odone m d L t ∗ Ofut m d L t
    ∗ ∃ W', ⌜∀ p ∈ W', p ∈ W ∨ p.2 = none⌝ ∗ owes (TH d L) O W')

end Cert.Proof.KI

end
-- ==== Proof.KI.Split.lean ====
/-
  A product over a finite set with a list of distinct members taken out one by one.
-/
import proofs.«207811_g81140522156160_cont_9to1c4b_295_10_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

section Split

variable {M : Type} [URA M] {I : Type} [DecidableEq I]

/-- `Φ` at each member of the list, then `R`. -/
def sepOff (Φ : I → sProp M) : List I → sProp M → sProp M
  | [], R => R
  | i :: l, R => iprop(Φ i ∗ sepOff Φ l R)

theorem bigSep_sepOff (Φ : I → sProp M) : ∀ (l : List I) (s : Finset I), l.Nodup → (∀ i ∈ l, i ∈ s) →
    bigSep s Φ = sepOff Φ l (bigSep (s \ l.toFinset) Φ)
  | [], s, _, _ => by simp [sepOff]
  | i :: l, s, hnd, hs => by
    have hi : i ∈ s := hs i (List.mem_cons_self ..)
    have hn := List.nodup_cons.mp hnd
    rw [SparseCore.bigSep_erase' hi, bigSep_sepOff Φ l (s.erase i) hn.2
      (fun j hj => Finset.mem_erase.mpr ⟨fun e => hn.1 (e ▸ hj), hs j (List.mem_cons_of_mem _ hj)⟩)]
    show _ = iprop(Φ i ∗ sepOff Φ l (bigSep (s \ (i :: l).toFinset) Φ))
    rw [List.toFinset_cons, Finset.sdiff_insert, Finset.erase_sdiff_comm]

theorem bigSep_fin8 (Φ : Fin 8 → sProp M) :
    bigSep Finset.univ Φ = iprop(Φ 0 ∗ Φ 1 ∗ Φ 2 ∗ Φ 3 ∗ Φ 4 ∗ Φ 5 ∗ Φ 6 ∗ Φ 7) := by
  rw [bigSep_sepOff Φ [0, 1, 2, 3, 4, 5, 6] Finset.univ (by decide) (fun _ _ => Finset.mem_univ _)]
  simp only [sepOff]
  rw [show (Finset.univ : Finset (Fin 8)) \ ([0, 1, 2, 3, 4, 5, 6] : List (Fin 8)).toFinset = {7} by decide, bigSep_singleton]

end Split

end Cert.Proof.KI

end
-- ==== Proof.KI.Steps.lean ====
/-
  One trip's bookkeeping, as equations. A trip takes eight consecutive chunks out of the untouched part of the output and puts
  eight into the written part; it takes eight consecutive list slices out of the held part of the index scratch and puts eight
  back. Each product over a range of chunk numbers splits into its eight pieces and the product over the rest.
  Also: a chunk, or a list slice, held under its number is held under the loop's own spelling of its offsets.
-/
import proofs.«207811_g81140522156160_cont_9to1c4b_295_10_alg».proof.Proof.KI.Inv
import proofs.«207811_g81140522156160_cont_9to1c4b_295_10_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

theorem ck_val {n : ℕ} (h : n < 416) : (ck n).val = n := Nat.mod_eq_of_lt h

/-- Eight consecutive chunk numbers from `a`. -/
def cks (a : ℕ) : List (Fin 416) := (List.range 8).map fun r => ck (a + r)

theorem cks_eq (a : ℕ) : cks a = [ck (a + 0), ck (a + 1), ck (a + 2), ck (a + 3), ck (a + 4), ck (a + 5), ck (a + 6), ck (a + 7)] := rfl

theorem mem_cks {a : ℕ} (h : a + 8 ≤ 416) (i : Fin 416) : i ∈ cks a ↔ a ≤ i.val ∧ i.val < a + 8 := by
  unfold cks
  simp only [List.mem_map, List.mem_range]
  constructor
  · rintro ⟨r, hr, rfl⟩
    rw [ck_val (by omega)]; omega
  · intro hi
    refine ⟨i.val - a, by omega, Fin.ext ?_⟩
    rw [ck_val (by omega)]; omega

theorem cks_nodup {a : ℕ} (h : a + 8 ≤ 416) : (cks a).Nodup := by
  unfold cks
  refine (List.nodup_range (n := 8)).map_on fun x hx y hy e => ?_
  have hx' := List.mem_range.mp hx
  have hy' := List.mem_range.mp hy
  have e' := congrArg Fin.val e
  rw [ck_val (by omega), ck_val (by omega)] at e'
  omega

section Take

variable {M : Type} [URA M]

/-- A product over the chunk numbers satisfying `p` is the eight pieces from `a` and the product over those satisfying `q`,
    when `p` is "among the eight, or `q`" and none of the eight satisfies `q`. -/
theorem bigSep_take8 (Φ : Fin 416 → sProp M) (p q : Fin 416 → Prop) [DecidablePred p] [DecidablePred q] {a : ℕ} (ha : a + 8 ≤ 416)
    (hp : ∀ i : Fin 416, p i ↔ ((a ≤ i.val ∧ i.val < a + 8) ∨ q i)) (hq : ∀ i : Fin 416, a ≤ i.val → i.val < a + 8 → ¬ q i) :
    bigSep (Finset.univ.filter p) Φ = sepOff Φ (cks a) (bigSep (Finset.univ.filter q) Φ) := by
  have hS : (Finset.univ.filter p) \ (cks a).toFinset = Finset.univ.filter q := by
    ext i
    simp only [Finset.mem_sdiff, Finset.mem_filter, Finset.mem_univ, true_and, List.mem_toFinset, mem_cks ha, hp i]
    constructor
    · rintro ⟨h | h, hn⟩
      · exact absurd h hn
      · exact h
    · intro h
      exact ⟨Or.inr h, fun hn => hq i hn.1 hn.2 h⟩
  rw [bigSep_sepOff Φ (cks a) (Finset.univ.filter p) (cks_nodup ha)
    (fun i hi => Finset.mem_filter.mpr ⟨Finset.mem_univ _, (hp i).mpr (Or.inl ((mem_cks ha i).mp hi))⟩), hS]

end Take

variable (m : (ℓ : Loc nD τ sig) → Buf (Elt F) ℓ) (d : Dev nD) (L : grid0.Coords)

omit m in
/-- Chunk `c` of the output, holding `f`. -/
abbrev oPc (c : Fin 416) (f : Buf (Elt F) (oLoc d)) : sProp 𝕄 := oLoc d ↦[(oCh L c).view.set]{fullShare} f
omit m in
/-- List slice `c` of the index scratch, holding `f`. -/
abbrev sPc (c : Fin 416) (f : Buf (Elt F) ((TH d L).loc cc0_scratch0)) : sProp 𝕄 :=
  (lstK c).view.loc (TH d L) ↦[(lstK c).view.set]{fullShare} f

/-- The untouched chunks before trip `t` are the trip's eight and those untouched after it. -/
theorem Ofut_take (t : ℕ) (ht : t < 50) :
    (Ofut m d L t : sProp 𝕄)
      = sepOff (fun c : Fin 416 => (oLoc d ↦[(oCh L c).view.set]{fullShare} m (oLoc d) : sProp 𝕄)) (cks (8 * (t + 1))) (Ofut m d L (t + 1)) := by
  unfold Ofut
  exact bigSep_take8 _ _ _ (by omega) (fun i => by have := i.isLt; omega) (fun i h1 h2 => by omega)

/-- The written chunks after trip `t` are the eight the trip finishes (from 8 (t + 1) − 2) and those written before it. -/
theorem Odone_give (t : ℕ) (ht : t < 50) :
    (Odone m d L (t + 1) : sProp 𝕄)
      = sepOff (fun c : Fin 416 => (oLoc d ↦[(oCh L c).view.set]{fullShare} out0 m d : sProp 𝕄)) (cks (8 * (t + 1) - 2)) (Odone m d L t) := by
  unfold Odone
  exact bigSep_take8 _ _ _ (by omega) (fun i => by have := i.isLt; omega) (fun i h1 h2 => by omega)

/-- The same, with the eight chunk numbers as the trip meets them: the two whose copies out were in flight, then the six
    the trip copies out and waits for. -/
theorem Odone_give' (t : ℕ) (ht : t < 50) :
    (Odone m d L (t + 1) : sProp 𝕄)
      = iprop(oPc d L (ck (8 * (t + 1) - 2)) (out0 m d) ∗ oPc d L (ck (8 * (t + 1) - 1)) (out0 m d)
          ∗ oPc d L (ck (8 * (t + 1) + 0)) (out0 m d) ∗ oPc d L (ck (8 * (t + 1) + 1)) (out0 m d) ∗ oPc d L (ck (8 * (t + 1) + 2)) (out0 m d)
          ∗ oPc d L (ck (8 * (t + 1) + 3)) (out0 m d) ∗ oPc d L (ck (8 * (t + 1) + 4)) (out0 m d) ∗ oPc d L (ck (8 * (t + 1) + 5)) (out0 m d)
          ∗ Odone m d L t) := by
  rw [Odone_give m d L t ht, cks_eq]
  have e1 : 8 * (t + 1) - 2 + 1 = 8 * (t + 1) - 1 := by omega
  have e2 : 8 * (t + 1) - 2 + 2 = 8 * (t + 1) + 0 := by omega
  have e3 : 8 * (t + 1) - 2 + 3 = 8 * (t + 1) + 1 := by omega
  have e4 : 8 * (t + 1) - 2 + 4 = 8 * (t + 1) + 2 := by omega
  have e5 : 8 * (t + 1) - 2 + 5 = 8 * (t + 1) + 3 := by omega
  have e6 : 8 * (t + 1) - 2 + 6 = 8 * (t + 1) + 4 := by omega
  have e7 : 8 * (t + 1) - 2 + 7 = 8 * (t + 1) + 5 := by omega
  rw [e1, e2, e3, e4, e5, e6, e7]
  rfl

variable (fs : Buf (Elt F) ((TH d L).loc cc0_scratch0))

/-- The list slices neither in flight before trip `t` nor touched by it. -/
def Score (t : ℕ) : sProp 𝕄 :=
  bigSep (Finset.univ.filter fun c : Fin 416 => c.val < 8 * (t + 1) ∨ 8 * (t + 1) + 14 ≤ c.val) fun c =>
    (lstK c).view.loc (TH d L) ↦[(lstK c).view.set]{fullShare} fiOf m d L fs

/-- The held slices before trip `t`: the eight the trip gathers by (from 8 (t + 1) + 6) and the core. -/
theorem Sheld_take (t : ℕ) (ht : t < 50) :
    (Sheld m d L fs t : sProp 𝕄)
      = sepOff (fun c : Fin 416 => ((lstK c).view.loc (TH d L) ↦[(lstK c).view.set]{fullShare} fiOf m d L fs : sProp 𝕄)) (cks (8 * (t + 1) + 6))
          (Score m d L fs t) := by
  unfold Sheld Score
  exact bigSep_take8 _ _ _ (by omega) (fun i => by have := i.isLt; omega) (fun i h1 h2 => by omega)

/-- The held slices after trip `t`: the eight whose gathers the trip has waited for (from 8 (t + 1)) and the core. -/
theorem Sheld_give (t : ℕ) (ht : t < 50) :
    (Sheld m d L fs (t + 1) : sProp 𝕄)
      = sepOff (fun c : Fin 416 => ((lstK c).view.loc (TH d L) ↦[(lstK c).view.set]{fullShare} fiOf m d L fs : sProp 𝕄)) (cks (8 * (t + 1)))
          (Score m d L fs t) := by
  unfold Sheld Score
  exact bigSep_take8 _ _ _ (by omega) (fun i => by have := i.isLt; omega) (fun i h1 h2 => by omega)

/-! ## A piece under its number is the piece under the program's offsets -/

omit fs in
/-- The output held on a 1 x 32 x 128 unit block depends only on the block's offsets. -/
theorem oPiece_off (off off' : Fin 3 → ℕ) (e : off = off') (h : ∀ a, off a + S1x32x128.size a ≤ S26x16384x128.size a)
    (h' : ∀ a, off' a + S1x32x128.size a ≤ S26x16384x128.size a) (f : Buf (Elt F) (oLoc d)) :
    (oLoc d ↦[(((oV).slice (Rect.unit (s := S26x16384x128) off S1x32x128.size h) (fun _ => rfl)).squeeze S32x128 squeezes_S1x32x128_S32x128).view.set]{fullShare} f : sProp 𝕄)
      = (oLoc d ↦[(((oV).slice (Rect.unit (s := S26x16384x128) off' S1x32x128.size h') (fun _ => rfl)).squeeze S32x128 squeezes_S1x32x128_S32x128).view.set]{fullShare} f) := by
  subst e; rfl

omit fs in
/-- Chunk `k` under the loop's spelling: trip `t`, the word `w` the step adds. -/
theorem oPiece4 (t : Fin k0_t1_loop.trips) (r : Fin 8) (w : BitVec 32) (hw : w = BitVec.ofNat 32 r.val)
    (h : ∀ a, (k0_off4 L t w) a + S1x32x128.size a ≤ S26x16384x128.size a) (k : Fin 416) (hk : k.val = 8 * (t.val + 1) + r.val)
    (f : Buf (Elt F) (oLoc d)) :
    (oLoc d ↦[(oCh L k).view.set]{fullShare} f : sProp 𝕄)
      = ((((oV).slice (Rect.unit (s := S26x16384x128) (k0_off4 L t w) S1x32x128.size h) (fun _ => rfl)).squeeze S32x128 squeezes_S1x32x128_S32x128).view.loc (TH d L)
          ↦[(((oV).slice (Rect.unit (s := S26x16384x128) (k0_off4 L t w) S1x32x128.size h) (fun _ => rfl)).squeeze S32x128 squeezes_S1x32x128_S32x128).view.set]{fullShare} f) := by
  subst hw
  refine oPiece_off d (offC L k) _ ?_ (offC_inb L k) h f
  rw [off4_eq L t r]
  exact congrArg (offC L) (Fin.ext hk)

omit m in
/-- The index scratch held on a 32-entry unit block depends only on the block's offset. -/
theorem sPiece_off (off off' : Fin 1 → ℕ) (e : off = off') (h : ∀ a, off a + S32.size a ≤ S13312.size a)
    (h' : ∀ a, off' a + S32.size a ≤ S13312.size a) (f : Buf (Elt F) ((TH d L).loc cc0_scratch0)) :
    ((((sV).slice (Rect.unit (s := S13312) off S32.size h) (fun _ => rfl)).view.loc (TH d L)
        ↦[((sV).slice (Rect.unit (s := S13312) off S32.size h) (fun _ => rfl)).view.set]{fullShare} f : sProp 𝕄))
      = (((sV).slice (Rect.unit (s := S13312) off' S32.size h') (fun _ => rfl)).view.loc (TH d L)
        ↦[((sV).slice (Rect.unit (s := S13312) off' S32.size h') (fun _ => rfl)).view.set]{fullShare} f) := by
  subst e; rfl

omit m in
/-- List slice `k` under the loop's spelling of the slices it gathers by: trip `t`, the word `w`. -/
theorem sPiece5 (t : Fin k0_t1_loop.trips) (r : Fin 8) (w : BitVec 32) (hw : w = BitVec.ofNat 32 r.val)
    (h : ∀ a, (k0_off5 t w) a + S32.size a ≤ S13312.size a) (k : Fin 416) (hk : k.val = 8 * (t.val + 1) + 6 + r.val)
    (f : Buf (Elt F) ((TH d L).loc cc0_scratch0)) :
    (((lstK k).view.loc (TH d L) ↦[(lstK k).view.set]{fullShare} f : sProp 𝕄))
      = (((sV).slice (Rect.unit (s := S13312) (k0_off5 t w) S32.size h) (fun _ => rfl)).view.loc (TH d L)
        ↦[((sV).slice (Rect.unit (s := S13312) (k0_off5 t w) S32.size h) (fun _ => rfl)).view.set]{fullShare} f) := by
  subst hw
  refine sPiece_off d L (![32 * k.val]) _ ?_ (lstK_inb k) h f
  rw [k0_off5_eq t r, hk]
  exact congrArg (fun x : ℕ => (![x] : Fin 1 → ℕ)) (by omega)

end Cert.Proof.KI

end
-- ==== Proof.KI.Value.lean ====
/-
  The value of one gathered chunk, and what the slices of the two index arrays read.

  A gather through a list of 32 words puts, at row r of a 32 x 128 buffer, the table's row number list[r]. When the list
  is entries [13312 w + 32 k, 13312 w + 32 k + 32) of the flattened index array (chunk k of worker w), that is what
  the output function prescribes at chunk 416 w + k of the 26 x 16384 x 128 output: element (r, c) of the chunk sits at
  (g / 512, 32 (g % 512) + r, c) with g = 416 w + k, whose flattened position is
  (g / 512) 16384 + 32 (g % 512) + r = 32 g + r = 13312 w + 32 k + r; and the row number is taken modulo 100000 on one
  side only, which changes nothing because the word is below 100000.
-/
import proofs.«207811_g81140522156160_cont_9to1c4b_295_10_alg».proof.Proof.KI.Setup
import Idealize.ShloMosaic.Lib.SparseCore.Stream

noncomputable section

namespace Cert.Proof.KI

open Cert.KernelIdeal Cert.KernelIdeal.Gen
open Idealize.ShloMosaic
open Idealize.ShloMosaic.SparseCore (gatherPayload rows)
open Idealize.ShloMosaic.ValueIdx

variable {F : FTy → Type}

/-! ## Where an element of a chunk sits in the output -/

/-- Element (r, c) of a 32 x 128 chunk is element (0, r, c) of the 1 x 32 x 128 block it is the squeeze of. -/
theorem squeeze_idx (x : S32x128.Idx) :
    Shape.reshapeEquiv squeezes_S1x32x128_S32x128.numel_eq x = (ix3 (0 : Fin 1) (x 0) (x 1) : S1x32x128.Idx) :=
  Shape.reshapeEquiv_eq_of_rowMajor _ (by
    rw [Shape.rowMajor_val_three, Shape.rowMajor_val_two]
    show (0 * 32 + (x 0).val) * 128 + (x 1).val = (x 0).val * 128 + (x 1).val
    omega)

/-- The position in the output of element x of chunk k of worker L: the block's offsets plus (0, r, c). -/
theorem oCh_emb (L : grid0.Coords) (k : Fin 416) (x : S32x128.Idx) (a : Fin 3) :
    ((oCh L k).view.emb x a).val = offC L k a + (ix3 (0 : Fin 1) (x 0) (x 1) a).val := by
  show ((Rect.unit (s := S26x16384x128) (offC L k) S1x32x128.size (offC_inb L k)).emb
      (Shape.reshapeEquiv squeezes_S1x32x128_S32x128.numel_eq x) a : Nat) = _
  rw [squeeze_idx, Rect.emb_apply]
  show offC L k a + 1 * _ = _
  rw [Nat.one_mul]
  rfl

theorem oCh_emb0 (L : grid0.Coords) (k : Fin 416) (x : S32x128.Idx) : ((oCh L k).view.emb x 0).val = cg L k / 512 :=
  (oCh_emb L k x 0).trans (Nat.add_zero _)
theorem oCh_emb1 (L : grid0.Coords) (k : Fin 416) (x : S32x128.Idx) :
    ((oCh L k).view.emb x 1).val = cg L k % 512 * 32 + (x 0).val := oCh_emb L k x 1
theorem oCh_emb2 (L : grid0.Coords) (k : Fin 416) (x : S32x128.Idx) : ((oCh L k).view.emb x 2).val = (x 1).val :=
  (oCh_emb L k x 2).trans (Nat.zero_add _)

/-! ## The gathered chunk -/

/-- Equal positions of the flattened index array hold the same word. -/
theorem fl_congr (fl : IVec S425984 32) {a b : Nat} (ha : a < 425984) (hb : b < 425984) (e : a = b) :
    fl (ix1 ⟨a, ha⟩) = fl (ix1 ⟨b, hb⟩) := by subst e; rfl

/-- Entry r of a list of 32 words, in row-major order, is the word at index (r). -/
theorem S32_symm (r : Fin S32.numel) : ((S32.rowMajor.symm r) 0).val = r.val := by
  have h := Shape.rowMajor_val_one (S32.rowMajor.symm r)
  rw [Equiv.apply_symm_apply] at h
  exact h.symm

/-- THE VALUE OF A GATHERED CHUNK: the gather's payload through 32 words that are entries
    [13312 w + 32 k, 13312 w + 32 k + 32) of the flattened index array is the output function on chunk k of worker w. -/
theorem payload_eq (tbl : S100000x128.Idx → Elt F .f32) (fl : IVec S425984 32) (offs : S32.Idx → Elt F .i32)
    (L : grid0.Coords) (k : Fin 416)
    (hoffs : ∀ x : S32.Idx, offs x = fl (ix1 ⟨13312 * wk L + 32 * k.val + (x 0).val, by
      have := wk_lt L; have := k.isLt; have h : (x 0).val < 32 := (x 0).isLt; omega⟩))
    (hn : S32.numel = S32x128.size gathers_S100000x128_S32x128.axis')
    (hin : ∀ x, (offs x).toNat < S100000x128.size gathers_S100000x128_S32x128.axis) :
    ∀ x : S32x128.Idx,
      gatherPayload (F := F) gathers_S100000x128_S32x128 tbl (rows (F := F) offs hn hin) x
        = outG tbl fl ((oCh L k).view.emb x) := by
  intro x
  have h0 := oCh_emb0 L k x
  have h1 := oCh_emb1 L k x
  have h2 := oCh_emb2 L k x
  have hw := wk_lt L
  have hk := k.isLt
  have hx0 : (x 0).val < 32 := (x 0).isLt
  -- the list entry the gather reads for row x 0
  let x' : S32.Idx := S32.rowMajor.symm ((x gathers_S100000x128_S32x128.axis').cast hn.symm)
  have hx' : (x' 0).val = (x 0).val := S32_symm _
  have hlt : (offs x').toNat < 100000 := hin x'
  -- that entry is the word of the flattened array at the element's flattened position
  have hword : offs x' = fl (ix1 ⟨((oCh L k).view.emb x 0).val * 16384 + ((oCh L k).view.emb x 1).val, by
      have a0 : ((oCh L k).view.emb x 0).val < 26 := ((oCh L k).view.emb x 0).isLt
      have a1 : ((oCh L k).view.emb x 1).val < 16384 := ((oCh L k).view.emb x 1).isLt
      omega⟩) := by
    rw [hoffs x']
    refine fl_congr fl _ _ ?_
    rw [hx', h0, h1]
    unfold cg
    omega
  unfold gatherPayload outG
  refine congrArg tbl (funext fun b => Fin.ext ?_)
  match b with
  | ⟨0, _⟩ =>
    show (gathers_S100000x128_S32x128.idx (rows (F := F) offs hn hin) x gathers_S100000x128_S32x128.axis).val
      = (fl (ix1 ⟨((oCh L k).view.emb x 0).val * 16384 + ((oCh L k).view.emb x 1).val, _⟩)).toNat % 100000
    rw [Shape.Gathers.idx_axis, ← hword, Nat.mod_eq_of_lt hlt]
    rfl
  | ⟨1, _⟩ =>
    show (gathers_S100000x128_S32x128.idx (rows (F := F) offs hn hin) x (1 : Fin 2)).val = ((oCh L k).view.emb x 2).val
    have e := Shape.Gathers.idx_of_ne gathers_S100000x128_S32x128 (rows (F := F) offs hn hin) x
      (1 : Fin S100000x128.rank) (by decide)
    rw [e, h2]
    rfl

/-! ## What the slices of the two index arrays read -/

/-- Once the fetched words have landed in the whole index scratch, a 32-entry slice of it at offset o reads
    the fetched words [o, o + 32). -/
theorem slice_read_off (fs : (sV).view.ty.Contents (Elt F)) (pay : S13312.Idx → Elt F .i32) (off : Fin 1 → ℕ)
    (h : ∀ a, off a + S32.size a ≤ S13312.size a) (x : S32.Idx) :
    ((sV).slice (Rect.unit (s := S13312) off S32.size h) (fun _ => rfl)).view.read (Elt F)
        (View.write (Elt F) (sV).view fs pay Finset.univ) x
      = pay (ix1 ⟨off 0 + (x 0).val, by
          have h0 : off 0 + 32 ≤ 13312 := h 0
          have hx : (x 0).val < 32 := (x 0).isLt
          omega⟩) := by
  rw [View.write_whole_univ]
  refine ((View.read_apply _ _).trans (cast_eq _ _)).trans ?_
  refine congrArg pay (funext fun a => Fin.ext ?_)
  match a with
  | ⟨0, _⟩ =>
    show ((Rect.unit (s := S13312) off S32.size h).emb x 0 : ℕ) = off 0 + (x 0).val
    rw [Rect.emb_apply]
    show off 0 + 1 * (x 0).val = _
    rw [Nat.one_mul]

/-- The same for chunk k of the scratch: the slice at offset 32 k reads the fetched words [32 k, 32 k + 32). -/
theorem slice_read (fs : (sV).view.ty.Contents (Elt F)) (pay : S13312.Idx → Elt F .i32) (k : ℕ)
    (h : ∀ a, (![32 * k] : Fin 1 → ℕ) a + S32.size a ≤ S13312.size a) (x : S32.Idx) :
    ((sV).slice (Rect.unit (s := S13312) ![32 * k] S32.size h) (fun _ => rfl)).view.read (Elt F)
        (View.write (Elt F) (sV).view fs pay Finset.univ) x
      = pay (ix1 ⟨32 * k + (x 0).val, by
          have h0 : 32 * k + 32 ≤ 13312 := h 0
          have hx : (x 0).val < 32 := (x 0).isLt
          omega⟩) :=
  slice_read_off fs pay ![32 * k] h x

/-- Worker w's slice of the flattened index array reads positions [13312 w, 13312 w + 13312) of it. -/
theorem fetch_read (fl : S425984.Idx → Elt F .i32) (L : grid0.Coords) (j : S13312.Idx) :
    (fSl L).view.read (Elt F) fl j
      = fl (ix1 ⟨13312 * wk L + (j 0).val, by
          have := wk_lt L
          have hj : (j 0).val < 13312 := (j 0).isLt
          omega⟩) := by
  refine ((View.read_apply _ _).trans (cast_eq _ _)).trans ?_
  refine congrArg fl (funext fun a => Fin.ext ?_)
  match a with
  | ⟨0, _⟩ =>
    show ((Rect.unit (s := S425984) (k0_off1 L) S13312.size (k0_off1_inb L)).emb j 0 : ℕ) = 13312 * wk L + (j 0).val
    rw [Rect.emb_apply]
    have e : k0_off1 L 0 = 26624 * (L 1).val + 13312 * (L 0).val := by rw [k0_off1_eq]; rfl
    show k0_off1 L 0 + 1 * (j 0).val = _
    rw [e]
    unfold wk
    omega

end Cert.Proof.KI

end
-- ==== Proof.KI.Close.lean ====
/-
  What closes a trip. A one-piece whole write reads back as its payload. The table's whole-array slice reads as the table.
  A gather's payload has the chunk's values: entry (r, k) of chunk c is entry k of the table's row flat[13312 w + 32 c + r].
  A chunk of the output written whole with a payload of the chunk's values holds the output function on its set.
-/
import proofs.«207811_g81140522156160_cont_9to1c4b_295_10_alg».proof.Proof.KI.Steps
import proofs.«207811_g81140522156160_cont_9to1c4b_295_10_alg».proof.Proof.KI.Value
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.SparseCore (gatherPayload rows)

variable {F : FTy → Type}

local notation "𝕄" => MT nD τ sig (HIx 1) (Elt F) ℕ UU ℕ

/-- A buffer written whole through a view reads back, through that view, as what was written. -/
theorem read_writes_whole {sg : RefSig} {κ : Kind} {sp : Space} {s : Shape} {e : EltTy} (v : View sg κ sp s e)
    (f : v.ty.Contents (Elt F)) (w : s.Idx → Elt F e) :
    v.read (Elt F) (v.writes (Elt F) f [⟨Rect.whole s, w⟩]) = w := by
  funext x
  have h := View.read_writes_cons_emb v f (Rect.whole s) w [] x
  rwa [Rect.emb_whole_apply] at h

/-- The table read through its whole-array slice is the table. -/
theorem tVw_read (g : S100000x128.Idx → Elt F .f32) : (tVw).view.read (Elt F) g = g := by
  funext i
  refine ((View.read_apply _ _).trans (cast_eq _ _)).trans ?_
  refine congrArg g (funext fun a => Fin.ext ?_)
  show ((Rect.unit (s := S100000x128) ![0, 0] S100000x128.size inb_S100000x128_S100000x128_0_0).emb i a : ℕ) = (i a).val
  rw [Rect.emb_apply]
  have h0 : (![0, 0] : Fin 2 → ℕ) a = 0 := by fin_cases a <;> rfl
  show (![0, 0] : Fin 2 → ℕ) a + 1 * (i a).val = (i a).val
  rw [h0]; omega

/-! ## Re-spelling what a transfer in flight delivers; payloads; the waits recorded -/

section Respell

variable {c : Thread nD τ} {sm : SemLoc sig} {ι : HIx 1} {N : ℕ}

/-- The middle component of a gather's delivery, re-spelt by an equation. -/
theorem Flight_mid {A B B' C : sProp 𝕄} (h : B = B') :
    (Transfers.Flight countersEmb c sm ι N iprop((A ∗ B) ∗ C) : sProp 𝕄) ⊢ Transfers.Flight countersEmb c sm ι N iprop((A ∗ B') ∗ C) := by
  subst h; exact BI.Entails.refl _

/-- The first component of a copy's delivery, re-spelt by an equation. -/
theorem Flight_fst {A A' B : sProp 𝕄} (h : A = A') :
    (Transfers.Flight countersEmb c sm ι N iprop(A ∗ B) : sProp 𝕄) ⊢ Transfers.Flight countersEmb c sm ι N iprop(A' ∗ B) := by
  subst h; exact BI.Entails.refl _

end Respell

variable (m : (ℓ : Loc nD τ sig) → Buf (Elt F) ℓ) (d : Dev nD) (L : grid0.Coords) in
/-- A payload equal to one of the chunk's values has them. -/
theorem PayOf_of_eq {c : Fin 416} {pay pay' : S32x128.Idx → Elt F .f32} (e : pay = pay') (h : PayOf m d L c pay') : PayOf m d L c pay := e ▸ h

/-- One more wait at the kernel's own index keeps the record admissible. -/
theorem waits_ins {W S : Waits sig (HIx 1)} (h : ∀ p ∈ S, p ∈ W ∨ p.2 = none) (sm : SemLoc sig) :
    ∀ p ∈ insert (sm, (default : HIx 1)) S, p ∈ W ∨ p.2 = none := by
  intro p hp
  rcases Finset.mem_insert.mp hp with hp | hp
  · exact .inr (hp ▸ rfl)
  · exact h p hp

variable (m : (ℓ : Loc nD τ sig) → Buf (Elt F) ℓ) (d : Dev nD) (L : grid0.Coords)

/-- A gather by the list slice at offset 32 c of the index scratch, once the index fetch has landed, has chunk c's values. -/
theorem gather_PayOf (fs : Buf (Elt F) ((TH d L).loc cc0_scratch0)) (c : Fin 416) (off : Fin 1 → ℕ)
    (h : ∀ a, off a + S32.size a ≤ S13312.size a) (e0 : off 0 = 32 * c.val)
    (hn : S32.numel = S32x128.size gathers_S100000x128_S32x128.axis')
    (hin : ∀ x, (((sV).slice (Rect.unit (s := S13312) off S32.size h) (fun _ => rfl)).view.read (Elt F) (fiOf m d L fs) x).toNat
      < S100000x128.size gathers_S100000x128_S32x128.axis) :
    PayOf m d L c (gatherPayload (F := F) gathers_S100000x128_S32x128 ((tVw).view.read (Elt F) (m (tLoc d)))
      (rows (F := F) (((sV).slice (Rect.unit (s := S13312) off S32.size h) (fun _ => rfl)).view.read (Elt F) (fiOf m d L fs)) hn hin)) := by
  intro x
  rw [tVw_read]
  refine payload_eq (F := F) (m (tLoc d)) (flat0 m d) _ L c (fun y => ?_) hn _ x
  rw [slice_read_off, fetch_read]
  refine fl_congr _ _ _ ?_
  show 13312 * wk L + (off 0 + (y 0).val) = 13312 * wk L + 32 * c.val + (y 0).val
  omega

/-- A chunk written whole with a payload of its values holds the output function on its set. -/
theorem oPc_value (c : Fin 416) (fo : Buf (Elt F) (oLoc d)) (pay : S32x128.Idx → Elt F .f32) (hp : PayOf m d L c pay) :
    (oLoc d ↦[(oCh L c).view.set]{fullShare} (oCh L c).view.writes (Elt F) fo [⟨Rect.whole S32x128, pay⟩] : sProp 𝕄)
      = oPc d L c (out0 m d) := by
  refine pointsTo_congr fun i hi => ?_
  obtain ⟨x, rfl⟩ := View.exists_emb_of_mem_set (oCh L c).view hi
  have hr := congrFun (read_writes_whole (F := F) (oCh L c).view fo pay) x
  rw [View.read_apply] at hr
  rw [← hp x, ← hr]
  exact (cast_eq _ _).symm

end Cert.Proof.KI

end
-- ==== Proof.KI.Pieces.lean ====
/-
  An array held piece by piece. When the element sets K c of a buffer are the fibres of a function cls into a finite
  type (every element lies in exactly the piece of its class), the buffer held on the elements whose class lies in a set
  A of classes is the pieces K c, c ∈ A, held at once; at A everything, the whole buffer is all its pieces.
  The index scratch of 13312 words is 416 pieces of 32 consecutive words: piece c is words [32 c, 32 c + 32), the class
  of word i is i / 32.
-/
import proofs.«207811_g81140522156160_cont_9to1c4b_295_10_alg».proof.Proof.KI.Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Any buffer cut into the fibres of a function -/

/-- The elements whose class lies in `A` are the pieces of the classes in `A`. -/
theorem biUnion_classes {ι T : Type} [Fintype ι] [DecidableEq ι] [DecidableEq T] (Kt : T → Finset ι) (cls : ι → T)
    (h : ∀ i t, i ∈ Kt t ↔ cls i = t) (A : Finset T) :
    A.biUnion Kt = Finset.univ.filter fun i => cls i ∈ A := by
  ext i
  simp only [Finset.mem_biUnion, Finset.mem_filter, Finset.mem_univ, true_and]
  constructor
  · rintro ⟨t, ht, hi⟩
    rw [(h i t).mp hi]; exact ht
  · intro hi
    exact ⟨cls i, hi, (h i _).mpr rfl⟩

/-- A buffer held on the elements whose class lies in `A` is its pieces of the classes in `A` held at once. -/
theorem pointsTo_classes_sub {ℓ : Loc nD τ sig} {T : Type} [DecidableEq T] (Kt : T → Finset (Idx ℓ)) (cls : Idx ℓ → T)
    (h : ∀ i t, i ∈ Kt t ↔ cls i = t) (A : Finset T) (q : PosShare TreeShare) (f : Buf (Elt F) ℓ) :
    (ℓ ↦[Finset.univ.filter fun i => cls i ∈ A]{q} f : sProp 𝕄) = bigSep A fun t => ℓ ↦[Kt t]{q} f := by
  rw [← pointsTo_biUnion A Kt fun t _ t' _ hne => Finset.disjoint_left.mpr fun i hi hi' =>
    hne (((h i t).mp hi).symm.trans ((h i t').mp hi')), biUnion_classes Kt cls h A]

/-! ## The index scratch: 416 pieces of 32 words -/

variable (d : Dev nD) (L : grid0.Coords)

/-- The 32 words at offset `off` are words [off, off + 32). -/
theorem mem_lstAt (off : ℕ) (h : ∀ a, (![off] : Fin 1 → ℕ) a + S32.size a ≤ S13312.size a) (i : S13312.Idx) :
    i ∈ (lstAt off h).view.set ↔ off ≤ (i 0).val ∧ (i 0).val < off + 32 := by
  show i ∈ ((View.whole (cc0_scratch0 : Ref sig .scVector)).slice (Rect.unit (s := S13312) ![off] S32.size h)).set ↔ _
  rw [View.set_slice_whole, Rect.mem_set_unit]
  constructor
  · intro hi
    exact hi 0
  · intro hi a
    match a with
    | ⟨0, _⟩ => exact hi

/-- Piece `c` is words [32 c, 32 c + 32). -/
theorem mem_lstK (c : Fin 416) (i : S13312.Idx) :
    i ∈ (lstK c).view.set ↔ 32 * c.val ≤ (i 0).val ∧ (i 0).val < 32 * c.val + 32 :=
  mem_lstAt (32 * c.val) (lstK_inb c) i

/-- The piece that holds a word. -/
def clsS (i : S13312.Idx) : Fin 416 :=
  ⟨(i 0).val / 32, by have h : (i 0).val < 13312 := (i 0).isLt; omega⟩

theorem lstK_classes (i : S13312.Idx) (c : Fin 416) : i ∈ (lstK c).view.set ↔ clsS i = c := by
  rw [mem_lstK, Fin.ext_iff]
  show _ ↔ (i 0).val / 32 = c.val
  omega

/-- The index scratch held on the words of the pieces in `A` is those pieces held at once. -/
theorem sPts_pieces0 (A : Finset (Fin 416)) (q : PosShare TreeShare) (f : Buf (Elt F) ((TH d L).loc cc0_scratch0)) :
    ((TH d L).loc cc0_scratch0 ↦[Finset.univ.filter fun i : Idx ((TH d L).loc cc0_scratch0) => clsS i ∈ A]{q} f : sProp 𝕄)
      = bigSep A fun c : Fin 416 => (TH d L).loc cc0_scratch0 ↦[(lstK c).view.set]{q} f :=
  pointsTo_classes_sub (ℓ := (TH d L).loc cc0_scratch0) (fun c : Fin 416 => (lstK c).view.set) clsS lstK_classes A q f

theorem sPts_pieces (A : Finset (Fin 416)) (q : PosShare TreeShare) (f : Buf (Elt F) ((TH d L).loc cc0_scratch0)) :
    ((sV).view.loc (TH d L) ↦[Finset.univ.filter fun i : S13312.Idx => clsS i ∈ A]{q} f : sProp 𝕄)
      = bigSep A fun c => (lstK c).view.loc (TH d L) ↦[(lstK c).view.set]{q} f :=
  sPts_pieces0 d L A q f

/-- The whole index scratch is its 416 pieces held at once. -/
theorem sPts_all (q : PosShare TreeShare) (f : Buf (Elt F) ((TH d L).loc cc0_scratch0)) :
    ((sV).view.loc (TH d L) ↦{q} f : sProp 𝕄)
      = bigSep Finset.univ fun c : Fin 416 => (lstK c).view.loc (TH d L) ↦[(lstK c).view.set]{q} f := by
  have h := sPts_pieces (F := F) d L Finset.univ q f
  have hs : (Finset.univ.filter fun i : S13312.Idx => clsS i ∈ (Finset.univ : Finset (Fin 416))) = Finset.univ := by
    ext i
    simp only [Finset.mem_univ, Finset.mem_filter, and_self]
  rw [hs] at h
  exact h

/-- The index scratch but for the six 32-word slices at offsets 256, 288, …, 416 (the lists of chunks 8 to 13) is the
    words of the pieces below 8 and from 14 on. -/
theorem sRest_head (h8 : ∀ a, (![256] : Fin 1 → ℕ) a + S32.size a ≤ S13312.size a)
    (h9 : ∀ a, (![288] : Fin 1 → ℕ) a + S32.size a ≤ S13312.size a)
    (h10 : ∀ a, (![320] : Fin 1 → ℕ) a + S32.size a ≤ S13312.size a)
    (h11 : ∀ a, (![352] : Fin 1 → ℕ) a + S32.size a ≤ S13312.size a)
    (h12 : ∀ a, (![384] : Fin 1 → ℕ) a + S32.size a ≤ S13312.size a)
    (h13 : ∀ a, (![416] : Fin 1 → ℕ) a + S32.size a ≤ S13312.size a) :
    ((((((Finset.univ : Finset S13312.Idx) \ (lstAt 256 h8).view.set) \ (lstAt 288 h9).view.set) \ (lstAt 320 h10).view.set)
        \ (lstAt 352 h11).view.set) \ (lstAt 384 h12).view.set) \ (lstAt 416 h13).view.set
      = Finset.univ.filter fun i : S13312.Idx =>
          clsS i ∈ Finset.univ.filter fun c : Fin 416 => c.val < 8 * (0 + 1) ∨ 8 * (0 + 1) + 6 ≤ c.val := by
  ext i
  have hi : (i 0).val < 13312 := (i 0).isLt
  have e8 := mem_lstAt 256 h8 i
  have e9 := mem_lstAt 288 h9 i
  have e10 := mem_lstAt 320 h10 i
  have e11 := mem_lstAt 352 h11 i
  have e12 := mem_lstAt 384 h12 i
  have e13 := mem_lstAt 416 h13 i
  rw [Finset.mem_sdiff, Finset.mem_sdiff, Finset.mem_sdiff, Finset.mem_sdiff, Finset.mem_sdiff, Finset.mem_sdiff,
    e8, e9, e10, e11, e12, e13, Finset.mem_filter, Finset.mem_filter]
  have hu : i ∈ (Finset.univ : Finset S13312.Idx) := Finset.mem_univ i
  have hc : clsS i ∈ (Finset.univ : Finset (Fin 416)) := Finset.mem_univ _
  have hv : (clsS i).val = (i 0).val / 32 := rfl
  constructor
  · intro h
    exact ⟨hu, hc, by omega⟩
  · intro h
    have h2 := h.2.2
    exact ⟨⟨⟨⟨⟨⟨hu, by omega⟩, by omega⟩, by omega⟩, by omega⟩, by omega⟩, by omega⟩

/-- At the loop's head: the index scratch held but for those six slices is `Sheld` before trip 0. -/
theorem Sheld_head (fs : Buf (Elt F) ((TH d L).loc cc0_scratch0)) (m : (ℓ : Loc nD τ sig) → Buf (Elt F) ℓ)
    (h8 : ∀ a, (![256] : Fin 1 → ℕ) a + S32.size a ≤ S13312.size a)
    (h9 : ∀ a, (![288] : Fin 1 → ℕ) a + S32.size a ≤ S13312.size a)
    (h10 : ∀ a, (![320] : Fin 1 → ℕ) a + S32.size a ≤ S13312.size a)
    (h11 : ∀ a, (![352] : Fin 1 → ℕ) a + S32.size a ≤ S13312.size a)
    (h12 : ∀ a, (![384] : Fin 1 → ℕ) a + S32.size a ≤ S13312.size a)
    (h13 : ∀ a, (![416] : Fin 1 → ℕ) a + S32.size a ≤ S13312.size a) :
    ((sV).view.loc (TH d L) ↦[((((((Finset.univ : Finset S13312.Idx) \ (lstAt 256 h8).view.set) \ (lstAt 288 h9).view.set)
          \ (lstAt 320 h10).view.set) \ (lstAt 352 h11).view.set) \ (lstAt 384 h12).view.set) \ (lstAt 416 h13).view.set]{fullShare}
        fiOf m d L fs : sProp 𝕄)
      = Sheld m d L fs 0 := by
  rw [sRest_head h8 h9 h10 h11 h12 h13, sPts_pieces]
  rfl

end Cert.Proof.KI

end
-- ==== Proof.KI.Enter.lean ====
/-
  Entering the loop. What the straight-line part leaves at the loop's head is the invariant before trip 0: the six
  gathers in flight carry chunks 8 to 13, the two copies out chunks 6 and 7, chunks 0 to 5 of the output are written,
  chunks 8 on untouched, and the index scratch is held but for the six list slices in flight.
  The row buffers are eight disjoint blocks of the 8 x 32 x 128 scratch (block r is first coordinate r), so a buffer
  read after writes into OTHER buffers reads what it held, and read after a whole write into ITSELF reads the payload.
-/
import proofs.«207811_g81140522156160_cont_9to1c4b_295_10_alg».proof.Proof.KI.Close
import proofs.«207811_g81140522156160_cont_9to1c4b_295_10_alg».proof.Proof.KI.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.SparseCore (gatherPayload rows)

variable {F : FTy → Type}

local notation "𝕄" => MT nD τ sig (HIx 1) (Elt F) ℕ UU ℕ

/-! ## The row buffers -/

/-- Row buffer `r` is the elements of the scratch whose first coordinate is `r`. -/
theorem mem_slot (r : ℕ) (hr : ∀ a, (![r, 0, 0] : Fin 3 → ℕ) a + S1x32x128.size a ≤ S8x32x128.size a) (i : S8x32x128.Idx) :
    i ∈ (slotAt r hr).view.set ↔ (i 0).val = r := by
  show i ∈ (((View.whole (cc0_scratch1 : Ref sig .scVector)).slice (Rect.unit (s := S8x32x128) ![r, 0, 0] S1x32x128.size hr)).reshape
    S32x128 squeezes_S1x32x128_S32x128.numel_eq).set ↔ _
  rw [View.set_reshape, View.set_slice_whole, Rect.mem_set_unit]
  have h1 : (i 1).val < 32 := (i 1).isLt
  have h2 : (i 2).val < 128 := (i 2).isLt
  constructor
  · intro h
    have a0 : r ≤ (i 0).val ∧ (i 0).val < r + 1 := h 0
    omega
  · intro h a
    match a with
    | ⟨0, _⟩ => show r ≤ (i 0).val ∧ (i 0).val < r + 1; omega
    | ⟨1, _⟩ => show 0 ≤ (i 1).val ∧ (i 1).val < 0 + 32; omega
    | ⟨2, _⟩ => show 0 ≤ (i 2).val ∧ (i 2).val < 0 + 128; omega

/-- A whole write into another row buffer is not seen through this one. -/
theorem slot_read_other (r r' : ℕ) (hr : ∀ a, (![r, 0, 0] : Fin 3 → ℕ) a + S1x32x128.size a ≤ S8x32x128.size a)
    (hr' : ∀ a, (![r', 0, 0] : Fin 3 → ℕ) a + S1x32x128.size a ≤ S8x32x128.size a) (hne : r ≠ r')
    (g : (slotAt r hr).view.ty.Contents (Elt F)) (p : S32x128.Idx → Elt F .f32) :
    (slotAt r hr).view.read (Elt F) ((slotAt r' hr').view.write (Elt F) g p Finset.univ) = (slotAt r hr).view.read (Elt F) g :=
  View.read_congr fun i hi => View.write_of_not_mem _ _ _ fun hm => by
    rw [View.setOn_univ] at hm
    exact hne (((mem_slot r hr i).mp hi).symm.trans ((mem_slot r' hr' i).mp hm))

/-- A row buffer written whole, then five other row buffers written, reads back as what was written into it. -/
theorem slot_read_after5 (r r1 r2 r3 r4 r5 : ℕ) (hr : ∀ a, (![r, 0, 0] : Fin 3 → ℕ) a + S1x32x128.size a ≤ S8x32x128.size a)
    (h1 : ∀ a, (![r1, 0, 0] : Fin 3 → ℕ) a + S1x32x128.size a ≤ S8x32x128.size a)
    (h2 : ∀ a, (![r2, 0, 0] : Fin 3 → ℕ) a + S1x32x128.size a ≤ S8x32x128.size a)
    (h3 : ∀ a, (![r3, 0, 0] : Fin 3 → ℕ) a + S1x32x128.size a ≤ S8x32x128.size a)
    (h4 : ∀ a, (![r4, 0, 0] : Fin 3 → ℕ) a + S1x32x128.size a ≤ S8x32x128.size a)
    (h5 : ∀ a, (![r5, 0, 0] : Fin 3 → ℕ) a + S1x32x128.size a ≤ S8x32x128.size a)
    (n1 : r ≠ r1) (n2 : r ≠ r2) (n3 : r ≠ r3) (n4 : r ≠ r4) (n5 : r ≠ r5)
    (g : (slotAt r hr).view.ty.Contents (Elt F)) (p p1 p2 p3 p4 p5 : S32x128.Idx → Elt F .f32) :
    (slotAt r hr).view.read (Elt F)
      ((slotAt r5 h5).view.write (Elt F) ((slotAt r4 h4).view.write (Elt F) ((slotAt r3 h3).view.write (Elt F)
        ((slotAt r2 h2).view.write (Elt F) ((slotAt r1 h1).view.write (Elt F) ((slotAt r hr).view.write (Elt F) g p Finset.univ)
          p1 Finset.univ) p2 Finset.univ) p3 Finset.univ) p4 Finset.univ) p5 Finset.univ) = p := by
  rw [slot_read_other r r5 hr h5 n5, slot_read_other r r4 hr h4 n4, slot_read_other r r3 hr h3 n3, slot_read_other r r2 hr h2 n2,
    slot_read_other r r1 hr h1 n1, View.read_write_univ]

variable (m : (ℓ : Loc nD τ sig) → Buf (Elt F) ℓ) (d : Dev nD) (L : grid0.Coords)

/-! ## A flight as the invariant names it -/

/-- A gather in flight whose row buffer will read back as the chunk's payload is the invariant's. -/
theorem Gfl_of (fs : Buf (Elt F) ((TH d L).loc cc0_scratch0)) (t b : ℕ) (hb : b < 17) (r : ℕ)
    (hr : ∀ a, (![r, 0, 0] : Fin 3 → ℕ) a + S1x32x128.size a ≤ S8x32x128.size a) (tok : PosShare TreeShare)
    (fc : Buf (Elt F) ((TH d L).loc cc0_scratch1)) (pay : S32x128.Idx → Elt F .f32)
    (hp : PayOf m d L (ck (8 * (t + 1) + b)) pay) (hrd : (slotAt r hr).view.read (Elt F) fc = pay) :
    (Transfers.Flight countersEmb (TH d L) (SemLoc.dma (⟨b, hb⟩ : DmaSem sig)) (default : HIx 1) 131072
      iprop((((slotAt r hr).view.loc (TH d L) ↦[(slotAt r hr).view.set]{fullShare} fc)
          ∗ ((lstC t b).view.loc (TH d L) ↦[(lstC t b).view.set]{fullShare} fiOf m d L fs))
        ∗ ((tVw).view.loc (TH d L) ↦[(tVw).view.set]{tok} m (tLoc d))) : sProp 𝕄)
      ⊢ Gfl m d L fs t b hb r hr tok := by
  unfold Gfl
  iintro H
  iexists fc, pay
  isplitr
  · ipureintro; exact hp
  isplitr
  · ipureintro; exact hrd
  iexact H

/-- The same when the row buffer is delivered written whole with the payload: it reads back as the payload. -/
theorem Gfl_of_write (fs : Buf (Elt F) ((TH d L).loc cc0_scratch0)) (t b : ℕ) (hb : b < 17) (r : ℕ)
    (hr : ∀ a, (![r, 0, 0] : Fin 3 → ℕ) a + S1x32x128.size a ≤ S8x32x128.size a) (tok : PosShare TreeShare)
    (fb : Buf (Elt F) ((TH d L).loc cc0_scratch1)) (pay : S32x128.Idx → Elt F .f32)
    (hp : PayOf m d L (ck (8 * (t + 1) + b)) pay) :
    (Transfers.Flight countersEmb (TH d L) (SemLoc.dma (⟨b, hb⟩ : DmaSem sig)) (default : HIx 1) 131072
      iprop((((slotAt r hr).view.loc (TH d L) ↦[(slotAt r hr).view.set]{fullShare} View.write (Elt F) (slotAt r hr).view fb pay Finset.univ)
          ∗ ((lstC t b).view.loc (TH d L) ↦[(lstC t b).view.set]{fullShare} fiOf m d L fs))
        ∗ ((tVw).view.loc (TH d L) ↦[(tVw).view.set]{tok} m (tLoc d))) : sProp 𝕄)
      ⊢ Gfl m d L fs t b hb r hr tok :=
  Gfl_of m d L fs t b hb r hr tok _ pay hp (View.read_write_univ _ _)

/-- A copy out in flight, its chunk spelt by any offsets equal to the chunk's, is the invariant's. -/
theorem Ofl_of_off (off : Fin 3 → ℕ) (c : Fin 416) (e : off = offC L c)
    (h : ∀ a, off a + S1x32x128.size a ≤ S26x16384x128.size a) (j : ℕ) (hj : j < 17) (r : ℕ)
    (hr : ∀ a, (![r, 0, 0] : Fin 3 → ℕ) a + S1x32x128.size a ≤ S8x32x128.size a)
    (fo : Buf (Elt F) (oLoc d)) (fb : Buf (Elt F) ((TH d L).loc cc0_scratch1)) (pay : S32x128.Idx → Elt F .f32)
    (hp : PayOf m d L c pay) :
    (Transfers.Flight countersEmb (TH d L) (SemLoc.dma (⟨j, hj⟩ : DmaSem sig)) (default : HIx 1) 131072
      iprop(((((oV).slice (Rect.unit (s := S26x16384x128) off S1x32x128.size h) (fun _ => rfl)).squeeze S32x128 squeezes_S1x32x128_S32x128).view.loc (TH d L)
            ↦[(((oV).slice (Rect.unit (s := S26x16384x128) off S1x32x128.size h) (fun _ => rfl)).squeeze S32x128 squeezes_S1x32x128_S32x128).view.set]{fullShare}
              (((oV).slice (Rect.unit (s := S26x16384x128) off S1x32x128.size h) (fun _ => rfl)).squeeze S32x128 squeezes_S1x32x128_S32x128).view.writes (Elt F) fo
                [⟨Rect.whole S32x128, pay⟩])
        ∗ ((slotAt r hr).view.loc (TH d L) ↦[(slotAt r hr).view.set]{fullShare} fb)) : sProp 𝕄)
      ⊢ Ofl m d L c j hj r hr := by
  subst e
  unfold Ofl
  iintro H
  iexists fo, fb, pay
  isplitr
  · ipureintro; exact hp
  iexact H

/-- A chunk written whole with a payload of its values, spelt by any offsets equal to the chunk's, is the chunk holding
    the output function. -/
theorem oDone_off (off : Fin 3 → ℕ) (c : Fin 416) (e : off = offC L c)
    (h : ∀ a, off a + S1x32x128.size a ≤ S26x16384x128.size a)
    (fo : Buf (Elt F) (oLoc d)) (pay : S32x128.Idx → Elt F .f32) (hp : PayOf m d L c pay) :
    (((((oV).slice (Rect.unit (s := S26x16384x128) off S1x32x128.size h) (fun _ => rfl)).squeeze S32x128 squeezes_S1x32x128_S32x128).view.loc (TH d L)
        ↦[(((oV).slice (Rect.unit (s := S26x16384x128) off S1x32x128.size h) (fun _ => rfl)).squeeze S32x128 squeezes_S1x32x128_S32x128).view.set]{fullShare}
          (((oV).slice (Rect.unit (s := S26x16384x128) off S1x32x128.size h) (fun _ => rfl)).squeeze S32x128 squeezes_S1x32x128_S32x128).view.writes (Elt F) fo
            [⟨Rect.whole S32x128, pay⟩]) : sProp 𝕄)
      = oPc d L c (out0 m d) := by
  subst e
  exact oPc_value m d L c fo pay hp

/-! ## The output's chunks at the loop's head -/

theorem ck_lit (n : ℕ) (h : n < 416) : (ck n).val = n := Nat.mod_eq_of_lt h

/-- Before trip 0 the written chunks are chunks 0 to 5. -/
theorem Odone_head :
    (Odone m d L 0 : sProp 𝕄)
      = iprop(oPc d L (ck 0) (out0 m d) ∗ oPc d L (ck 1) (out0 m d) ∗ oPc d L (ck 2) (out0 m d) ∗ oPc d L (ck 3) (out0 m d)
          ∗ oPc d L (ck 4) (out0 m d) ∗ oPc d L (ck 5) (out0 m d)) := by
  unfold Odone
  have hm : ∀ c : Fin 416, c ∈ (Finset.univ.filter fun c : Fin 416 => c.val + 2 < 8 * (0 + 1)) ↔ c.val < 6 := fun c => by
    simp only [Finset.mem_filter, Finset.mem_univ, true_and]; omega
  rw [bigSep_sepOff (fun c : Fin 416 => (oLoc d ↦[(oCh L c).view.set]{fullShare} out0 m d : sProp 𝕄)) [ck 0, ck 1, ck 2, ck 3, ck 4] _
    (by decide) (fun i hi => by
      rw [hm]
      simp only [List.mem_cons, List.mem_nil_iff, or_false] at hi
      rcases hi with rfl | rfl | rfl | rfl | rfl <;> decide)]
  simp only [sepOff]
  have hS : (Finset.univ.filter fun c : Fin 416 => c.val + 2 < 8 * (0 + 1)) \ ([ck 0, ck 1, ck 2, ck 3, ck 4] : List (Fin 416)).toFinset = {ck 5} := by
    ext c
    simp only [Finset.mem_sdiff, hm, List.mem_toFinset, List.mem_cons, List.mem_nil_iff, or_false, Finset.mem_singleton, Fin.ext_iff,
      ck_lit 0 (by decide), ck_lit 1 (by decide), ck_lit 2 (by decide), ck_lit 3 (by decide), ck_lit 4 (by decide), ck_lit 5 (by decide)]
    omega
  rw [hS, bigSep_singleton]

/-- Before trip 0 the untouched chunks are all but chunks 0 to 7. -/
theorem Ofut_head :
    (bigSep ((Finset.univ : Finset (Fin 416)) \ ([0, 1, 2, 3, 4, 5, 6, 7] : List (Fin 416)).toFinset)
        fun k : Fin 416 => (oLoc d ↦[(oCh L k).view.set]{fullShare} m (oLoc d) : sProp 𝕄))
      = Ofut m d L 0 := by
  unfold Ofut
  have hS : ((Finset.univ : Finset (Fin 416)) \ ([0, 1, 2, 3, 4, 5, 6, 7] : List (Fin 416)).toFinset)
      = Finset.univ.filter fun c : Fin 416 => 8 * (0 + 1) ≤ c.val := by
    ext c
    have e0 : ((0 : Fin 416) : ℕ) = 0 := rfl
    have e1 : ((1 : Fin 416) : ℕ) = 1 := rfl
    have e2 : ((2 : Fin 416) : ℕ) = 2 := rfl
    have e3 : ((3 : Fin 416) : ℕ) = 3 := rfl
    have e4 : ((4 : Fin 416) : ℕ) = 4 := rfl
    have e5 : ((5 : Fin 416) : ℕ) = 5 := rfl
    have e6 : ((6 : Fin 416) : ℕ) = 6 := rfl
    have e7 : ((7 : Fin 416) : ℕ) = 7 := rfl
    simp only [Finset.mem_sdiff, Finset.mem_univ, true_and, List.mem_toFinset, List.mem_cons, List.mem_nil_iff, or_false,
      Finset.mem_filter, Fin.ext_iff, e0, e1, e2, e3, e4, e5, e6, e7]
    omega
  rw [hS]

/-! ## The waits owed -/

/-- A wait on the default cell added to waits that are the caller's or on the default cell. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact Or.inr rfl
  · exact h p hp

end Cert.Proof.KI

end
-- ==== Proof.KI.Trip.lean ====
/-
  Closing a trip. In trip t the loop spells its list slices and output chunks by offsets it computes from t: list slice
  number r of the trip is chunk 8 (t + 1) + 6 + r's 32 words, output chunk number r is chunk 8 (t + 1) + r. A flight, a held
  piece or a written chunk spelt by ANY offsets equal to a chunk's own is that chunk's (the offsets are substituted, and
  the statements about chunks apply). A row buffer written whole reads back as the payload.
-/
import proofs.«207811_g81140522156160_cont_9to1c4b_295_10_alg».proof.Proof.KI.Enter

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.SparseCore (gatherPayload rows)

variable {F : FTy → Type}

local notation "𝕄" => MT nD τ sig (HIx 1) (Elt F) ℕ UU ℕ

variable (m : (ℓ : Loc nD τ sig) → Buf (Elt F) ℓ) (d : Dev nD) (L : grid0.Coords)

/-! ## The loop's offsets name chunks -/

/-- List slice r of trip t is the 32 words of chunk 8 (t + 1) + 6 + r. -/
theorem off5_ck (t : Fin k0_t1_loop.trips) (r : ℕ) (hr : r < 8) (w : BitVec 32) (hw : w = BitVec.ofNat 32 r) (n : ℕ)
    (hn : n = 8 * (t.val + 1) + 6 + r) : k0_off5 t w = ![32 * (ck n).val] := by
  subst hw hn
  have ht : t.val < 50 := trips_eq ▸ t.isLt
  have e := k0_off5_eq t ⟨r, hr⟩
  rw [ck_val (by omega)]
  refine e.trans (congrArg (fun x : ℕ => (![x] : Fin 1 → ℕ)) ?_)
  show 256 * t.val + 32 * r + 448 = 32 * (8 * (t.val + 1) + 6 + r)
  omega

/-- Output chunk r of trip t is chunk 8 (t + 1) + r. -/
theorem off4_ck (t : Fin k0_t1_loop.trips) (r : ℕ) (hr : r < 8) (w : BitVec 32) (hw : w = BitVec.ofNat 32 r) (n : ℕ)
    (hn : n = 8 * (t.val + 1) + r) : k0_off4 L t w = offC L (ck n) := by
  subst hw hn
  have ht : t.val < 50 := trips_eq ▸ t.isLt
  refine (off4_eq L t ⟨r, hr⟩).trans (congrArg (offC L) (Fin.ext ?_))
  show 8 * (t.val + 1) + r = (ck (8 * (t.val + 1) + r)).val
  rw [ck_val (by omega)]

/-! ## The table's read shares move round by two each trip -/

/-- The share of buffer b before trip t + 1 is the one buffer b' held before trip t, when the numbers agree. -/
theorem tokc_step (t b b' : ℕ) (h : (b' + 2 * t) % 6 = (b + 2 * (t + 1)) % 6) : tokc t b' = tokc (t + 1) b := Fin.ext h

theorem tokShare_step (t b b' : ℕ) (h : (b' + 2 * t) % 6 = (b + 2 * (t + 1)) % 6) :
    Transfers.shareTok (tq (wk L)) 8 (tokc t b') = Transfers.shareTok (tq (wk L)) 8 (tokc (t + 1) b) := by
  rw [tokc_step t b b' h]

theorem tokRest_step (t b b' : ℕ) (h : (b' + 2 * t) % 6 = (b + 2 * (t + 1)) % 6) :
    (tokRest m d L (tokc t b') : sProp 𝕄) = tokRest m d L (tokc (t + 1) b) := by
  rw [tokc_step t b b' h]

/-! ## Pieces, flights and written chunks spelt by offsets -/

/-- A 32-word piece of the index scratch spelt by offsets equal to chunk c's is chunk c's list slice. -/
theorem sPc_off (off : Fin 1 → ℕ) (c : Fin 416) (e : off = ![32 * c.val]) (h : ∀ a, off a + S32.size a ≤ S13312.size a)
    (f : Buf (Elt F) ((TH d L).loc cc0_scratch0)) :
    ((((sV).slice (Rect.unit (s := S13312) off S32.size h) (fun _ => rfl)).view.loc (TH d L)
        ↦[((sV).slice (Rect.unit (s := S13312) off S32.size h) (fun _ => rfl)).view.set]{fullShare} f : sProp 𝕄))
      = sPc d L c f := by
  subst e; rfl

/-- A gather in flight whose list slice is spelt by offsets equal to its chunk's, whose row buffer is delivered written
    whole with a payload of the chunk's values, and whose table share is the one wanted, is the invariant's. -/
theorem Gfl_of_off (fs : Buf (Elt F) ((TH d L).loc cc0_scratch0)) (t b : ℕ) (hb : b < 17) (r : ℕ)
    (hr : ∀ a, (![r, 0, 0] : Fin 3 → ℕ) a + S1x32x128.size a ≤ S8x32x128.size a) (tok tok' : PosShare TreeShare) (etok : tok' = tok)
    (off : Fin 1 → ℕ) (e : off = ![32 * (ck (8 * (t + 1) + b)).val]) (h : ∀ a, off a + S32.size a ≤ S13312.size a)
    (g : Buf (Elt F) ((TH d L).loc cc0_scratch1)) (pay : S32x128.Idx → Elt F .f32) :
    (iprop(⌜PayOf m d L (ck (8 * (t + 1) + b)) pay⌝ ∗
      Transfers.Flight countersEmb (TH d L) (SemLoc.dma (⟨b, hb⟩ : DmaSem sig)) (default : HIx 1) 131072
        iprop((((slotAt r hr).view.loc (TH d L) ↦[(slotAt r hr).view.set]{fullShare}
                (slotAt r hr).view.writes (Elt F) g [⟨Rect.whole S32x128, pay⟩])
            ∗ (((sV).slice (Rect.unit (s := S13312) off S32.size h) (fun _ => rfl)).view.loc (TH d L)
                ↦[((sV).slice (Rect.unit (s := S13312) off S32.size h) (fun _ => rfl)).view.set]{fullShare} fiOf m d L fs))
          ∗ ((tVw).view.loc (TH d L) ↦[(tVw).view.set]{tok'} m (tLoc d)))) : sProp 𝕄)
      ⊢ Gfl m d L fs t b hb r hr tok := by
  subst etok e
  iintro ⟨%hp, H⟩
  iapply (Gfl_of m d L fs t b hb r hr tok' _ pay hp (read_writes_whole _ _ _))
  iexact H

/-- The copy-out flight with the payload's values as a premise of the entailment (so that the payload may be found by
    unification first and its values shown after). -/
theorem Ofl_of_off' (off : Fin 3 → ℕ) (c : Fin 416) (e : off = offC L c)
    (h : ∀ a, off a + S1x32x128.size a ≤ S26x16384x128.size a) (j : ℕ) (hj : j < 17) (r : ℕ)
    (hr : ∀ a, (![r, 0, 0] : Fin 3 → ℕ) a + S1x32x128.size a ≤ S8x32x128.size a)
    (fo : Buf (Elt F) (oLoc d)) (fb : Buf (Elt F) ((TH d L).loc cc0_scratch1)) (pay : S32x128.Idx → Elt F .f32) :
    (iprop(⌜PayOf m d L c pay⌝ ∗
      Transfers.Flight countersEmb (TH d L) (SemLoc.dma (⟨j, hj⟩ : DmaSem sig)) (default : HIx 1) 131072
        iprop(((((oV).slice (Rect.unit (s := S26x16384x128) off S1x32x128.size h) (fun _ => rfl)).squeeze S32x128 squeezes_S1x32x128_S32x128).view.loc (TH d L)
              ↦[(((oV).slice (Rect.unit (s := S26x16384x128) off S1x32x128.size h) (fun _ => rfl)).squeeze S32x128 squeezes_S1x32x128_S32x128).view.set]{fullShare}
                (((oV).slice (Rect.unit (s := S26x16384x128) off S1x32x128.size h) (fun _ => rfl)).squeeze S32x128 squeezes_S1x32x128_S32x128).view.writes (Elt F) fo
                  [⟨Rect.whole S32x128, pay⟩])
          ∗ ((slotAt r hr).view.loc (TH d L) ↦[(slotAt r hr).view.set]{fullShare} fb))) : sProp 𝕄)
      ⊢ Ofl m d L c j hj r hr := by
  iintro ⟨%hp, H⟩
  iapply (Ofl_of_off m d L off c e h j hj r hr fo fb pay hp)
  iexact H

/-- The written chunk likewise. -/
theorem oDone_off' (off : Fin 3 → ℕ) (c : Fin 416) (e : off = offC L c)
    (h : ∀ a, off a + S1x32x128.size a ≤ S26x16384x128.size a)
    (fo : Buf (Elt F) (oLoc d)) (pay : S32x128.Idx → Elt F .f32) :
    (iprop(⌜PayOf m d L c pay⌝ ∗
      ((((oV).slice (Rect.unit (s := S26x16384x128) off S1x32x128.size h) (fun _ => rfl)).squeeze S32x128 squeezes_S1x32x128_S32x128).view.loc (TH d L)
        ↦[(((oV).slice (Rect.unit (s := S26x16384x128) off S1x32x128.size h) (fun _ => rfl)).squeeze S32x128 squeezes_S1x32x128_S32x128).view.set]{fullShare}
          (((oV).slice (Rect.unit (s := S26x16384x128) off S1x32x128.size h) (fun _ => rfl)).squeeze S32x128 squeezes_S1x32x128_S32x128).view.writes (Elt F) fo
            [⟨Rect.whole S32x128, pay⟩])) : sProp 𝕄)
      ⊢ oPc d L c (out0 m d) := by
  iintro ⟨%hp, H⟩
  iapply (Entails.of_eq (oDone_off m d L off c e h fo pay hp))
  iexact H

/-! ## The same two with the invariant's flights written out (for a goal in which they are unfolded) -/

theorem Gfl_of_off_u (fs : Buf (Elt F) ((TH d L).loc cc0_scratch0)) (t b : ℕ) (hb : b < 17) (r : ℕ)
    (hr : ∀ a, (![r, 0, 0] : Fin 3 → ℕ) a + S1x32x128.size a ≤ S8x32x128.size a) (tok tok' : PosShare TreeShare) (etok : tok' = tok)
    (off : Fin 1 → ℕ) (e : off = ![32 * (ck (8 * (t + 1) + b)).val]) (h : ∀ a, off a + S32.size a ≤ S13312.size a)
    (g : Buf (Elt F) ((TH d L).loc cc0_scratch1)) (pay : S32x128.Idx → Elt F .f32) :
    (iprop(⌜PayOf m d L (ck (8 * (t + 1) + b)) pay⌝ ∗
      Transfers.Flight countersEmb (TH d L) (SemLoc.dma (⟨b, hb⟩ : DmaSem sig)) (default : HIx 1) 131072
        iprop((((slotAt r hr).view.loc (TH d L) ↦[(slotAt r hr).view.set]{fullShare}
                (slotAt r hr).view.writes (Elt F) g [⟨Rect.whole S32x128, pay⟩])
            ∗ (((sV).slice (Rect.unit (s := S13312) off S32.size h) (fun _ => rfl)).view.loc (TH d L)
                ↦[((sV).slice (Rect.unit (s := S13312) off S32.size h) (fun _ => rfl)).view.set]{fullShare} fiOf m d L fs))
          ∗ ((tVw).view.loc (TH d L) ↦[(tVw).view.set]{tok'} m (tLoc d)))) : sProp 𝕄)
      ⊢ iprop(∃ (fc : Buf (Elt F) ((TH d L).loc cc0_scratch1)) (pay : S32x128.Idx → Elt F .f32), ⌜PayOf m d L (ck (8 * (t + 1) + b)) pay⌝ ∗
          ⌜(slotAt r hr).view.read (Elt F) fc = pay⌝ ∗
          Transfers.Flight countersEmb (TH d L) (SemLoc.dma (⟨b, hb⟩ : DmaSem sig)) (default : HIx 1) 131072
            iprop((((slotAt r hr).view.loc (TH d L) ↦[(slotAt r hr).view.set]{fullShare} fc)
                ∗ ((lstC t b).view.loc (TH d L) ↦[(lstC t b).view.set]{fullShare} fiOf m d L fs))
              ∗ ((tVw).view.loc (TH d L) ↦[(tVw).view.set]{tok} m (tLoc d)))) :=
  Gfl_of_off m d L fs t b hb r hr tok tok' etok off e h g pay

theorem Ofl_of_off_u (off : Fin 3 → ℕ) (c : Fin 416) (e : off = offC L c)
    (h : ∀ a, off a + S1x32x128.size a ≤ S26x16384x128.size a) (j : ℕ) (hj : j < 17) (r : ℕ)
    (hr : ∀ a, (![r, 0, 0] : Fin 3 → ℕ) a + S1x32x128.size a ≤ S8x32x128.size a)
    (fo : Buf (Elt F) (oLoc d)) (fb : Buf (Elt F) ((TH d L).loc cc0_scratch1)) (pay : S32x128.Idx → Elt F .f32) :
    (iprop(⌜PayOf m d L c pay⌝ ∗
      Transfers.Flight countersEmb (TH d L) (SemLoc.dma (⟨j, hj⟩ : DmaSem sig)) (default : HIx 1) 131072
        iprop(((((oV).slice (Rect.unit (s := S26x16384x128) off S1x32x128.size h) (fun _ => rfl)).squeeze S32x128 squeezes_S1x32x128_S32x128).view.loc (TH d L)
              ↦[(((oV).slice (Rect.unit (s := S26x16384x128) off S1x32x128.size h) (fun _ => rfl)).squeeze S32x128 squeezes_S1x32x128_S32x128).view.set]{fullShare}
                (((oV).slice (Rect.unit (s := S26x16384x128) off S1x32x128.size h) (fun _ => rfl)).squeeze S32x128 squeezes_S1x32x128_S32x128).view.writes (Elt F) fo
                  [⟨Rect.whole S32x128, pay⟩])
          ∗ ((slotAt r hr).view.loc (TH d L) ↦[(slotAt r hr).view.set]{fullShare} fb))) : sProp 𝕄)
      ⊢ iprop(∃ (fo : Buf (Elt F) (oLoc d)) (fb : Buf (Elt F) ((TH d L).loc cc0_scratch1)) (pay : S32x128.Idx → Elt F .f32), ⌜PayOf m d L c pay⌝ ∗
          Transfers.Flight countersEmb (TH d L) (SemLoc.dma (⟨j, hj⟩ : DmaSem sig)) (default : HIx 1) 131072
            iprop(((oCh L c).view.loc (TH d L) ↦[(oCh L c).view.set]{fullShare} (oCh L c).view.writes (Elt F) fo [⟨Rect.whole S32x128, pay⟩])
              ∗ ((slotAt r hr).view.loc (TH d L) ↦[(slotAt r hr).view.set]{fullShare} fb))) :=
  Ofl_of_off' m d L off c e h j hj r hr fo fb pay

end Cert.Proof.KI

end
-- ==== Proof.KI.Body.lean ====
/-
  One worker's task. The worker fetches its 13312 row numbers into its index scratch, then moves its 416 chunks of 32
  rows through a ring of eight row buffers: the gather of chunk c (rows of the table named by entries [32 c, 32 c + 32) of
  the scratch) lands in buffer c mod 8 and is copied out to chunk c of the output; six gathers are kept in flight, and a
  buffer is gathered into again only after its copy out has been waited for. Each buffer has its own semaphore for
  gathers and its own for copies out, so every semaphore has at most one transfer outstanding.
  What the proof holds: the table as one read share per gather semaphore, the index scratch and the row buffers whole
  (a transfer takes its slice and leaves the rest), and the worker's chunks of the output one by one.
-/
import proofs.«207811_g81140522156160_cont_9to1c4b_295_10_alg».proof.Proof.KI.Close
import proofs.«207811_g81140522156160_cont_9to1c4b_295_10_alg».proof.Proof.KI.Pieces
import proofs.«207811_g81140522156160_cont_9to1c4b_295_10_alg».proof.Proof.KI.Enter
import proofs.«207811_g81140522156160_cont_9to1c4b_295_10_alg».proof.Proof.KI.Trip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg) [FloatOps F]

omit [FloatOps F] in
/-- Every entry of the flattened index array is an entry of the index array. -/
theorem flat_lt (a : IVec S16384x26 32) (h : Cert.Proof.Spec.InRange a) (j : S425984.Idx) : (flatOf a j).toNat < 100000 := by
  unfold flatOf shapeCast transpose
  exact h _

section Tile

variable (d : Dev nD) (L : grid0.Coords)

/-- The tile's seventeen DMA semaphores: eight for the gathers, eight for the copies out, one for the index fetch. -/
def semList : List (SemLoc sig) := [.dma cc0_scratch2.sem, .dma cc0_scratch3.sem, .dma cc0_scratch4.sem, .dma cc0_scratch5.sem, .dma cc0_scratch6.sem, .dma cc0_scratch7.sem, .dma cc0_scratch8.sem, .dma cc0_scratch9.sem, .dma cc0_scratch10.sem, .dma cc0_scratch11.sem, .dma cc0_scratch12.sem, .dma cc0_scratch13.sem, .dma cc0_scratch14.sem, .dma cc0_scratch15.sem, .dma cc0_scratch16.sem, .dma cc0_scratch17.sem, .dma cc0_scoped0.sem]

omit [FloatOps F] in
theorem semList_nodup : (semList : List (SemLoc sig)).Nodup := by decide
omit [FloatOps F] in
theorem semList_scoped : ∀ sm ∈ (semList : List (SemLoc sig)), sm.isScoped .scVector = true := by decide

omit [FloatOps F] in
theorem ownSems0_V :
    (ownSems0 (V d (cV L) (jV L)) : sProp 𝕄)
      = sepOff (fun g => semVal g 0) (semList.map fun sm => ((V d (cV L) (jV L), sm) : GSem nD τ sig))
          (bigSep (ownCells (V d (cV L) (jV L)) \ (semList.map fun sm => ((V d (cV L) (jV L), sm) : GSem nD τ sig)).toFinset) fun g => semVal g 0) := by
  unfold SparseCore.Cfg.ownSems0
  refine bigSep_sepOff _ _ _ (List.Nodup.map (fun a b h => (Prod.mk.inj h).2) semList_nodup) ?_
  intro g hg
  obtain ⟨sm, hsm, rfl⟩ := List.mem_map.mp hg
  exact mem_ownCells.mpr ⟨rfl, semList_scoped sm hsm⟩

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The words of any slice of the index scratch, once the index fetch has landed, name rows of the table: they are
    entries of the flattened index array. -/
theorem list_inb (hpre : PreOK m) (fs : Buf (Elt F) ((V d (cV L) (jV L)).loc cc0_scratch0)) (pay : S13312.Idx → Elt F .i32)
    (hpay : pay = (fSl L).view.read (Elt F) (flat0 m d)) (R : Rect S13312) (hR : ∀ a, R.stride a = 1) :
    ∀ x, (((sV).slice R hR).view.read (Elt F) (View.write (Elt F) (sV).view fs pay Finset.univ) x).toNat
      < S100000x128.size gathers_S100000x128_S32x128.axis := by
  subst hpay; intro x
  rw [View.write_whole_univ]
  rw [show ∀ (g : S13312.Idx → Elt F .i32) j, ((sV).slice R hR).view.read (Elt F) g j = g (((sV).slice R hR).view.emb j) from
    fun g j => (View.read_apply _ _).trans (cast_eq _ _)]
  rw [show ∀ j, (fSl L).view.read (Elt F) (flat0 m d) j = flat0 m d ((fSl L).view.emb j) from fun j => (View.read_apply _ _).trans (cast_eq _ _)]
  exact flat_lt _ (hpre d) _

omit [FloatOps F] in
/-- A unit-stride block depends only on its offsets. -/
theorem unit_congr {s : Shape} {off off' : Fin s.rank → ℕ} {sz : Fin s.rank → ℕ} (e : off = off')
    (h : ∀ a, off a + sz a ≤ s.size a) (h' : ∀ a, off' a + sz a ≤ s.size a) :
    Rect.unit (s := s) off sz h = Rect.unit (s := s) off' sz h' := by
  subst e; rfl

/-- Chunk `k` in the spelling of the straight-line code. -/
abbrev oCh2 (L : grid0.Coords) (r : Fin 16) : Memref sig .scVector .hbm S32x128 .f32 :=
  ((oV).slice (Rect.unit (s := S26x16384x128) (k0_off2 L (k0_off2_at r)) S1x32x128.size (k0_off2_inb L r)) (fun _ => rfl)).squeeze S32x128 squeezes_S1x32x128_S32x128

omit [FloatOps F] in
theorem oCh2_eq (L : grid0.Coords) (r : Fin 16) (k : Fin 416) (e : k0_off2 L (k0_off2_at r) = offC L k) : oCh2 L r = oCh L k := by
  have key : ∀ (off off' : Fin 3 → ℕ) (_ : off = off') (h : ∀ a, off a + S1x32x128.size a ≤ S26x16384x128.size a)
      (h' : ∀ a, off' a + S1x32x128.size a ≤ S26x16384x128.size a),
      (((oV).slice (Rect.unit (s := S26x16384x128) off S1x32x128.size h) (fun _ => rfl)).squeeze S32x128 squeezes_S1x32x128_S32x128
        : Memref sig .scVector .hbm S32x128 .f32)
        = ((oV).slice (Rect.unit (s := S26x16384x128) off' S1x32x128.size h') (fun _ => rfl)).squeeze S32x128 squeezes_S1x32x128_S32x128 := by
    intro off off' e h h'; subst e; rfl
  exact key _ _ e _ _

omit [FloatOps F] in
/-- A chunk of the output held under its number is held under the straight-line code's spelling of it. -/
theorem oPiece2 (L : grid0.Coords) (r : Fin 16) (k : Fin 416) (hk : k = ⟨(k0_off2_at r).toNat, off2_at_lt r⟩) (f : Buf (Elt F) (oLoc d)) :
    (oLoc d ↦[(oCh L k).view.set]{fullShare} f : sProp 𝕄)
      = ((oCh2 L r).view.loc (V d (cV L) (jV L)) ↦[(oCh2 L r).view.set]{fullShare} f) :=
  oPiece_off d (offC L k) (k0_off2 L (k0_off2_at r)) (hk ▸ (off2_eq L r).symm) (offC_inb L k) (k0_off2_inb L r) f

section ExitLemmas
variable (fs : Buf (Elt F) ((TH d L).loc cc0_scratch0))

omit [FloatOps F] in
theorem inv_eq (O : CellTallies nD τ sig (HIx 1)) (W : Waits sig (HIx 1)) (t : ℕ) (u : PUnit) :
    inv m d L fs O W t u =
  iprop(Transfers.MayWaits (TH d L) (default : HIx 1) O
    ∗ Gfl m d L fs t 0 (by decide) 0 inb_S8x32x128_S1x32x128_0_0_0 (Transfers.shareTok (tq (wk L)) 8 (tokc t 0)) ∗ Gfl m d L fs t 1 (by decide) 1 inb_S8x32x128_S1x32x128_1_0_0 (Transfers.shareTok (tq (wk L)) 8 (tokc t 1)) ∗ Gfl m d L fs t 2 (by decide) 2 inb_S8x32x128_S1x32x128_2_0_0 (Transfers.shareTok (tq (wk L)) 8 (tokc t 2))
    ∗ Gfl m d L fs t 3 (by decide) 3 inb_S8x32x128_S1x32x128_3_0_0 (Transfers.shareTok (tq (wk L)) 8 (tokc t 3)) ∗ Gfl m d L fs t 4 (by decide) 4 inb_S8x32x128_S1x32x128_4_0_0 (Transfers.shareTok (tq (wk L)) 8 (tokc t 4)) ∗ Gfl m d L fs t 5 (by decide) 5 inb_S8x32x128_S1x32x128_5_0_0 (Transfers.shareTok (tq (wk L)) 8 (tokc t 5))
    ∗ tokRest m d L (tokc t 0) ∗ tokRest m d L (tokc t 1) ∗ tokRest m d L (tokc t 2) ∗ tokRest m d L (tokc t 3) ∗ tokRest m d L (tokc t 4) ∗ tokRest m d L (tokc t 5)
    ∗ ((tV).view.loc (TH d L) ↦{Transfers.shareTok (tq (wk L)) 8 6} m (tLoc d)) ∗ ((tV).view.loc (TH d L) ↦{Transfers.shareTok (tq (wk L)) 8 7} m (tLoc d))
    ∗ Ofl m d L (ck (8 * (t + 1) - 2)) 14 (by decide) 6 inb_S8x32x128_S1x32x128_6_0_0 ∗ Ofl m d L (ck (8 * (t + 1) - 1)) 15 (by decide) 7 inb_S8x32x128_S1x32x128_7_0_0
    ∗ semVal (cell d L 6) 0 ∗ semVal (cell d L 7) 0
    ∗ semVal (cell d L 8) 0 ∗ semVal (cell d L 9) 0 ∗ semVal (cell d L 10) 0 ∗ semVal (cell d L 11) 0 ∗ semVal (cell d L 12) 0 ∗ semVal (cell d L 13) 0
    ∗ semVal (cell d L 16) 0
    ∗ Sheld m d L fs t
    ∗ Odone m d L t ∗ Ofut m d L t
    ∗ ∃ W', ⌜∀ p ∈ W', p ∈ W ∨ p.2 = none⌝ ∗ owes (TH d L) O W') := rfl

omit [FloatOps F] in
theorem Gfl_eq (t b : ℕ) (hb : b < 17) (r : ℕ) (hr : ∀ a, (![r, 0, 0] : Fin 3 → ℕ) a + S1x32x128.size a ≤ S8x32x128.size a) (tok : PosShare TreeShare) :
    Gfl m d L fs t b hb r hr tok =
  iprop(∃ (fc : Buf (Elt F) ((TH d L).loc cc0_scratch1)) (pay : S32x128.Idx → Elt F .f32), ⌜PayOf m d L (ck (8 * (t + 1) + b)) pay⌝ ∗
    ⌜(slotAt r hr).view.read (Elt F) fc = pay⌝ ∗
    Transfers.Flight countersEmb (TH d L) (SemLoc.dma (⟨b, hb⟩ : DmaSem sig)) (default : HIx 1) 131072
      iprop((((slotAt r hr).view.loc (TH d L) ↦[(slotAt r hr).view.set]{fullShare} fc)
          ∗ ((lstC t b).view.loc (TH d L) ↦[(lstC t b).view.set]{fullShare} fiOf m d L fs))
        ∗ ((tVw).view.loc (TH d L) ↦[(tVw).view.set]{tok} m (tLoc d)))) := rfl

omit [FloatOps F] in
theorem Ofl_eq (c : Fin 416) (j : ℕ) (hj : j < 17) (r : ℕ) (hr : ∀ a, (![r, 0, 0] : Fin 3 → ℕ) a + S1x32x128.size a ≤ S8x32x128.size a) :
    Ofl m d L c j hj r hr =
  iprop(∃ (fo : Buf (Elt F) (oLoc d)) (fb : Buf (Elt F) ((TH d L).loc cc0_scratch1)) (pay : S32x128.Idx → Elt F .f32), ⌜PayOf m d L c pay⌝ ∗
    Transfers.Flight countersEmb (TH d L) (SemLoc.dma (⟨j, hj⟩ : DmaSem sig)) (default : HIx 1) 131072
      iprop(((oCh L c).view.loc (TH d L) ↦[(oCh L c).view.set]{fullShare} (oCh L c).view.writes (Elt F) fo [⟨Rect.whole S32x128, pay⟩])
        ∗ ((slotAt r hr).view.loc (TH d L) ↦[(slotAt r hr).view.set]{fullShare} fb))) := rfl

omit [FloatOps F] in
theorem fut50 : (Finset.univ.filter fun c : Fin 416 => 8 * (50 + 1) ≤ c.val) = ([408, 409, 410, 411, 412, 413, 414, 415] : List (Fin 416)).toFinset := by
  decide

omit [FloatOps F] in
theorem Ofut50 :
    Ofut m d L 50 = iprop((oLoc d ↦[(oCh L 408).view.set]{fullShare} m (oLoc d)) ∗ (oLoc d ↦[(oCh L 409).view.set]{fullShare} m (oLoc d)) ∗ (oLoc d ↦[(oCh L 410).view.set]{fullShare} m (oLoc d)) ∗ (oLoc d ↦[(oCh L 411).view.set]{fullShare} m (oLoc d)) ∗ (oLoc d ↦[(oCh L 412).view.set]{fullShare} m (oLoc d)) ∗ (oLoc d ↦[(oCh L 413).view.set]{fullShare} m (oLoc d)) ∗ (oLoc d ↦[(oCh L 414).view.set]{fullShare} m (oLoc d)) ∗ (oLoc d ↦[(oCh L 415).view.set]{fullShare} m (oLoc d)) ∗ emp) := by
  unfold Ofut
  rw [fut50, bigSep_sepOff (fun c : Fin 416 => (oLoc d ↦[(oCh L c).view.set]{fullShare} m (oLoc d) : sProp 𝕄)) [408, 409, 410, 411, 412, 413, 414, 415] _ (by decide) (fun _ h => List.mem_toFinset.mpr h),
    Finset.sdiff_self, bigSep_empty]
  rfl

omit [FloatOps F] in
/-- The list slices of chunks 414 and 415 out of the held pieces of the index scratch. -/
theorem Sheld50 :
    Sheld m d L fs 50 = iprop(((lstK 414).view.loc (TH d L) ↦[(lstK 414).view.set]{fullShare} fiOf m d L fs)
      ∗ ((lstK 415).view.loc (TH d L) ↦[(lstK 415).view.set]{fullShare} fiOf m d L fs)
      ∗ bigSep ((Finset.univ.filter fun c : Fin 416 => c.val < 8 * (50 + 1) ∨ 8 * (50 + 1) + 6 ≤ c.val) \ ([414, 415] : List (Fin 416)).toFinset)
          fun c : Fin 416 => ((lstK c).view.loc (TH d L) ↦[(lstK c).view.set]{fullShare} fiOf m d L fs : sProp 𝕄)) := by
  unfold Sheld
  exact bigSep_sepOff (fun c : Fin 416 => ((lstK c).view.loc (TH d L) ↦[(lstK c).view.set]{fullShare} fiOf m d L fs : sProp 𝕄)) [414, 415] _ (by decide) (by decide)

omit [FloatOps F] in
/-- A list slice held under one spelling of its offset is held under another. -/
theorem lstPiece_off (off off' : ℕ) (e : off = off') (h : ∀ a, (![off] : Fin 1 → ℕ) a + S32.size a ≤ S13312.size a)
    (h' : ∀ a, (![off'] : Fin 1 → ℕ) a + S32.size a ≤ S13312.size a) (f : Buf (Elt F) ((TH d L).loc cc0_scratch0)) :
    ((lstAt off h).view.loc (TH d L) ↦[(lstAt off h).view.set]{fullShare} f : sProp 𝕄)
      = ((lstAt off' h').view.loc (TH d L) ↦[(lstAt off' h').view.set]{fullShare} f) := by
  subst e; rfl

omit [FloatOps F] in
theorem tdP_eq : tdP m d L = iprop(idxPts d L (flat0 m d) ∗ outPts d L (out0 m d)) := rfl

omit [FloatOps F] in
theorem done50 : (Finset.univ : Finset (Fin 416)) \ ([406, 407, 408, 409, 410, 411, 412, 413, 414, 415] : List (Fin 416)).toFinset
    = Finset.univ.filter fun c : Fin 416 => c.val + 2 < 8 * (50 + 1) := by decide

omit [FloatOps F] in
/-- The worker's output: the ten last chunks, and the chunks below 406. -/
theorem outPts50 :
    (outPts d L (out0 m d) : sProp 𝕄) = iprop((oLoc d ↦[(oCh L 406).view.set]{fullShare} out0 m d) ∗ (oLoc d ↦[(oCh L 407).view.set]{fullShare} out0 m d) ∗ (oLoc d ↦[(oCh L 408).view.set]{fullShare} out0 m d) ∗ (oLoc d ↦[(oCh L 409).view.set]{fullShare} out0 m d) ∗ (oLoc d ↦[(oCh L 410).view.set]{fullShare} out0 m d) ∗ (oLoc d ↦[(oCh L 411).view.set]{fullShare} out0 m d) ∗ (oLoc d ↦[(oCh L 412).view.set]{fullShare} out0 m d) ∗ (oLoc d ↦[(oCh L 413).view.set]{fullShare} out0 m d) ∗ (oLoc d ↦[(oCh L 414).view.set]{fullShare} out0 m d) ∗ (oLoc d ↦[(oCh L 415).view.set]{fullShare} out0 m d)
      ∗ Odone m d L 50) := by
  unfold Odone
  rw [← done50]
  exact bigSep_sepOff (fun k : Fin 416 => (oLoc d ↦[(oCh L k).view.set]{fullShare} out0 m d : sProp 𝕄)) [406, 407, 408, 409, 410, 411, 412, 413, 414, 415] Finset.univ
    (by decide) (fun _ _ => Finset.mem_univ _)

omit [FloatOps F] in
/-- Reading back one whole-block write gives its payload. -/
theorem xread_writes_whole {κ : Kind} {sp : Space} (v : View sig κ sp S32x128 .f32) (f : v.ty.Contents (Elt F)) (w : S32x128.Idx → Elt F .f32) :
    v.read (Elt F) (v.writes (Elt F) f [⟨Rect.whole S32x128, w⟩]) = w := by
  funext x
  have h := View.read_writes_cons_emb v f (Rect.whole S32x128) w [] x
  rwa [Rect.emb_whole_apply] at h

omit [FloatOps F] in
/-- A chunk of the output written whole with a payload known by its values holds the output function. -/
theorem chunk_written (k : Fin 416) (fo : Buf (Elt F) (oLoc d)) (pay : S32x128.Idx → Elt F .f32) (hp : PayOf m d L k pay) :
    ((oCh L k).view.loc (TH d L) ↦[(oCh L k).view.set]{fullShare} (oCh L k).view.writes (Elt F) fo [⟨Rect.whole S32x128, pay⟩] : sProp 𝕄)
      = (oLoc d ↦[(oCh L k).view.set]{fullShare} out0 m d) := by
  show (oLoc d ↦[(oCh L k).view.set]{fullShare} (oCh L k).view.writes (Elt F) fo [⟨Rect.whole S32x128, pay⟩] : sProp 𝕄) = _
  refine pointsTo_congr fun i hi => ?_
  obtain ⟨x, -, rfl⟩ := Finset.mem_map.mp hi
  have h := congrFun (xread_writes_whole (F := F) (oCh L k).view fo pay) x
  exact (((View.read_apply _ _).trans (cast_eq _ _)).symm.trans h).trans (hp x)

omit [FloatOps F] in
/-- The same for a chunk in the spelling of the straight-line code. -/
theorem chunk_written2 (r : Fin 16) (k : Fin 416) (hk : k = ⟨(k0_off2_at r).toNat, off2_at_lt r⟩) (fo : Buf (Elt F) (oLoc d))
    (pay : S32x128.Idx → Elt F .f32) (hp : PayOf m d L k pay) :
    ((oCh2 L r).view.loc (TH d L) ↦[(oCh2 L r).view.set]{fullShare} (oCh2 L r).view.writes (Elt F) fo [⟨Rect.whole S32x128, pay⟩] : sProp 𝕄)
      = (oLoc d ↦[(oCh L k).view.set]{fullShare} out0 m d) := by
  have key : ∀ (off off' : Fin 3 → ℕ) (_ : off = off') (h : ∀ a, off a + S1x32x128.size a ≤ S26x16384x128.size a)
      (h' : ∀ a, off' a + S1x32x128.size a ≤ S26x16384x128.size a),
      ((((oV).slice (Rect.unit (s := S26x16384x128) off S1x32x128.size h) (fun _ => rfl)).squeeze S32x128 squeezes_S1x32x128_S32x128).view.loc (TH d L)
          ↦[(((oV).slice (Rect.unit (s := S26x16384x128) off S1x32x128.size h) (fun _ => rfl)).squeeze S32x128 squeezes_S1x32x128_S32x128).view.set]{fullShare}
          (((oV).slice (Rect.unit (s := S26x16384x128) off S1x32x128.size h) (fun _ => rfl)).squeeze S32x128 squeezes_S1x32x128_S32x128).view.writes (Elt F) fo
            [⟨Rect.whole S32x128, pay⟩] : sProp 𝕄)
        = ((((oV).slice (Rect.unit (s := S26x16384x128) off' S1x32x128.size h') (fun _ => rfl)).squeeze S32x128 squeezes_S1x32x128_S32x128).view.loc (TH d L)
          ↦[(((oV).slice (Rect.unit (s := S26x16384x128) off' S1x32x128.size h') (fun _ => rfl)).squeeze S32x128 squeezes_S1x32x128_S32x128).view.set]{fullShare}
          (((oV).slice (Rect.unit (s := S26x16384x128) off' S1x32x128.size h') (fun _ => rfl)).squeeze S32x128 squeezes_S1x32x128_S32x128).view.writes (Elt F) fo
            [⟨Rect.whole S32x128, pay⟩]) := by
    intro off off' e h h'; subst e; rfl
  exact (key (k0_off2 L (k0_off2_at r)) (offC L k) (by subst hk; exact off2_eq L r) (k0_off2_inb L r) (offC_inb L k)).trans
    (chunk_written m d L k fo pay hp)

omit [FloatOps F] in
/-- A payload read back from a buffer it was written into whole is known by the same values. -/
theorem payOf_slot {κ : Kind} {sp : Space} (k : Fin 416) (v : View sig κ sp S32x128 .f32) (fb : v.ty.Contents (Elt F))
    (pay : S32x128.Idx → Elt F .f32) (hp : PayOf m d L k pay) :
    PayOf m d L k (ReadAs.same.apply (v.read (Elt F) (v.write (Elt F) fb pay Finset.univ))) := by
  show PayOf m d L k (v.read (Elt F) (v.write (Elt F) fb pay Finset.univ))
  rw [View.read_write_univ]; exact hp

omit [FloatOps F] in
theorem payOf_slot_writes {κ : Kind} {sp : Space} (k : Fin 416) (v : View sig κ sp S32x128 .f32) (fb : v.ty.Contents (Elt F))
    (pay : S32x128.Idx → Elt F .f32) (hp : PayOf m d L k pay) :
    PayOf m d L k (ReadAs.same.apply (v.read (Elt F) (v.writes (Elt F) fb [⟨Rect.whole S32x128, pay⟩]))) := by
  show PayOf m d L k (v.read (Elt F) (v.writes (Elt F) fb [⟨Rect.whole S32x128, pay⟩]))
  rw [xread_writes_whole]; exact hp

omit [FloatOps F] in
/-- The table read through the gathers' view of it is the table. -/
theorem xtVw_read (g : S100000x128.Idx → Elt F .f32) : (tVw).view.read (Elt F) g = g := by
  funext x
  refine ((View.read_apply _ _).trans (cast_eq _ _)).trans (congrArg g (funext fun a => Fin.ext ?_))
  show ((Rect.unit (s := S100000x128) ![0, 0] S100000x128.size inb_S100000x128_S100000x128_0_0).emb x a : ℕ) = (x a).val
  rw [Rect.emb_apply]
  match a with
  | ⟨0, _⟩ => show 0 + 1 * (x 0).val = (x 0).val; omega
  | ⟨1, _⟩ => show 0 + 1 * (x 1).val = (x 1).val; omega

/-- A gather through the 32 entries of the index scratch at offset 32 k lands the output function on chunk k. -/
theorem payOf_gather (k : Fin 416) (off : Fin 1 → ℕ) (hoff : off 0 = 32 * k.val) (h : ∀ a, off a + S32.size a ≤ S13312.size a)
    (hn : S32.numel = S32x128.size gathers_S100000x128_S32x128.axis')
    (hin : ∀ x, (((sV).slice (Rect.unit (s := S13312) off S32.size h) (fun _ => rfl)).view.read (Elt F) (fiOf m d L fs) x).toNat
      < S100000x128.size gathers_S100000x128_S32x128.axis) :
    PayOf m d L k (SparseCore.gatherPayload (F := F) gathers_S100000x128_S32x128 ((tVw).view.read (Elt F) (m (tLoc d)))
      (SparseCore.rows (F := F) (((sV).slice (Rect.unit (s := S13312) off S32.size h) (fun _ => rfl)).view.read (Elt F) (fiOf m d L fs)) hn hin)) := by
  intro x
  rw [xtVw_read]
  refine payload_eq (m (tLoc d)) (flat0 m d) _ L k (fun y => ?_) hn hin x
  rw [slice_read_off, fetch_read]
  refine fl_congr _ _ _ ?_
  show 13312 * wk L + (off 0 + (y 0).val) = 13312 * wk L + 32 * k.val + (y 0).val
  rw [hoff]; omega

omit [FloatOps F] in
/-- Two points-tos at one share join: were their element sets not disjoint they would be contradictory. -/
theorem pointsTo_join_any {ℓ : Loc nD τ sig} (A B : Finset (Idx ℓ)) (q : PosShare TreeShare) (f g : Buf (Elt F) ℓ) :
    iprop((ℓ ↦[A]{q} f) ∗ ℓ ↦[B]{q} g) ⊢ (iprop(∃ h, ℓ ↦[A ∪ B]{q} h) : sProp 𝕄) := by
  by_cases hd : Disjoint A B
  · iintro H
    iexists (B.piecewise g f)
    iapply (pointsTo_join hd); iexact H
  · obtain ⟨i, hiA, hiB⟩ := Finset.not_disjoint_iff.mp hd
    exact (pointsTo_overlap_false hiA hiB).trans Laws.false_elim

omit [FloatOps F] in
/-- A buffer held but for eight element sets, and those eight sets, is the buffer whole. -/
theorem join_rows {ℓ : Loc nD τ sig} (S0 S1 S2 S3 S4 S5 S6 S7 : Finset (Idx ℓ)) (f8 f0 f1 f2 f3 f4 f5 f6 f7 : Buf (Elt F) ℓ) :
    iprop((ℓ ↦[((((((((Finset.univ \ S0) \ S1) \ S2) \ S3) \ S6) \ S4) \ S7) \ S5)]{fullShare} f8) ∗ (ℓ ↦[S0]{fullShare} f0) ∗ (ℓ ↦[S1]{fullShare} f1)
        ∗ (ℓ ↦[S2]{fullShare} f2) ∗ (ℓ ↦[S3]{fullShare} f3) ∗ (ℓ ↦[S4]{fullShare} f4) ∗ (ℓ ↦[S5]{fullShare} f5) ∗ (ℓ ↦[S6]{fullShare} f6) ∗ (ℓ ↦[S7]{fullShare} f7))
      ⊢ (iprop(∃ h, ℓ ↦{fullShare} h) : sProp 𝕄) := by
  iintro ⟨HR, H0, H1, H2, H3, H4, H5, H6, H7⟩
  ihave J := (pointsTo_join_any (F := F) _ _ _ _ _) $$ [HR H0]
  · isplitl [HR] <;> iassumption
  icases J with ⟨%h0, J⟩
  ihave J := (pointsTo_join_any (F := F) _ _ _ _ _) $$ [J H1]
  · isplitl [J] <;> iassumption
  icases J with ⟨%h1, J⟩
  ihave J := (pointsTo_join_any (F := F) _ _ _ _ _) $$ [J H2]
  · isplitl [J] <;> iassumption
  icases J with ⟨%h2, J⟩
  ihave J := (pointsTo_join_any (F := F) _ _ _ _ _) $$ [J H3]
  · isplitl [J] <;> iassumption
  icases J with ⟨%h3, J⟩
  ihave J := (pointsTo_join_any (F := F) _ _ _ _ _) $$ [J H4]
  · isplitl [J] <;> iassumption
  icases J with ⟨%h4, J⟩
  ihave J := (pointsTo_join_any (F := F) _ _ _ _ _) $$ [J H5]
  · isplitl [J] <;> iassumption
  icases J with ⟨%h5, J⟩
  ihave J := (pointsTo_join_any (F := F) _ _ _ _ _) $$ [J H6]
  · isplitl [J] <;> iassumption
  icases J with ⟨%h6, J⟩
  ihave J := (pointsTo_join_any (F := F) _ _ _ _ _) $$ [J H7]
  · isplitl [J] <;> iassumption
  icases J with ⟨%h7, J⟩
  iexists h7
  have e : ((((((((((((((((Finset.univ \ S0) \ S1) \ S2) \ S3) \ S6) \ S4) \ S7) \ S5) ∪ S0) ∪ S1) ∪ S2) ∪ S3) ∪ S4) ∪ S5) ∪ S6) ∪ S7) = (Finset.univ : Finset (Idx ℓ)) := by
    ext i
    simp only [Finset.mem_union, Finset.mem_sdiff, Finset.mem_univ, true_and, iff_true]
    tauto
  rw [e]
  iexact J

omit [FloatOps F] in
/-- Whoever owes nothing more for a semaphore may add a wait on it. -/
theorem xwaits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

omit [FloatOps F] in
/-- A buffer that reads back as a payload known by its values: what is read off it is known by the same values. -/
theorem payOf_read {κ : Kind} {sp : Space} (k : Fin 416) (v : View sig κ sp S32x128 .f32) (fc : v.ty.Contents (Elt F))
    (pay : S32x128.Idx → Elt F .f32) (hr : v.read (Elt F) fc = pay) (hp : PayOf m d L k pay) :
    PayOf m d L k (ReadAs.same.apply (v.read (Elt F) fc)) := by
  subst hr; exact hp

omit [FloatOps F] in
/-- A chunk written whole, in the straight-line code's spelling, with a payload known by its values. -/
theorem chunk_done2 (r : Fin 16) (k : Fin 416) (hk : k = ⟨(k0_off2_at r).toNat, off2_at_lt r⟩) (fo : Buf (Elt F) (oLoc d))
    (pay : S32x128.Idx → Elt F .f32) :
    iprop(((oCh2 L r).view.loc (TH d L) ↦[(oCh2 L r).view.set]{fullShare} (oCh2 L r).view.writes (Elt F) fo [⟨Rect.whole S32x128, pay⟩])
        ∗ ⌜PayOf m d L k pay⌝)
      ⊢ (oLoc d ↦[(oCh L k).view.set]{fullShare} out0 m d : sProp 𝕄) := by
  iintro ⟨H, %hp⟩
  iapply (Entails.of_eq (chunk_written2 m d L r k hk fo pay hp)); iexact H

omit [FloatOps F] in
theorem rest50 : (Finset.univ : Finset (Fin 416)) \ ([414, 415, 408, 409, 410, 411, 412, 413] : List (Fin 416)).toFinset
    = (Finset.univ.filter fun c : Fin 416 => c.val < 8 * (50 + 1) ∨ 8 * (50 + 1) + 6 ≤ c.val) \ ([414, 415] : List (Fin 416)).toFinset := by decide

omit [FloatOps F] in
/-- The index scratch whole is its eight last list slices and the pieces held through the last trip. -/
theorem sAll50 (f : Buf (Elt F) ((TH d L).loc cc0_scratch0)) :
    ((sV).view.loc (TH d L) ↦{fullShare} f : sProp 𝕄)
      = iprop(((lstK 414).view.loc (TH d L) ↦[(lstK 414).view.set]{fullShare} f) ∗ ((lstK 415).view.loc (TH d L) ↦[(lstK 415).view.set]{fullShare} f)
        ∗ ((lstK 408).view.loc (TH d L) ↦[(lstK 408).view.set]{fullShare} f) ∗ ((lstK 409).view.loc (TH d L) ↦[(lstK 409).view.set]{fullShare} f)
        ∗ ((lstK 410).view.loc (TH d L) ↦[(lstK 410).view.set]{fullShare} f) ∗ ((lstK 411).view.loc (TH d L) ↦[(lstK 411).view.set]{fullShare} f)
        ∗ ((lstK 412).view.loc (TH d L) ↦[(lstK 412).view.set]{fullShare} f) ∗ ((lstK 413).view.loc (TH d L) ↦[(lstK 413).view.set]{fullShare} f)
        ∗ bigSep ((Finset.univ.filter fun c : Fin 416 => c.val < 8 * (50 + 1) ∨ 8 * (50 + 1) + 6 ≤ c.val) \ ([414, 415] : List (Fin 416)).toFinset)
            fun c : Fin 416 => ((lstK c).view.loc (TH d L) ↦[(lstK c).view.set]{fullShare} f : sProp 𝕄)) := by
  rw [sPts_all d L fullShare f, ← rest50]
  exact bigSep_sepOff (fun c : Fin 416 => ((lstK c).view.loc (TH d L) ↦[(lstK c).view.set]{fullShare} f : sProp 𝕄)) [414, 415, 408, 409, 410, 411, 412, 413] Finset.univ
    (by decide) (fun _ _ => Finset.mem_univ _)

omit [FloatOps F] in
/-- The list slice of the b-th gather in flight at the exit, under its chunk's number. -/
theorem lstC50 (b : ℕ) (c : Fin 416) (hc : ck (8 * (50 + 1) + b) = c) (f : Buf (Elt F) ((TH d L).loc cc0_scratch0)) :
    ((lstC 50 b).view.loc (TH d L) ↦[(lstC 50 b).view.set]{fullShare} f : sProp 𝕄) = ((lstK c).view.loc (TH d L) ↦[(lstK c).view.set]{fullShare} f) := by
  subst hc; rfl

end ExitLemmas

set_option maxHeartbeats 4000000 in
/-- The task of one worker. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goP m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) fV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          fun _ => iprop(tdP m d L
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  simp only [sepOff, semList, List.map]
  unfold goP
  iintro ⟨#Hlv, -, ⟨Ht, Hi, Ho⟩, ⟨⟨%fs, Hs⟩, ⟨%fr, Hr⟩, Hbufs⟩, ⟨Hm0, Hm1, Hm2, Hm3, Hm4, Hm5, Hm6, Hm7, Hm8, Hm9, Hm10, Hm11, Hm12, Hm13, Hm14, Hm15, Hm16, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the arrays as the tile addresses them
  ihave Hi' := (Entails.of_eq (show (fLoc d ↦[(fSl L).view.set]{fullShare} flat0 m d : sProp 𝕄)
      = ((fSl L).view.loc (V d (cV L) (jV L)) ↦[(fSl L).view.set]{fullShare} flat0 m d) from rfl)) $$ Hi
  ihave Hs' := (Entails.of_eq (show ((V d (cV L) (jV L)).loc cc0_scratch0 ↦{fullShare} fs : sProp 𝕄)
      = ((sV).view.loc (V d (cV L) (jV L)) ↦{fullShare} fs) from rfl)) $$ Hs
  ihave Hr' := (Entails.of_eq (show ((V d (cV L) (jV L)).loc cc0_scratch1 ↦{fullShare} fr : sProp 𝕄)
      = ((rV).view.loc (V d (cV L) (jV L)) ↦{fullShare} fr) from rfl)) $$ Hr
  -- the table: one read token per gather semaphore
  ihave Htt := (Transfers.pointsTo_toks_split (ℓ := tLoc d) (S := Finset.univ) (f := m (tLoc d)) (tq (wk L)) 8) $$ Ht
  icases Htt with ⟨Htr, Htoks⟩
  ihave Htoks' := (Entails.of_eq (bigSep_fin8 _)) $$ Htoks
  icases Htoks' with ⟨Ht0, Ht1, Ht2, Ht3, Ht4, Ht5, Ht6, Ht7⟩
  ihave Ht0' := (Entails.of_eq (show (tLoc d ↦{Transfers.shareTok (tq (wk L)) 8 0} m (tLoc d) : sProp 𝕄)
      = ((tV).view.loc (V d (cV L) (jV L)) ↦{Transfers.shareTok (tq (wk L)) 8 0} m (tLoc d)) from rfl)) $$ Ht0
  ihave Ht1' := (Entails.of_eq (show (tLoc d ↦{Transfers.shareTok (tq (wk L)) 8 1} m (tLoc d) : sProp 𝕄)
      = ((tV).view.loc (V d (cV L) (jV L)) ↦{Transfers.shareTok (tq (wk L)) 8 1} m (tLoc d)) from rfl)) $$ Ht1
  ihave Ht2' := (Entails.of_eq (show (tLoc d ↦{Transfers.shareTok (tq (wk L)) 8 2} m (tLoc d) : sProp 𝕄)
      = ((tV).view.loc (V d (cV L) (jV L)) ↦{Transfers.shareTok (tq (wk L)) 8 2} m (tLoc d)) from rfl)) $$ Ht2
  ihave Ht3' := (Entails.of_eq (show (tLoc d ↦{Transfers.shareTok (tq (wk L)) 8 3} m (tLoc d) : sProp 𝕄)
      = ((tV).view.loc (V d (cV L) (jV L)) ↦{Transfers.shareTok (tq (wk L)) 8 3} m (tLoc d)) from rfl)) $$ Ht3
  ihave Ht4' := (Entails.of_eq (show (tLoc d ↦{Transfers.shareTok (tq (wk L)) 8 4} m (tLoc d) : sProp 𝕄)
      = ((tV).view.loc (V d (cV L) (jV L)) ↦{Transfers.shareTok (tq (wk L)) 8 4} m (tLoc d)) from rfl)) $$ Ht4
  ihave Ht5' := (Entails.of_eq (show (tLoc d ↦{Transfers.shareTok (tq (wk L)) 8 5} m (tLoc d) : sProp 𝕄)
      = ((tV).view.loc (V d (cV L) (jV L)) ↦{Transfers.shareTok (tq (wk L)) 8 5} m (tLoc d)) from rfl)) $$ Ht5
  ihave Ht6' := (Entails.of_eq (show (tLoc d ↦{Transfers.shareTok (tq (wk L)) 8 6} m (tLoc d) : sProp 𝕄)
      = ((tV).view.loc (V d (cV L) (jV L)) ↦{Transfers.shareTok (tq (wk L)) 8 6} m (tLoc d)) from rfl)) $$ Ht6
  ihave Ht7' := (Entails.of_eq (show (tLoc d ↦{Transfers.shareTok (tq (wk L)) 8 7} m (tLoc d) : sProp 𝕄)
      = ((tV).view.loc (V d (cV L) (jV L)) ↦{Transfers.shareTok (tq (wk L)) 8 7} m (tLoc d)) from rfl)) $$ Ht7
  sl_exec
  have hin0 : ∀ x, ((sV.slice (Rect.unit (s := S13312) ![0] S32.size inb_S13312_S32_0) (fun _ => rfl)).view.read (Elt F)
      (View.write (Elt F) sV.view fs (tile_body.sl.dma0 m d L) Finset.univ) x).toNat < S100000x128.size gathers_S100000x128_S32x128.axis :=
    list_inb m d L hpre fs _ rfl _ _
  have hin1 : ∀ x, ((sV.slice (Rect.unit (s := S13312) ![32] S32.size inb_S13312_S32_32) (fun _ => rfl)).view.read (Elt F)
      (View.write (Elt F) sV.view fs (tile_body.sl.dma0 m d L) Finset.univ) x).toNat < S100000x128.size gathers_S100000x128_S32x128.axis :=
    list_inb m d L hpre fs _ rfl _ _
  have hin2 : ∀ x, ((sV.slice (Rect.unit (s := S13312) ![64] S32.size inb_S13312_S32_64) (fun _ => rfl)).view.read (Elt F)
      (View.write (Elt F) sV.view fs (tile_body.sl.dma0 m d L) Finset.univ) x).toNat < S100000x128.size gathers_S100000x128_S32x128.axis :=
    list_inb m d L hpre fs _ rfl _ _
  have hin3 : ∀ x, ((sV.slice (Rect.unit (s := S13312) ![96] S32.size inb_S13312_S32_96) (fun _ => rfl)).view.read (Elt F)
      (View.write (Elt F) sV.view fs (tile_body.sl.dma0 m d L) Finset.univ) x).toNat < S100000x128.size gathers_S100000x128_S32x128.axis :=
    list_inb m d L hpre fs _ rfl _ _
  have hin4 : ∀ x, ((sV.slice (Rect.unit (s := S13312) ![128] S32.size inb_S13312_S32_128) (fun _ => rfl)).view.read (Elt F)
      (View.write (Elt F) sV.view fs (tile_body.sl.dma0 m d L) Finset.univ) x).toNat < S100000x128.size gathers_S100000x128_S32x128.axis :=
    list_inb m d L hpre fs _ rfl _ _
  have hin5 : ∀ x, ((sV.slice (Rect.unit (s := S13312) ![160] S32.size inb_S13312_S32_160) (fun _ => rfl)).view.read (Elt F)
      (View.write (Elt F) sV.view fs (tile_body.sl.dma0 m d L) Finset.univ) x).toNat < S100000x128.size gathers_S100000x128_S32x128.axis :=
    list_inb m d L hpre fs _ rfl _ _
  have hin6 : ∀ x, ((sV.slice (Rect.unit (s := S13312) ![192] S32.size inb_S13312_S32_192) (fun _ => rfl)).view.read (Elt F)
      (View.write (Elt F) sV.view fs (tile_body.sl.dma0 m d L) Finset.univ) x).toNat < S100000x128.size gathers_S100000x128_S32x128.axis :=
    list_inb m d L hpre fs _ rfl _ _
  have hin7 : ∀ x, ((sV.slice (Rect.unit (s := S13312) ![224] S32.size inb_S13312_S32_224) (fun _ => rfl)).view.read (Elt F)
      (View.write (Elt F) sV.view fs (tile_body.sl.dma0 m d L) Finset.univ) x).toNat < S100000x128.size gathers_S100000x128_S32x128.axis :=
    list_inb m d L hpre fs _ rfl _ _
  have hin8 : ∀ x, ((sV.slice (Rect.unit (s := S13312) ![256] S32.size inb_S13312_S32_256) (fun _ => rfl)).view.read (Elt F)
      (View.write (Elt F) sV.view fs (tile_body.sl.dma0 m d L) Finset.univ) x).toNat < S100000x128.size gathers_S100000x128_S32x128.axis :=
    list_inb m d L hpre fs _ rfl _ _
  have hin9 : ∀ x, ((sV.slice (Rect.unit (s := S13312) ![288] S32.size inb_S13312_S32_288) (fun _ => rfl)).view.read (Elt F)
      (View.write (Elt F) sV.view fs (tile_body.sl.dma0 m d L) Finset.univ) x).toNat < S100000x128.size gathers_S100000x128_S32x128.axis :=
    list_inb m d L hpre fs _ rfl _ _
  have hin10 : ∀ x, ((sV.slice (Rect.unit (s := S13312) ![320] S32.size inb_S13312_S32_320) (fun _ => rfl)).view.read (Elt F)
      (View.write (Elt F) sV.view fs (tile_body.sl.dma0 m d L) Finset.univ) x).toNat < S100000x128.size gathers_S100000x128_S32x128.axis :=
    list_inb m d L hpre fs _ rfl _ _
  have hin11 : ∀ x, ((sV.slice (Rect.unit (s := S13312) ![352] S32.size inb_S13312_S32_352) (fun _ => rfl)).view.read (Elt F)
      (View.write (Elt F) sV.view fs (tile_body.sl.dma0 m d L) Finset.univ) x).toNat < S100000x128.size gathers_S100000x128_S32x128.axis :=
    list_inb m d L hpre fs _ rfl _ _
  have hin12 : ∀ x, ((sV.slice (Rect.unit (s := S13312) ![384] S32.size inb_S13312_S32_384) (fun _ => rfl)).view.read (Elt F)
      (View.write (Elt F) sV.view fs (tile_body.sl.dma0 m d L) Finset.univ) x).toNat < S100000x128.size gathers_S100000x128_S32x128.axis :=
    list_inb m d L hpre fs _ rfl _ _
  have hin13 : ∀ x, ((sV.slice (Rect.unit (s := S13312) ![416] S32.size inb_S13312_S32_416) (fun _ => rfl)).view.read (Elt F)
      (View.write (Elt F) sV.view fs (tile_body.sl.dma0 m d L) Finset.univ) x).toNat < S100000x128.size gathers_S100000x128_S32x128.axis :=
    list_inb m d L hpre fs _ rfl _ _
  have hin14 : ∀ x, ((sV.slice (Rect.unit (s := S13312) ![13248] S32.size inb_S13312_S32_13248) (fun _ => rfl)).view.read (Elt F)
      (View.write (Elt F) sV.view fs (tile_body.sl.dma0 m d L) Finset.univ) x).toNat < S100000x128.size gathers_S100000x128_S32x128.axis :=
    list_inb m d L hpre fs _ rfl _ _
  have hin15 : ∀ x, ((sV.slice (Rect.unit (s := S13312) ![13280] S32.size inb_S13312_S32_13280) (fun _ => rfl)).view.read (Elt F)
      (View.write (Elt F) sV.view fs (tile_body.sl.dma0 m d L) Finset.univ) x).toNat < S100000x128.size gathers_S100000x128_S32x128.axis :=
    list_inb m d L hpre fs _ rfl _ _
  sl_exec

  -- the first eight chunks of the output, in the straight-line code's spelling
  have eO : (outPts d L (m (oLoc d)) : sProp 𝕄)
      = iprop((oLoc d ↦[(oCh L 0).view.set]{fullShare} m (oLoc d)) ∗ (oLoc d ↦[(oCh L 1).view.set]{fullShare} m (oLoc d)) ∗ (oLoc d ↦[(oCh L 2).view.set]{fullShare} m (oLoc d)) ∗ (oLoc d ↦[(oCh L 3).view.set]{fullShare} m (oLoc d)) ∗ (oLoc d ↦[(oCh L 4).view.set]{fullShare} m (oLoc d)) ∗ (oLoc d ↦[(oCh L 5).view.set]{fullShare} m (oLoc d)) ∗ (oLoc d ↦[(oCh L 6).view.set]{fullShare} m (oLoc d)) ∗ (oLoc d ↦[(oCh L 7).view.set]{fullShare} m (oLoc d))
          ∗ bigSep ((Finset.univ : Finset (Fin 416)) \ ([0, 1, 2, 3, 4, 5, 6, 7] : List (Fin 416)).toFinset)
            fun k : Fin 416 => (oLoc d ↦[(oCh L k).view.set]{fullShare} m (oLoc d) : sProp 𝕄)) :=
    bigSep_sepOff (fun k : Fin 416 => (oLoc d ↦[(oCh L k).view.set]{fullShare} m (oLoc d) : sProp 𝕄)) [0, 1, 2, 3, 4, 5, 6, 7] Finset.univ
      (by decide) (fun _ _ => Finset.mem_univ _)
  ihave Ho' := (Entails.of_eq eO) $$ Ho
  icases Ho' with ⟨Ho0, Ho1, Ho2, Ho3, Ho4, Ho5, Ho6, Ho7, Horest⟩
  ihave Ho0' := (Entails.of_eq (oPiece2 (F := F) d L 0 0 rfl (m (oLoc d)))) $$ Ho0
  ihave Ho1' := (Entails.of_eq (oPiece2 (F := F) d L 1 1 rfl (m (oLoc d)))) $$ Ho1
  ihave Ho2' := (Entails.of_eq (oPiece2 (F := F) d L 2 2 rfl (m (oLoc d)))) $$ Ho2
  ihave Ho3' := (Entails.of_eq (oPiece2 (F := F) d L 3 3 rfl (m (oLoc d)))) $$ Ho3
  ihave Ho4' := (Entails.of_eq (oPiece2 (F := F) d L 4 4 rfl (m (oLoc d)))) $$ Ho4
  ihave Ho5' := (Entails.of_eq (oPiece2 (F := F) d L 5 5 rfl (m (oLoc d)))) $$ Ho5
  ihave Ho6' := (Entails.of_eq (oPiece2 (F := F) d L 6 6 rfl (m (oLoc d)))) $$ Ho6
  ihave Ho7' := (Entails.of_eq (oPiece2 (F := F) d L 7 7 rfl (m (oLoc d)))) $$ Ho7
  -- the prologue's six gathers and the eight unrolled steps: at the loop's head the gathers of chunks 8 to 13 are in flight
  -- into buffers 0 to 5, the copies out of chunks 6 and 7 from buffers 6 and 7, chunks 0 to 5 are written
  sl_exec
  sl_for (inv m d L fs O W) $$ [Hmw Hm0 Hm1 Hm2 Hm3 Hm4 Hm5 Ht0' Ht1' Ht2' Ht3' Ht4' Ht5' Ht6' Ht7' Hm14 Hm15 Hm6 Hm7 Hm8 Hm9 Hm10 Hm11 Hm12 Hm13 Hm16 Hs' Ho0' Ho1' Ho2' Ho3' Ho4' Ho5' Horest HO]
  case region =>
    -- one trip: from the invariant before it to the invariant after it
    intro t _
    have ht : t.val < 50 := trips_eq ▸ t.isLt
    unfold inv Gfl Ofl
    iintro ⟨Hmw, ⟨%fc0, %pay0, %hp0, %hr0, Hm0⟩, ⟨%fc1, %pay1, %hp1, %hr1, Hm1⟩, ⟨%fc2, %pay2, %hp2, %hr2, Hm2⟩, ⟨%fc3, %pay3, %hp3, %hr3, Hm3⟩, ⟨%fc4, %pay4, %hp4, %hr4, Hm4⟩, ⟨%fc5, %pay5, %hp5, %hr5, Hm5⟩, Ht0', Ht1', Ht2', Ht3', Ht4', Ht5', Ht6', Ht7', ⟨%fo6, %fb6, %pay6, %hp6, Hm14⟩, ⟨%fo7, %fb7, %pay7, %hp7, Hm15⟩, Hm6, Hm7, Hm8, Hm9, Hm10, Hm11, Hm12, Hm13, Hm16, Hs', Hod, Hof, %W', %hW', HO⟩
    -- the eight list slices the trip gathers by name rows of the table
    have hq0 : ∀ x, ((sV.slice (Rect.unit (s := S13312) (k0_off5 t 0#32) S32.size (k0_off5_inb t 0)) (fun _ => rfl)).view.read (Elt F)
        (fiOf m d L fs) x).toNat < S100000x128.size gathers_S100000x128_S32x128.axis :=
      list_inb m d L hpre fs _ rfl _ _
    have hq1 : ∀ x, ((sV.slice (Rect.unit (s := S13312) (k0_off5 t 1#32) S32.size (k0_off5_inb t 1)) (fun _ => rfl)).view.read (Elt F)
        (fiOf m d L fs) x).toNat < S100000x128.size gathers_S100000x128_S32x128.axis :=
      list_inb m d L hpre fs _ rfl _ _
    have hq2 : ∀ x, ((sV.slice (Rect.unit (s := S13312) (k0_off5 t 2#32) S32.size (k0_off5_inb t 2)) (fun _ => rfl)).view.read (Elt F)
        (fiOf m d L fs) x).toNat < S100000x128.size gathers_S100000x128_S32x128.axis :=
      list_inb m d L hpre fs _ rfl _ _
    have hq3 : ∀ x, ((sV.slice (Rect.unit (s := S13312) (k0_off5 t 3#32) S32.size (k0_off5_inb t 3)) (fun _ => rfl)).view.read (Elt F)
        (fiOf m d L fs) x).toNat < S100000x128.size gathers_S100000x128_S32x128.axis :=
      list_inb m d L hpre fs _ rfl _ _
    have hq4 : ∀ x, ((sV.slice (Rect.unit (s := S13312) (k0_off5 t 4#32) S32.size (k0_off5_inb t 4)) (fun _ => rfl)).view.read (Elt F)
        (fiOf m d L fs) x).toNat < S100000x128.size gathers_S100000x128_S32x128.axis :=
      list_inb m d L hpre fs _ rfl _ _
    have hq5 : ∀ x, ((sV.slice (Rect.unit (s := S13312) (k0_off5 t 5#32) S32.size (k0_off5_inb t 5)) (fun _ => rfl)).view.read (Elt F)
        (fiOf m d L fs) x).toNat < S100000x128.size gathers_S100000x128_S32x128.axis :=
      list_inb m d L hpre fs _ rfl _ _
    have hq6 : ∀ x, ((sV.slice (Rect.unit (s := S13312) (k0_off5 t 6#32) S32.size (k0_off5_inb t 6)) (fun _ => rfl)).view.read (Elt F)
        (fiOf m d L fs) x).toNat < S100000x128.size gathers_S100000x128_S32x128.axis :=
      list_inb m d L hpre fs _ rfl _ _
    have hq7 : ∀ x, ((sV.slice (Rect.unit (s := S13312) (k0_off5 t 7#32) S32.size (k0_off5_inb t 7)) (fun _ => rfl)).view.read (Elt F)
        (fiOf m d L fs) x).toNat < S100000x128.size gathers_S100000x128_S32x128.axis :=
      list_inb m d L hpre fs _ rfl _ _
    -- the trip's eight untouched chunks, and the eight list slices it gathers by, each in the loop's own spelling
    have eOf : (Ofut m d L t.val : sProp 𝕄) = iprop(oPc (F := F) d L (ck (8 * (t.val + 1) + 0)) (m (oLoc d)) ∗ oPc (F := F) d L (ck (8 * (t.val + 1) + 1)) (m (oLoc d)) ∗ oPc (F := F) d L (ck (8 * (t.val + 1) + 2)) (m (oLoc d)) ∗ oPc (F := F) d L (ck (8 * (t.val + 1) + 3)) (m (oLoc d)) ∗ oPc (F := F) d L (ck (8 * (t.val + 1) + 4)) (m (oLoc d)) ∗ oPc (F := F) d L (ck (8 * (t.val + 1) + 5)) (m (oLoc d)) ∗ oPc (F := F) d L (ck (8 * (t.val + 1) + 6)) (m (oLoc d)) ∗ oPc (F := F) d L (ck (8 * (t.val + 1) + 7)) (m (oLoc d)) ∗ Ofut m d L (t.val + 1)) := Ofut_take m d L t.val ht
    have eSh : (Sheld m d L fs t.val : sProp 𝕄) = iprop(sPc (F := F) d L (ck (8 * (t.val + 1) + 6 + 0)) (fiOf m d L fs) ∗ sPc (F := F) d L (ck (8 * (t.val + 1) + 6 + 1)) (fiOf m d L fs) ∗ sPc (F := F) d L (ck (8 * (t.val + 1) + 6 + 2)) (fiOf m d L fs) ∗ sPc (F := F) d L (ck (8 * (t.val + 1) + 6 + 3)) (fiOf m d L fs) ∗ sPc (F := F) d L (ck (8 * (t.val + 1) + 6 + 4)) (fiOf m d L fs) ∗ sPc (F := F) d L (ck (8 * (t.val + 1) + 6 + 5)) (fiOf m d L fs) ∗ sPc (F := F) d L (ck (8 * (t.val + 1) + 6 + 6)) (fiOf m d L fs) ∗ sPc (F := F) d L (ck (8 * (t.val + 1) + 6 + 7)) (fiOf m d L fs) ∗ Score m d L fs t.val) := Sheld_take m d L fs t.val ht
    have eSg : (Sheld m d L fs (t.val + 1) : sProp 𝕄) = iprop(sPc (F := F) d L (ck (8 * (t.val + 1) + 0)) (fiOf m d L fs) ∗ sPc (F := F) d L (ck (8 * (t.val + 1) + 1)) (fiOf m d L fs) ∗ sPc (F := F) d L (ck (8 * (t.val + 1) + 2)) (fiOf m d L fs) ∗ sPc (F := F) d L (ck (8 * (t.val + 1) + 3)) (fiOf m d L fs) ∗ sPc (F := F) d L (ck (8 * (t.val + 1) + 4)) (fiOf m d L fs) ∗ sPc (F := F) d L (ck (8 * (t.val + 1) + 5)) (fiOf m d L fs) ∗ sPc (F := F) d L (ck (8 * (t.val + 1) + 6)) (fiOf m d L fs) ∗ sPc (F := F) d L (ck (8 * (t.val + 1) + 7)) (fiOf m d L fs) ∗ Score m d L fs t.val) := Sheld_give m d L fs t.val ht
    ihave Hof' := (Entails.of_eq eOf) $$ Hof
    icases Hof' with ⟨Hq0, Hq1, Hq2, Hq3, Hq4, Hq5, Hq6, Hq7, Hof⟩
    ihave Hs'' := (Entails.of_eq eSh) $$ Hs'
    icases Hs'' with ⟨Hl0, Hl1, Hl2, Hl3, Hl4, Hl5, Hl6, Hl7, Hsc⟩
    ihave Hq0' := (Entails.of_eq (oPiece4 (F := F) d L t 0 0#32 rfl (k0_off4_inb L t 0) (ck (8 * (t.val + 1) + 0)) (ck_val (by omega)) (m (oLoc d)))) $$ Hq0
    ihave Hq1' := (Entails.of_eq (oPiece4 (F := F) d L t 1 1#32 rfl (k0_off4_inb L t 1) (ck (8 * (t.val + 1) + 1)) (ck_val (by omega)) (m (oLoc d)))) $$ Hq1
    ihave Hq2' := (Entails.of_eq (oPiece4 (F := F) d L t 2 2#32 rfl (k0_off4_inb L t 2) (ck (8 * (t.val + 1) + 2)) (ck_val (by omega)) (m (oLoc d)))) $$ Hq2
    ihave Hq3' := (Entails.of_eq (oPiece4 (F := F) d L t 3 3#32 rfl (k0_off4_inb L t 3) (ck (8 * (t.val + 1) + 3)) (ck_val (by omega)) (m (oLoc d)))) $$ Hq3
    ihave Hq4' := (Entails.of_eq (oPiece4 (F := F) d L t 4 4#32 rfl (k0_off4_inb L t 4) (ck (8 * (t.val + 1) + 4)) (ck_val (by omega)) (m (oLoc d)))) $$ Hq4
    ihave Hq5' := (Entails.of_eq (oPiece4 (F := F) d L t 5 5#32 rfl (k0_off4_inb L t 5) (ck (8 * (t.val + 1) + 5)) (ck_val (by omega)) (m (oLoc d)))) $$ Hq5
    ihave Hq6' := (Entails.of_eq (oPiece4 (F := F) d L t 6 6#32 rfl (k0_off4_inb L t 6) (ck (8 * (t.val + 1) + 6)) (ck_val (by omega)) (m (oLoc d)))) $$ Hq6
    ihave Hq7' := (Entails.of_eq (oPiece4 (F := F) d L t 7 7#32 rfl (k0_off4_inb L t 7) (ck (8 * (t.val + 1) + 7)) (ck_val (by omega)) (m (oLoc d)))) $$ Hq7
    ihave Hl0' := (Entails.of_eq (sPiece5 (F := F) d L t 0 0#32 rfl (k0_off5_inb t 0) (ck (8 * (t.val + 1) + 6 + 0)) (ck_val (by omega)) (fiOf m d L fs))) $$ Hl0
    ihave Hl1' := (Entails.of_eq (sPiece5 (F := F) d L t 1 1#32 rfl (k0_off5_inb t 1) (ck (8 * (t.val + 1) + 6 + 1)) (ck_val (by omega)) (fiOf m d L fs))) $$ Hl1
    ihave Hl2' := (Entails.of_eq (sPiece5 (F := F) d L t 2 2#32 rfl (k0_off5_inb t 2) (ck (8 * (t.val + 1) + 6 + 2)) (ck_val (by omega)) (fiOf m d L fs))) $$ Hl2
    ihave Hl3' := (Entails.of_eq (sPiece5 (F := F) d L t 3 3#32 rfl (k0_off5_inb t 3) (ck (8 * (t.val + 1) + 6 + 3)) (ck_val (by omega)) (fiOf m d L fs))) $$ Hl3
    ihave Hl4' := (Entails.of_eq (sPiece5 (F := F) d L t 4 4#32 rfl (k0_off5_inb t 4) (ck (8 * (t.val + 1) + 6 + 4)) (ck_val (by omega)) (fiOf m d L fs))) $$ Hl4
    ihave Hl5' := (Entails.of_eq (sPiece5 (F := F) d L t 5 5#32 rfl (k0_off5_inb t 5) (ck (8 * (t.val + 1) + 6 + 5)) (ck_val (by omega)) (fiOf m d L fs))) $$ Hl5
    ihave Hl6' := (Entails.of_eq (sPiece5 (F := F) d L t 6 6#32 rfl (k0_off5_inb t 6) (ck (8 * (t.val + 1) + 6 + 6)) (ck_val (by omega)) (fiOf m d L fs))) $$ Hl6
    ihave Hl7' := (Entails.of_eq (sPiece5 (F := F) d L t 7 7#32 rfl (k0_off5_inb t 7) (ck (8 * (t.val + 1) + 6 + 7)) (ck_val (by omega)) (fiOf m d L fs))) $$ Hl7
    -- the trip: eight times, wait for a gather, copy its rows out, wait for the copy out two chunks back, gather six chunks ahead
    sl_exec
    sl_step
    -- the invariant after the trip
    isplitl [Hmw]; · iexact Hmw
    -- the six gathers in flight: buffer b holds chunk 8 (t + 2) + b, its list the trip's slice b + 2, its share the one buffer (b + 2) % 6 held
    isplitl [Hm0]
    · iapply (Gfl_of_off_u m d L fs (t.val + 1) 0 _ 0 inb_S8x32x128_S1x32x128_0_0_0 (Transfers.shareTok (tq (wk L)) 8 (tokc (t.val + 1) 0)) (Transfers.shareTok (tq (wk L)) 8 (tokc t.val 2))
        (tokShare_step L t.val 0 2 (by omega)) (k0_off5 t 2#32) (off5_ck t 2 (by decide) 2#32 rfl (8 * (t.val + 1 + 1) + 0) (by omega)) (k0_off5_inb t 2) _ _)
      isplitr; swap
      · iexact Hm0
      · ipureintro
        exact gather_PayOf m d L fs (ck (8 * (t.val + 1 + 1) + 0)) (k0_off5 t 2#32) (k0_off5_inb t 2)
          (congrFun (off5_ck t 2 (by decide) 2#32 rfl (8 * (t.val + 1 + 1) + 0) (by omega)) 0) _ hq2
    isplitl [Hm1]
    · iapply (Gfl_of_off_u m d L fs (t.val + 1) 1 _ 1 inb_S8x32x128_S1x32x128_1_0_0 (Transfers.shareTok (tq (wk L)) 8 (tokc (t.val + 1) 1)) (Transfers.shareTok (tq (wk L)) 8 (tokc t.val 3))
        (tokShare_step L t.val 1 3 (by omega)) (k0_off5 t 3#32) (off5_ck t 3 (by decide) 3#32 rfl (8 * (t.val + 1 + 1) + 1) (by omega)) (k0_off5_inb t 3) _ _)
      isplitr; swap
      · iexact Hm1
      · ipureintro
        exact gather_PayOf m d L fs (ck (8 * (t.val + 1 + 1) + 1)) (k0_off5 t 3#32) (k0_off5_inb t 3)
          (congrFun (off5_ck t 3 (by decide) 3#32 rfl (8 * (t.val + 1 + 1) + 1) (by omega)) 0) _ hq3
    isplitl [Hm2]
    · iapply (Gfl_of_off_u m d L fs (t.val + 1) 2 _ 2 inb_S8x32x128_S1x32x128_2_0_0 (Transfers.shareTok (tq (wk L)) 8 (tokc (t.val + 1) 2)) (Transfers.shareTok (tq (wk L)) 8 (tokc t.val 4))
        (tokShare_step L t.val 2 4 (by omega)) (k0_off5 t 4#32) (off5_ck t 4 (by decide) 4#32 rfl (8 * (t.val + 1 + 1) + 2) (by omega)) (k0_off5_inb t 4) _ _)
      isplitr; swap
      · iexact Hm2
      · ipureintro
        exact gather_PayOf m d L fs (ck (8 * (t.val + 1 + 1) + 2)) (k0_off5 t 4#32) (k0_off5_inb t 4)
          (congrFun (off5_ck t 4 (by decide) 4#32 rfl (8 * (t.val + 1 + 1) + 2) (by omega)) 0) _ hq4
    isplitl [Hm3]
    · iapply (Gfl_of_off_u m d L fs (t.val + 1) 3 _ 3 inb_S8x32x128_S1x32x128_3_0_0 (Transfers.shareTok (tq (wk L)) 8 (tokc (t.val + 1) 3)) (Transfers.shareTok (tq (wk L)) 8 (tokc t.val 5))
        (tokShare_step L t.val 3 5 (by omega)) (k0_off5 t 5#32) (off5_ck t 5 (by decide) 5#32 rfl (8 * (t.val + 1 + 1) + 3) (by omega)) (k0_off5_inb t 5) _ _)
      isplitr; swap
      · iexact Hm3
      · ipureintro
        exact gather_PayOf m d L fs (ck (8 * (t.val + 1 + 1) + 3)) (k0_off5 t 5#32) (k0_off5_inb t 5)
          (congrFun (off5_ck t 5 (by decide) 5#32 rfl (8 * (t.val + 1 + 1) + 3) (by omega)) 0) _ hq5
    isplitl [Hm4]
    · iapply (Gfl_of_off_u m d L fs (t.val + 1) 4 _ 4 inb_S8x32x128_S1x32x128_4_0_0 (Transfers.shareTok (tq (wk L)) 8 (tokc (t.val + 1) 4)) (Transfers.shareTok (tq (wk L)) 8 (tokc t.val 0))
        (tokShare_step L t.val 4 0 (by omega)) (k0_off5 t 6#32) (off5_ck t 6 (by decide) 6#32 rfl (8 * (t.val + 1 + 1) + 4) (by omega)) (k0_off5_inb t 6) _ _)
      isplitr; swap
      · iexact Hm4
      · ipureintro
        exact gather_PayOf m d L fs (ck (8 * (t.val + 1 + 1) + 4)) (k0_off5 t 6#32) (k0_off5_inb t 6)
          (congrFun (off5_ck t 6 (by decide) 6#32 rfl (8 * (t.val + 1 + 1) + 4) (by omega)) 0) _ hq6
    isplitl [Hm5]
    · iapply (Gfl_of_off_u m d L fs (t.val + 1) 5 _ 5 inb_S8x32x128_S1x32x128_5_0_0 (Transfers.shareTok (tq (wk L)) 8 (tokc (t.val + 1) 5)) (Transfers.shareTok (tq (wk L)) 8 (tokc t.val 1))
        (tokShare_step L t.val 5 1 (by omega)) (k0_off5 t 7#32) (off5_ck t 7 (by decide) 7#32 rfl (8 * (t.val + 1 + 1) + 5) (by omega)) (k0_off5_inb t 7) _ _)
      isplitr; swap
      · iexact Hm5
      · ipureintro
        exact gather_PayOf m d L fs (ck (8 * (t.val + 1 + 1) + 5)) (k0_off5 t 7#32) (k0_off5_inb t 7)
          (congrFun (off5_ck t 7 (by decide) 7#32 rfl (8 * (t.val + 1 + 1) + 5) (by omega)) 0) _ hq7
    -- the shares' empty remainders, moved round likewise
    isplitl [Ht2']
    · iapply (Entails.of_eq (tokRest_step m d L t.val 0 2 (by omega)))
      iexact Ht2'
    isplitl [Ht3']
    · iapply (Entails.of_eq (tokRest_step m d L t.val 1 3 (by omega)))
      iexact Ht3'
    isplitl [Ht4']
    · iapply (Entails.of_eq (tokRest_step m d L t.val 2 4 (by omega)))
      iexact Ht4'
    isplitl [Ht5']
    · iapply (Entails.of_eq (tokRest_step m d L t.val 3 5 (by omega)))
      iexact Ht5'
    isplitl [Ht0']
    · iapply (Entails.of_eq (tokRest_step m d L t.val 4 0 (by omega)))
      iexact Ht0'
    isplitl [Ht1']
    · iapply (Entails.of_eq (tokRest_step m d L t.val 5 1 (by omega)))
      iexact Ht1'
    isplitl [Ht6']; · iexact Ht6'
    isplitl [Ht7']; · iexact Ht7'
    -- the two copies out in flight: chunks 8 (t + 1) + 6 and + 7, from buffers 6 and 7, gathered by the trip's slices 0 and 1
    isplitl [Hm14]
    · iapply (Ofl_of_off_u m d L (k0_off4 L t 6#32) (ck (8 * (t.val + 1 + 1) - 2)) (off4_ck L t 6 (by decide) 6#32 rfl (8 * (t.val + 1 + 1) - 2) (by omega)) (k0_off4_inb L t 6) 14 _ 6 inb_S8x32x128_S1x32x128_6_0_0 _ _ _)
      isplitr; swap
      · iexact Hm14
      · ipureintro
        exact fun x => (congrFun (read_writes_whole _ _ _) x).trans
          (gather_PayOf m d L fs (ck (8 * (t.val + 1 + 1) - 2)) (k0_off5 t 0#32) (k0_off5_inb t 0)
            (congrFun (off5_ck t 0 (by decide) 0#32 rfl (8 * (t.val + 1 + 1) - 2) (by omega)) 0) _ hq0 x)
    isplitl [Hm15]
    · iapply (Ofl_of_off_u m d L (k0_off4 L t 7#32) (ck (8 * (t.val + 1 + 1) - 1)) (off4_ck L t 7 (by decide) 7#32 rfl (8 * (t.val + 1 + 1) - 1) (by omega)) (k0_off4_inb L t 7) 15 _ 7 inb_S8x32x128_S1x32x128_7_0_0 _ _ _)
      isplitr; swap
      · iexact Hm15
      · ipureintro
        exact fun x => (congrFun (read_writes_whole _ _ _) x).trans
          (gather_PayOf m d L fs (ck (8 * (t.val + 1 + 1) - 1)) (k0_off5 t 1#32) (k0_off5_inb t 1)
            (congrFun (off5_ck t 1 (by decide) 1#32 rfl (8 * (t.val + 1 + 1) - 1) (by omega)) 0) _ hq1 x)
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm16]; · iexact Hm16
    -- the list slices held: the six whose gathers were waited for, the two gathered by and waited for within the trip, the core
    isplitl [Hm0_dst_and Hm1_dst_and Hm2_dst_and Hm3_dst_and Hm4_dst_and Hm5_dst_and Hl0' Hl1' Hsc]
    · iapply (Entails.of_eq eSg.symm)
      isplitl [Hm0_dst_and]; · iexact Hm0_dst_and
      isplitl [Hm1_dst_and]; · iexact Hm1_dst_and
      isplitl [Hm2_dst_and]; · iexact Hm2_dst_and
      isplitl [Hm3_dst_and]; · iexact Hm3_dst_and
      isplitl [Hm4_dst_and]; · iexact Hm4_dst_and
      isplitl [Hm5_dst_and]; · iexact Hm5_dst_and
      isplitl [Hl0']
      · iapply (Entails.of_eq (sPc_off d L (k0_off5 t 0#32) (ck (8 * (t.val + 1) + 6)) (off5_ck t 0 (by decide) 0#32 rfl (8 * (t.val + 1) + 6) (by omega)) (k0_off5_inb t 0) (fiOf m d L fs)))
        iexact Hl0'
      isplitl [Hl1']
      · iapply (Entails.of_eq (sPc_off d L (k0_off5 t 1#32) (ck (8 * (t.val + 1) + 7)) (off5_ck t 1 (by decide) 1#32 rfl (8 * (t.val + 1) + 7) (by omega)) (k0_off5_inb t 1) (fiOf m d L fs)))
        iexact Hl1'
      iexact Hsc
    -- the chunks written: the two whose copies out were in flight, the six copied out and waited for, those before
    isplitl [Hm14_dst Hm15_dst Hq0' Hq1' Hq2' Hq3' Hq4' Hq5' Hod]
    · iapply (Entails.of_eq (Odone_give' m d L t.val ht).symm)
      isplitl [Hm14_dst]
      · iapply (Entails.of_eq (oPc_value m d L (ck (8 * (t.val + 1) - 2)) fo6 pay6 hp6))
        iexact Hm14_dst
      isplitl [Hm15_dst]
      · iapply (Entails.of_eq (oPc_value m d L (ck (8 * (t.val + 1) - 1)) fo7 pay7 hp7))
        iexact Hm15_dst
      isplitl [Hq0']
      · iapply (oDone_off' m d L (k0_off4 L t 0#32) (ck (8 * (t.val + 1) + 0)) (off4_ck L t 0 (by decide) 0#32 rfl (8 * (t.val + 1) + 0) (by omega)) (k0_off4_inb L t 0) _ _)
        isplitr; swap
        · iexact Hq0'
        · ipureintro
          exact fun x => (congrFun hr0 x).trans (hp0 x)
      isplitl [Hq1']
      · iapply (oDone_off' m d L (k0_off4 L t 1#32) (ck (8 * (t.val + 1) + 1)) (off4_ck L t 1 (by decide) 1#32 rfl (8 * (t.val + 1) + 1) (by omega)) (k0_off4_inb L t 1) _ _)
        isplitr; swap
        · iexact Hq1'
        · ipureintro
          exact fun x => (congrFun hr1 x).trans (hp1 x)
      isplitl [Hq2']
      · iapply (oDone_off' m d L (k0_off4 L t 2#32) (ck (8 * (t.val + 1) + 2)) (off4_ck L t 2 (by decide) 2#32 rfl (8 * (t.val + 1) + 2) (by omega)) (k0_off4_inb L t 2) _ _)
        isplitr; swap
        · iexact Hq2'
        · ipureintro
          exact fun x => (congrFun hr2 x).trans (hp2 x)
      isplitl [Hq3']
      · iapply (oDone_off' m d L (k0_off4 L t 3#32) (ck (8 * (t.val + 1) + 3)) (off4_ck L t 3 (by decide) 3#32 rfl (8 * (t.val + 1) + 3) (by omega)) (k0_off4_inb L t 3) _ _)
        isplitr; swap
        · iexact Hq3'
        · ipureintro
          exact fun x => (congrFun hr3 x).trans (hp3 x)
      isplitl [Hq4']
      · iapply (oDone_off' m d L (k0_off4 L t 4#32) (ck (8 * (t.val + 1) + 4)) (off4_ck L t 4 (by decide) 4#32 rfl (8 * (t.val + 1) + 4) (by omega)) (k0_off4_inb L t 4) _ _)
        isplitr; swap
        · iexact Hq4'
        · ipureintro
          exact fun x => (congrFun hr4 x).trans (hp4 x)
      isplitl [Hq5']
      · iapply (oDone_off' m d L (k0_off4 L t 5#32) (ck (8 * (t.val + 1) + 5)) (off4_ck L t 5 (by decide) 5#32 rfl (8 * (t.val + 1) + 5) (by omega)) (k0_off4_inb L t 5) _ _)
        isplitr; swap
        · iexact Hq5'
        · ipureintro
          exact fun x => (congrFun hr5 x).trans (hp5 x)
      iexact Hod
    isplitl [Hof]; · iexact Hof
    iexists _; isplitr
    swap; · iexact HO
    ipureintro
    repeat' apply waits_insert
    exact hW'
  · -- the state at the loop's head is the invariant before trip 0
    -- the values in flight and written
    have hg0 : PayOf m d L (ck (8 * (0 + 1) + 0)) (tile_body.sl.gather5_1 m d L fs hin8) :=
      gather_PayOf m d L fs _ ![256] inb_S13312_S32_256 rfl _ hin8
    have hg1 : PayOf m d L (ck (8 * (0 + 1) + 1)) (tile_body.sl.gather7 m d L fs hin9) :=
      gather_PayOf m d L fs _ ![288] inb_S13312_S32_288 rfl _ hin9
    have hg2 : PayOf m d L (ck (8 * (0 + 1) + 2)) (tile_body.sl.gather9 m d L fs hin10) :=
      gather_PayOf m d L fs _ ![320] inb_S13312_S32_320 rfl _ hin10
    have hg3 : PayOf m d L (ck (8 * (0 + 1) + 3)) (tile_body.sl.gather11 m d L fs hin11) :=
      gather_PayOf m d L fs _ ![352] inb_S13312_S32_352 rfl _ hin11
    have hg4 : PayOf m d L (ck (8 * (0 + 1) + 4)) (tile_body.sl.gather13 m d L fs hin12) :=
      gather_PayOf m d L fs _ ![384] inb_S13312_S32_384 rfl _ hin12
    have hg5 : PayOf m d L (ck (8 * (0 + 1) + 5)) (tile_body.sl.gather15 m d L fs hin13) :=
      gather_PayOf m d L fs _ ![416] inb_S13312_S32_416 rfl _ hin13
    have hq0 : PayOf m d L (ck 0) (tile_body.sl.dma0_1 m d L fs fr hin0 hin1 hin2 hin3 hin4 hin5) := fun x =>
      (congrFun (slot_read_after5 0 1 2 3 4 5 inb_S8x32x128_S1x32x128_0_0_0 inb_S8x32x128_S1x32x128_1_0_0 inb_S8x32x128_S1x32x128_2_0_0 inb_S8x32x128_S1x32x128_3_0_0 inb_S8x32x128_S1x32x128_4_0_0 inb_S8x32x128_S1x32x128_5_0_0
        (by decide) (by decide) (by decide) (by decide) (by decide) _ _ _ _ _ _ _) x).trans
        (gather_PayOf m d L fs (ck 0) ![0] inb_S13312_S32_0 rfl _ hin0 x)
    have hq1 : PayOf m d L (ck 1) (tile_body.sl.dma0_2 m d L fs fr hin0 hin1 hin2 hin3 hin4 hin5 hin6) := fun x =>
      (congrFun (slot_read_after5 1 2 3 4 5 6 inb_S8x32x128_S1x32x128_1_0_0 inb_S8x32x128_S1x32x128_2_0_0 inb_S8x32x128_S1x32x128_3_0_0 inb_S8x32x128_S1x32x128_4_0_0 inb_S8x32x128_S1x32x128_5_0_0 inb_S8x32x128_S1x32x128_6_0_0
        (by decide) (by decide) (by decide) (by decide) (by decide) _ _ _ _ _ _ _) x).trans
        (gather_PayOf m d L fs (ck 1) ![32] inb_S13312_S32_32 rfl _ hin1 x)
    have hq2 : PayOf m d L (ck 2) (tile_body.sl.dma0_3 m d L fs fr hin0 hin1 hin2 hin3 hin4 hin5 hin6 hin7) := fun x =>
      (congrFun (slot_read_after5 2 3 4 5 6 7 inb_S8x32x128_S1x32x128_2_0_0 inb_S8x32x128_S1x32x128_3_0_0 inb_S8x32x128_S1x32x128_4_0_0 inb_S8x32x128_S1x32x128_5_0_0 inb_S8x32x128_S1x32x128_6_0_0 inb_S8x32x128_S1x32x128_7_0_0
        (by decide) (by decide) (by decide) (by decide) (by decide) _ _ _ _ _ _ _) x).trans
        (gather_PayOf m d L fs (ck 2) ![64] inb_S13312_S32_64 rfl _ hin2 x)
    have hq3 : PayOf m d L (ck 3) (tile_body.sl.dma0_4 m d L fs fr hin0 hin1 hin2 hin3 hin4 hin5 hin6 hin7 hin8) := fun x =>
      (congrFun (slot_read_after5 3 4 5 6 7 0 inb_S8x32x128_S1x32x128_3_0_0 inb_S8x32x128_S1x32x128_4_0_0 inb_S8x32x128_S1x32x128_5_0_0 inb_S8x32x128_S1x32x128_6_0_0 inb_S8x32x128_S1x32x128_7_0_0 inb_S8x32x128_S1x32x128_0_0_0
        (by decide) (by decide) (by decide) (by decide) (by decide) _ _ _ _ _ _ _) x).trans
        (gather_PayOf m d L fs (ck 3) ![96] inb_S13312_S32_96 rfl _ hin3 x)
    have hq4 : PayOf m d L (ck 4) (tile_body.sl.dma0_5 m d L fs fr hin0 hin1 hin2 hin3 hin4 hin5 hin6 hin7 hin8 hin9) := fun x =>
      (congrFun (slot_read_after5 4 5 6 7 0 1 inb_S8x32x128_S1x32x128_4_0_0 inb_S8x32x128_S1x32x128_5_0_0 inb_S8x32x128_S1x32x128_6_0_0 inb_S8x32x128_S1x32x128_7_0_0 inb_S8x32x128_S1x32x128_0_0_0 inb_S8x32x128_S1x32x128_1_0_0
        (by decide) (by decide) (by decide) (by decide) (by decide) _ _ _ _ _ _ _) x).trans
        (gather_PayOf m d L fs (ck 4) ![128] inb_S13312_S32_128 rfl _ hin4 x)
    have hq5 : PayOf m d L (ck 5) (tile_body.sl.dma0_6 m d L fs fr hin0 hin1 hin2 hin3 hin4 hin5 hin6 hin7 hin8 hin9 hin10) := fun x =>
      (congrFun (slot_read_after5 5 6 7 0 1 2 inb_S8x32x128_S1x32x128_5_0_0 inb_S8x32x128_S1x32x128_6_0_0 inb_S8x32x128_S1x32x128_7_0_0 inb_S8x32x128_S1x32x128_0_0_0 inb_S8x32x128_S1x32x128_1_0_0 inb_S8x32x128_S1x32x128_2_0_0
        (by decide) (by decide) (by decide) (by decide) (by decide) _ _ _ _ _ _ _) x).trans
        (gather_PayOf m d L fs (ck 5) ![160] inb_S13312_S32_160 rfl _ hin5 x)
    have hq6 : PayOf m d L (ck 6) (tile_body.sl.dma0_7 m d L fs fr hin0 hin1 hin2 hin3 hin4 hin5 hin6 hin7 hin8 hin9 hin10 hin11) := fun x =>
      (congrFun (slot_read_after5 6 7 0 1 2 3 inb_S8x32x128_S1x32x128_6_0_0 inb_S8x32x128_S1x32x128_7_0_0 inb_S8x32x128_S1x32x128_0_0_0 inb_S8x32x128_S1x32x128_1_0_0 inb_S8x32x128_S1x32x128_2_0_0 inb_S8x32x128_S1x32x128_3_0_0
        (by decide) (by decide) (by decide) (by decide) (by decide) _ _ _ _ _ _ _) x).trans
        (gather_PayOf m d L fs (ck 6) ![192] inb_S13312_S32_192 rfl _ hin6 x)
    have hq7 : PayOf m d L (ck 7) (tile_body.sl.dma0_8 m d L fs fr hin0 hin1 hin2 hin3 hin4 hin5 hin6 hin7 hin8 hin9 hin10 hin11 hin12) := fun x =>
      (congrFun (slot_read_after5 7 0 1 2 3 4 inb_S8x32x128_S1x32x128_7_0_0 inb_S8x32x128_S1x32x128_0_0_0 inb_S8x32x128_S1x32x128_1_0_0 inb_S8x32x128_S1x32x128_2_0_0 inb_S8x32x128_S1x32x128_3_0_0 inb_S8x32x128_S1x32x128_4_0_0
        (by decide) (by decide) (by decide) (by decide) (by decide) _ _ _ _ _ _ _) x).trans
        (gather_PayOf m d L fs (ck 7) ![224] inb_S13312_S32_224 rfl _ hin7 x)
    delta inv
    isplitr
    · iexact Hmw
    isplitl [Hm0]
    · iapply (Gfl_of_write m d L fs 0 0 _ 0 inb_S8x32x128_S1x32x128_0_0_0 (Transfers.shareTok (tq (wk L)) 8 0) _ _ hg0)
      iexact Hm0
    isplitl [Hm1]
    · iapply (Gfl_of_write m d L fs 0 1 _ 1 inb_S8x32x128_S1x32x128_1_0_0 (Transfers.shareTok (tq (wk L)) 8 1) _ _ hg1)
      iexact Hm1
    isplitl [Hm2]
    · iapply (Gfl_of_write m d L fs 0 2 _ 2 inb_S8x32x128_S1x32x128_2_0_0 (Transfers.shareTok (tq (wk L)) 8 2) _ _ hg2)
      iexact Hm2
    isplitl [Hm3]
    · iapply (Gfl_of_write m d L fs 0 3 _ 3 inb_S8x32x128_S1x32x128_3_0_0 (Transfers.shareTok (tq (wk L)) 8 3) _ _ hg3)
      iexact Hm3
    isplitl [Hm4]
    · iapply (Gfl_of_write m d L fs 0 4 _ 4 inb_S8x32x128_S1x32x128_4_0_0 (Transfers.shareTok (tq (wk L)) 8 4) _ _ hg4)
      iexact Hm4
    isplitl [Hm5]
    · iapply (Gfl_of_write m d L fs 0 5 _ 5 inb_S8x32x128_S1x32x128_5_0_0 (Transfers.shareTok (tq (wk L)) 8 5) _ _ hg5)
      iexact Hm5
    isplitl [Ht0']
    · iexact Ht0'
    isplitl [Ht1']
    · iexact Ht1'
    isplitl [Ht2']
    · iexact Ht2'
    isplitl [Ht3']
    · iexact Ht3'
    isplitl [Ht4']
    · iexact Ht4'
    isplitl [Ht5']
    · iexact Ht5'
    isplitl [Ht6']
    · iexact Ht6'
    isplitl [Ht7']
    · iexact Ht7'
    isplitl [Hm14]
    · iapply (Ofl_of_off m d L _ (ck (8 * (0 + 1) - 2)) (off2_eq L 6) _ 14 _ 6 inb_S8x32x128_S1x32x128_6_0_0 _ _ _ hq6)
      iexact Hm14
    isplitl [Hm15]
    · iapply (Ofl_of_off m d L _ (ck (8 * (0 + 1) - 1)) (off2_eq L 7) _ 15 _ 7 inb_S8x32x128_S1x32x128_7_0_0 _ _ _ hq7)
      iexact Hm15
    isplitl [Hm6]
    · iexact Hm6
    isplitl [Hm7]
    · iexact Hm7
    isplitl [Hm8]
    · iexact Hm8
    isplitl [Hm9]
    · iexact Hm9
    isplitl [Hm10]
    · iexact Hm10
    isplitl [Hm11]
    · iexact Hm11
    isplitl [Hm12]
    · iexact Hm12
    isplitl [Hm13]
    · iexact Hm13
    isplitl [Hm16]
    · iexact Hm16
    isplitl [Hs']
    · iapply (Entails.of_eq (Sheld_head d L fs m _ _ _ _ _ _))
      iexact Hs'
    isplitl [Ho0' Ho1' Ho2' Ho3' Ho4' Ho5']
    · iapply (Entails.of_eq (Odone_head m d L).symm)
      isplitl [Ho0']
      · iapply (Entails.of_eq (oDone_off m d L _ (ck 0) (off2_eq L 0) _ _ _ hq0))
        iexact Ho0'
      isplitl [Ho1']
      · iapply (Entails.of_eq (oDone_off m d L _ (ck 1) (off2_eq L 1) _ _ _ hq1))
        iexact Ho1'
      isplitl [Ho2']
      · iapply (Entails.of_eq (oDone_off m d L _ (ck 2) (off2_eq L 2) _ _ _ hq2))
        iexact Ho2'
      isplitl [Ho3']
      · iapply (Entails.of_eq (oDone_off m d L _ (ck 3) (off2_eq L 3) _ _ _ hq3))
        iexact Ho3'
      isplitl [Ho4']
      · iapply (Entails.of_eq (oDone_off m d L _ (ck 4) (off2_eq L 4) _ _ _ hq4))
        iexact Ho4'
      iapply (Entails.of_eq (oDone_off m d L _ (ck 5) (off2_eq L 5) _ _ _ hq5))
      iexact Ho5'
    isplitl [Horest]
    · iapply (Entails.of_eq (Ofut_head m d L))
      iexact Horest
    iexists _
    isplitr
    rotate_left
    · iexact HO
    · ipureintro
      repeat' apply waits_insert
      exact fun p hp => Or.inl hp
  -- after the last trip: the eight closing steps, the eight final waits, and everything handed back
  iintro %_ HI
  have h50 : Scf.trips k0_t1_loop.lb k0_t1_loop.ub k0_t1_loop.st = 50 := trips_eq
  ihave HI' := (Entails.of_eq ((congrArg (fun t => inv m d L fs O W t _) h50).trans (inv_eq m d L fs O W 50 _))) $$ HI
  icases HI' with ⟨-, G0, G1, G2, G3, G4, G5, Hk0, Hk1, Hk2, Hk3, Hk4, Hk5, Ht6', Ht7', F14, F15, Hm6, Hm7, Hm8, Hm9, Hm10, Hm11, Hm12, Hm13, Hm16, Hsh, Hdone, Hfut, %W1, %hW1, HO⟩
  ihave G0' := (Entails.of_eq (Gfl_eq m d L fs 50 0 _ 0 _ _)) $$ G0
  icases G0' with ⟨%fc0, %pay0, %hp0, %hr0, Fl0⟩
  ihave G1' := (Entails.of_eq (Gfl_eq m d L fs 50 1 _ 1 _ _)) $$ G1
  icases G1' with ⟨%fc1, %pay1, %hp1, %hr1, Fl1⟩
  ihave G2' := (Entails.of_eq (Gfl_eq m d L fs 50 2 _ 2 _ _)) $$ G2
  icases G2' with ⟨%fc2, %pay2, %hp2, %hr2, Fl2⟩
  ihave G3' := (Entails.of_eq (Gfl_eq m d L fs 50 3 _ 3 _ _)) $$ G3
  icases G3' with ⟨%fc3, %pay3, %hp3, %hr3, Fl3⟩
  ihave G4' := (Entails.of_eq (Gfl_eq m d L fs 50 4 _ 4 _ _)) $$ G4
  icases G4' with ⟨%fc4, %pay4, %hp4, %hr4, Fl4⟩
  ihave G5' := (Entails.of_eq (Gfl_eq m d L fs 50 5 _ 5 _ _)) $$ G5
  icases G5' with ⟨%fc5, %pay5, %hp5, %hr5, Fl5⟩
  ihave F14' := (Entails.of_eq (Ofl_eq m d L _ 14 _ 6 _)) $$ F14
  icases F14' with ⟨%fo14, %fb14, %pay14, %hp14, Fl14⟩
  ihave F15' := (Entails.of_eq (Ofl_eq m d L _ 15 _ 7 _)) $$ F15
  icases F15' with ⟨%fo15, %fb15, %pay15, %hp15, Fl15⟩
  -- the last eight chunks of the output, in the straight-line code's spelling
  ihave Hfut' := (Entails.of_eq (Ofut50 m d L)) $$ Hfut
  icases Hfut' with ⟨Ho8, Ho9, Ho10, Ho11, Ho12, Ho13, Ho14, Ho15, -⟩
  ihave Ho8' := (Entails.of_eq (oPiece2 (F := F) d L 8 408 rfl (m (oLoc d)))) $$ Ho8
  ihave Ho9' := (Entails.of_eq (oPiece2 (F := F) d L 9 409 rfl (m (oLoc d)))) $$ Ho9
  ihave Ho10' := (Entails.of_eq (oPiece2 (F := F) d L 10 410 rfl (m (oLoc d)))) $$ Ho10
  ihave Ho11' := (Entails.of_eq (oPiece2 (F := F) d L 11 411 rfl (m (oLoc d)))) $$ Ho11
  ihave Ho12' := (Entails.of_eq (oPiece2 (F := F) d L 12 412 rfl (m (oLoc d)))) $$ Ho12
  ihave Ho13' := (Entails.of_eq (oPiece2 (F := F) d L 13 413 rfl (m (oLoc d)))) $$ Ho13
  ihave Ho14' := (Entails.of_eq (oPiece2 (F := F) d L 14 414 rfl (m (oLoc d)))) $$ Ho14
  ihave Ho15' := (Entails.of_eq (oPiece2 (F := F) d L 15 415 rfl (m (oLoc d)))) $$ Ho15
  -- the list slices of chunks 414 and 415, at their literal offsets
  ihave Hsh' := (Entails.of_eq (Sheld50 m d L fs)) $$ Hsh
  icases Hsh' with ⟨Hl14, Hl15, Hshr⟩
  ihave Hl14' := (Entails.of_eq (lstPiece_off (F := F) d L (32 * (414 : Fin 416).val) 13248 rfl _ inb_S13312_S32_13248 (fiOf m d L fs))) $$ Hl14
  ihave Hl15' := (Entails.of_eq (lstPiece_off (F := F) d L (32 * (415 : Fin 416).val) 13280 rfl _ inb_S13312_S32_13280 (fiOf m d L fs))) $$ Hl15
  have hin14' : ∀ x, ((sV.slice (Rect.unit (s := S13312) ![13248] S32.size inb_S13312_S32_13248) (fun _ => rfl)).view.read (Elt F)
      (fiOf m d L fs) x).toNat < S100000x128.size gathers_S100000x128_S32x128.axis :=
    list_inb m d L hpre fs _ rfl _ _
  have hin15' : ∀ x, ((sV.slice (Rect.unit (s := S13312) ![13280] S32.size inb_S13312_S32_13280) (fun _ => rfl)).view.read (Elt F)
      (fiOf m d L fs) x).toNat < S100000x128.size gathers_S100000x128_S32x128.axis :=
    list_inb m d L hpre fs _ rfl _ _
  sl_exec
  sl_step
  -- the ten last chunks hold the output function
  ihave C6 := (Entails.of_eq ((chunk_written m d L _ fo14 pay14 hp14).trans
    (congrArg (fun c : Fin 416 => (oLoc d ↦[(oCh L c).view.set]{fullShare} out0 m d : sProp 𝕄)) (show ck (8 * (50 + 1) - 2) = 406 from rfl)))) $$ Fl14_dst
  ihave C7 := (Entails.of_eq ((chunk_written m d L _ fo15 pay15 hp15).trans
    (congrArg (fun c : Fin 416 => (oLoc d ↦[(oCh L c).view.set]{fullShare} out0 m d : sProp 𝕄)) (show ck (8 * (50 + 1) - 1) = 407 from rfl)))) $$ Fl15_dst
  ihave C8 := (chunk_done2 m d L 8 408 rfl (m (oLoc d)) _) $$ [Ho8']
  · isplitl [Ho8']; · iexact Ho8'
    ipureintro; exact payOf_read m d L 408 (slotAt 0 inb_S8x32x128_S1x32x128_0_0_0).view fc0 pay0 hr0 hp0
  ihave C9 := (chunk_done2 m d L 9 409 rfl (m (oLoc d)) _) $$ [Ho9']
  · isplitl [Ho9']; · iexact Ho9'
    ipureintro; exact payOf_read m d L 409 (slotAt 1 inb_S8x32x128_S1x32x128_1_0_0).view fc1 pay1 hr1 hp1
  ihave C10 := (chunk_done2 m d L 10 410 rfl (m (oLoc d)) _) $$ [Ho10']
  · isplitl [Ho10']; · iexact Ho10'
    ipureintro; exact payOf_read m d L 410 (slotAt 2 inb_S8x32x128_S1x32x128_2_0_0).view fc2 pay2 hr2 hp2
  ihave C11 := (chunk_done2 m d L 11 411 rfl (m (oLoc d)) _) $$ [Ho11']
  · isplitl [Ho11']; · iexact Ho11'
    ipureintro; exact payOf_read m d L 411 (slotAt 3 inb_S8x32x128_S1x32x128_3_0_0).view fc3 pay3 hr3 hp3
  ihave C12 := (chunk_done2 m d L 12 412 rfl (m (oLoc d)) _) $$ [Ho12']
  · isplitl [Ho12']; · iexact Ho12'
    ipureintro; exact payOf_read m d L 412 (slotAt 4 inb_S8x32x128_S1x32x128_4_0_0).view fc4 pay4 hr4 hp4
  ihave C13 := (chunk_done2 m d L 13 413 rfl (m (oLoc d)) _) $$ [Ho13']
  · isplitl [Ho13']; · iexact Ho13'
    ipureintro; exact payOf_read m d L 413 (slotAt 5 inb_S8x32x128_S1x32x128_5_0_0).view fc5 pay5 hr5 hp5
  ihave C14 := (chunk_done2 m d L 14 414 rfl (m (oLoc d)) _) $$ [Ho14']
  · isplitl [Ho14']; · iexact Ho14'
    ipureintro
    exact payOf_slot_writes m d L 414 (slotAt 6 inb_S8x32x128_S1x32x128_6_0_0).view fb14 _
      (payOf_gather m d L fs 414 ![13248] rfl inb_S13312_S32_13248 _ hin14')
  ihave C15 := (chunk_done2 m d L 15 415 rfl (m (oLoc d)) _) $$ [Ho15']
  · isplitl [Ho15']; · iexact Ho15'
    ipureintro
    exact payOf_slot_writes m d L 415 (slotAt 7 inb_S8x32x128_S1x32x128_7_0_0).view fb15 _
      (payOf_gather m d L fs 415 ![13280] rfl inb_S13312_S32_13280 _ hin15')
  -- the index scratch whole again: the eight last list slices and the pieces held through the last trip
  ihave P14 := (Entails.of_eq (lstPiece_off (F := F) d L (32 * (414 : Fin 416).val) 13248 rfl (lstK_inb 414) inb_S13312_S32_13248 (fiOf m d L fs)).symm) $$ Hl14'
  ihave P15 := (Entails.of_eq (lstPiece_off (F := F) d L (32 * (415 : Fin 416).val) 13280 rfl (lstK_inb 415) inb_S13312_S32_13280 (fiOf m d L fs)).symm) $$ Hl15'
  ihave P8 := (Entails.of_eq (lstC50 (F := F) d L 0 408 rfl (fiOf m d L fs))) $$ Fl0_dst_and
  ihave P9 := (Entails.of_eq (lstC50 (F := F) d L 1 409 rfl (fiOf m d L fs))) $$ Fl1_dst_and
  ihave P10 := (Entails.of_eq (lstC50 (F := F) d L 2 410 rfl (fiOf m d L fs))) $$ Fl2_dst_and
  ihave P11 := (Entails.of_eq (lstC50 (F := F) d L 3 411 rfl (fiOf m d L fs))) $$ Fl3_dst_and
  ihave P12 := (Entails.of_eq (lstC50 (F := F) d L 4 412 rfl (fiOf m d L fs))) $$ Fl4_dst_and
  ihave P13 := (Entails.of_eq (lstC50 (F := F) d L 5 413 rfl (fiOf m d L fs))) $$ Fl5_dst_and
  ihave Hs0 := (Entails.of_eq (sAll50 (F := F) d L (fiOf m d L fs)).symm) $$ [P14 P15 P8 P9 P10 P11 P12 P13 Hshr]
  · isplitl [P14]; · iexact P14
    isplitl [P15]; · iexact P15
    isplitl [P8]; · iexact P8
    isplitl [P9]; · iexact P9
    isplitl [P10]; · iexact P10
    isplitl [P11]; · iexact P11
    isplitl [P12]; · iexact P12
    isplitl [P13]; · iexact P13
    iexact Hshr
  -- the row buffers whole again
  ihave Hr0 := (join_rows (F := F) (ℓ := (TH d L).loc cc0_scratch1) _ _ _ _ _ _ _ _ _ _ _ _ _ _ _ _ _) $$ [Hr' Fl0_dst Fl1_dst Fl2_dst Fl3_dst Fl4_dst Fl5_dst Fl14_src Fl15_src]
  · isplitl [Hr']; · iexact Hr'
    isplitl [Fl0_dst]; · iexact Fl0_dst
    isplitl [Fl1_dst]; · iexact Fl1_dst
    isplitl [Fl2_dst]; · iexact Fl2_dst
    isplitl [Fl3_dst]; · iexact Fl3_dst
    isplitl [Fl4_dst]; · iexact Fl4_dst
    isplitl [Fl5_dst]; · iexact Fl5_dst
    isplitl [Fl14_src]; · iexact Fl14_src
    iexact Fl15_src
  -- what the task hands back
  isplitl [Hi' C6 C7 C8 C9 C10 C11 C12 C13 C14 C15 Hdone]
  · iapply (Entails.of_eq (tdP_eq m d L).symm)
    isplitl [Hi']; · iexact Hi'
    iapply (Entails.of_eq (outPts50 m d L).symm)
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    iexact Hdone
  isplitl [Hs0 Hr0 Hbufs]
  · isplitl [Hs0]
    · iexists _; iexact Hs0
    isplitl [Hr0]; · iexact Hr0
    iexact Hbufs
  isplitl [Fl0 Fl1 Fl2 Fl3 Fl4 Fl5 Hm6 Hm7 Hm8 Hm9 Hm10 Hm11 Hm12 Hm13 Fl14 Fl15 Hm16 Hsems]
  · isplitl [Fl0]; · iexact Fl0
    isplitl [Fl1]; · iexact Fl1
    isplitl [Fl2]; · iexact Fl2
    isplitl [Fl3]; · iexact Fl3
    isplitl [Fl4]; · iexact Fl4
    isplitl [Fl5]; · iexact Fl5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Fl14]; · iexact Fl14
    isplitl [Fl15]; · iexact Fl15
    isplitl [Hm16]; · iexact Hm16
    iexact Hsems
  iexists _
  isplitr
  rotate_left
  · iexact HO
  ipureintro
  iterate 18 refine xwaits_ins _ ?_
  exact hW1

/-! ## The obligation -/

theorem defs₀_vector (c : Fin τ.nSC) (s : Fin τ.nSub) :
    defs₀ (F := F) (.scVector c s) 0 ()
      = SparseCore.onTile hcore0 hsub0 (fun c s => cc0_gather_k (crd c s)
          tV (Memref.isWhole_whole _) fV (Memref.isWhole_whole _) oV (Memref.isWhole_whole _)
          sV (Memref.isWhole_whole _) rV (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (crd ⟨_, hc.1⟩ ⟨_, hc.2⟩) hF hpre O W hO).trans (wp_mono frame _ _ fun _ => obl_post)

end Tile

end Cert.Proof.KI

end
-- ==== Proof.KB.Setup.lean ====
/-
  Shared definitions for the lookup kernel read at any float instance: the launch configuration, the ghost-state algebra,
  the arrays' locations, the closed-form offsets of the 32-row chunks, the two pure functions (the flattened index array
  and the array the kernel leaves in its output), and what each handshake carries.

  The kernel's 32 workers (2 cores x 16 subcores, worker w = 2 * subcore + core) each own 416 consecutive chunks of 32
  rows of the flattened index array (rows [13312 w, 13312 (w + 1))). Chunk number cg = 416 w + k of the flattened array is
  rows [32 cg, 32 cg + 32), which in the output array of shape 26 x 16384 x 128 is the block at
  (cg / 512, 32 * (cg % 512), 0) of size 1 x 32 x 128, because 16384 = 512 * 32.
-/
import proofs.«207811_g81140522156160_cont_9to1c4b_295_10_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«207811_g81140522156160_cont_9to1c4b_295_10_alg».proof.Proof.Gen.Kernel
import proofs.«207811_g81140522156160_cont_9to1c4b_295_10_alg».proof.Proof.Gen.Kernel.Skeleton
import proofs.«207811_g81140522156160_cont_9to1c4b_295_10_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev tLoc (d : Dev nD) : Loc nD τ sig := (SparseCore.T d).loc main_arg0
abbrev aLoc (d : Dev nD) : Loc nD τ sig := (SparseCore.T d).loc main_arg1
abbrev pLoc (d : Dev nD) : Loc nD τ sig := (SparseCore.T d).loc main_v0
abbrev fLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

abbrev tV : Memref sig Kind.scVector Space.hbm S100000x128 EltTy.f32 := Memref.whole main_arg0_scv
abbrev fV : Memref sig Kind.scVector Space.hbm S425984 EltTy.i32 := Memref.whole main_v1_scv
abbrev oV : Memref sig Kind.scVector Space.hbm S26x16384x128 EltTy.f32 := Memref.whole main_v2_scv
abbrev sV : Memref sig Kind.scVector Space.vmem S13312 EltTy.i32 := Memref.whole cc0_scratch0
abbrev rV : Memref sig Kind.scVector Space.vmem S8x32x128 EltTy.f32 := Memref.whole cc0_scratch1

/-! ## Workers, chunks and their offsets -/

/-- The grid point of core `c`, subcore `s`. -/
def crd (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Worker number of a grid point: 2 * subcore + core. -/
def wk (L : grid0.Coords) : ℕ := 2 * (L 1).val + (L 0).val

theorem wk_lt (L : grid0.Coords) : wk L < 32 := by
  have h0 : (L 0).val < 2 := (L 0).isLt
  have h1 : (L 1).val < 16 := (L 1).isLt
  unfold wk; omega

/-- Global chunk number of the worker's chunk `k`. -/
def cg (L : grid0.Coords) (k : Fin 416) : ℕ := 416 * wk L + k.val

theorem cg_lt (L : grid0.Coords) (k : Fin 416) : cg L k < 13312 := by
  have := wk_lt L; have := k.isLt; unfold cg; omega

/-- Where chunk `k` of worker `L` sits in the 26 x 16384 x 128 output. -/
def offC (L : grid0.Coords) (k : Fin 416) : Fin 3 → ℕ := ![cg L k / 512, (cg L k % 512) * 32, 0]

theorem offC_inb (L : grid0.Coords) (k : Fin 416) : ∀ a, offC L k a + S1x32x128.size a ≤ S26x16384x128.size a := by
  have h := cg_lt L k
  intro a
  match a with
  | ⟨0, _⟩ => show cg L k / 512 + 1 ≤ 26; omega
  | ⟨1, _⟩ => show (cg L k % 512) * 32 + 32 ≤ 16384; omega
  | ⟨2, _⟩ => show 0 + 128 ≤ 128; omega

/-- The worker's slice of the flattened index array, spelt as the kernel slices it. -/
abbrev fSl (L : grid0.Coords) : Memref sig .scVector .hbm S13312 .i32 :=
  (fV).slice (Rect.unit (s := S425984) (k0_off1 L) S13312.size (k0_off1_inb L)) (fun _ => rfl)

/-- Chunk `k` of the worker's part of the output, squeezed to 32 x 128. -/
abbrev oCh (L : grid0.Coords) (k : Fin 416) : Memref sig .scVector .hbm S32x128 .f32 :=
  ((oV).slice (Rect.unit (s := S26x16384x128) (offC L k) S1x32x128.size (offC_inb L k)) (fun _ => rfl)).squeeze S32x128 squeezes_S1x32x128_S32x128

/-! ## The two pure functions -/

/-- The flattened index array: position r = 16384 * s + n holds idx[n, s]. Stated as the host operations compute it
    (a transpose, then a reshape). -/
def flatOf (a : IVec S16384x26 32) : IVec S425984 32 :=
  shapeCast S425984 (transpose S26x16384 [1, 0] a transposes_S16384x26_S26x16384_1_0) shapeCasts_S26x16384_S425984

/-- What the kernel leaves in its 26 x 16384 x 128 output: entry (s, n, k) is entry k of the table's row number
    flat[16384 * s + n] (modulo 100000, the identity on indices in range). -/
def outG {α : Type} (tbl : S100000x128.Idx → α) (fl : IVec S425984 32) : S26x16384x128.Idx → α :=
  fun i => tbl (ix2 (⟨(fl (ix1 ⟨(i 0).val * 16384 + (i 1).val, by
      have h0 : (i 0).val < 26 := (i 0).isLt
      have h1 : (i 1).val < 16384 := (i 1).isLt
      show _ < 425984; omega⟩)).toNat % 100000, Nat.mod_lt _ (by decide)⟩ : Fin 100000) (i 2))

/-! ## Shares of the table: a share halved `n` times has 2 ^ n leaves -/

/-- Leaf `i` of the depth-`n` halving of the share `q`: the bits of `i`, most significant first, choose left or right. -/
def leaf : (n : ℕ) → PosShare TreeShare → ℕ → PosShare TreeShare
  | 0, q, _ => q
  | n + 1, q, i => if i % 2 ^ (n + 1) < 2 ^ n then leaf n q.left i else leaf n q.right i

/-- The share of the table that worker `w` is handed: the TensorCore keeps the left half for itself, the right half
    is halved five times among the 32 workers. -/
abbrev tq (w : ℕ) : PosShare TreeShare := leaf 5 (fullShare : PosShare TreeShare).right w

variable (m : (ℓ : Loc nD τ sig) → Buf (Elt F) ℓ) (ρ : Dev nD → PrngReg)

/-- The flattened indices of the launch memory. -/
abbrev flat0 (d : Dev nD) : Buf (Elt F) (fLoc d) := flatOf (m (aLoc d))
/-- The output the kernel leaves, from the launch memory. -/
abbrev out0 (d : Dev nD) : Buf (Elt F) (oLoc d) := outG (m (tLoc d)) (flatOf (m (aLoc d)))

/-! ## What the handshakes carry -/

abbrev tblPts (d : Dev nD) (q : PosShare TreeShare) : sProp 𝕄 := tLoc d ↦{q} m (tLoc d)
abbrev idxPts (d : Dev nD) (L : grid0.Coords) (fl : Buf (Elt F) (fLoc d)) : sProp 𝕄 := fLoc d ↦[(fSl L).view.set]{fullShare} fl
abbrev outPts (d : Dev nD) (L : grid0.Coords) (f : Buf (Elt F) (oLoc d)) : sProp 𝕄 :=
  bigSep Finset.univ fun k : Fin 416 => oLoc d ↦[(oCh L k).view.set]{fullShare} f

/-- What a worker is handed: its share of the table, its slice of the flattened indices, its 416 chunks of the output. -/
def goP (d : Dev nD) (L : grid0.Coords) : sProp 𝕄 :=
  iprop(tblPts m d (tq (wk L)) ∗ idxPts d L (flat0 m d) ∗ outPts d L (m (oLoc d)))
/-- What it hands back: the slice, and its chunks holding the gathered rows. -/
def tdP (d : Dev nD) (L : grid0.Coords) : sProp 𝕄 :=
  iprop(idxPts d L (flat0 m d) ∗ outPts d L (out0 m d))

/-- The grid point of task `i` of SparseCore `c` of the call. -/
def crdK (c : Fin ((K (F := F)).nCore 0)) (i : Fin ((K (F := F)).nSub 0)) : grid0.Coords :=
  crd ⟨c.val, c.isLt⟩ ⟨i.val, i.isLt⟩

/-- Each SparseCore takes and returns its sixteen workers' resources together; a worker its own. -/
def P : (K (F := F)).Pay (nD := nD) (Val := Elt F) (Name := ℕ) (U := UU) where
  st := fun q d c => match q with | 0 => bigSep Finset.univ fun i : Fin ((K (F := F)).nSub 0) => goP m d (crdK c i)
  dn := fun q d c => match q with | 0 => bigSep Finset.univ fun i : Fin ((K (F := F)).nSub 0) => tdP m d (crdK c i)
  go := fun q d c i => match q with | 0 => goP m d (crdK c i)
  td := fun q d c i => match q with | 0 => tdP m d (crdK c i)
  x := fun _ _ => iprop(emp)

instance P_storable : (P (F := F) m).IsStorable where
  st q d c := match q with
    | 0 => by unfold P goP; infer_instance
  dn q d c := match q with
    | 0 => by unfold P tdP; infer_instance
  go q d c i := match q with
    | 0 => by unfold P goP; infer_instance
  td q d c i := match q with
    | 0 => by unfold P tdP; infer_instance

/-- What the proof asks of the launch memory: every index names a row of the table. -/
def PreOK : Prop := ∀ d : Dev nD, Cert.Proof.Spec.InRange (m (aLoc d))

end Cert.Proof.KB

end
-- ==== Proof.KB.Offsets.lean ====
/-
  The output-chunk offsets in closed form. The program computes, in 32-bit words, the worker number 2 * subcore + core,
  the global chunk number v = 416 * worker + chunk, and then the floor quotient and the remainder of v by 512, each
  spelt through the truncating division and remainder with a sign correction. All the words involved are small and not
  negative (v < 13312), so nothing wraps and no correction fires: the offsets are (v / 512, (v % 512) * 32, 0), which is
  where chunk v sits in the 26 x 16384 x 128 output.
-/
import proofs.«207811_g81140522156160_cont_9to1c4b_295_10_alg».proof.Proof.KB.Setup
import Idealize.ShloMosaic.Lib.Affine

namespace Cert.Proof.KB

open Cert.Kernel Cert.Kernel.Gen
open Idealize.ShloMosaic

/-- The sixteen chunk numbers of the straight-line part are chunk numbers of a worker: 0 to 7 and 408 to 415. -/
theorem off2_at_lt : ∀ r : Fin 16, (k0_off2_at r).toNat < 416 := by decide

/-- The loop runs 50 times. -/
theorem trips_eq : k0_t1_loop.trips = 50 := by decide

/-- The straight-line part's chunk offsets, at each of its sixteen chunk numbers. -/
theorem off2_eq : ∀ (L : grid0.Coords) (r : Fin 16),
    k0_off2 L (k0_off2_at r) = offC L ⟨(k0_off2_at r).toNat, off2_at_lt r⟩ := by decide +kernel

/-- The loop's chunk offsets: in trip t the r-th access is at chunk 8 * (t + 1) + r of the worker. -/
theorem off4_eq : ∀ (L : grid0.Coords) (t : Fin k0_t1_loop.trips) (r : Fin 8),
    k0_off4 L t (BitVec.ofNat 32 r.val)
      = offC L ⟨8 * (t.val + 1) + r.val, by have := t.isLt; have := r.isLt; have := trips_eq; omega⟩ := by
  intro i k0_t1 r
  have r_r : r.val < 8 := r.isLt
  have h_c0_i32_865 : Affine.IsInt (BitVec.ofNat 32 r.val) ((r.val : Int)) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c416_i32 : Affine.IsInt 416#32 (416) := Affine.ofNat _ (by omega)
  have h_v2 : Affine.IsInt _ (832 * ((i 1).val : Int) + 416 * ((i 0).val : Int)) := Affine.muli h_v1 h_c416_i32 (by omega)
  have h_c1_i32_422 : Affine.IsInt 1#32 (1) := Affine.ofNat _ (by omega)
  have h_c1_i32_423 : Affine.IsInt 1#32 (1) := Affine.ofNat _ (by omega)
  have r_k0_t1 : k0_t1.val < 50 := Nat.lt_of_lt_of_le k0_t1.isLt k0_t1_abs.2.1
  have h_arg23 : Affine.IsInt _ ((k0_t1.val : Int) + 1) := Affine.iv h_c1_i32_422 h_c1_i32_423 k0_t1.val (by omega)
  have c_arg23 : (k0_t1.val : Int) + 1 ≤ 51 - 1 := Affine.iv_lt k0_t1_abs.1 k0_t1.isLt k0_t1_abs.2.2 h_arg23
  have h_c8_i32 : Affine.IsInt 8#32 (8) := Affine.ofNat _ (by omega)
  have h_v1317 : Affine.IsInt _ (8 * (k0_t1.val : Int) + 8) := Affine.muli h_arg23 h_c8_i32 (by omega)
  have h_v1318 : Affine.IsInt _ (8 * (k0_t1.val : Int) + (r.val : Int) + 8) := Affine.addi h_v1317 h_c0_i32_865 (by omega)
  have h_v1324 : Affine.IsInt _ (832 * ((i 1).val : Int) + 416 * ((i 0).val : Int) + 8 * (k0_t1.val : Int) + (r.val : Int) + 8) := Affine.addi h_v2 h_v1318 (by omega)
  have h_c0_i32_873 : Affine.IsInt 0#32 (0) := Affine.ofNat _ (by omega)
  have h_v1326 : Affine.Holds _ := Affine.sgt_holds h_v1324 h_c0_i32_873 (by omega)
  have h_v1327 : Affine.IsInt _ (1) := Affine.extui_holds h_v1326 (by omega)
  have h_c0_i32_874 : Affine.IsInt 0#32 (0) := Affine.ofNat _ (by omega)
  have h_v1328 : Affine.Fails _ := Affine.slt_fails h_v1324 h_c0_i32_874 (by omega)
  have h_v1329 : Affine.IsInt _ (0) := Affine.extui_fails h_v1328 (by omega)
  have h_v1330 : Affine.IsInt _ (1) := Affine.subi h_v1327 h_v1329 (by omega)
  have h_c512_i32_872 : Affine.IsInt 512#32 (512) := Affine.ofNat _ (by omega)
  have h_c0_i32_875 : Affine.IsInt 0#32 (0) := Affine.ofNat _ (by omega)
  have h_v1331 : Affine.Holds _ := Affine.sgt_holds h_c512_i32_872 h_c0_i32_875 (by omega)
  have h_v1332 : Affine.IsInt _ (1) := Affine.extui_holds h_v1331 (by omega)
  have h_c0_i32_876 : Affine.IsInt 0#32 (0) := Affine.ofNat _ (by omega)
  have h_v1333 : Affine.Fails _ := Affine.slt_fails h_c512_i32_872 h_c0_i32_876 (by omega)
  have h_v1334 : Affine.IsInt _ (0) := Affine.extui_fails h_v1333 (by omega)
  have h_v1335 : Affine.IsInt _ (1) := Affine.subi h_v1332 h_v1334 (by omega)
  have h_v1336 : Affine.Fails _ := Affine.ne_fails h_v1330 h_v1335 (by omega)
  have h_v1337 : Affine.IsInt _ (((832 * ((i 1).val : Int) + 416 * ((i 0).val : Int) + 8 * (k0_t1.val : Int) + (r.val : Int) + 8) % 512)) := Affine.remsi h_v1324 h_c512_i32_872 (by omega)
  have h_c0_i32_877 : Affine.IsInt 0#32 (0) := Affine.ofNat _ (by omega)
  have h_v1338 : Affine.Term _ := Affine.cmpi_term .ne h_v1337 h_c0_i32_877
  have h_v1339 : Affine.Fails _ := Affine.andi_fails_left h_v1336 h_v1338
  have h_v1325 : Affine.IsInt _ (((832 * ((i 1).val : Int) + 416 * ((i 0).val : Int) + 8 * (k0_t1.val : Int) + (r.val : Int) + 8) / 512)) := Affine.divsi h_v1324 h_c512_i32_872 (by omega)
  have h_c1_i32_878 : Affine.IsInt 1#32 (1) := Affine.ofNat _ (by omega)
  have h_v1340 : Affine.IsInt _ (((832 * ((i 1).val : Int) + 416 * ((i 0).val : Int) + 8 * (k0_t1.val : Int) + (r.val : Int) + 8) / 512) - 1) := Affine.subi h_v1325 h_c1_i32_878 (by omega)
  have h_v1341 : Affine.IsInt _ (((832 * ((i 1).val : Int) + 416 * ((i 0).val : Int) + 8 * (k0_t1.val : Int) + (r.val : Int) + 8) / 512)) := Affine.select_fails h_v1339 h_v1340 h_v1325 (by omega)
  have h_c512_i32_879 : Affine.IsInt 512#32 (512) := Affine.ofNat _ (by omega)
  have h_c0_i32_880 : Affine.IsInt 0#32 (0) := Affine.ofNat _ (by omega)
  have h_v1342 : Affine.Fails _ := Affine.eq_fails h_c512_i32_879 h_c0_i32_880 (by omega)
  have h_c1_i32_881 : Affine.IsInt 1#32 (1) := Affine.ofNat _ (by omega)
  have h_v1343 : Affine.IsInt _ (512) := Affine.select_fails h_v1342 h_c1_i32_881 h_c512_i32_879 (by omega)
  have h_v1344 : Affine.IsInt _ (((832 * ((i 1).val : Int) + 416 * ((i 0).val : Int) + 8 * (k0_t1.val : Int) + (r.val : Int) + 8) % 512)) := Affine.remsi h_v1324 h_v1343 (by omega)
  have h_c0_i32_883 : Affine.IsInt 0#32 (0) := Affine.ofNat _ (by omega)
  have h_v1346 : Affine.Fails _ := Affine.slt_fails h_v1344 h_c0_i32_883 (by omega)
  have h_c0_i32_884 : Affine.IsInt 0#32 (0) := Affine.ofNat _ (by omega)
  have h_v1347 : Affine.Fails _ := Affine.slt_fails h_v1343 h_c0_i32_884 (by omega)
  have h_v1348 : Affine.Fails _ := Affine.xori_ff h_v1346 h_v1347
  have h_c0_i32_882 : Affine.IsInt 0#32 (0) := Affine.ofNat _ (by omega)
  have h_v1345 : Affine.Term _ := Affine.cmpi_term .ne h_v1344 h_c0_i32_882
  have h_v1349 : Affine.Fails _ := Affine.andi_fails_left h_v1348 h_v1345
  have h_v1350 : Affine.IsInt _ (((832 * ((i 1).val : Int) + 416 * ((i 0).val : Int) + 8 * (k0_t1.val : Int) + (r.val : Int) + 8) % 512) + 512) := Affine.addi h_v1344 h_v1343 (by omega)
  have h_v1351 : Affine.IsInt _ (((832 * ((i 1).val : Int) + 416 * ((i 0).val : Int) + 8 * (k0_t1.val : Int) + (r.val : Int) + 8) % 512)) := Affine.select_fails h_v1349 h_v1350 h_v1344 (by omega)
  have h_c32_i32_885 : Affine.IsInt 32#32 (32) := Affine.ofNat _ (by omega)
  have h_v1352 : Affine.IsInt _ (32 * ((832 * ((i 1).val : Int) + 416 * ((i 0).val : Int) + 8 * (k0_t1.val : Int) + (r.val : Int) + 8) % 512)) := Affine.muli h_v1351 h_c32_i32_885 (by omega)
  have h_c0_i32_889 : Affine.IsInt 0#32 (0) := Affine.ofNat _ (by omega)
  have e1 : ((832 * ((i 1).val : Int) + 416 * ((i 0).val : Int) + 8 * (k0_t1.val : Int) + (r.val : Int) + 8) / 512) = (((416 * (2 * (i 1).val + (i 0).val) + (8 * (k0_t1.val + 1) + r.val)) / 512 : Nat) : Int) := by omega
  have e2 : 32 * ((832 * ((i 1).val : Int) + 416 * ((i 0).val : Int) + 8 * (k0_t1.val : Int) + (r.val : Int) + 8) % 512) = (((416 * (2 * (i 1).val + (i 0).val) + (8 * (k0_t1.val + 1) + r.val)) % 512 * 32 : Nat) : Int) := by omega
  exact Affine.vec_cons h_v1341 e1 <| Affine.vec_cons h_v1352 e2 rfl

end Cert.Proof.KB
-- ==== Proof.KB.Inv.lean ====
/-
  The loop's invariant. Before trip t (t = 0, …, 49; the trip handles chunks 8 (t + 1), …, 8 (t + 1) + 7):
  the gathers of chunks 8 (t + 1) + b, b = 0, …, 5, are in flight into row buffers 0, …, 5, each on its own semaphore, each
  holding its buffer, its 32 entries of the index scratch and one of the table's read shares (which one moves with the trip); the copies out of chunks
  8 (t + 1) − 2 and 8 (t + 1) − 1 are in flight from buffers 6 and 7; the other semaphores read zero; the index scratch is held piece by piece
  but for the six slices in flight; the chunks below 8 (t + 1) − 2 of the output hold the gathered rows, the chunks from
  8 (t + 1) on are untouched. Every payload in flight is known by its values: entry x of the chunk is the output
  function at the chunk's position x.
-/
import proofs.«207811_g81140522156160_cont_9to1c4b_295_10_alg».proof.Proof.KB.Setup
import proofs.«207811_g81140522156160_cont_9to1c4b_295_10_alg».proof.Proof.KB.Offsets

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
/-- The worker's thread. -/
abbrev TH : Thread nD τ := V d (cV L) (jV L)

/-! ## The row buffers, the table as the gathers address it, the list slices, the chunks -/

/-- Row buffer `r`. -/
abbrev slotAt (r : ℕ) (hr : ∀ a, (![r, 0, 0] : Fin 3 → ℕ) a + S1x32x128.size a ≤ S8x32x128.size a) : Memref sig .scVector .vmem S32x128 .f32 :=
  ((rV).slice (Rect.unit (s := S8x32x128) ![r, 0, 0] S1x32x128.size hr) (fun _ => rfl)).squeeze S32x128 squeezes_S1x32x128_S32x128

abbrev tVw : Memref sig .scVector .hbm S100000x128 .f32 :=
  (tV).slice (Rect.unit (s := S100000x128) ![0, 0] S100000x128.size inb_S100000x128_S100000x128_0_0) (fun _ => rfl)

/-- A chunk number, total. -/
def ck (n : ℕ) : Fin 416 := ⟨n % 416, Nat.mod_lt _ (by decide)⟩

/-- The 32 entries of the index scratch that chunk `n` gathers by. -/
abbrev lstAt (off : ℕ) (h : ∀ a, (![off] : Fin 1 → ℕ) a + S32.size a ≤ S13312.size a) : Memref sig .scVector .vmem S32 .i32 :=
  (sV).slice (Rect.unit (s := S13312) ![off] S32.size h) (fun _ => rfl)

theorem lstK_inb (c : Fin 416) : ∀ a, (![32 * c.val] : Fin 1 → ℕ) a + S32.size a ≤ S13312.size a := by
  intro a
  have h := c.isLt
  match a with
  | ⟨0, _⟩ => show 32 * c.val + 32 ≤ 13312; omega

/-- The 32 entries of the index scratch that chunk `c` gathers by: entries [32 c, 32 c + 32). -/
abbrev lstK (c : Fin 416) : Memref sig .scVector .vmem S32 .i32 := lstAt (32 * c.val) (lstK_inb c)

/-- The list slice of chunk 8 (t + 1) + b. -/
abbrev lstC (t b : ℕ) : Memref sig .scVector .vmem S32 .i32 := lstK (ck (8 * (t + 1) + b))

/-- The semaphore cell number `j` of the worker. -/
abbrev cell (j : Fin 17) : GSem nD τ sig := (TH d L, SemLoc.dma (⟨j.val, j.isLt⟩ : DmaSem sig))

/-- What the index scratch holds once the index fetch has landed. -/
abbrev fiOf (fs : Buf (Elt F) ((TH d L).loc cc0_scratch0)) : Buf (Elt F) ((TH d L).loc cc0_scratch0) :=
  View.write (Elt F) (sV).view fs ((fSl L).view.read (Elt F) (flat0 m d)) Finset.univ

/-- A payload of chunk `c` known by its values. -/
def PayOf (c : Fin 416) (pay : S32x128.Idx → Elt F .f32) : Prop :=
  ∀ x : S32x128.Idx, pay x = out0 m d ((oCh L c).view.emb x)

variable (fs : Buf (Elt F) ((TH d L).loc cc0_scratch0))

/-- The gather of chunk 8 (t + 1) + b in flight into row buffer `r` on cell `b`: what the buffer will hold reads back as the
    chunk's payload. -/
def Gfl (t b : ℕ) (hb : b < 17) (r : ℕ) (hr : ∀ a, (![r, 0, 0] : Fin 3 → ℕ) a + S1x32x128.size a ≤ S8x32x128.size a) (tok : PosShare TreeShare) : sProp 𝕄 :=
  iprop(∃ (fc : Buf (Elt F) ((TH d L).loc cc0_scratch1)) (pay : S32x128.Idx → Elt F .f32), ⌜PayOf m d L (ck (8 * (t + 1) + b)) pay⌝ ∗
    ⌜(slotAt r hr).view.read (Elt F) fc = pay⌝ ∗
    Transfers.Flight countersEmb (TH d L) (SemLoc.dma (⟨b, hb⟩ : DmaSem sig)) (default : HIx 1) 131072
      iprop((((slotAt r hr).view.loc (TH d L) ↦[(slotAt r hr).view.set]{fullShare} fc)
          ∗ ((lstC t b).view.loc (TH d L) ↦[(lstC t b).view.set]{fullShare} fiOf m d L fs))
        ∗ ((tVw).view.loc (TH d L) ↦[(tVw).view.set]{tok} m (tLoc d))))

/-- The copy out of chunk `c` in flight from buffer `sl` on cell `j`. -/
def Ofl (c : Fin 416) (j : ℕ) (hj : j < 17) (r : ℕ) (hr : ∀ a, (![r, 0, 0] : Fin 3 → ℕ) a + S1x32x128.size a ≤ S8x32x128.size a) : sProp 𝕄 :=
  iprop(∃ (fo : Buf (Elt F) (oLoc d)) (fb : Buf (Elt F) ((TH d L).loc cc0_scratch1)) (pay : S32x128.Idx → Elt F .f32), ⌜PayOf m d L c pay⌝ ∗
    Transfers.Flight countersEmb (TH d L) (SemLoc.dma (⟨j, hj⟩ : DmaSem sig)) (default : HIx 1) 131072
      iprop(((oCh L c).view.loc (TH d L) ↦[(oCh L c).view.set]{fullShare} (oCh L c).view.writes (Elt F) fo [⟨Rect.whole S32x128, pay⟩])
        ∗ ((slotAt r hr).view.loc (TH d L) ↦[(slotAt r hr).view.set]{fullShare} fb)))

/-- The index scratch but for the six list slices in flight, piece by piece: the slices of the chunks below 8 (t + 1)
    and from 8 (t + 1) + 6 on. -/
def Sheld (t : ℕ) : sProp 𝕄 :=
  bigSep (Finset.univ.filter fun c : Fin 416 => c.val < 8 * (t + 1) ∨ 8 * (t + 1) + 6 ≤ c.val) fun c =>
    (lstK c).view.loc (TH d L) ↦[(lstK c).view.set]{fullShare} fiOf m d L fs

/-- The chunks written: those below 8 (t + 1) − 2. -/
def Odone (t : ℕ) : sProp 𝕄 :=
  bigSep (Finset.univ.filter fun c : Fin 416 => c.val + 2 < 8 * (t + 1)) fun c => oLoc d ↦[(oCh L c).view.set]{fullShare} out0 m d
/-- The chunks untouched: those from 8 (t + 1) on. -/
def Ofut (t : ℕ) : sProp 𝕄 :=
  bigSep (Finset.univ.filter fun c : Fin 416 => 8 * (t + 1) ≤ c.val) fun c => oLoc d ↦[(oCh L c).view.set]{fullShare} m (oLoc d)

abbrev tokq (i : Fin 8) : PosShare TreeShare := Transfers.shareTok (tq (wk L)) 8 i

/-- Which of the table's read shares the gather into buffer `b` holds before trip `t`: each new gather takes the share the
    wait just before it returned, so over one trip the six shares in use move round by two. -/
abbrev tokc (t b : ℕ) : Fin 8 := ⟨(b + 2 * t) % 6, by omega⟩

/-- The table's read share number `i` but for the table's own elements: nothing, kept beside its flight. -/
abbrev tokRest (i : Fin 8) : sProp 𝕄 :=
  (tV).view.loc (TH d L) ↦[Finset.univ \ (tVw).view.set]{Transfers.shareTok (tq (wk L)) 8 i} m (tLoc d)

/-- The invariant before trip `t`. -/
def inv (O : CellTallies nD τ sig (HIx 1)) (W : Waits sig (HIx 1)) (t : ℕ) (_ : PUnit) : sProp 𝕄 :=
  iprop(Transfers.MayWaits (TH d L) (default : HIx 1) O
    ∗ Gfl m d L fs t 0 (by decide) 0 inb_S8x32x128_S1x32x128_0_0_0 (Transfers.shareTok (tq (wk L)) 8 (tokc t 0)) ∗ Gfl m d L fs t 1 (by decide) 1 inb_S8x32x128_S1x32x128_1_0_0 (Transfers.shareTok (tq (wk L)) 8 (tokc t 1)) ∗ Gfl m d L fs t 2 (by decide) 2 inb_S8x32x128_S1x32x128_2_0_0 (Transfers.shareTok (tq (wk L)) 8 (tokc t 2))
    ∗ Gfl m d L fs t 3 (by decide) 3 inb_S8x32x128_S1x32x128_3_0_0 (Transfers.shareTok (tq (wk L)) 8 (tokc t 3)) ∗ Gfl m d L fs t 4 (by decide) 4 inb_S8x32x128_S1x32x128_4_0_0 (Transfers.shareTok (tq (wk L)) 8 (tokc t 4)) ∗ Gfl m d L fs t 5 (by decide) 5 inb_S8x32x128_S1x32x128_5_0_0 (Transfers.shareTok (tq (wk L)) 8 (tokc t 5))
    ∗ tokRest m d L (tokc t 0) ∗ tokRest m d L (tokc t 1) ∗ tokRest m d L (tokc t 2) ∗ tokRest m d L (tokc t 3) ∗ tokRest m d L (tokc t 4) ∗ tokRest m d L (tokc t 5)
    ∗ ((tV).view.loc (TH d L) ↦{Transfers.shareTok (tq (wk L)) 8 6} m (tLoc d)) ∗ ((tV).view.loc (TH d L) ↦{Transfers.shareTok (tq (wk L)) 8 7} m (tLoc d))
    ∗ Ofl m d L (ck (8 * (t + 1) - 2)) 14 (by decide) 6 inb_S8x32x128_S1x32x128_6_0_0 ∗ Ofl m d L (ck (8 * (t + 1) - 1)) 15 (by decide) 7 inb_S8x32x128_S1x32x128_7_0_0
    ∗ semVal (cell d L 6) 0 ∗ semVal (cell d L 7) 0
    ∗ semVal (cell d L 8) 0 ∗ semVal (cell d L 9) 0 ∗ semVal (cell d L 10) 0 ∗ semVal (cell d L 11) 0 ∗ semVal (cell d L 12) 0 ∗ semVal (cell d L 13) 0
    ∗ semVal (cell d L 16) 0
    ∗ Sheld m d L fs t
    ∗ Odone m d L t ∗ Ofut m d L t
    ∗ ∃ W', ⌜∀ p ∈ W', p ∈ W ∨ p.2 = none⌝ ∗ owes (TH d L) O W')

end Cert.Proof.KB

end
-- ==== Proof.KB.Split.lean ====
/-
  A product over a finite set with a list of distinct members taken out one by one.
-/
import proofs.«207811_g81140522156160_cont_9to1c4b_295_10_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

section Split

variable {M : Type} [URA M] {I : Type} [DecidableEq I]

/-- `Φ` at each member of the list, then `R`. -/
def sepOff (Φ : I → sProp M) : List I → sProp M → sProp M
  | [], R => R
  | i :: l, R => iprop(Φ i ∗ sepOff Φ l R)

theorem bigSep_sepOff (Φ : I → sProp M) : ∀ (l : List I) (s : Finset I), l.Nodup → (∀ i ∈ l, i ∈ s) →
    bigSep s Φ = sepOff Φ l (bigSep (s \ l.toFinset) Φ)
  | [], s, _, _ => by simp [sepOff]
  | i :: l, s, hnd, hs => by
    have hi : i ∈ s := hs i (List.mem_cons_self ..)
    have hn := List.nodup_cons.mp hnd
    rw [SparseCore.bigSep_erase' hi, bigSep_sepOff Φ l (s.erase i) hn.2
      (fun j hj => Finset.mem_erase.mpr ⟨fun e => hn.1 (e ▸ hj), hs j (List.mem_cons_of_mem _ hj)⟩)]
    show _ = iprop(Φ i ∗ sepOff Φ l (bigSep (s \ (i :: l).toFinset) Φ))
    rw [List.toFinset_cons, Finset.sdiff_insert, Finset.erase_sdiff_comm]

theorem bigSep_fin8 (Φ : Fin 8 → sProp M) :
    bigSep Finset.univ Φ = iprop(Φ 0 ∗ Φ 1 ∗ Φ 2 ∗ Φ 3 ∗ Φ 4 ∗ Φ 5 ∗ Φ 6 ∗ Φ 7) := by
  rw [bigSep_sepOff Φ [0, 1, 2, 3, 4, 5, 6] Finset.univ (by decide) (fun _ _ => Finset.mem_univ _)]
  simp only [sepOff]
  rw [show (Finset.univ : Finset (Fin 8)) \ ([0, 1, 2, 3, 4, 5, 6] : List (Fin 8)).toFinset = {7} by decide, bigSep_singleton]

end Split

end Cert.Proof.KB

end
-- ==== Proof.KB.Steps.lean ====
/-
  One trip's bookkeeping, as equations. A trip takes eight consecutive chunks out of the untouched part of the output and puts
  eight into the written part; it takes eight consecutive list slices out of the held part of the index scratch and puts eight
  back. Each product over a range of chunk numbers splits into its eight pieces and the product over the rest.
  Also: a chunk, or a list slice, held under its number is held under the loop's own spelling of its offsets.
-/
import proofs.«207811_g81140522156160_cont_9to1c4b_295_10_alg».proof.Proof.KB.Inv
import proofs.«207811_g81140522156160_cont_9to1c4b_295_10_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

theorem ck_val {n : ℕ} (h : n < 416) : (ck n).val = n := Nat.mod_eq_of_lt h

/-- Eight consecutive chunk numbers from `a`. -/
def cks (a : ℕ) : List (Fin 416) := (List.range 8).map fun r => ck (a + r)

theorem cks_eq (a : ℕ) : cks a = [ck (a + 0), ck (a + 1), ck (a + 2), ck (a + 3), ck (a + 4), ck (a + 5), ck (a + 6), ck (a + 7)] := rfl

theorem mem_cks {a : ℕ} (h : a + 8 ≤ 416) (i : Fin 416) : i ∈ cks a ↔ a ≤ i.val ∧ i.val < a + 8 := by
  unfold cks
  simp only [List.mem_map, List.mem_range]
  constructor
  · rintro ⟨r, hr, rfl⟩
    rw [ck_val (by omega)]; omega
  · intro hi
    refine ⟨i.val - a, by omega, Fin.ext ?_⟩
    rw [ck_val (by omega)]; omega

theorem cks_nodup {a : ℕ} (h : a + 8 ≤ 416) : (cks a).Nodup := by
  unfold cks
  refine (List.nodup_range (n := 8)).map_on fun x hx y hy e => ?_
  have hx' := List.mem_range.mp hx
  have hy' := List.mem_range.mp hy
  have e' := congrArg Fin.val e
  rw [ck_val (by omega), ck_val (by omega)] at e'
  omega

section Take

variable {M : Type} [URA M]

/-- A product over the chunk numbers satisfying `p` is the eight pieces from `a` and the product over those satisfying `q`,
    when `p` is "among the eight, or `q`" and none of the eight satisfies `q`. -/
theorem bigSep_take8 (Φ : Fin 416 → sProp M) (p q : Fin 416 → Prop) [DecidablePred p] [DecidablePred q] {a : ℕ} (ha : a + 8 ≤ 416)
    (hp : ∀ i : Fin 416, p i ↔ ((a ≤ i.val ∧ i.val < a + 8) ∨ q i)) (hq : ∀ i : Fin 416, a ≤ i.val → i.val < a + 8 → ¬ q i) :
    bigSep (Finset.univ.filter p) Φ = sepOff Φ (cks a) (bigSep (Finset.univ.filter q) Φ) := by
  have hS : (Finset.univ.filter p) \ (cks a).toFinset = Finset.univ.filter q := by
    ext i
    simp only [Finset.mem_sdiff, Finset.mem_filter, Finset.mem_univ, true_and, List.mem_toFinset, mem_cks ha, hp i]
    constructor
    · rintro ⟨h | h, hn⟩
      · exact absurd h hn
      · exact h
    · intro h
      exact ⟨Or.inr h, fun hn => hq i hn.1 hn.2 h⟩
  rw [bigSep_sepOff Φ (cks a) (Finset.univ.filter p) (cks_nodup ha)
    (fun i hi => Finset.mem_filter.mpr ⟨Finset.mem_univ _, (hp i).mpr (Or.inl ((mem_cks ha i).mp hi))⟩), hS]

end Take

variable (m : (ℓ : Loc nD τ sig) → Buf (Elt F) ℓ) (d : Dev nD) (L : grid0.Coords)

omit m in
/-- Chunk `c` of the output, holding `f`. -/
abbrev oPc (c : Fin 416) (f : Buf (Elt F) (oLoc d)) : sProp 𝕄 := oLoc d ↦[(oCh L c).view.set]{fullShare} f
omit m in
/-- List slice `c` of the index scratch, holding `f`. -/
abbrev sPc (c : Fin 416) (f : Buf (Elt F) ((TH d L).loc cc0_scratch0)) : sProp 𝕄 :=
  (lstK c).view.loc (TH d L) ↦[(lstK c).view.set]{fullShare} f

/-- The untouched chunks before trip `t` are the trip's eight and those untouched after it. -/
theorem Ofut_take (t : ℕ) (ht : t < 50) :
    (Ofut m d L t : sProp 𝕄)
      = sepOff (fun c : Fin 416 => (oLoc d ↦[(oCh L c).view.set]{fullShare} m (oLoc d) : sProp 𝕄)) (cks (8 * (t + 1))) (Ofut m d L (t + 1)) := by
  unfold Ofut
  exact bigSep_take8 _ _ _ (by omega) (fun i => by have := i.isLt; omega) (fun i h1 h2 => by omega)

/-- The written chunks after trip `t` are the eight the trip finishes (from 8 (t + 1) − 2) and those written before it. -/
theorem Odone_give (t : ℕ) (ht : t < 50) :
    (Odone m d L (t + 1) : sProp 𝕄)
      = sepOff (fun c : Fin 416 => (oLoc d ↦[(oCh L c).view.set]{fullShare} out0 m d : sProp 𝕄)) (cks (8 * (t + 1) - 2)) (Odone m d L t) := by
  unfold Odone
  exact bigSep_take8 _ _ _ (by omega) (fun i => by have := i.isLt; omega) (fun i h1 h2 => by omega)

/-- The same, with the eight chunk numbers as the trip meets them: the two whose copies out were in flight, then the six
    the trip copies out and waits for. -/
theorem Odone_give' (t : ℕ) (ht : t < 50) :
    (Odone m d L (t + 1) : sProp 𝕄)
      = iprop(oPc d L (ck (8 * (t + 1) - 2)) (out0 m d) ∗ oPc d L (ck (8 * (t + 1) - 1)) (out0 m d)
          ∗ oPc d L (ck (8 * (t + 1) + 0)) (out0 m d) ∗ oPc d L (ck (8 * (t + 1) + 1)) (out0 m d) ∗ oPc d L (ck (8 * (t + 1) + 2)) (out0 m d)
          ∗ oPc d L (ck (8 * (t + 1) + 3)) (out0 m d) ∗ oPc d L (ck (8 * (t + 1) + 4)) (out0 m d) ∗ oPc d L (ck (8 * (t + 1) + 5)) (out0 m d)
          ∗ Odone m d L t) := by
  rw [Odone_give m d L t ht, cks_eq]
  have e1 : 8 * (t + 1) - 2 + 1 = 8 * (t + 1) - 1 := by omega
  have e2 : 8 * (t + 1) - 2 + 2 = 8 * (t + 1) + 0 := by omega
  have e3 : 8 * (t + 1) - 2 + 3 = 8 * (t + 1) + 1 := by omega
  have e4 : 8 * (t + 1) - 2 + 4 = 8 * (t + 1) + 2 := by omega
  have e5 : 8 * (t + 1) - 2 + 5 = 8 * (t + 1) + 3 := by omega
  have e6 : 8 * (t + 1) - 2 + 6 = 8 * (t + 1) + 4 := by omega
  have e7 : 8 * (t + 1) - 2 + 7 = 8 * (t + 1) + 5 := by omega
  rw [e1, e2, e3, e4, e5, e6, e7]
  rfl

variable (fs : Buf (Elt F) ((TH d L).loc cc0_scratch0))

/-- The list slices neither in flight before trip `t` nor touched by it. -/
def Score (t : ℕ) : sProp 𝕄 :=
  bigSep (Finset.univ.filter fun c : Fin 416 => c.val < 8 * (t + 1) ∨ 8 * (t + 1) + 14 ≤ c.val) fun c =>
    (lstK c).view.loc (TH d L) ↦[(lstK c).view.set]{fullShare} fiOf m d L fs

/-- The held slices before trip `t`: the eight the trip gathers by (from 8 (t + 1) + 6) and the core. -/
theorem Sheld_take (t : ℕ) (ht : t < 50) :
    (Sheld m d L fs t : sProp 𝕄)
      = sepOff (fun c : Fin 416 => ((lstK c).view.loc (TH d L) ↦[(lstK c).view.set]{fullShare} fiOf m d L fs : sProp 𝕄)) (cks (8 * (t + 1) + 6))
          (Score m d L fs t) := by
  unfold Sheld Score
  exact bigSep_take8 _ _ _ (by omega) (fun i => by have := i.isLt; omega) (fun i h1 h2 => by omega)

/-- The held slices after trip `t`: the eight whose gathers the trip has waited for (from 8 (t + 1)) and the core. -/
theorem Sheld_give (t : ℕ) (ht : t < 50) :
    (Sheld m d L fs (t + 1) : sProp 𝕄)
      = sepOff (fun c : Fin 416 => ((lstK c).view.loc (TH d L) ↦[(lstK c).view.set]{fullShare} fiOf m d L fs : sProp 𝕄)) (cks (8 * (t + 1)))
          (Score m d L fs t) := by
  unfold Sheld Score
  exact bigSep_take8 _ _ _ (by omega) (fun i => by have := i.isLt; omega) (fun i h1 h2 => by omega)

/-! ## A piece under its number is the piece under the program's offsets -/

omit fs in
/-- The output held on a 1 x 32 x 128 unit block depends only on the block's offsets. -/
theorem oPiece_off (off off' : Fin 3 → ℕ) (e : off = off') (h : ∀ a, off a + S1x32x128.size a ≤ S26x16384x128.size a)
    (h' : ∀ a, off' a + S1x32x128.size a ≤ S26x16384x128.size a) (f : Buf (Elt F) (oLoc d)) :
    (oLoc d ↦[(((oV).slice (Rect.unit (s := S26x16384x128) off S1x32x128.size h) (fun _ => rfl)).squeeze S32x128 squeezes_S1x32x128_S32x128).view.set]{fullShare} f : sProp 𝕄)
      = (oLoc d ↦[(((oV).slice (Rect.unit (s := S26x16384x128) off' S1x32x128.size h') (fun _ => rfl)).squeeze S32x128 squeezes_S1x32x128_S32x128).view.set]{fullShare} f) := by
  subst e; rfl

omit fs in
/-- Chunk `k` under the loop's spelling: trip `t`, the word `w` the step adds. -/
theorem oPiece4 (t : Fin k0_t1_loop.trips) (r : Fin 8) (w : BitVec 32) (hw : w = BitVec.ofNat 32 r.val)
    (h : ∀ a, (k0_off4 L t w) a + S1x32x128.size a ≤ S26x16384x128.size a) (k : Fin 416) (hk : k.val = 8 * (t.val + 1) + r.val)
    (f : Buf (Elt F) (oLoc d)) :
    (oLoc d ↦[(oCh L k).view.set]{fullShare} f : sProp 𝕄)
      = ((((oV).slice (Rect.unit (s := S26x16384x128) (k0_off4 L t w) S1x32x128.size h) (fun _ => rfl)).squeeze S32x128 squeezes_S1x32x128_S32x128).view.loc (TH d L)
          ↦[(((oV).slice (Rect.unit (s := S26x16384x128) (k0_off4 L t w) S1x32x128.size h) (fun _ => rfl)).squeeze S32x128 squeezes_S1x32x128_S32x128).view.set]{fullShare} f) := by
  subst hw
  refine oPiece_off d (offC L k) _ ?_ (offC_inb L k) h f
  rw [off4_eq L t r]
  exact congrArg (offC L) (Fin.ext hk)

omit m in
/-- The index scratch held on a 32-entry unit block depends only on the block's offset. -/
theorem sPiece_off (off off' : Fin 1 → ℕ) (e : off = off') (h : ∀ a, off a + S32.size a ≤ S13312.size a)
    (h' : ∀ a, off' a + S32.size a ≤ S13312.size a) (f : Buf (Elt F) ((TH d L).loc cc0_scratch0)) :
    ((((sV).slice (Rect.unit (s := S13312) off S32.size h) (fun _ => rfl)).view.loc (TH d L)
        ↦[((sV).slice (Rect.unit (s := S13312) off S32.size h) (fun _ => rfl)).view.set]{fullShare} f : sProp 𝕄))
      = (((sV).slice (Rect.unit (s := S13312) off' S32.size h') (fun _ => rfl)).view.loc (TH d L)
        ↦[((sV).slice (Rect.unit (s := S13312) off' S32.size h') (fun _ => rfl)).view.set]{fullShare} f) := by
  subst e; rfl

omit m in
/-- List slice `k` under the loop's spelling of the slices it gathers by: trip `t`, the word `w`. -/
theorem sPiece5 (t : Fin k0_t1_loop.trips) (r : Fin 8) (w : BitVec 32) (hw : w = BitVec.ofNat 32 r.val)
    (h : ∀ a, (k0_off5 t w) a + S32.size a ≤ S13312.size a) (k : Fin 416) (hk : k.val = 8 * (t.val + 1) + 6 + r.val)
    (f : Buf (Elt F) ((TH d L).loc cc0_scratch0)) :
    (((lstK k).view.loc (TH d L) ↦[(lstK k).view.set]{fullShare} f : sProp 𝕄))
      = (((sV).slice (Rect.unit (s := S13312) (k0_off5 t w) S32.size h) (fun _ => rfl)).view.loc (TH d L)
        ↦[((sV).slice (Rect.unit (s := S13312) (k0_off5 t w) S32.size h) (fun _ => rfl)).view.set]{fullShare} f) := by
  subst hw
  refine sPiece_off d L (![32 * k.val]) _ ?_ (lstK_inb k) h f
  rw [k0_off5_eq t r, hk]
  exact congrArg (fun x : ℕ => (![x] : Fin 1 → ℕ)) (by omega)

end Cert.Proof.KB

end
-- ==== Proof.KB.Value.lean ====
/-
  The value of one gathered chunk, and what the slices of the two index arrays read.

  A gather through a list of 32 words puts, at row r of a 32 x 128 buffer, the table's row number list[r]. When the list
  is entries [13312 w + 32 k, 13312 w + 32 k + 32) of the flattened index array (chunk k of worker w), that is what
  the output function prescribes at chunk 416 w + k of the 26 x 16384 x 128 output: element (r, c) of the chunk sits at
  (g / 512, 32 (g % 512) + r, c) with g = 416 w + k, whose flattened position is
  (g / 512) 16384 + 32 (g % 512) + r = 32 g + r = 13312 w + 32 k + r; and the row number is taken modulo 100000 on one
  side only, which changes nothing because the word is below 100000.
-/
import proofs.«207811_g81140522156160_cont_9to1c4b_295_10_alg».proof.Proof.KB.Setup
import Idealize.ShloMosaic.Lib.SparseCore.Stream

noncomputable section

namespace Cert.Proof.KB

open Cert.Kernel Cert.Kernel.Gen
open Idealize.ShloMosaic
open Idealize.ShloMosaic.SparseCore (gatherPayload rows)
open Idealize.ShloMosaic.ValueIdx

variable {F : FTy → Type}

/-! ## Where an element of a chunk sits in the output -/

/-- Element (r, c) of a 32 x 128 chunk is element (0, r, c) of the 1 x 32 x 128 block it is the squeeze of. -/
theorem squeeze_idx (x : S32x128.Idx) :
    Shape.reshapeEquiv squeezes_S1x32x128_S32x128.numel_eq x = (ix3 (0 : Fin 1) (x 0) (x 1) : S1x32x128.Idx) :=
  Shape.reshapeEquiv_eq_of_rowMajor _ (by
    rw [Shape.rowMajor_val_three, Shape.rowMajor_val_two]
    show (0 * 32 + (x 0).val) * 128 + (x 1).val = (x 0).val * 128 + (x 1).val
    omega)

/-- The position in the output of element x of chunk k of worker L: the block's offsets plus (0, r, c). -/
theorem oCh_emb (L : grid0.Coords) (k : Fin 416) (x : S32x128.Idx) (a : Fin 3) :
    ((oCh L k).view.emb x a).val = offC L k a + (ix3 (0 : Fin 1) (x 0) (x 1) a).val := by
  show ((Rect.unit (s := S26x16384x128) (offC L k) S1x32x128.size (offC_inb L k)).emb
      (Shape.reshapeEquiv squeezes_S1x32x128_S32x128.numel_eq x) a : Nat) = _
  rw [squeeze_idx, Rect.emb_apply]
  show offC L k a + 1 * _ = _
  rw [Nat.one_mul]
  rfl

theorem oCh_emb0 (L : grid0.Coords) (k : Fin 416) (x : S32x128.Idx) : ((oCh L k).view.emb x 0).val = cg L k / 512 :=
  (oCh_emb L k x 0).trans (Nat.add_zero _)
theorem oCh_emb1 (L : grid0.Coords) (k : Fin 416) (x : S32x128.Idx) :
    ((oCh L k).view.emb x 1).val = cg L k % 512 * 32 + (x 0).val := oCh_emb L k x 1
theorem oCh_emb2 (L : grid0.Coords) (k : Fin 416) (x : S32x128.Idx) : ((oCh L k).view.emb x 2).val = (x 1).val :=
  (oCh_emb L k x 2).trans (Nat.zero_add _)

/-! ## The gathered chunk -/

/-- Equal positions of the flattened index array hold the same word. -/
theorem fl_congr (fl : IVec S425984 32) {a b : Nat} (ha : a < 425984) (hb : b < 425984) (e : a = b) :
    fl (ix1 ⟨a, ha⟩) = fl (ix1 ⟨b, hb⟩) := by subst e; rfl

/-- Entry r of a list of 32 words, in row-major order, is the word at index (r). -/
theorem S32_symm (r : Fin S32.numel) : ((S32.rowMajor.symm r) 0).val = r.val := by
  have h := Shape.rowMajor_val_one (S32.rowMajor.symm r)
  rw [Equiv.apply_symm_apply] at h
  exact h.symm

/-- THE VALUE OF A GATHERED CHUNK: the gather's payload through 32 words that are entries
    [13312 w + 32 k, 13312 w + 32 k + 32) of the flattened index array is the output function on chunk k of worker w. -/
theorem payload_eq (tbl : S100000x128.Idx → Elt F .f32) (fl : IVec S425984 32) (offs : S32.Idx → Elt F .i32)
    (L : grid0.Coords) (k : Fin 416)
    (hoffs : ∀ x : S32.Idx, offs x = fl (ix1 ⟨13312 * wk L + 32 * k.val + (x 0).val, by
      have := wk_lt L; have := k.isLt; have h : (x 0).val < 32 := (x 0).isLt; omega⟩))
    (hn : S32.numel = S32x128.size gathers_S100000x128_S32x128.axis')
    (hin : ∀ x, (offs x).toNat < S100000x128.size gathers_S100000x128_S32x128.axis) :
    ∀ x : S32x128.Idx,
      gatherPayload (F := F) gathers_S100000x128_S32x128 tbl (rows (F := F) offs hn hin) x
        = outG tbl fl ((oCh L k).view.emb x) := by
  intro x
  have h0 := oCh_emb0 L k x
  have h1 := oCh_emb1 L k x
  have h2 := oCh_emb2 L k x
  have hw := wk_lt L
  have hk := k.isLt
  have hx0 : (x 0).val < 32 := (x 0).isLt
  -- the list entry the gather reads for row x 0
  let x' : S32.Idx := S32.rowMajor.symm ((x gathers_S100000x128_S32x128.axis').cast hn.symm)
  have hx' : (x' 0).val = (x 0).val := S32_symm _
  have hlt : (offs x').toNat < 100000 := hin x'
  -- that entry is the word of the flattened array at the element's flattened position
  have hword : offs x' = fl (ix1 ⟨((oCh L k).view.emb x 0).val * 16384 + ((oCh L k).view.emb x 1).val, by
      have a0 : ((oCh L k).view.emb x 0).val < 26 := ((oCh L k).view.emb x 0).isLt
      have a1 : ((oCh L k).view.emb x 1).val < 16384 := ((oCh L k).view.emb x 1).isLt
      omega⟩) := by
    rw [hoffs x']
    refine fl_congr fl _ _ ?_
    rw [hx', h0, h1]
    unfold cg
    omega
  unfold gatherPayload outG
  refine congrArg tbl (funext fun b => Fin.ext ?_)
  match b with
  | ⟨0, _⟩ =>
    show (gathers_S100000x128_S32x128.idx (rows (F := F) offs hn hin) x gathers_S100000x128_S32x128.axis).val
      = (fl (ix1 ⟨((oCh L k).view.emb x 0).val * 16384 + ((oCh L k).view.emb x 1).val, _⟩)).toNat % 100000
    rw [Shape.Gathers.idx_axis, ← hword, Nat.mod_eq_of_lt hlt]
    rfl
  | ⟨1, _⟩ =>
    show (gathers_S100000x128_S32x128.idx (rows (F := F) offs hn hin) x (1 : Fin 2)).val = ((oCh L k).view.emb x 2).val
    have e := Shape.Gathers.idx_of_ne gathers_S100000x128_S32x128 (rows (F := F) offs hn hin) x
      (1 : Fin S100000x128.rank) (by decide)
    rw [e, h2]
    rfl

/-! ## What the slices of the two index arrays read -/

/-- Once the fetched words have landed in the whole index scratch, a 32-entry slice of it at offset o reads
    the fetched words [o, o + 32). -/
theorem slice_read_off (fs : (sV).view.ty.Contents (Elt F)) (pay : S13312.Idx → Elt F .i32) (off : Fin 1 → ℕ)
    (h : ∀ a, off a + S32.size a ≤ S13312.size a) (x : S32.Idx) :
    ((sV).slice (Rect.unit (s := S13312) off S32.size h) (fun _ => rfl)).view.read (Elt F)
        (View.write (Elt F) (sV).view fs pay Finset.univ) x
      = pay (ix1 ⟨off 0 + (x 0).val, by
          have h0 : off 0 + 32 ≤ 13312 := h 0
          have hx : (x 0).val < 32 := (x 0).isLt
          omega⟩) := by
  rw [View.write_whole_univ]
  refine ((View.read_apply _ _).trans (cast_eq _ _)).trans ?_
  refine congrArg pay (funext fun a => Fin.ext ?_)
  match a with
  | ⟨0, _⟩ =>
    show ((Rect.unit (s := S13312) off S32.size h).emb x 0 : ℕ) = off 0 + (x 0).val
    rw [Rect.emb_apply]
    show off 0 + 1 * (x 0).val = _
    rw [Nat.one_mul]

/-- The same for chunk k of the scratch: the slice at offset 32 k reads the fetched words [32 k, 32 k + 32). -/
theorem slice_read (fs : (sV).view.ty.Contents (Elt F)) (pay : S13312.Idx → Elt F .i32) (k : ℕ)
    (h : ∀ a, (![32 * k] : Fin 1 → ℕ) a + S32.size a ≤ S13312.size a) (x : S32.Idx) :
    ((sV).slice (Rect.unit (s := S13312) ![32 * k] S32.size h) (fun _ => rfl)).view.read (Elt F)
        (View.write (Elt F) (sV).view fs pay Finset.univ) x
      = pay (ix1 ⟨32 * k + (x 0).val, by
          have h0 : 32 * k + 32 ≤ 13312 := h 0
          have hx : (x 0).val < 32 := (x 0).isLt
          omega⟩) :=
  slice_read_off fs pay ![32 * k] h x

/-- Worker w's slice of the flattened index array reads positions [13312 w, 13312 w + 13312) of it. -/
theorem fetch_read (fl : S425984.Idx → Elt F .i32) (L : grid0.Coords) (j : S13312.Idx) :
    (fSl L).view.read (Elt F) fl j
      = fl (ix1 ⟨13312 * wk L + (j 0).val, by
          have := wk_lt L
          have hj : (j 0).val < 13312 := (j 0).isLt
          omega⟩) := by
  refine ((View.read_apply _ _).trans (cast_eq _ _)).trans ?_
  refine congrArg fl (funext fun a => Fin.ext ?_)
  match a with
  | ⟨0, _⟩ =>
    show ((Rect.unit (s := S425984) (k0_off1 L) S13312.size (k0_off1_inb L)).emb j 0 : ℕ) = 13312 * wk L + (j 0).val
    rw [Rect.emb_apply]
    have e : k0_off1 L 0 = 26624 * (L 1).val + 13312 * (L 0).val := by rw [k0_off1_eq]; rfl
    show k0_off1 L 0 + 1 * (j 0).val = _
    rw [e]
    unfold wk
    omega

end Cert.Proof.KB

end
-- ==== Proof.KB.Close.lean ====
/-
  What closes a trip. A one-piece whole write reads back as its payload. The table's whole-array slice reads as the table.
  A gather's payload has the chunk's values: entry (r, k) of chunk c is entry k of the table's row flat[13312 w + 32 c + r].
  A chunk of the output written whole with a payload of the chunk's values holds the output function on its set.
-/
import proofs.«207811_g81140522156160_cont_9to1c4b_295_10_alg».proof.Proof.KB.Steps
import proofs.«207811_g81140522156160_cont_9to1c4b_295_10_alg».proof.Proof.KB.Value
import Idealize.ShloMosaic.Lib.Writes
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.SparseCore (gatherPayload rows)

variable {F : FTy → Type}

local notation "𝕄" => MT nD τ sig (HIx 1) (Elt F) ℕ UU ℕ

/-- A buffer written whole through a view reads back, through that view, as what was written. -/
theorem read_writes_whole {sg : RefSig} {κ : Kind} {sp : Space} {s : Shape} {e : EltTy} (v : View sg κ sp s e)
    (f : v.ty.Contents (Elt F)) (w : s.Idx → Elt F e) :
    v.read (Elt F) (v.writes (Elt F) f [⟨Rect.whole s, w⟩]) = w := by
  funext x
  have h := View.read_writes_cons_emb v f (Rect.whole s) w [] x
  rwa [Rect.emb_whole_apply] at h

/-- The table read through its whole-array slice is the table. -/
theorem tVw_read (g : S100000x128.Idx → Elt F .f32) : (tVw).view.read (Elt F) g = g := by
  funext i
  refine ((View.read_apply _ _).trans (cast_eq _ _)).trans ?_
  refine congrArg g (funext fun a => Fin.ext ?_)
  show ((Rect.unit (s := S100000x128) ![0, 0] S100000x128.size inb_S100000x128_S100000x128_0_0).emb i a : ℕ) = (i a).val
  rw [Rect.emb_apply]
  have h0 : (![0, 0] : Fin 2 → ℕ) a = 0 := by fin_cases a <;> rfl
  show (![0, 0] : Fin 2 → ℕ) a + 1 * (i a).val = (i a).val
  rw [h0]; omega

/-! ## Re-spelling what a transfer in flight delivers; payloads; the waits recorded -/

section Respell

variable {c : Thread nD τ} {sm : SemLoc sig} {ι : HIx 1} {N : ℕ}

/-- The middle component of a gather's delivery, re-spelt by an equation. -/
theorem Flight_mid {A B B' C : sProp 𝕄} (h : B = B') :
    (Transfers.Flight countersEmb c sm ι N iprop((A ∗ B) ∗ C) : sProp 𝕄) ⊢ Transfers.Flight countersEmb c sm ι N iprop((A ∗ B') ∗ C) := by
  subst h; exact BI.Entails.refl _

/-- The first component of a copy's delivery, re-spelt by an equation. -/
theorem Flight_fst {A A' B : sProp 𝕄} (h : A = A') :
    (Transfers.Flight countersEmb c sm ι N iprop(A ∗ B) : sProp 𝕄) ⊢ Transfers.Flight countersEmb c sm ι N iprop(A' ∗ B) := by
  subst h; exact BI.Entails.refl _

end Respell

variable (m : (ℓ : Loc nD τ sig) → Buf (Elt F) ℓ) (d : Dev nD) (L : grid0.Coords) in
/-- A payload equal to one of the chunk's values has them. -/
theorem PayOf_of_eq {c : Fin 416} {pay pay' : S32x128.Idx → Elt F .f32} (e : pay = pay') (h : PayOf m d L c pay') : PayOf m d L c pay := e ▸ h

/-- One more wait at the kernel's own index keeps the record admissible. -/
theorem waits_ins {W S : Waits sig (HIx 1)} (h : ∀ p ∈ S, p ∈ W ∨ p.2 = none) (sm : SemLoc sig) :
    ∀ p ∈ insert (sm, (default : HIx 1)) S, p ∈ W ∨ p.2 = none := by
  intro p hp
  rcases Finset.mem_insert.mp hp with hp | hp
  · exact .inr (hp ▸ rfl)
  · exact h p hp

variable (m : (ℓ : Loc nD τ sig) → Buf (Elt F) ℓ) (d : Dev nD) (L : grid0.Coords)

/-- A gather by the list slice at offset 32 c of the index scratch, once the index fetch has landed, has chunk c's values. -/
theorem gather_PayOf (fs : Buf (Elt F) ((TH d L).loc cc0_scratch0)) (c : Fin 416) (off : Fin 1 → ℕ)
    (h : ∀ a, off a + S32.size a ≤ S13312.size a) (e0 : off 0 = 32 * c.val)
    (hn : S32.numel = S32x128.size gathers_S100000x128_S32x128.axis')
    (hin : ∀ x, (((sV).slice (Rect.unit (s := S13312) off S32.size h) (fun _ => rfl)).view.read (Elt F) (fiOf m d L fs) x).toNat
      < S100000x128.size gathers_S100000x128_S32x128.axis) :
    PayOf m d L c (gatherPayload (F := F) gathers_S100000x128_S32x128 ((tVw).view.read (Elt F) (m (tLoc d)))
      (rows (F := F) (((sV).slice (Rect.unit (s := S13312) off S32.size h) (fun _ => rfl)).view.read (Elt F) (fiOf m d L fs)) hn hin)) := by
  intro x
  rw [tVw_read]
  refine payload_eq (F := F) (m (tLoc d)) (flat0 m d) _ L c (fun y => ?_) hn _ x
  rw [slice_read_off, fetch_read]
  refine fl_congr _ _ _ ?_
  show 13312 * wk L + (off 0 + (y 0).val) = 13312 * wk L + 32 * c.val + (y 0).val
  omega

/-- A chunk written whole with a payload of its values holds the output function on its set. -/
theorem oPc_value (c : Fin 416) (fo : Buf (Elt F) (oLoc d)) (pay : S32x128.Idx → Elt F .f32) (hp : PayOf m d L c pay) :
    (oLoc d ↦[(oCh L c).view.set]{fullShare} (oCh L c).view.writes (Elt F) fo [⟨Rect.whole S32x128, pay⟩] : sProp 𝕄)
      = oPc d L c (out0 m d) := by
  refine pointsTo_congr fun i hi => ?_
  obtain ⟨x, rfl⟩ := View.exists_emb_of_mem_set (oCh L c).view hi
  have hr := congrFun (read_writes_whole (F := F) (oCh L c).view fo pay) x
  rw [View.read_apply] at hr
  rw [← hp x, ← hr]
  exact (cast_eq _ _).symm

end Cert.Proof.KB

end
-- ==== Proof.KB.Pieces.lean ====
/-
  An array held piece by piece. When the element sets K c of a buffer are the fibres of a function cls into a finite
  type (every element lies in exactly the piece of its class), the buffer held on the elements whose class lies in a set
  A of classes is the pieces K c, c ∈ A, held at once; at A everything, the whole buffer is all its pieces.
  The index scratch of 13312 words is 416 pieces of 32 consecutive words: piece c is words [32 c, 32 c + 32), the class
  of word i is i / 32.
-/
import proofs.«207811_g81140522156160_cont_9to1c4b_295_10_alg».proof.Proof.KB.Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Any buffer cut into the fibres of a function -/

/-- The elements whose class lies in `A` are the pieces of the classes in `A`. -/
theorem biUnion_classes {ι T : Type} [Fintype ι] [DecidableEq ι] [DecidableEq T] (Kt : T → Finset ι) (cls : ι → T)
    (h : ∀ i t, i ∈ Kt t ↔ cls i = t) (A : Finset T) :
    A.biUnion Kt = Finset.univ.filter fun i => cls i ∈ A := by
  ext i
  simp only [Finset.mem_biUnion, Finset.mem_filter, Finset.mem_univ, true_and]
  constructor
  · rintro ⟨t, ht, hi⟩
    rw [(h i t).mp hi]; exact ht
  · intro hi
    exact ⟨cls i, hi, (h i _).mpr rfl⟩

/-- A buffer held on the elements whose class lies in `A` is its pieces of the classes in `A` held at once. -/
theorem pointsTo_classes_sub {ℓ : Loc nD τ sig} {T : Type} [DecidableEq T] (Kt : T → Finset (Idx ℓ)) (cls : Idx ℓ → T)
    (h : ∀ i t, i ∈ Kt t ↔ cls i = t) (A : Finset T) (q : PosShare TreeShare) (f : Buf (Elt F) ℓ) :
    (ℓ ↦[Finset.univ.filter fun i => cls i ∈ A]{q} f : sProp 𝕄) = bigSep A fun t => ℓ ↦[Kt t]{q} f := by
  rw [← pointsTo_biUnion A Kt fun t _ t' _ hne => Finset.disjoint_left.mpr fun i hi hi' =>
    hne (((h i t).mp hi).symm.trans ((h i t').mp hi')), biUnion_classes Kt cls h A]

/-! ## The index scratch: 416 pieces of 32 words -/

variable (d : Dev nD) (L : grid0.Coords)

/-- The 32 words at offset `off` are words [off, off + 32). -/
theorem mem_lstAt (off : ℕ) (h : ∀ a, (![off] : Fin 1 → ℕ) a + S32.size a ≤ S13312.size a) (i : S13312.Idx) :
    i ∈ (lstAt off h).view.set ↔ off ≤ (i 0).val ∧ (i 0).val < off + 32 := by
  show i ∈ ((View.whole (cc0_scratch0 : Ref sig .scVector)).slice (Rect.unit (s := S13312) ![off] S32.size h)).set ↔ _
  rw [View.set_slice_whole, Rect.mem_set_unit]
  constructor
  · intro hi
    exact hi 0
  · intro hi a
    match a with
    | ⟨0, _⟩ => exact hi

/-- Piece `c` is words [32 c, 32 c + 32). -/
theorem mem_lstK (c : Fin 416) (i : S13312.Idx) :
    i ∈ (lstK c).view.set ↔ 32 * c.val ≤ (i 0).val ∧ (i 0).val < 32 * c.val + 32 :=
  mem_lstAt (32 * c.val) (lstK_inb c) i

/-- The piece that holds a word. -/
def clsS (i : S13312.Idx) : Fin 416 :=
  ⟨(i 0).val / 32, by have h : (i 0).val < 13312 := (i 0).isLt; omega⟩

theorem lstK_classes (i : S13312.Idx) (c : Fin 416) : i ∈ (lstK c).view.set ↔ clsS i = c := by
  rw [mem_lstK, Fin.ext_iff]
  show _ ↔ (i 0).val / 32 = c.val
  omega

/-- The index scratch held on the words of the pieces in `A` is those pieces held at once. -/
theorem sPts_pieces0 (A : Finset (Fin 416)) (q : PosShare TreeShare) (f : Buf (Elt F) ((TH d L).loc cc0_scratch0)) :
    ((TH d L).loc cc0_scratch0 ↦[Finset.univ.filter fun i : Idx ((TH d L).loc cc0_scratch0) => clsS i ∈ A]{q} f : sProp 𝕄)
      = bigSep A fun c : Fin 416 => (TH d L).loc cc0_scratch0 ↦[(lstK c).view.set]{q} f :=
  pointsTo_classes_sub (ℓ := (TH d L).loc cc0_scratch0) (fun c : Fin 416 => (lstK c).view.set) clsS lstK_classes A q f

theorem sPts_pieces (A : Finset (Fin 416)) (q : PosShare TreeShare) (f : Buf (Elt F) ((TH d L).loc cc0_scratch0)) :
    ((sV).view.loc (TH d L) ↦[Finset.univ.filter fun i : S13312.Idx => clsS i ∈ A]{q} f : sProp 𝕄)
      = bigSep A fun c => (lstK c).view.loc (TH d L) ↦[(lstK c).view.set]{q} f :=
  sPts_pieces0 d L A q f

/-- The whole index scratch is its 416 pieces held at once. -/
theorem sPts_all (q : PosShare TreeShare) (f : Buf (Elt F) ((TH d L).loc cc0_scratch0)) :
    ((sV).view.loc (TH d L) ↦{q} f : sProp 𝕄)
      = bigSep Finset.univ fun c : Fin 416 => (lstK c).view.loc (TH d L) ↦[(lstK c).view.set]{q} f := by
  have h := sPts_pieces (F := F) d L Finset.univ q f
  have hs : (Finset.univ.filter fun i : S13312.Idx => clsS i ∈ (Finset.univ : Finset (Fin 416))) = Finset.univ := by
    ext i
    simp only [Finset.mem_univ, Finset.mem_filter, and_self]
  rw [hs] at h
  exact h

/-- The index scratch but for the six 32-word slices at offsets 256, 288, …, 416 (the lists of chunks 8 to 13) is the
    words of the pieces below 8 and from 14 on. -/
theorem sRest_head (h8 : ∀ a, (![256] : Fin 1 → ℕ) a + S32.size a ≤ S13312.size a)
    (h9 : ∀ a, (![288] : Fin 1 → ℕ) a + S32.size a ≤ S13312.size a)
    (h10 : ∀ a, (![320] : Fin 1 → ℕ) a + S32.size a ≤ S13312.size a)
    (h11 : ∀ a, (![352] : Fin 1 → ℕ) a + S32.size a ≤ S13312.size a)
    (h12 : ∀ a, (![384] : Fin 1 → ℕ) a + S32.size a ≤ S13312.size a)
    (h13 : ∀ a, (![416] : Fin 1 → ℕ) a + S32.size a ≤ S13312.size a) :
    ((((((Finset.univ : Finset S13312.Idx) \ (lstAt 256 h8).view.set) \ (lstAt 288 h9).view.set) \ (lstAt 320 h10).view.set)
        \ (lstAt 352 h11).view.set) \ (lstAt 384 h12).view.set) \ (lstAt 416 h13).view.set
      = Finset.univ.filter fun i : S13312.Idx =>
          clsS i ∈ Finset.univ.filter fun c : Fin 416 => c.val < 8 * (0 + 1) ∨ 8 * (0 + 1) + 6 ≤ c.val := by
  ext i
  have hi : (i 0).val < 13312 := (i 0).isLt
  have e8 := mem_lstAt 256 h8 i
  have e9 := mem_lstAt 288 h9 i
  have e10 := mem_lstAt 320 h10 i
  have e11 := mem_lstAt 352 h11 i
  have e12 := mem_lstAt 384 h12 i
  have e13 := mem_lstAt 416 h13 i
  rw [Finset.mem_sdiff, Finset.mem_sdiff, Finset.mem_sdiff, Finset.mem_sdiff, Finset.mem_sdiff, Finset.mem_sdiff,
    e8, e9, e10, e11, e12, e13, Finset.mem_filter, Finset.mem_filter]
  have hu : i ∈ (Finset.univ : Finset S13312.Idx) := Finset.mem_univ i
  have hc : clsS i ∈ (Finset.univ : Finset (Fin 416)) := Finset.mem_univ _
  have hv : (clsS i).val = (i 0).val / 32 := rfl
  constructor
  · intro h
    exact ⟨hu, hc, by omega⟩
  · intro h
    have h2 := h.2.2
    exact ⟨⟨⟨⟨⟨⟨hu, by omega⟩, by omega⟩, by omega⟩, by omega⟩, by omega⟩, by omega⟩

/-- At the loop's head: the index scratch held but for those six slices is `Sheld` before trip 0. -/
theorem Sheld_head (fs : Buf (Elt F) ((TH d L).loc cc0_scratch0)) (m : (ℓ : Loc nD τ sig) → Buf (Elt F) ℓ)
    (h8 : ∀ a, (![256] : Fin 1 → ℕ) a + S32.size a ≤ S13312.size a)
    (h9 : ∀ a, (![288] : Fin 1 → ℕ) a + S32.size a ≤ S13312.size a)
    (h10 : ∀ a, (![320] : Fin 1 → ℕ) a + S32.size a ≤ S13312.size a)
    (h11 : ∀ a, (![352] : Fin 1 → ℕ) a + S32.size a ≤ S13312.size a)
    (h12 : ∀ a, (![384] : Fin 1 → ℕ) a + S32.size a ≤ S13312.size a)
    (h13 : ∀ a, (![416] : Fin 1 → ℕ) a + S32.size a ≤ S13312.size a) :
    ((sV).view.loc (TH d L) ↦[((((((Finset.univ : Finset S13312.Idx) \ (lstAt 256 h8).view.set) \ (lstAt 288 h9).view.set)
          \ (lstAt 320 h10).view.set) \ (lstAt 352 h11).view.set) \ (lstAt 384 h12).view.set) \ (lstAt 416 h13).view.set]{fullShare}
        fiOf m d L fs : sProp 𝕄)
      = Sheld m d L fs 0 := by
  rw [sRest_head h8 h9 h10 h11 h12 h13, sPts_pieces]
  rfl

end Cert.Proof.KB

end
-- ==== Proof.KB.Enter.lean ====
/-
  Entering the loop. What the straight-line part leaves at the loop's head is the invariant before trip 0: the six
  gathers in flight carry chunks 8 to 13, the two copies out chunks 6 and 7, chunks 0 to 5 of the output are written,
  chunks 8 on untouched, and the index scratch is held but for the six list slices in flight.
  The row buffers are eight disjoint blocks of the 8 x 32 x 128 scratch (block r is first coordinate r), so a buffer
  read after writes into OTHER buffers reads what it held, and read after a whole write into ITSELF reads the payload.
-/
import proofs.«207811_g81140522156160_cont_9to1c4b_295_10_alg».proof.Proof.KB.Close
import proofs.«207811_g81140522156160_cont_9to1c4b_295_10_alg».proof.Proof.KB.Pieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.SparseCore (gatherPayload rows)

variable {F : FTy → Type}

local notation "𝕄" => MT nD τ sig (HIx 1) (Elt F) ℕ UU ℕ

/-! ## The row buffers -/

/-- Row buffer `r` is the elements of the scratch whose first coordinate is `r`. -/
theorem mem_slot (r : ℕ) (hr : ∀ a, (![r, 0, 0] : Fin 3 → ℕ) a + S1x32x128.size a ≤ S8x32x128.size a) (i : S8x32x128.Idx) :
    i ∈ (slotAt r hr).view.set ↔ (i 0).val = r := by
  show i ∈ (((View.whole (cc0_scratch1 : Ref sig .scVector)).slice (Rect.unit (s := S8x32x128) ![r, 0, 0] S1x32x128.size hr)).reshape
    S32x128 squeezes_S1x32x128_S32x128.numel_eq).set ↔ _
  rw [View.set_reshape, View.set_slice_whole, Rect.mem_set_unit]
  have h1 : (i 1).val < 32 := (i 1).isLt
  have h2 : (i 2).val < 128 := (i 2).isLt
  constructor
  · intro h
    have a0 : r ≤ (i 0).val ∧ (i 0).val < r + 1 := h 0
    omega
  · intro h a
    match a with
    | ⟨0, _⟩ => show r ≤ (i 0).val ∧ (i 0).val < r + 1; omega
    | ⟨1, _⟩ => show 0 ≤ (i 1).val ∧ (i 1).val < 0 + 32; omega
    | ⟨2, _⟩ => show 0 ≤ (i 2).val ∧ (i 2).val < 0 + 128; omega

/-- A whole write into another row buffer is not seen through this one. -/
theorem slot_read_other (r r' : ℕ) (hr : ∀ a, (![r, 0, 0] : Fin 3 → ℕ) a + S1x32x128.size a ≤ S8x32x128.size a)
    (hr' : ∀ a, (![r', 0, 0] : Fin 3 → ℕ) a + S1x32x128.size a ≤ S8x32x128.size a) (hne : r ≠ r')
    (g : (slotAt r hr).view.ty.Contents (Elt F)) (p : S32x128.Idx → Elt F .f32) :
    (slotAt r hr).view.read (Elt F) ((slotAt r' hr').view.write (Elt F) g p Finset.univ) = (slotAt r hr).view.read (Elt F) g :=
  View.read_congr fun i hi => View.write_of_not_mem _ _ _ fun hm => by
    rw [View.setOn_univ] at hm
    exact hne (((mem_slot r hr i).mp hi).symm.trans ((mem_slot r' hr' i).mp hm))

/-- A row buffer written whole, then five other row buffers written, reads back as what was written into it. -/
theorem slot_read_after5 (r r1 r2 r3 r4 r5 : ℕ) (hr : ∀ a, (![r, 0, 0] : Fin 3 → ℕ) a + S1x32x128.size a ≤ S8x32x128.size a)
    (h1 : ∀ a, (![r1, 0, 0] : Fin 3 → ℕ) a + S1x32x128.size a ≤ S8x32x128.size a)
    (h2 : ∀ a, (![r2, 0, 0] : Fin 3 → ℕ) a + S1x32x128.size a ≤ S8x32x128.size a)
    (h3 : ∀ a, (![r3, 0, 0] : Fin 3 → ℕ) a + S1x32x128.size a ≤ S8x32x128.size a)
    (h4 : ∀ a, (![r4, 0, 0] : Fin 3 → ℕ) a + S1x32x128.size a ≤ S8x32x128.size a)
    (h5 : ∀ a, (![r5, 0, 0] : Fin 3 → ℕ) a + S1x32x128.size a ≤ S8x32x128.size a)
    (n1 : r ≠ r1) (n2 : r ≠ r2) (n3 : r ≠ r3) (n4 : r ≠ r4) (n5 : r ≠ r5)
    (g : (slotAt r hr).view.ty.Contents (Elt F)) (p p1 p2 p3 p4 p5 : S32x128.Idx → Elt F .f32) :
    (slotAt r hr).view.read (Elt F)
      ((slotAt r5 h5).view.write (Elt F) ((slotAt r4 h4).view.write (Elt F) ((slotAt r3 h3).view.write (Elt F)
        ((slotAt r2 h2).view.write (Elt F) ((slotAt r1 h1).view.write (Elt F) ((slotAt r hr).view.write (Elt F) g p Finset.univ)
          p1 Finset.univ) p2 Finset.univ) p3 Finset.univ) p4 Finset.univ) p5 Finset.univ) = p := by
  rw [slot_read_other r r5 hr h5 n5, slot_read_other r r4 hr h4 n4, slot_read_other r r3 hr h3 n3, slot_read_other r r2 hr h2 n2,
    slot_read_other r r1 hr h1 n1, View.read_write_univ]

variable (m : (ℓ : Loc nD τ sig) → Buf (Elt F) ℓ) (d : Dev nD) (L : grid0.Coords)

/-! ## A flight as the invariant names it -/

/-- A gather in flight whose row buffer will read back as the chunk's payload is the invariant's. -/
theorem Gfl_of (fs : Buf (Elt F) ((TH d L).loc cc0_scratch0)) (t b : ℕ) (hb : b < 17) (r : ℕ)
    (hr : ∀ a, (![r, 0, 0] : Fin 3 → ℕ) a + S1x32x128.size a ≤ S8x32x128.size a) (tok : PosShare TreeShare)
    (fc : Buf (Elt F) ((TH d L).loc cc0_scratch1)) (pay : S32x128.Idx → Elt F .f32)
    (hp : PayOf m d L (ck (8 * (t + 1) + b)) pay) (hrd : (slotAt r hr).view.read (Elt F) fc = pay) :
    (Transfers.Flight countersEmb (TH d L) (SemLoc.dma (⟨b, hb⟩ : DmaSem sig)) (default : HIx 1) 131072
      iprop((((slotAt r hr).view.loc (TH d L) ↦[(slotAt r hr).view.set]{fullShare} fc)
          ∗ ((lstC t b).view.loc (TH d L) ↦[(lstC t b).view.set]{fullShare} fiOf m d L fs))
        ∗ ((tVw).view.loc (TH d L) ↦[(tVw).view.set]{tok} m (tLoc d))) : sProp 𝕄)
      ⊢ Gfl m d L fs t b hb r hr tok := by
  unfold Gfl
  iintro H
  iexists fc, pay
  isplitr
  · ipureintro; exact hp
  isplitr
  · ipureintro; exact hrd
  iexact H

/-- The same when the row buffer is delivered written whole with the payload: it reads back as the payload. -/
theorem Gfl_of_write (fs : Buf (Elt F) ((TH d L).loc cc0_scratch0)) (t b : ℕ) (hb : b < 17) (r : ℕ)
    (hr : ∀ a, (![r, 0, 0] : Fin 3 → ℕ) a + S1x32x128.size a ≤ S8x32x128.size a) (tok : PosShare TreeShare)
    (fb : Buf (Elt F) ((TH d L).loc cc0_scratch1)) (pay : S32x128.Idx → Elt F .f32)
    (hp : PayOf m d L (ck (8 * (t + 1) + b)) pay) :
    (Transfers.Flight countersEmb (TH d L) (SemLoc.dma (⟨b, hb⟩ : DmaSem sig)) (default : HIx 1) 131072
      iprop((((slotAt r hr).view.loc (TH d L) ↦[(slotAt r hr).view.set]{fullShare} View.write (Elt F) (slotAt r hr).view fb pay Finset.univ)
          ∗ ((lstC t b).view.loc (TH d L) ↦[(lstC t b).view.set]{fullShare} fiOf m d L fs))
        ∗ ((tVw).view.loc (TH d L) ↦[(tVw).view.set]{tok} m (tLoc d))) : sProp 𝕄)
      ⊢ Gfl m d L fs t b hb r hr tok :=
  Gfl_of m d L fs t b hb r hr tok _ pay hp (View.read_write_univ _ _)

/-- A copy out in flight, its chunk spelt by any offsets equal to the chunk's, is the invariant's. -/
theorem Ofl_of_off (off : Fin 3 → ℕ) (c : Fin 416) (e : off = offC L c)
    (h : ∀ a, off a + S1x32x128.size a ≤ S26x16384x128.size a) (j : ℕ) (hj : j < 17) (r : ℕ)
    (hr : ∀ a, (![r, 0, 0] : Fin 3 → ℕ) a + S1x32x128.size a ≤ S8x32x128.size a)
    (fo : Buf (Elt F) (oLoc d)) (fb : Buf (Elt F) ((TH d L).loc cc0_scratch1)) (pay : S32x128.Idx → Elt F .f32)
    (hp : PayOf m d L c pay) :
    (Transfers.Flight countersEmb (TH d L) (SemLoc.dma (⟨j, hj⟩ : DmaSem sig)) (default : HIx 1) 131072
      iprop(((((oV).slice (Rect.unit (s := S26x16384x128) off S1x32x128.size h) (fun _ => rfl)).squeeze S32x128 squeezes_S1x32x128_S32x128).view.loc (TH d L)
            ↦[(((oV).slice (Rect.unit (s := S26x16384x128) off S1x32x128.size h) (fun _ => rfl)).squeeze S32x128 squeezes_S1x32x128_S32x128).view.set]{fullShare}
              (((oV).slice (Rect.unit (s := S26x16384x128) off S1x32x128.size h) (fun _ => rfl)).squeeze S32x128 squeezes_S1x32x128_S32x128).view.writes (Elt F) fo
                [⟨Rect.whole S32x128, pay⟩])
        ∗ ((slotAt r hr).view.loc (TH d L) ↦[(slotAt r hr).view.set]{fullShare} fb)) : sProp 𝕄)
      ⊢ Ofl m d L c j hj r hr := by
  subst e
  unfold Ofl
  iintro H
  iexists fo, fb, pay
  isplitr
  · ipureintro; exact hp
  iexact H

/-- A chunk written whole with a payload of its values, spelt by any offsets equal to the chunk's, is the chunk holding
    the output function. -/
theorem oDone_off (off : Fin 3 → ℕ) (c : Fin 416) (e : off = offC L c)
    (h : ∀ a, off a + S1x32x128.size a ≤ S26x16384x128.size a)
    (fo : Buf (Elt F) (oLoc d)) (pay : S32x128.Idx → Elt F .f32) (hp : PayOf m d L c pay) :
    (((((oV).slice (Rect.unit (s := S26x16384x128) off S1x32x128.size h) (fun _ => rfl)).squeeze S32x128 squeezes_S1x32x128_S32x128).view.loc (TH d L)
        ↦[(((oV).slice (Rect.unit (s := S26x16384x128) off S1x32x128.size h) (fun _ => rfl)).squeeze S32x128 squeezes_S1x32x128_S32x128).view.set]{fullShare}
          (((oV).slice (Rect.unit (s := S26x16384x128) off S1x32x128.size h) (fun _ => rfl)).squeeze S32x128 squeezes_S1x32x128_S32x128).view.writes (Elt F) fo
            [⟨Rect.whole S32x128, pay⟩]) : sProp 𝕄)
      = oPc d L c (out0 m d) := by
  subst e
  exact oPc_value m d L c fo pay hp

/-! ## The output's chunks at the loop's head -/

theorem ck_lit (n : ℕ) (h : n < 416) : (ck n).val = n := Nat.mod_eq_of_lt h

/-- Before trip 0 the written chunks are chunks 0 to 5. -/
theorem Odone_head :
    (Odone m d L 0 : sProp 𝕄)
      = iprop(oPc d L (ck 0) (out0 m d) ∗ oPc d L (ck 1) (out0 m d) ∗ oPc d L (ck 2) (out0 m d) ∗ oPc d L (ck 3) (out0 m d)
          ∗ oPc d L (ck 4) (out0 m d) ∗ oPc d L (ck 5) (out0 m d)) := by
  unfold Odone
  have hm : ∀ c : Fin 416, c ∈ (Finset.univ.filter fun c : Fin 416 => c.val + 2 < 8 * (0 + 1)) ↔ c.val < 6 := fun c => by
    simp only [Finset.mem_filter, Finset.mem_univ, true_and]; omega
  rw [bigSep_sepOff (fun c : Fin 416 => (oLoc d ↦[(oCh L c).view.set]{fullShare} out0 m d : sProp 𝕄)) [ck 0, ck 1, ck 2, ck 3, ck 4] _
    (by decide) (fun i hi => by
      rw [hm]
      simp only [List.mem_cons, List.mem_nil_iff, or_false] at hi
      rcases hi with rfl | rfl | rfl | rfl | rfl <;> decide)]
  simp only [sepOff]
  have hS : (Finset.univ.filter fun c : Fin 416 => c.val + 2 < 8 * (0 + 1)) \ ([ck 0, ck 1, ck 2, ck 3, ck 4] : List (Fin 416)).toFinset = {ck 5} := by
    ext c
    simp only [Finset.mem_sdiff, hm, List.mem_toFinset, List.mem_cons, List.mem_nil_iff, or_false, Finset.mem_singleton, Fin.ext_iff,
      ck_lit 0 (by decide), ck_lit 1 (by decide), ck_lit 2 (by decide), ck_lit 3 (by decide), ck_lit 4 (by decide), ck_lit 5 (by decide)]
    omega
  rw [hS, bigSep_singleton]

/-- Before trip 0 the untouched chunks are all but chunks 0 to 7. -/
theorem Ofut_head :
    (bigSep ((Finset.univ : Finset (Fin 416)) \ ([0, 1, 2, 3, 4, 5, 6, 7] : List (Fin 416)).toFinset)
        fun k : Fin 416 => (oLoc d ↦[(oCh L k).view.set]{fullShare} m (oLoc d) : sProp 𝕄))
      = Ofut m d L 0 := by
  unfold Ofut
  have hS : ((Finset.univ : Finset (Fin 416)) \ ([0, 1, 2, 3, 4, 5, 6, 7] : List (Fin 416)).toFinset)
      = Finset.univ.filter fun c : Fin 416 => 8 * (0 + 1) ≤ c.val := by
    ext c
    have e0 : ((0 : Fin 416) : ℕ) = 0 := rfl
    have e1 : ((1 : Fin 416) : ℕ) = 1 := rfl
    have e2 : ((2 : Fin 416) : ℕ) = 2 := rfl
    have e3 : ((3 : Fin 416) : ℕ) = 3 := rfl
    have e4 : ((4 : Fin 416) : ℕ) = 4 := rfl
    have e5 : ((5 : Fin 416) : ℕ) = 5 := rfl
    have e6 : ((6 : Fin 416) : ℕ) = 6 := rfl
    have e7 : ((7 : Fin 416) : ℕ) = 7 := rfl
    simp only [Finset.mem_sdiff, Finset.mem_univ, true_and, List.mem_toFinset, List.mem_cons, List.mem_nil_iff, or_false,
      Finset.mem_filter, Fin.ext_iff, e0, e1, e2, e3, e4, e5, e6, e7]
    omega
  rw [hS]

/-! ## The waits owed -/

/-- A wait on the default cell added to waits that are the caller's or on the default cell. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact Or.inr rfl
  · exact h p hp

end Cert.Proof.KB

end
-- ==== Proof.KB.Trip.lean ====
/-
  Closing a trip. In trip t the loop spells its list slices and output chunks by offsets it computes from t: list slice
  number r of the trip is chunk 8 (t + 1) + 6 + r's 32 words, output chunk number r is chunk 8 (t + 1) + r. A flight, a held
  piece or a written chunk spelt by ANY offsets equal to a chunk's own is that chunk's (the offsets are substituted, and
  the statements about chunks apply). A row buffer written whole reads back as the payload.
-/
import proofs.«207811_g81140522156160_cont_9to1c4b_295_10_alg».proof.Proof.KB.Enter

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.SparseCore (gatherPayload rows)

variable {F : FTy → Type}

local notation "𝕄" => MT nD τ sig (HIx 1) (Elt F) ℕ UU ℕ

variable (m : (ℓ : Loc nD τ sig) → Buf (Elt F) ℓ) (d : Dev nD) (L : grid0.Coords)

/-! ## The loop's offsets name chunks -/

/-- List slice r of trip t is the 32 words of chunk 8 (t + 1) + 6 + r. -/
theorem off5_ck (t : Fin k0_t1_loop.trips) (r : ℕ) (hr : r < 8) (w : BitVec 32) (hw : w = BitVec.ofNat 32 r) (n : ℕ)
    (hn : n = 8 * (t.val + 1) + 6 + r) : k0_off5 t w = ![32 * (ck n).val] := by
  subst hw hn
  have ht : t.val < 50 := trips_eq ▸ t.isLt
  have e := k0_off5_eq t ⟨r, hr⟩
  rw [ck_val (by omega)]
  refine e.trans (congrArg (fun x : ℕ => (![x] : Fin 1 → ℕ)) ?_)
  show 256 * t.val + 32 * r + 448 = 32 * (8 * (t.val + 1) + 6 + r)
  omega

/-- Output chunk r of trip t is chunk 8 (t + 1) + r. -/
theorem off4_ck (t : Fin k0_t1_loop.trips) (r : ℕ) (hr : r < 8) (w : BitVec 32) (hw : w = BitVec.ofNat 32 r) (n : ℕ)
    (hn : n = 8 * (t.val + 1) + r) : k0_off4 L t w = offC L (ck n) := by
  subst hw hn
  have ht : t.val < 50 := trips_eq ▸ t.isLt
  refine (off4_eq L t ⟨r, hr⟩).trans (congrArg (offC L) (Fin.ext ?_))
  show 8 * (t.val + 1) + r = (ck (8 * (t.val + 1) + r)).val
  rw [ck_val (by omega)]

/-! ## The table's read shares move round by two each trip -/

/-- The share of buffer b before trip t + 1 is the one buffer b' held before trip t, when the numbers agree. -/
theorem tokc_step (t b b' : ℕ) (h : (b' + 2 * t) % 6 = (b + 2 * (t + 1)) % 6) : tokc t b' = tokc (t + 1) b := Fin.ext h

theorem tokShare_step (t b b' : ℕ) (h : (b' + 2 * t) % 6 = (b + 2 * (t + 1)) % 6) :
    Transfers.shareTok (tq (wk L)) 8 (tokc t b') = Transfers.shareTok (tq (wk L)) 8 (tokc (t + 1) b) := by
  rw [tokc_step t b b' h]

theorem tokRest_step (t b b' : ℕ) (h : (b' + 2 * t) % 6 = (b + 2 * (t + 1)) % 6) :
    (tokRest m d L (tokc t b') : sProp 𝕄) = tokRest m d L (tokc (t + 1) b) := by
  rw [tokc_step t b b' h]

/-! ## Pieces, flights and written chunks spelt by offsets -/

/-- A 32-word piece of the index scratch spelt by offsets equal to chunk c's is chunk c's list slice. -/
theorem sPc_off (off : Fin 1 → ℕ) (c : Fin 416) (e : off = ![32 * c.val]) (h : ∀ a, off a + S32.size a ≤ S13312.size a)
    (f : Buf (Elt F) ((TH d L).loc cc0_scratch0)) :
    ((((sV).slice (Rect.unit (s := S13312) off S32.size h) (fun _ => rfl)).view.loc (TH d L)
        ↦[((sV).slice (Rect.unit (s := S13312) off S32.size h) (fun _ => rfl)).view.set]{fullShare} f : sProp 𝕄))
      = sPc d L c f := by
  subst e; rfl

/-- A gather in flight whose list slice is spelt by offsets equal to its chunk's, whose row buffer is delivered written
    whole with a payload of the chunk's values, and whose table share is the one wanted, is the invariant's. -/
theorem Gfl_of_off (fs : Buf (Elt F) ((TH d L).loc cc0_scratch0)) (t b : ℕ) (hb : b < 17) (r : ℕ)
    (hr : ∀ a, (![r, 0, 0] : Fin 3 → ℕ) a + S1x32x128.size a ≤ S8x32x128.size a) (tok tok' : PosShare TreeShare) (etok : tok' = tok)
    (off : Fin 1 → ℕ) (e : off = ![32 * (ck (8 * (t + 1) + b)).val]) (h : ∀ a, off a + S32.size a ≤ S13312.size a)
    (g : Buf (Elt F) ((TH d L).loc cc0_scratch1)) (pay : S32x128.Idx → Elt F .f32) :
    (iprop(⌜PayOf m d L (ck (8 * (t + 1) + b)) pay⌝ ∗
      Transfers.Flight countersEmb (TH d L) (SemLoc.dma (⟨b, hb⟩ : DmaSem sig)) (default : HIx 1) 131072
        iprop((((slotAt r hr).view.loc (TH d L) ↦[(slotAt r hr).view.set]{fullShare}
                (slotAt r hr).view.writes (Elt F) g [⟨Rect.whole S32x128, pay⟩])
            ∗ (((sV).slice (Rect.unit (s := S13312) off S32.size h) (fun _ => rfl)).view.loc (TH d L)
                ↦[((sV).slice (Rect.unit (s := S13312) off S32.size h) (fun _ => rfl)).view.set]{fullShare} fiOf m d L fs))
          ∗ ((tVw).view.loc (TH d L) ↦[(tVw).view.set]{tok'} m (tLoc d)))) : sProp 𝕄)
      ⊢ Gfl m d L fs t b hb r hr tok := by
  subst etok e
  iintro ⟨%hp, H⟩
  iapply (Gfl_of m d L fs t b hb r hr tok' _ pay hp (read_writes_whole _ _ _))
  iexact H

/-- The copy-out flight with the payload's values as a premise of the entailment (so that the payload may be found by
    unification first and its values shown after). -/
theorem Ofl_of_off' (off : Fin 3 → ℕ) (c : Fin 416) (e : off = offC L c)
    (h : ∀ a, off a + S1x32x128.size a ≤ S26x16384x128.size a) (j : ℕ) (hj : j < 17) (r : ℕ)
    (hr : ∀ a, (![r, 0, 0] : Fin 3 → ℕ) a + S1x32x128.size a ≤ S8x32x128.size a)
    (fo : Buf (Elt F) (oLoc d)) (fb : Buf (Elt F) ((TH d L).loc cc0_scratch1)) (pay : S32x128.Idx → Elt F .f32) :
    (iprop(⌜PayOf m d L c pay⌝ ∗
      Transfers.Flight countersEmb (TH d L) (SemLoc.dma (⟨j, hj⟩ : DmaSem sig)) (default : HIx 1) 131072
        iprop(((((oV).slice (Rect.unit (s := S26x16384x128) off S1x32x128.size h) (fun _ => rfl)).squeeze S32x128 squeezes_S1x32x128_S32x128).view.loc (TH d L)
              ↦[(((oV).slice (Rect.unit (s := S26x16384x128) off S1x32x128.size h) (fun _ => rfl)).squeeze S32x128 squeezes_S1x32x128_S32x128).view.set]{fullShare}
                (((oV).slice (Rect.unit (s := S26x16384x128) off S1x32x128.size h) (fun _ => rfl)).squeeze S32x128 squeezes_S1x32x128_S32x128).view.writes (Elt F) fo
                  [⟨Rect.whole S32x128, pay⟩])
          ∗ ((slotAt r hr).view.loc (TH d L) ↦[(slotAt r hr).view.set]{fullShare} fb))) : sProp 𝕄)
      ⊢ Ofl m d L c j hj r hr := by
  iintro ⟨%hp, H⟩
  iapply (Ofl_of_off m d L off c e h j hj r hr fo fb pay hp)
  iexact H

/-- The written chunk likewise. -/
theorem oDone_off' (off : Fin 3 → ℕ) (c : Fin 416) (e : off = offC L c)
    (h : ∀ a, off a + S1x32x128.size a ≤ S26x16384x128.size a)
    (fo : Buf (Elt F) (oLoc d)) (pay : S32x128.Idx → Elt F .f32) :
    (iprop(⌜PayOf m d L c pay⌝ ∗
      ((((oV).slice (Rect.unit (s := S26x16384x128) off S1x32x128.size h) (fun _ => rfl)).squeeze S32x128 squeezes_S1x32x128_S32x128).view.loc (TH d L)
        ↦[(((oV).slice (Rect.unit (s := S26x16384x128) off S1x32x128.size h) (fun _ => rfl)).squeeze S32x128 squeezes_S1x32x128_S32x128).view.set]{fullShare}
          (((oV).slice (Rect.unit (s := S26x16384x128) off S1x32x128.size h) (fun _ => rfl)).squeeze S32x128 squeezes_S1x32x128_S32x128).view.writes (Elt F) fo
            [⟨Rect.whole S32x128, pay⟩])) : sProp 𝕄)
      ⊢ oPc d L c (out0 m d) := by
  iintro ⟨%hp, H⟩
  iapply (Entails.of_eq (oDone_off m d L off c e h fo pay hp))
  iexact H

/-! ## The same two with the invariant's flights written out (for a goal in which they are unfolded) -/

theorem Gfl_of_off_u (fs : Buf (Elt F) ((TH d L).loc cc0_scratch0)) (t b : ℕ) (hb : b < 17) (r : ℕ)
    (hr : ∀ a, (![r, 0, 0] : Fin 3 → ℕ) a + S1x32x128.size a ≤ S8x32x128.size a) (tok tok' : PosShare TreeShare) (etok : tok' = tok)
    (off : Fin 1 → ℕ) (e : off = ![32 * (ck (8 * (t + 1) + b)).val]) (h : ∀ a, off a + S32.size a ≤ S13312.size a)
    (g : Buf (Elt F) ((TH d L).loc cc0_scratch1)) (pay : S32x128.Idx → Elt F .f32) :
    (iprop(⌜PayOf m d L (ck (8 * (t + 1) + b)) pay⌝ ∗
      Transfers.Flight countersEmb (TH d L) (SemLoc.dma (⟨b, hb⟩ : DmaSem sig)) (default : HIx 1) 131072
        iprop((((slotAt r hr).view.loc (TH d L) ↦[(slotAt r hr).view.set]{fullShare}
                (slotAt r hr).view.writes (Elt F) g [⟨Rect.whole S32x128, pay⟩])
            ∗ (((sV).slice (Rect.unit (s := S13312) off S32.size h) (fun _ => rfl)).view.loc (TH d L)
                ↦[((sV).slice (Rect.unit (s := S13312) off S32.size h) (fun _ => rfl)).view.set]{fullShare} fiOf m d L fs))
          ∗ ((tVw).view.loc (TH d L) ↦[(tVw).view.set]{tok'} m (tLoc d)))) : sProp 𝕄)
      ⊢ iprop(∃ (fc : Buf (Elt F) ((TH d L).loc cc0_scratch1)) (pay : S32x128.Idx → Elt F .f32), ⌜PayOf m d L (ck (8 * (t + 1) + b)) pay⌝ ∗
          ⌜(slotAt r hr).view.read (Elt F) fc = pay⌝ ∗
          Transfers.Flight countersEmb (TH d L) (SemLoc.dma (⟨b, hb⟩ : DmaSem sig)) (default : HIx 1) 131072
            iprop((((slotAt r hr).view.loc (TH d L) ↦[(slotAt r hr).view.set]{fullShare} fc)
                ∗ ((lstC t b).view.loc (TH d L) ↦[(lstC t b).view.set]{fullShare} fiOf m d L fs))
              ∗ ((tVw).view.loc (TH d L) ↦[(tVw).view.set]{tok} m (tLoc d)))) :=
  Gfl_of_off m d L fs t b hb r hr tok tok' etok off e h g pay

theorem Ofl_of_off_u (off : Fin 3 → ℕ) (c : Fin 416) (e : off = offC L c)
    (h : ∀ a, off a + S1x32x128.size a ≤ S26x16384x128.size a) (j : ℕ) (hj : j < 17) (r : ℕ)
    (hr : ∀ a, (![r, 0, 0] : Fin 3 → ℕ) a + S1x32x128.size a ≤ S8x32x128.size a)
    (fo : Buf (Elt F) (oLoc d)) (fb : Buf (Elt F) ((TH d L).loc cc0_scratch1)) (pay : S32x128.Idx → Elt F .f32) :
    (iprop(⌜PayOf m d L c pay⌝ ∗
      Transfers.Flight countersEmb (TH d L) (SemLoc.dma (⟨j, hj⟩ : DmaSem sig)) (default : HIx 1) 131072
        iprop(((((oV).slice (Rect.unit (s := S26x16384x128) off S1x32x128.size h) (fun _ => rfl)).squeeze S32x128 squeezes_S1x32x128_S32x128).view.loc (TH d L)
              ↦[(((oV).slice (Rect.unit (s := S26x16384x128) off S1x32x128.size h) (fun _ => rfl)).squeeze S32x128 squeezes_S1x32x128_S32x128).view.set]{fullShare}
                (((oV).slice (Rect.unit (s := S26x16384x128) off S1x32x128.size h) (fun _ => rfl)).squeeze S32x128 squeezes_S1x32x128_S32x128).view.writes (Elt F) fo
                  [⟨Rect.whole S32x128, pay⟩])
          ∗ ((slotAt r hr).view.loc (TH d L) ↦[(slotAt r hr).view.set]{fullShare} fb))) : sProp 𝕄)
      ⊢ iprop(∃ (fo : Buf (Elt F) (oLoc d)) (fb : Buf (Elt F) ((TH d L).loc cc0_scratch1)) (pay : S32x128.Idx → Elt F .f32), ⌜PayOf m d L c pay⌝ ∗
          Transfers.Flight countersEmb (TH d L) (SemLoc.dma (⟨j, hj⟩ : DmaSem sig)) (default : HIx 1) 131072
            iprop(((oCh L c).view.loc (TH d L) ↦[(oCh L c).view.set]{fullShare} (oCh L c).view.writes (Elt F) fo [⟨Rect.whole S32x128, pay⟩])
              ∗ ((slotAt r hr).view.loc (TH d L) ↦[(slotAt r hr).view.set]{fullShare} fb))) :=
  Ofl_of_off' m d L off c e h j hj r hr fo fb pay

end Cert.Proof.KB

end
-- ==== Proof.KB.Body.lean ====
/-
  One worker's task. The worker fetches its 13312 row numbers into its index scratch, then moves its 416 chunks of 32
  rows through a ring of eight row buffers: the gather of chunk c (rows of the table named by entries [32 c, 32 c + 32) of
  the scratch) lands in buffer c mod 8 and is copied out to chunk c of the output; six gathers are kept in flight, and a
  buffer is gathered into again only after its copy out has been waited for. Each buffer has its own semaphore for
  gathers and its own for copies out, so every semaphore has at most one transfer outstanding.
  What the proof holds: the table as one read share per gather semaphore, the index scratch and the row buffers whole
  (a transfer takes its slice and leaves the rest), and the worker's chunks of the output one by one.
-/
import proofs.«207811_g81140522156160_cont_9to1c4b_295_10_alg».proof.Proof.KB.Close
import proofs.«207811_g81140522156160_cont_9to1c4b_295_10_alg».proof.Proof.KB.Pieces
import proofs.«207811_g81140522156160_cont_9to1c4b_295_10_alg».proof.Proof.KB.Enter
import proofs.«207811_g81140522156160_cont_9to1c4b_295_10_alg».proof.Proof.KB.Trip

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg) [FloatOps F]

omit [FloatOps F] in
/-- Every entry of the flattened index array is an entry of the index array. -/
theorem flat_lt (a : IVec S16384x26 32) (h : Cert.Proof.Spec.InRange a) (j : S425984.Idx) : (flatOf a j).toNat < 100000 := by
  unfold flatOf shapeCast transpose
  exact h _

section Tile

variable (d : Dev nD) (L : grid0.Coords)

/-- The tile's seventeen DMA semaphores: eight for the gathers, eight for the copies out, one for the index fetch. -/
def semList : List (SemLoc sig) := [.dma cc0_scratch2.sem, .dma cc0_scratch3.sem, .dma cc0_scratch4.sem, .dma cc0_scratch5.sem, .dma cc0_scratch6.sem, .dma cc0_scratch7.sem, .dma cc0_scratch8.sem, .dma cc0_scratch9.sem, .dma cc0_scratch10.sem, .dma cc0_scratch11.sem, .dma cc0_scratch12.sem, .dma cc0_scratch13.sem, .dma cc0_scratch14.sem, .dma cc0_scratch15.sem, .dma cc0_scratch16.sem, .dma cc0_scratch17.sem, .dma cc0_scoped0.sem]

omit [FloatOps F] in
theorem semList_nodup : (semList : List (SemLoc sig)).Nodup := by decide
omit [FloatOps F] in
theorem semList_scoped : ∀ sm ∈ (semList : List (SemLoc sig)), sm.isScoped .scVector = true := by decide

omit [FloatOps F] in
theorem ownSems0_V :
    (ownSems0 (V d (cV L) (jV L)) : sProp 𝕄)
      = sepOff (fun g => semVal g 0) (semList.map fun sm => ((V d (cV L) (jV L), sm) : GSem nD τ sig))
          (bigSep (ownCells (V d (cV L) (jV L)) \ (semList.map fun sm => ((V d (cV L) (jV L), sm) : GSem nD τ sig)).toFinset) fun g => semVal g 0) := by
  unfold SparseCore.Cfg.ownSems0
  refine bigSep_sepOff _ _ _ (List.Nodup.map (fun a b h => (Prod.mk.inj h).2) semList_nodup) ?_
  intro g hg
  obtain ⟨sm, hsm, rfl⟩ := List.mem_map.mp hg
  exact mem_ownCells.mpr ⟨rfl, semList_scoped sm hsm⟩

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The words of any slice of the index scratch, once the index fetch has landed, name rows of the table: they are
    entries of the flattened index array. -/
theorem list_inb (hpre : PreOK m) (fs : Buf (Elt F) ((V d (cV L) (jV L)).loc cc0_scratch0)) (pay : S13312.Idx → Elt F .i32)
    (hpay : pay = (fSl L).view.read (Elt F) (flat0 m d)) (R : Rect S13312) (hR : ∀ a, R.stride a = 1) :
    ∀ x, (((sV).slice R hR).view.read (Elt F) (View.write (Elt F) (sV).view fs pay Finset.univ) x).toNat
      < S100000x128.size gathers_S100000x128_S32x128.axis := by
  subst hpay; intro x
  rw [View.write_whole_univ]
  rw [show ∀ (g : S13312.Idx → Elt F .i32) j, ((sV).slice R hR).view.read (Elt F) g j = g (((sV).slice R hR).view.emb j) from
    fun g j => (View.read_apply _ _).trans (cast_eq _ _)]
  rw [show ∀ j, (fSl L).view.read (Elt F) (flat0 m d) j = flat0 m d ((fSl L).view.emb j) from fun j => (View.read_apply _ _).trans (cast_eq _ _)]
  exact flat_lt _ (hpre d) _

omit [FloatOps F] in
/-- A unit-stride block depends only on its offsets. -/
theorem unit_congr {s : Shape} {off off' : Fin s.rank → ℕ} {sz : Fin s.rank → ℕ} (e : off = off')
    (h : ∀ a, off a + sz a ≤ s.size a) (h' : ∀ a, off' a + sz a ≤ s.size a) :
    Rect.unit (s := s) off sz h = Rect.unit (s := s) off' sz h' := by
  subst e; rfl

/-- Chunk `k` in the spelling of the straight-line code. -/
abbrev oCh2 (L : grid0.Coords) (r : Fin 16) : Memref sig .scVector .hbm S32x128 .f32 :=
  ((oV).slice (Rect.unit (s := S26x16384x128) (k0_off2 L (k0_off2_at r)) S1x32x128.size (k0_off2_inb L r)) (fun _ => rfl)).squeeze S32x128 squeezes_S1x32x128_S32x128

omit [FloatOps F] in
theorem oCh2_eq (L : grid0.Coords) (r : Fin 16) (k : Fin 416) (e : k0_off2 L (k0_off2_at r) = offC L k) : oCh2 L r = oCh L k := by
  have key : ∀ (off off' : Fin 3 → ℕ) (_ : off = off') (h : ∀ a, off a + S1x32x128.size a ≤ S26x16384x128.size a)
      (h' : ∀ a, off' a + S1x32x128.size a ≤ S26x16384x128.size a),
      (((oV).slice (Rect.unit (s := S26x16384x128) off S1x32x128.size h) (fun _ => rfl)).squeeze S32x128 squeezes_S1x32x128_S32x128
        : Memref sig .scVector .hbm S32x128 .f32)
        = ((oV).slice (Rect.unit (s := S26x16384x128) off' S1x32x128.size h') (fun _ => rfl)).squeeze S32x128 squeezes_S1x32x128_S32x128 := by
    intro off off' e h h'; subst e; rfl
  exact key _ _ e _ _

omit [FloatOps F] in
/-- A chunk of the output held under its number is held under the straight-line code's spelling of it. -/
theorem oPiece2 (L : grid0.Coords) (r : Fin 16) (k : Fin 416) (hk : k = ⟨(k0_off2_at r).toNat, off2_at_lt r⟩) (f : Buf (Elt F) (oLoc d)) :
    (oLoc d ↦[(oCh L k).view.set]{fullShare} f : sProp 𝕄)
      = ((oCh2 L r).view.loc (V d (cV L) (jV L)) ↦[(oCh2 L r).view.set]{fullShare} f) :=
  oPiece_off d (offC L k) (k0_off2 L (k0_off2_at r)) (hk ▸ (off2_eq L r).symm) (offC_inb L k) (k0_off2_inb L r) f

section ExitLemmas
variable (fs : Buf (Elt F) ((TH d L).loc cc0_scratch0))

omit [FloatOps F] in
theorem inv_eq (O : CellTallies nD τ sig (HIx 1)) (W : Waits sig (HIx 1)) (t : ℕ) (u : PUnit) :
    inv m d L fs O W t u =
  iprop(Transfers.MayWaits (TH d L) (default : HIx 1) O
    ∗ Gfl m d L fs t 0 (by decide) 0 inb_S8x32x128_S1x32x128_0_0_0 (Transfers.shareTok (tq (wk L)) 8 (tokc t 0)) ∗ Gfl m d L fs t 1 (by decide) 1 inb_S8x32x128_S1x32x128_1_0_0 (Transfers.shareTok (tq (wk L)) 8 (tokc t 1)) ∗ Gfl m d L fs t 2 (by decide) 2 inb_S8x32x128_S1x32x128_2_0_0 (Transfers.shareTok (tq (wk L)) 8 (tokc t 2))
    ∗ Gfl m d L fs t 3 (by decide) 3 inb_S8x32x128_S1x32x128_3_0_0 (Transfers.shareTok (tq (wk L)) 8 (tokc t 3)) ∗ Gfl m d L fs t 4 (by decide) 4 inb_S8x32x128_S1x32x128_4_0_0 (Transfers.shareTok (tq (wk L)) 8 (tokc t 4)) ∗ Gfl m d L fs t 5 (by decide) 5 inb_S8x32x128_S1x32x128_5_0_0 (Transfers.shareTok (tq (wk L)) 8 (tokc t 5))
    ∗ tokRest m d L (tokc t 0) ∗ tokRest m d L (tokc t 1) ∗ tokRest m d L (tokc t 2) ∗ tokRest m d L (tokc t 3) ∗ tokRest m d L (tokc t 4) ∗ tokRest m d L (tokc t 5)
    ∗ ((tV).view.loc (TH d L) ↦{Transfers.shareTok (tq (wk L)) 8 6} m (tLoc d)) ∗ ((tV).view.loc (TH d L) ↦{Transfers.shareTok (tq (wk L)) 8 7} m (tLoc d))
    ∗ Ofl m d L (ck (8 * (t + 1) - 2)) 14 (by decide) 6 inb_S8x32x128_S1x32x128_6_0_0 ∗ Ofl m d L (ck (8 * (t + 1) - 1)) 15 (by decide) 7 inb_S8x32x128_S1x32x128_7_0_0
    ∗ semVal (cell d L 6) 0 ∗ semVal (cell d L 7) 0
    ∗ semVal (cell d L 8) 0 ∗ semVal (cell d L 9) 0 ∗ semVal (cell d L 10) 0 ∗ semVal (cell d L 11) 0 ∗ semVal (cell d L 12) 0 ∗ semVal (cell d L 13) 0
    ∗ semVal (cell d L 16) 0
    ∗ Sheld m d L fs t
    ∗ Odone m d L t ∗ Ofut m d L t
    ∗ ∃ W', ⌜∀ p ∈ W', p ∈ W ∨ p.2 = none⌝ ∗ owes (TH d L) O W') := rfl

omit [FloatOps F] in
theorem Gfl_eq (t b : ℕ) (hb : b < 17) (r : ℕ) (hr : ∀ a, (![r, 0, 0] : Fin 3 → ℕ) a + S1x32x128.size a ≤ S8x32x128.size a) (tok : PosShare TreeShare) :
    Gfl m d L fs t b hb r hr tok =
  iprop(∃ (fc : Buf (Elt F) ((TH d L).loc cc0_scratch1)) (pay : S32x128.Idx → Elt F .f32), ⌜PayOf m d L (ck (8 * (t + 1) + b)) pay⌝ ∗
    ⌜(slotAt r hr).view.read (Elt F) fc = pay⌝ ∗
    Transfers.Flight countersEmb (TH d L) (SemLoc.dma (⟨b, hb⟩ : DmaSem sig)) (default : HIx 1) 131072
      iprop((((slotAt r hr).view.loc (TH d L) ↦[(slotAt r hr).view.set]{fullShare} fc)
          ∗ ((lstC t b).view.loc (TH d L) ↦[(lstC t b).view.set]{fullShare} fiOf m d L fs))
        ∗ ((tVw).view.loc (TH d L) ↦[(tVw).view.set]{tok} m (tLoc d)))) := rfl

omit [FloatOps F] in
theorem Ofl_eq (c : Fin 416) (j : ℕ) (hj : j < 17) (r : ℕ) (hr : ∀ a, (![r, 0, 0] : Fin 3 → ℕ) a + S1x32x128.size a ≤ S8x32x128.size a) :
    Ofl m d L c j hj r hr =
  iprop(∃ (fo : Buf (Elt F) (oLoc d)) (fb : Buf (Elt F) ((TH d L).loc cc0_scratch1)) (pay : S32x128.Idx → Elt F .f32), ⌜PayOf m d L c pay⌝ ∗
    Transfers.Flight countersEmb (TH d L) (SemLoc.dma (⟨j, hj⟩ : DmaSem sig)) (default : HIx 1) 131072
      iprop(((oCh L c).view.loc (TH d L) ↦[(oCh L c).view.set]{fullShare} (oCh L c).view.writes (Elt F) fo [⟨Rect.whole S32x128, pay⟩])
        ∗ ((slotAt r hr).view.loc (TH d L) ↦[(slotAt r hr).view.set]{fullShare} fb))) := rfl

omit [FloatOps F] in
theorem fut50 : (Finset.univ.filter fun c : Fin 416 => 8 * (50 + 1) ≤ c.val) = ([408, 409, 410, 411, 412, 413, 414, 415] : List (Fin 416)).toFinset := by
  decide

omit [FloatOps F] in
theorem Ofut50 :
    Ofut m d L 50 = iprop((oLoc d ↦[(oCh L 408).view.set]{fullShare} m (oLoc d)) ∗ (oLoc d ↦[(oCh L 409).view.set]{fullShare} m (oLoc d)) ∗ (oLoc d ↦[(oCh L 410).view.set]{fullShare} m (oLoc d)) ∗ (oLoc d ↦[(oCh L 411).view.set]{fullShare} m (oLoc d)) ∗ (oLoc d ↦[(oCh L 412).view.set]{fullShare} m (oLoc d)) ∗ (oLoc d ↦[(oCh L 413).view.set]{fullShare} m (oLoc d)) ∗ (oLoc d ↦[(oCh L 414).view.set]{fullShare} m (oLoc d)) ∗ (oLoc d ↦[(oCh L 415).view.set]{fullShare} m (oLoc d)) ∗ emp) := by
  unfold Ofut
  rw [fut50, bigSep_sepOff (fun c : Fin 416 => (oLoc d ↦[(oCh L c).view.set]{fullShare} m (oLoc d) : sProp 𝕄)) [408, 409, 410, 411, 412, 413, 414, 415] _ (by decide) (fun _ h => List.mem_toFinset.mpr h),
    Finset.sdiff_self, bigSep_empty]
  rfl

omit [FloatOps F] in
/-- The list slices of chunks 414 and 415 out of the held pieces of the index scratch. -/
theorem Sheld50 :
    Sheld m d L fs 50 = iprop(((lstK 414).view.loc (TH d L) ↦[(lstK 414).view.set]{fullShare} fiOf m d L fs)
      ∗ ((lstK 415).view.loc (TH d L) ↦[(lstK 415).view.set]{fullShare} fiOf m d L fs)
      ∗ bigSep ((Finset.univ.filter fun c : Fin 416 => c.val < 8 * (50 + 1) ∨ 8 * (50 + 1) + 6 ≤ c.val) \ ([414, 415] : List (Fin 416)).toFinset)
          fun c : Fin 416 => ((lstK c).view.loc (TH d L) ↦[(lstK c).view.set]{fullShare} fiOf m d L fs : sProp 𝕄)) := by
  unfold Sheld
  exact bigSep_sepOff (fun c : Fin 416 => ((lstK c).view.loc (TH d L) ↦[(lstK c).view.set]{fullShare} fiOf m d L fs : sProp 𝕄)) [414, 415] _ (by decide) (by decide)

omit [FloatOps F] in
/-- A list slice held under one spelling of its offset is held under another. -/
theorem lstPiece_off (off off' : ℕ) (e : off = off') (h : ∀ a, (![off] : Fin 1 → ℕ) a + S32.size a ≤ S13312.size a)
    (h' : ∀ a, (![off'] : Fin 1 → ℕ) a + S32.size a ≤ S13312.size a) (f : Buf (Elt F) ((TH d L).loc cc0_scratch0)) :
    ((lstAt off h).view.loc (TH d L) ↦[(lstAt off h).view.set]{fullShare} f : sProp 𝕄)
      = ((lstAt off' h').view.loc (TH d L) ↦[(lstAt off' h').view.set]{fullShare} f) := by
  subst e; rfl

omit [FloatOps F] in
theorem tdP_eq : tdP m d L = iprop(idxPts d L (flat0 m d) ∗ outPts d L (out0 m d)) := rfl

omit [FloatOps F] in
theorem done50 : (Finset.univ : Finset (Fin 416)) \ ([406, 407, 408, 409, 410, 411, 412, 413, 414, 415] : List (Fin 416)).toFinset
    = Finset.univ.filter fun c : Fin 416 => c.val + 2 < 8 * (50 + 1) := by decide

omit [FloatOps F] in
/-- The worker's output: the ten last chunks, and the chunks below 406. -/
theorem outPts50 :
    (outPts d L (out0 m d) : sProp 𝕄) = iprop((oLoc d ↦[(oCh L 406).view.set]{fullShare} out0 m d) ∗ (oLoc d ↦[(oCh L 407).view.set]{fullShare} out0 m d) ∗ (oLoc d ↦[(oCh L 408).view.set]{fullShare} out0 m d) ∗ (oLoc d ↦[(oCh L 409).view.set]{fullShare} out0 m d) ∗ (oLoc d ↦[(oCh L 410).view.set]{fullShare} out0 m d) ∗ (oLoc d ↦[(oCh L 411).view.set]{fullShare} out0 m d) ∗ (oLoc d ↦[(oCh L 412).view.set]{fullShare} out0 m d) ∗ (oLoc d ↦[(oCh L 413).view.set]{fullShare} out0 m d) ∗ (oLoc d ↦[(oCh L 414).view.set]{fullShare} out0 m d) ∗ (oLoc d ↦[(oCh L 415).view.set]{fullShare} out0 m d)
      ∗ Odone m d L 50) := by
  unfold Odone
  rw [← done50]
  exact bigSep_sepOff (fun k : Fin 416 => (oLoc d ↦[(oCh L k).view.set]{fullShare} out0 m d : sProp 𝕄)) [406, 407, 408, 409, 410, 411, 412, 413, 414, 415] Finset.univ
    (by decide) (fun _ _ => Finset.mem_univ _)

omit [FloatOps F] in
/-- Reading back one whole-block write gives its payload. -/
theorem xread_writes_whole {κ : Kind} {sp : Space} (v : View sig κ sp S32x128 .f32) (f : v.ty.Contents (Elt F)) (w : S32x128.Idx → Elt F .f32) :
    v.read (Elt F) (v.writes (Elt F) f [⟨Rect.whole S32x128, w⟩]) = w := by
  funext x
  have h := View.read_writes_cons_emb v f (Rect.whole S32x128) w [] x
  rwa [Rect.emb_whole_apply] at h

omit [FloatOps F] in
/-- A chunk of the output written whole with a payload known by its values holds the output function. -/
theorem chunk_written (k : Fin 416) (fo : Buf (Elt F) (oLoc d)) (pay : S32x128.Idx → Elt F .f32) (hp : PayOf m d L k pay) :
    ((oCh L k).view.loc (TH d L) ↦[(oCh L k).view.set]{fullShare} (oCh L k).view.writes (Elt F) fo [⟨Rect.whole S32x128, pay⟩] : sProp 𝕄)
      = (oLoc d ↦[(oCh L k).view.set]{fullShare} out0 m d) := by
  show (oLoc d ↦[(oCh L k).view.set]{fullShare} (oCh L k).view.writes (Elt F) fo [⟨Rect.whole S32x128, pay⟩] : sProp 𝕄) = _
  refine pointsTo_congr fun i hi => ?_
  obtain ⟨x, -, rfl⟩ := Finset.mem_map.mp hi
  have h := congrFun (xread_writes_whole (F := F) (oCh L k).view fo pay) x
  exact (((View.read_apply _ _).trans (cast_eq _ _)).symm.trans h).trans (hp x)

omit [FloatOps F] in
/-- The same for a chunk in the spelling of the straight-line code. -/
theorem chunk_written2 (r : Fin 16) (k : Fin 416) (hk : k = ⟨(k0_off2_at r).toNat, off2_at_lt r⟩) (fo : Buf (Elt F) (oLoc d))
    (pay : S32x128.Idx → Elt F .f32) (hp : PayOf m d L k pay) :
    ((oCh2 L r).view.loc (TH d L) ↦[(oCh2 L r).view.set]{fullShare} (oCh2 L r).view.writes (Elt F) fo [⟨Rect.whole S32x128, pay⟩] : sProp 𝕄)
      = (oLoc d ↦[(oCh L k).view.set]{fullShare} out0 m d) := by
  have key : ∀ (off off' : Fin 3 → ℕ) (_ : off = off') (h : ∀ a, off a + S1x32x128.size a ≤ S26x16384x128.size a)
      (h' : ∀ a, off' a + S1x32x128.size a ≤ S26x16384x128.size a),
      ((((oV).slice (Rect.unit (s := S26x16384x128) off S1x32x128.size h) (fun _ => rfl)).squeeze S32x128 squeezes_S1x32x128_S32x128).view.loc (TH d L)
          ↦[(((oV).slice (Rect.unit (s := S26x16384x128) off S1x32x128.size h) (fun _ => rfl)).squeeze S32x128 squeezes_S1x32x128_S32x128).view.set]{fullShare}
          (((oV).slice (Rect.unit (s := S26x16384x128) off S1x32x128.size h) (fun _ => rfl)).squeeze S32x128 squeezes_S1x32x128_S32x128).view.writes (Elt F) fo
            [⟨Rect.whole S32x128, pay⟩] : sProp 𝕄)
        = ((((oV).slice (Rect.unit (s := S26x16384x128) off' S1x32x128.size h') (fun _ => rfl)).squeeze S32x128 squeezes_S1x32x128_S32x128).view.loc (TH d L)
          ↦[(((oV).slice (Rect.unit (s := S26x16384x128) off' S1x32x128.size h') (fun _ => rfl)).squeeze S32x128 squeezes_S1x32x128_S32x128).view.set]{fullShare}
          (((oV).slice (Rect.unit (s := S26x16384x128) off' S1x32x128.size h') (fun _ => rfl)).squeeze S32x128 squeezes_S1x32x128_S32x128).view.writes (Elt F) fo
            [⟨Rect.whole S32x128, pay⟩]) := by
    intro off off' e h h'; subst e; rfl
  exact (key (k0_off2 L (k0_off2_at r)) (offC L k) (by subst hk; exact off2_eq L r) (k0_off2_inb L r) (offC_inb L k)).trans
    (chunk_written m d L k fo pay hp)

omit [FloatOps F] in
/-- A payload read back from a buffer it was written into whole is known by the same values. -/
theorem payOf_slot {κ : Kind} {sp : Space} (k : Fin 416) (v : View sig κ sp S32x128 .f32) (fb : v.ty.Contents (Elt F))
    (pay : S32x128.Idx → Elt F .f32) (hp : PayOf m d L k pay) :
    PayOf m d L k (ReadAs.same.apply (v.read (Elt F) (v.write (Elt F) fb pay Finset.univ))) := by
  show PayOf m d L k (v.read (Elt F) (v.write (Elt F) fb pay Finset.univ))
  rw [View.read_write_univ]; exact hp

omit [FloatOps F] in
theorem payOf_slot_writes {κ : Kind} {sp : Space} (k : Fin 416) (v : View sig κ sp S32x128 .f32) (fb : v.ty.Contents (Elt F))
    (pay : S32x128.Idx → Elt F .f32) (hp : PayOf m d L k pay) :
    PayOf m d L k (ReadAs.same.apply (v.read (Elt F) (v.writes (Elt F) fb [⟨Rect.whole S32x128, pay⟩]))) := by
  show PayOf m d L k (v.read (Elt F) (v.writes (Elt F) fb [⟨Rect.whole S32x128, pay⟩]))
  rw [xread_writes_whole]; exact hp

omit [FloatOps F] in
/-- The table read through the gathers' view of it is the table. -/
theorem xtVw_read (g : S100000x128.Idx → Elt F .f32) : (tVw).view.read (Elt F) g = g := by
  funext x
  refine ((View.read_apply _ _).trans (cast_eq _ _)).trans (congrArg g (funext fun a => Fin.ext ?_))
  show ((Rect.unit (s := S100000x128) ![0, 0] S100000x128.size inb_S100000x128_S100000x128_0_0).emb x a : ℕ) = (x a).val
  rw [Rect.emb_apply]
  match a with
  | ⟨0, _⟩ => show 0 + 1 * (x 0).val = (x 0).val; omega
  | ⟨1, _⟩ => show 0 + 1 * (x 1).val = (x 1).val; omega

/-- A gather through the 32 entries of the index scratch at offset 32 k lands the output function on chunk k. -/
theorem payOf_gather (k : Fin 416) (off : Fin 1 → ℕ) (hoff : off 0 = 32 * k.val) (h : ∀ a, off a + S32.size a ≤ S13312.size a)
    (hn : S32.numel = S32x128.size gathers_S100000x128_S32x128.axis')
    (hin : ∀ x, (((sV).slice (Rect.unit (s := S13312) off S32.size h) (fun _ => rfl)).view.read (Elt F) (fiOf m d L fs) x).toNat
      < S100000x128.size gathers_S100000x128_S32x128.axis) :
    PayOf m d L k (SparseCore.gatherPayload (F := F) gathers_S100000x128_S32x128 ((tVw).view.read (Elt F) (m (tLoc d)))
      (SparseCore.rows (F := F) (((sV).slice (Rect.unit (s := S13312) off S32.size h) (fun _ => rfl)).view.read (Elt F) (fiOf m d L fs)) hn hin)) := by
  intro x
  rw [xtVw_read]
  refine payload_eq (m (tLoc d)) (flat0 m d) _ L k (fun y => ?_) hn hin x
  rw [slice_read_off, fetch_read]
  refine fl_congr _ _ _ ?_
  show 13312 * wk L + (off 0 + (y 0).val) = 13312 * wk L + 32 * k.val + (y 0).val
  rw [hoff]; omega

omit [FloatOps F] in
/-- Two points-tos at one share join: were their element sets not disjoint they would be contradictory. -/
theorem pointsTo_join_any {ℓ : Loc nD τ sig} (A B : Finset (Idx ℓ)) (q : PosShare TreeShare) (f g : Buf (Elt F) ℓ) :
    iprop((ℓ ↦[A]{q} f) ∗ ℓ ↦[B]{q} g) ⊢ (iprop(∃ h, ℓ ↦[A ∪ B]{q} h) : sProp 𝕄) := by
  by_cases hd : Disjoint A B
  · iintro H
    iexists (B.piecewise g f)
    iapply (pointsTo_join hd); iexact H
  · obtain ⟨i, hiA, hiB⟩ := Finset.not_disjoint_iff.mp hd
    exact (pointsTo_overlap_false hiA hiB).trans Laws.false_elim

omit [FloatOps F] in
/-- A buffer held but for eight element sets, and those eight sets, is the buffer whole. -/
theorem join_rows {ℓ : Loc nD τ sig} (S0 S1 S2 S3 S4 S5 S6 S7 : Finset (Idx ℓ)) (f8 f0 f1 f2 f3 f4 f5 f6 f7 : Buf (Elt F) ℓ) :
    iprop((ℓ ↦[((((((((Finset.univ \ S0) \ S1) \ S2) \ S3) \ S6) \ S4) \ S7) \ S5)]{fullShare} f8) ∗ (ℓ ↦[S0]{fullShare} f0) ∗ (ℓ ↦[S1]{fullShare} f1)
        ∗ (ℓ ↦[S2]{fullShare} f2) ∗ (ℓ ↦[S3]{fullShare} f3) ∗ (ℓ ↦[S4]{fullShare} f4) ∗ (ℓ ↦[S5]{fullShare} f5) ∗ (ℓ ↦[S6]{fullShare} f6) ∗ (ℓ ↦[S7]{fullShare} f7))
      ⊢ (iprop(∃ h, ℓ ↦{fullShare} h) : sProp 𝕄) := by
  iintro ⟨HR, H0, H1, H2, H3, H4, H5, H6, H7⟩
  ihave J := (pointsTo_join_any (F := F) _ _ _ _ _) $$ [HR H0]
  · isplitl [HR] <;> iassumption
  icases J with ⟨%h0, J⟩
  ihave J := (pointsTo_join_any (F := F) _ _ _ _ _) $$ [J H1]
  · isplitl [J] <;> iassumption
  icases J with ⟨%h1, J⟩
  ihave J := (pointsTo_join_any (F := F) _ _ _ _ _) $$ [J H2]
  · isplitl [J] <;> iassumption
  icases J with ⟨%h2, J⟩
  ihave J := (pointsTo_join_any (F := F) _ _ _ _ _) $$ [J H3]
  · isplitl [J] <;> iassumption
  icases J with ⟨%h3, J⟩
  ihave J := (pointsTo_join_any (F := F) _ _ _ _ _) $$ [J H4]
  · isplitl [J] <;> iassumption
  icases J with ⟨%h4, J⟩
  ihave J := (pointsTo_join_any (F := F) _ _ _ _ _) $$ [J H5]
  · isplitl [J] <;> iassumption
  icases J with ⟨%h5, J⟩
  ihave J := (pointsTo_join_any (F := F) _ _ _ _ _) $$ [J H6]
  · isplitl [J] <;> iassumption
  icases J with ⟨%h6, J⟩
  ihave J := (pointsTo_join_any (F := F) _ _ _ _ _) $$ [J H7]
  · isplitl [J] <;> iassumption
  icases J with ⟨%h7, J⟩
  iexists h7
  have e : ((((((((((((((((Finset.univ \ S0) \ S1) \ S2) \ S3) \ S6) \ S4) \ S7) \ S5) ∪ S0) ∪ S1) ∪ S2) ∪ S3) ∪ S4) ∪ S5) ∪ S6) ∪ S7) = (Finset.univ : Finset (Idx ℓ)) := by
    ext i
    simp only [Finset.mem_union, Finset.mem_sdiff, Finset.mem_univ, true_and, iff_true]
    tauto
  rw [e]
  iexact J

omit [FloatOps F] in
/-- Whoever owes nothing more for a semaphore may add a wait on it. -/
theorem xwaits_ins {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

omit [FloatOps F] in
/-- A buffer that reads back as a payload known by its values: what is read off it is known by the same values. -/
theorem payOf_read {κ : Kind} {sp : Space} (k : Fin 416) (v : View sig κ sp S32x128 .f32) (fc : v.ty.Contents (Elt F))
    (pay : S32x128.Idx → Elt F .f32) (hr : v.read (Elt F) fc = pay) (hp : PayOf m d L k pay) :
    PayOf m d L k (ReadAs.same.apply (v.read (Elt F) fc)) := by
  subst hr; exact hp

omit [FloatOps F] in
/-- A chunk written whole, in the straight-line code's spelling, with a payload known by its values. -/
theorem chunk_done2 (r : Fin 16) (k : Fin 416) (hk : k = ⟨(k0_off2_at r).toNat, off2_at_lt r⟩) (fo : Buf (Elt F) (oLoc d))
    (pay : S32x128.Idx → Elt F .f32) :
    iprop(((oCh2 L r).view.loc (TH d L) ↦[(oCh2 L r).view.set]{fullShare} (oCh2 L r).view.writes (Elt F) fo [⟨Rect.whole S32x128, pay⟩])
        ∗ ⌜PayOf m d L k pay⌝)
      ⊢ (oLoc d ↦[(oCh L k).view.set]{fullShare} out0 m d : sProp 𝕄) := by
  iintro ⟨H, %hp⟩
  iapply (Entails.of_eq (chunk_written2 m d L r k hk fo pay hp)); iexact H

omit [FloatOps F] in
theorem rest50 : (Finset.univ : Finset (Fin 416)) \ ([414, 415, 408, 409, 410, 411, 412, 413] : List (Fin 416)).toFinset
    = (Finset.univ.filter fun c : Fin 416 => c.val < 8 * (50 + 1) ∨ 8 * (50 + 1) + 6 ≤ c.val) \ ([414, 415] : List (Fin 416)).toFinset := by decide

omit [FloatOps F] in
/-- The index scratch whole is its eight last list slices and the pieces held through the last trip. -/
theorem sAll50 (f : Buf (Elt F) ((TH d L).loc cc0_scratch0)) :
    ((sV).view.loc (TH d L) ↦{fullShare} f : sProp 𝕄)
      = iprop(((lstK 414).view.loc (TH d L) ↦[(lstK 414).view.set]{fullShare} f) ∗ ((lstK 415).view.loc (TH d L) ↦[(lstK 415).view.set]{fullShare} f)
        ∗ ((lstK 408).view.loc (TH d L) ↦[(lstK 408).view.set]{fullShare} f) ∗ ((lstK 409).view.loc (TH d L) ↦[(lstK 409).view.set]{fullShare} f)
        ∗ ((lstK 410).view.loc (TH d L) ↦[(lstK 410).view.set]{fullShare} f) ∗ ((lstK 411).view.loc (TH d L) ↦[(lstK 411).view.set]{fullShare} f)
        ∗ ((lstK 412).view.loc (TH d L) ↦[(lstK 412).view.set]{fullShare} f) ∗ ((lstK 413).view.loc (TH d L) ↦[(lstK 413).view.set]{fullShare} f)
        ∗ bigSep ((Finset.univ.filter fun c : Fin 416 => c.val < 8 * (50 + 1) ∨ 8 * (50 + 1) + 6 ≤ c.val) \ ([414, 415] : List (Fin 416)).toFinset)
            fun c : Fin 416 => ((lstK c).view.loc (TH d L) ↦[(lstK c).view.set]{fullShare} f : sProp 𝕄)) := by
  rw [sPts_all d L fullShare f, ← rest50]
  exact bigSep_sepOff (fun c : Fin 416 => ((lstK c).view.loc (TH d L) ↦[(lstK c).view.set]{fullShare} f : sProp 𝕄)) [414, 415, 408, 409, 410, 411, 412, 413] Finset.univ
    (by decide) (fun _ _ => Finset.mem_univ _)

omit [FloatOps F] in
/-- The list slice of the b-th gather in flight at the exit, under its chunk's number. -/
theorem lstC50 (b : ℕ) (c : Fin 416) (hc : ck (8 * (50 + 1) + b) = c) (f : Buf (Elt F) ((TH d L).loc cc0_scratch0)) :
    ((lstC 50 b).view.loc (TH d L) ↦[(lstC 50 b).view.set]{fullShare} f : sProp 𝕄) = ((lstK c).view.loc (TH d L) ↦[(lstK c).view.set]{fullShare} f) := by
  subst hc; rfl

end ExitLemmas

set_option maxHeartbeats 4000000 in
/-- The task of one worker. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goP m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) fV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          fun _ => iprop(tdP m d L
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  simp only [sepOff, semList, List.map]
  unfold goP
  iintro ⟨#Hlv, -, ⟨Ht, Hi, Ho⟩, ⟨⟨%fs, Hs⟩, ⟨%fr, Hr⟩, Hbufs⟩, ⟨Hm0, Hm1, Hm2, Hm3, Hm4, Hm5, Hm6, Hm7, Hm8, Hm9, Hm10, Hm11, Hm12, Hm13, Hm14, Hm15, Hm16, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the arrays as the tile addresses them
  ihave Hi' := (Entails.of_eq (show (fLoc d ↦[(fSl L).view.set]{fullShare} flat0 m d : sProp 𝕄)
      = ((fSl L).view.loc (V d (cV L) (jV L)) ↦[(fSl L).view.set]{fullShare} flat0 m d) from rfl)) $$ Hi
  ihave Hs' := (Entails.of_eq (show ((V d (cV L) (jV L)).loc cc0_scratch0 ↦{fullShare} fs : sProp 𝕄)
      = ((sV).view.loc (V d (cV L) (jV L)) ↦{fullShare} fs) from rfl)) $$ Hs
  ihave Hr' := (Entails.of_eq (show ((V d (cV L) (jV L)).loc cc0_scratch1 ↦{fullShare} fr : sProp 𝕄)
      = ((rV).view.loc (V d (cV L) (jV L)) ↦{fullShare} fr) from rfl)) $$ Hr
  -- the table: one read token per gather semaphore
  ihave Htt := (Transfers.pointsTo_toks_split (ℓ := tLoc d) (S := Finset.univ) (f := m (tLoc d)) (tq (wk L)) 8) $$ Ht
  icases Htt with ⟨Htr, Htoks⟩
  ihave Htoks' := (Entails.of_eq (bigSep_fin8 _)) $$ Htoks
  icases Htoks' with ⟨Ht0, Ht1, Ht2, Ht3, Ht4, Ht5, Ht6, Ht7⟩
  ihave Ht0' := (Entails.of_eq (show (tLoc d ↦{Transfers.shareTok (tq (wk L)) 8 0} m (tLoc d) : sProp 𝕄)
      = ((tV).view.loc (V d (cV L) (jV L)) ↦{Transfers.shareTok (tq (wk L)) 8 0} m (tLoc d)) from rfl)) $$ Ht0
  ihave Ht1' := (Entails.of_eq (show (tLoc d ↦{Transfers.shareTok (tq (wk L)) 8 1} m (tLoc d) : sProp 𝕄)
      = ((tV).view.loc (V d (cV L) (jV L)) ↦{Transfers.shareTok (tq (wk L)) 8 1} m (tLoc d)) from rfl)) $$ Ht1
  ihave Ht2' := (Entails.of_eq (show (tLoc d ↦{Transfers.shareTok (tq (wk L)) 8 2} m (tLoc d) : sProp 𝕄)
      = ((tV).view.loc (V d (cV L) (jV L)) ↦{Transfers.shareTok (tq (wk L)) 8 2} m (tLoc d)) from rfl)) $$ Ht2
  ihave Ht3' := (Entails.of_eq (show (tLoc d ↦{Transfers.shareTok (tq (wk L)) 8 3} m (tLoc d) : sProp 𝕄)
      = ((tV).view.loc (V d (cV L) (jV L)) ↦{Transfers.shareTok (tq (wk L)) 8 3} m (tLoc d)) from rfl)) $$ Ht3
  ihave Ht4' := (Entails.of_eq (show (tLoc d ↦{Transfers.shareTok (tq (wk L)) 8 4} m (tLoc d) : sProp 𝕄)
      = ((tV).view.loc (V d (cV L) (jV L)) ↦{Transfers.shareTok (tq (wk L)) 8 4} m (tLoc d)) from rfl)) $$ Ht4
  ihave Ht5' := (Entails.of_eq (show (tLoc d ↦{Transfers.shareTok (tq (wk L)) 8 5} m (tLoc d) : sProp 𝕄)
      = ((tV).view.loc (V d (cV L) (jV L)) ↦{Transfers.shareTok (tq (wk L)) 8 5} m (tLoc d)) from rfl)) $$ Ht5
  ihave Ht6' := (Entails.of_eq (show (tLoc d ↦{Transfers.shareTok (tq (wk L)) 8 6} m (tLoc d) : sProp 𝕄)
      = ((tV).view.loc (V d (cV L) (jV L)) ↦{Transfers.shareTok (tq (wk L)) 8 6} m (tLoc d)) from rfl)) $$ Ht6
  ihave Ht7' := (Entails.of_eq (show (tLoc d ↦{Transfers.shareTok (tq (wk L)) 8 7} m (tLoc d) : sProp 𝕄)
      = ((tV).view.loc (V d (cV L) (jV L)) ↦{Transfers.shareTok (tq (wk L)) 8 7} m (tLoc d)) from rfl)) $$ Ht7
  sl_exec
  have hin0 : ∀ x, ((sV.slice (Rect.unit (s := S13312) ![0] S32.size inb_S13312_S32_0) (fun _ => rfl)).view.read (Elt F)
      (View.write (Elt F) sV.view fs (tile_body.sl.dma0 m d L) Finset.univ) x).toNat < S100000x128.size gathers_S100000x128_S32x128.axis :=
    list_inb m d L hpre fs _ rfl _ _
  have hin1 : ∀ x, ((sV.slice (Rect.unit (s := S13312) ![32] S32.size inb_S13312_S32_32) (fun _ => rfl)).view.read (Elt F)
      (View.write (Elt F) sV.view fs (tile_body.sl.dma0 m d L) Finset.univ) x).toNat < S100000x128.size gathers_S100000x128_S32x128.axis :=
    list_inb m d L hpre fs _ rfl _ _
  have hin2 : ∀ x, ((sV.slice (Rect.unit (s := S13312) ![64] S32.size inb_S13312_S32_64) (fun _ => rfl)).view.read (Elt F)
      (View.write (Elt F) sV.view fs (tile_body.sl.dma0 m d L) Finset.univ) x).toNat < S100000x128.size gathers_S100000x128_S32x128.axis :=
    list_inb m d L hpre fs _ rfl _ _
  have hin3 : ∀ x, ((sV.slice (Rect.unit (s := S13312) ![96] S32.size inb_S13312_S32_96) (fun _ => rfl)).view.read (Elt F)
      (View.write (Elt F) sV.view fs (tile_body.sl.dma0 m d L) Finset.univ) x).toNat < S100000x128.size gathers_S100000x128_S32x128.axis :=
    list_inb m d L hpre fs _ rfl _ _
  have hin4 : ∀ x, ((sV.slice (Rect.unit (s := S13312) ![128] S32.size inb_S13312_S32_128) (fun _ => rfl)).view.read (Elt F)
      (View.write (Elt F) sV.view fs (tile_body.sl.dma0 m d L) Finset.univ) x).toNat < S100000x128.size gathers_S100000x128_S32x128.axis :=
    list_inb m d L hpre fs _ rfl _ _
  have hin5 : ∀ x, ((sV.slice (Rect.unit (s := S13312) ![160] S32.size inb_S13312_S32_160) (fun _ => rfl)).view.read (Elt F)
      (View.write (Elt F) sV.view fs (tile_body.sl.dma0 m d L) Finset.univ) x).toNat < S100000x128.size gathers_S100000x128_S32x128.axis :=
    list_inb m d L hpre fs _ rfl _ _
  have hin6 : ∀ x, ((sV.slice (Rect.unit (s := S13312) ![192] S32.size inb_S13312_S32_192) (fun _ => rfl)).view.read (Elt F)
      (View.write (Elt F) sV.view fs (tile_body.sl.dma0 m d L) Finset.univ) x).toNat < S100000x128.size gathers_S100000x128_S32x128.axis :=
    list_inb m d L hpre fs _ rfl _ _
  have hin7 : ∀ x, ((sV.slice (Rect.unit (s := S13312) ![224] S32.size inb_S13312_S32_224) (fun _ => rfl)).view.read (Elt F)
      (View.write (Elt F) sV.view fs (tile_body.sl.dma0 m d L) Finset.univ) x).toNat < S100000x128.size gathers_S100000x128_S32x128.axis :=
    list_inb m d L hpre fs _ rfl _ _
  have hin8 : ∀ x, ((sV.slice (Rect.unit (s := S13312) ![256] S32.size inb_S13312_S32_256) (fun _ => rfl)).view.read (Elt F)
      (View.write (Elt F) sV.view fs (tile_body.sl.dma0 m d L) Finset.univ) x).toNat < S100000x128.size gathers_S100000x128_S32x128.axis :=
    list_inb m d L hpre fs _ rfl _ _
  have hin9 : ∀ x, ((sV.slice (Rect.unit (s := S13312) ![288] S32.size inb_S13312_S32_288) (fun _ => rfl)).view.read (Elt F)
      (View.write (Elt F) sV.view fs (tile_body.sl.dma0 m d L) Finset.univ) x).toNat < S100000x128.size gathers_S100000x128_S32x128.axis :=
    list_inb m d L hpre fs _ rfl _ _
  have hin10 : ∀ x, ((sV.slice (Rect.unit (s := S13312) ![320] S32.size inb_S13312_S32_320) (fun _ => rfl)).view.read (Elt F)
      (View.write (Elt F) sV.view fs (tile_body.sl.dma0 m d L) Finset.univ) x).toNat < S100000x128.size gathers_S100000x128_S32x128.axis :=
    list_inb m d L hpre fs _ rfl _ _
  have hin11 : ∀ x, ((sV.slice (Rect.unit (s := S13312) ![352] S32.size inb_S13312_S32_352) (fun _ => rfl)).view.read (Elt F)
      (View.write (Elt F) sV.view fs (tile_body.sl.dma0 m d L) Finset.univ) x).toNat < S100000x128.size gathers_S100000x128_S32x128.axis :=
    list_inb m d L hpre fs _ rfl _ _
  have hin12 : ∀ x, ((sV.slice (Rect.unit (s := S13312) ![384] S32.size inb_S13312_S32_384) (fun _ => rfl)).view.read (Elt F)
      (View.write (Elt F) sV.view fs (tile_body.sl.dma0 m d L) Finset.univ) x).toNat < S100000x128.size gathers_S100000x128_S32x128.axis :=
    list_inb m d L hpre fs _ rfl _ _
  have hin13 : ∀ x, ((sV.slice (Rect.unit (s := S13312) ![416] S32.size inb_S13312_S32_416) (fun _ => rfl)).view.read (Elt F)
      (View.write (Elt F) sV.view fs (tile_body.sl.dma0 m d L) Finset.univ) x).toNat < S100000x128.size gathers_S100000x128_S32x128.axis :=
    list_inb m d L hpre fs _ rfl _ _
  have hin14 : ∀ x, ((sV.slice (Rect.unit (s := S13312) ![13248] S32.size inb_S13312_S32_13248) (fun _ => rfl)).view.read (Elt F)
      (View.write (Elt F) sV.view fs (tile_body.sl.dma0 m d L) Finset.univ) x).toNat < S100000x128.size gathers_S100000x128_S32x128.axis :=
    list_inb m d L hpre fs _ rfl _ _
  have hin15 : ∀ x, ((sV.slice (Rect.unit (s := S13312) ![13280] S32.size inb_S13312_S32_13280) (fun _ => rfl)).view.read (Elt F)
      (View.write (Elt F) sV.view fs (tile_body.sl.dma0 m d L) Finset.univ) x).toNat < S100000x128.size gathers_S100000x128_S32x128.axis :=
    list_inb m d L hpre fs _ rfl _ _
  sl_exec

  -- the first eight chunks of the output, in the straight-line code's spelling
  have eO : (outPts d L (m (oLoc d)) : sProp 𝕄)
      = iprop((oLoc d ↦[(oCh L 0).view.set]{fullShare} m (oLoc d)) ∗ (oLoc d ↦[(oCh L 1).view.set]{fullShare} m (oLoc d)) ∗ (oLoc d ↦[(oCh L 2).view.set]{fullShare} m (oLoc d)) ∗ (oLoc d ↦[(oCh L 3).view.set]{fullShare} m (oLoc d)) ∗ (oLoc d ↦[(oCh L 4).view.set]{fullShare} m (oLoc d)) ∗ (oLoc d ↦[(oCh L 5).view.set]{fullShare} m (oLoc d)) ∗ (oLoc d ↦[(oCh L 6).view.set]{fullShare} m (oLoc d)) ∗ (oLoc d ↦[(oCh L 7).view.set]{fullShare} m (oLoc d))
          ∗ bigSep ((Finset.univ : Finset (Fin 416)) \ ([0, 1, 2, 3, 4, 5, 6, 7] : List (Fin 416)).toFinset)
            fun k : Fin 416 => (oLoc d ↦[(oCh L k).view.set]{fullShare} m (oLoc d) : sProp 𝕄)) :=
    bigSep_sepOff (fun k : Fin 416 => (oLoc d ↦[(oCh L k).view.set]{fullShare} m (oLoc d) : sProp 𝕄)) [0, 1, 2, 3, 4, 5, 6, 7] Finset.univ
      (by decide) (fun _ _ => Finset.mem_univ _)
  ihave Ho' := (Entails.of_eq eO) $$ Ho
  icases Ho' with ⟨Ho0, Ho1, Ho2, Ho3, Ho4, Ho5, Ho6, Ho7, Horest⟩
  ihave Ho0' := (Entails.of_eq (oPiece2 (F := F) d L 0 0 rfl (m (oLoc d)))) $$ Ho0
  ihave Ho1' := (Entails.of_eq (oPiece2 (F := F) d L 1 1 rfl (m (oLoc d)))) $$ Ho1
  ihave Ho2' := (Entails.of_eq (oPiece2 (F := F) d L 2 2 rfl (m (oLoc d)))) $$ Ho2
  ihave Ho3' := (Entails.of_eq (oPiece2 (F := F) d L 3 3 rfl (m (oLoc d)))) $$ Ho3
  ihave Ho4' := (Entails.of_eq (oPiece2 (F := F) d L 4 4 rfl (m (oLoc d)))) $$ Ho4
  ihave Ho5' := (Entails.of_eq (oPiece2 (F := F) d L 5 5 rfl (m (oLoc d)))) $$ Ho5
  ihave Ho6' := (Entails.of_eq (oPiece2 (F := F) d L 6 6 rfl (m (oLoc d)))) $$ Ho6
  ihave Ho7' := (Entails.of_eq (oPiece2 (F := F) d L 7 7 rfl (m (oLoc d)))) $$ Ho7
  -- the prologue's six gathers and the eight unrolled steps: at the loop's head the gathers of chunks 8 to 13 are in flight
  -- into buffers 0 to 5, the copies out of chunks 6 and 7 from buffers 6 and 7, chunks 0 to 5 are written
  sl_exec
  sl_for (inv m d L fs O W) $$ [Hmw Hm0 Hm1 Hm2 Hm3 Hm4 Hm5 Ht0' Ht1' Ht2' Ht3' Ht4' Ht5' Ht6' Ht7' Hm14 Hm15 Hm6 Hm7 Hm8 Hm9 Hm10 Hm11 Hm12 Hm13 Hm16 Hs' Ho0' Ho1' Ho2' Ho3' Ho4' Ho5' Horest HO]
  case region =>
    -- one trip: from the invariant before it to the invariant after it
    intro t _
    have ht : t.val < 50 := trips_eq ▸ t.isLt
    unfold inv Gfl Ofl
    iintro ⟨Hmw, ⟨%fc0, %pay0, %hp0, %hr0, Hm0⟩, ⟨%fc1, %pay1, %hp1, %hr1, Hm1⟩, ⟨%fc2, %pay2, %hp2, %hr2, Hm2⟩, ⟨%fc3, %pay3, %hp3, %hr3, Hm3⟩, ⟨%fc4, %pay4, %hp4, %hr4, Hm4⟩, ⟨%fc5, %pay5, %hp5, %hr5, Hm5⟩, Ht0', Ht1', Ht2', Ht3', Ht4', Ht5', Ht6', Ht7', ⟨%fo6, %fb6, %pay6, %hp6, Hm14⟩, ⟨%fo7, %fb7, %pay7, %hp7, Hm15⟩, Hm6, Hm7, Hm8, Hm9, Hm10, Hm11, Hm12, Hm13, Hm16, Hs', Hod, Hof, %W', %hW', HO⟩
    -- the eight list slices the trip gathers by name rows of the table
    have hq0 : ∀ x, ((sV.slice (Rect.unit (s := S13312) (k0_off5 t 0#32) S32.size (k0_off5_inb t 0)) (fun _ => rfl)).view.read (Elt F)
        (fiOf m d L fs) x).toNat < S100000x128.size gathers_S100000x128_S32x128.axis :=
      list_inb m d L hpre fs _ rfl _ _
    have hq1 : ∀ x, ((sV.slice (Rect.unit (s := S13312) (k0_off5 t 1#32) S32.size (k0_off5_inb t 1)) (fun _ => rfl)).view.read (Elt F)
        (fiOf m d L fs) x).toNat < S100000x128.size gathers_S100000x128_S32x128.axis :=
      list_inb m d L hpre fs _ rfl _ _
    have hq2 : ∀ x, ((sV.slice (Rect.unit (s := S13312) (k0_off5 t 2#32) S32.size (k0_off5_inb t 2)) (fun _ => rfl)).view.read (Elt F)
        (fiOf m d L fs) x).toNat < S100000x128.size gathers_S100000x128_S32x128.axis :=
      list_inb m d L hpre fs _ rfl _ _
    have hq3 : ∀ x, ((sV.slice (Rect.unit (s := S13312) (k0_off5 t 3#32) S32.size (k0_off5_inb t 3)) (fun _ => rfl)).view.read (Elt F)
        (fiOf m d L fs) x).toNat < S100000x128.size gathers_S100000x128_S32x128.axis :=
      list_inb m d L hpre fs _ rfl _ _
    have hq4 : ∀ x, ((sV.slice (Rect.unit (s := S13312) (k0_off5 t 4#32) S32.size (k0_off5_inb t 4)) (fun _ => rfl)).view.read (Elt F)
        (fiOf m d L fs) x).toNat < S100000x128.size gathers_S100000x128_S32x128.axis :=
      list_inb m d L hpre fs _ rfl _ _
    have hq5 : ∀ x, ((sV.slice (Rect.unit (s := S13312) (k0_off5 t 5#32) S32.size (k0_off5_inb t 5)) (fun _ => rfl)).view.read (Elt F)
        (fiOf m d L fs) x).toNat < S100000x128.size gathers_S100000x128_S32x128.axis :=
      list_inb m d L hpre fs _ rfl _ _
    have hq6 : ∀ x, ((sV.slice (Rect.unit (s := S13312) (k0_off5 t 6#32) S32.size (k0_off5_inb t 6)) (fun _ => rfl)).view.read (Elt F)
        (fiOf m d L fs) x).toNat < S100000x128.size gathers_S100000x128_S32x128.axis :=
      list_inb m d L hpre fs _ rfl _ _
    have hq7 : ∀ x, ((sV.slice (Rect.unit (s := S13312) (k0_off5 t 7#32) S32.size (k0_off5_inb t 7)) (fun _ => rfl)).view.read (Elt F)
        (fiOf m d L fs) x).toNat < S100000x128.size gathers_S100000x128_S32x128.axis :=
      list_inb m d L hpre fs _ rfl _ _
    -- the trip's eight untouched chunks, and the eight list slices it gathers by, each in the loop's own spelling
    have eOf : (Ofut m d L t.val : sProp 𝕄) = iprop(oPc (F := F) d L (ck (8 * (t.val + 1) + 0)) (m (oLoc d)) ∗ oPc (F := F) d L (ck (8 * (t.val + 1) + 1)) (m (oLoc d)) ∗ oPc (F := F) d L (ck (8 * (t.val + 1) + 2)) (m (oLoc d)) ∗ oPc (F := F) d L (ck (8 * (t.val + 1) + 3)) (m (oLoc d)) ∗ oPc (F := F) d L (ck (8 * (t.val + 1) + 4)) (m (oLoc d)) ∗ oPc (F := F) d L (ck (8 * (t.val + 1) + 5)) (m (oLoc d)) ∗ oPc (F := F) d L (ck (8 * (t.val + 1) + 6)) (m (oLoc d)) ∗ oPc (F := F) d L (ck (8 * (t.val + 1) + 7)) (m (oLoc d)) ∗ Ofut m d L (t.val + 1)) := Ofut_take m d L t.val ht
    have eSh : (Sheld m d L fs t.val : sProp 𝕄) = iprop(sPc (F := F) d L (ck (8 * (t.val + 1) + 6 + 0)) (fiOf m d L fs) ∗ sPc (F := F) d L (ck (8 * (t.val + 1) + 6 + 1)) (fiOf m d L fs) ∗ sPc (F := F) d L (ck (8 * (t.val + 1) + 6 + 2)) (fiOf m d L fs) ∗ sPc (F := F) d L (ck (8 * (t.val + 1) + 6 + 3)) (fiOf m d L fs) ∗ sPc (F := F) d L (ck (8 * (t.val + 1) + 6 + 4)) (fiOf m d L fs) ∗ sPc (F := F) d L (ck (8 * (t.val + 1) + 6 + 5)) (fiOf m d L fs) ∗ sPc (F := F) d L (ck (8 * (t.val + 1) + 6 + 6)) (fiOf m d L fs) ∗ sPc (F := F) d L (ck (8 * (t.val + 1) + 6 + 7)) (fiOf m d L fs) ∗ Score m d L fs t.val) := Sheld_take m d L fs t.val ht
    have eSg : (Sheld m d L fs (t.val + 1) : sProp 𝕄) = iprop(sPc (F := F) d L (ck (8 * (t.val + 1) + 0)) (fiOf m d L fs) ∗ sPc (F := F) d L (ck (8 * (t.val + 1) + 1)) (fiOf m d L fs) ∗ sPc (F := F) d L (ck (8 * (t.val + 1) + 2)) (fiOf m d L fs) ∗ sPc (F := F) d L (ck (8 * (t.val + 1) + 3)) (fiOf m d L fs) ∗ sPc (F := F) d L (ck (8 * (t.val + 1) + 4)) (fiOf m d L fs) ∗ sPc (F := F) d L (ck (8 * (t.val + 1) + 5)) (fiOf m d L fs) ∗ sPc (F := F) d L (ck (8 * (t.val + 1) + 6)) (fiOf m d L fs) ∗ sPc (F := F) d L (ck (8 * (t.val + 1) + 7)) (fiOf m d L fs) ∗ Score m d L fs t.val) := Sheld_give m d L fs t.val ht
    ihave Hof' := (Entails.of_eq eOf) $$ Hof
    icases Hof' with ⟨Hq0, Hq1, Hq2, Hq3, Hq4, Hq5, Hq6, Hq7, Hof⟩
    ihave Hs'' := (Entails.of_eq eSh) $$ Hs'
    icases Hs'' with ⟨Hl0, Hl1, Hl2, Hl3, Hl4, Hl5, Hl6, Hl7, Hsc⟩
    ihave Hq0' := (Entails.of_eq (oPiece4 (F := F) d L t 0 0#32 rfl (k0_off4_inb L t 0) (ck (8 * (t.val + 1) + 0)) (ck_val (by omega)) (m (oLoc d)))) $$ Hq0
    ihave Hq1' := (Entails.of_eq (oPiece4 (F := F) d L t 1 1#32 rfl (k0_off4_inb L t 1) (ck (8 * (t.val + 1) + 1)) (ck_val (by omega)) (m (oLoc d)))) $$ Hq1
    ihave Hq2' := (Entails.of_eq (oPiece4 (F := F) d L t 2 2#32 rfl (k0_off4_inb L t 2) (ck (8 * (t.val + 1) + 2)) (ck_val (by omega)) (m (oLoc d)))) $$ Hq2
    ihave Hq3' := (Entails.of_eq (oPiece4 (F := F) d L t 3 3#32 rfl (k0_off4_inb L t 3) (ck (8 * (t.val + 1) + 3)) (ck_val (by omega)) (m (oLoc d)))) $$ Hq3
    ihave Hq4' := (Entails.of_eq (oPiece4 (F := F) d L t 4 4#32 rfl (k0_off4_inb L t 4) (ck (8 * (t.val + 1) + 4)) (ck_val (by omega)) (m (oLoc d)))) $$ Hq4
    ihave Hq5' := (Entails.of_eq (oPiece4 (F := F) d L t 5 5#32 rfl (k0_off4_inb L t 5) (ck (8 * (t.val + 1) + 5)) (ck_val (by omega)) (m (oLoc d)))) $$ Hq5
    ihave Hq6' := (Entails.of_eq (oPiece4 (F := F) d L t 6 6#32 rfl (k0_off4_inb L t 6) (ck (8 * (t.val + 1) + 6)) (ck_val (by omega)) (m (oLoc d)))) $$ Hq6
    ihave Hq7' := (Entails.of_eq (oPiece4 (F := F) d L t 7 7#32 rfl (k0_off4_inb L t 7) (ck (8 * (t.val + 1) + 7)) (ck_val (by omega)) (m (oLoc d)))) $$ Hq7
    ihave Hl0' := (Entails.of_eq (sPiece5 (F := F) d L t 0 0#32 rfl (k0_off5_inb t 0) (ck (8 * (t.val + 1) + 6 + 0)) (ck_val (by omega)) (fiOf m d L fs))) $$ Hl0
    ihave Hl1' := (Entails.of_eq (sPiece5 (F := F) d L t 1 1#32 rfl (k0_off5_inb t 1) (ck (8 * (t.val + 1) + 6 + 1)) (ck_val (by omega)) (fiOf m d L fs))) $$ Hl1
    ihave Hl2' := (Entails.of_eq (sPiece5 (F := F) d L t 2 2#32 rfl (k0_off5_inb t 2) (ck (8 * (t.val + 1) + 6 + 2)) (ck_val (by omega)) (fiOf m d L fs))) $$ Hl2
    ihave Hl3' := (Entails.of_eq (sPiece5 (F := F) d L t 3 3#32 rfl (k0_off5_inb t 3) (ck (8 * (t.val + 1) + 6 + 3)) (ck_val (by omega)) (fiOf m d L fs))) $$ Hl3
    ihave Hl4' := (Entails.of_eq (sPiece5 (F := F) d L t 4 4#32 rfl (k0_off5_inb t 4) (ck (8 * (t.val + 1) + 6 + 4)) (ck_val (by omega)) (fiOf m d L fs))) $$ Hl4
    ihave Hl5' := (Entails.of_eq (sPiece5 (F := F) d L t 5 5#32 rfl (k0_off5_inb t 5) (ck (8 * (t.val + 1) + 6 + 5)) (ck_val (by omega)) (fiOf m d L fs))) $$ Hl5
    ihave Hl6' := (Entails.of_eq (sPiece5 (F := F) d L t 6 6#32 rfl (k0_off5_inb t 6) (ck (8 * (t.val + 1) + 6 + 6)) (ck_val (by omega)) (fiOf m d L fs))) $$ Hl6
    ihave Hl7' := (Entails.of_eq (sPiece5 (F := F) d L t 7 7#32 rfl (k0_off5_inb t 7) (ck (8 * (t.val + 1) + 6 + 7)) (ck_val (by omega)) (fiOf m d L fs))) $$ Hl7
    -- the trip: eight times, wait for a gather, copy its rows out, wait for the copy out two chunks back, gather six chunks ahead
    sl_exec
    sl_step
    -- the invariant after the trip
    isplitl [Hmw]; · iexact Hmw
    -- the six gathers in flight: buffer b holds chunk 8 (t + 2) + b, its list the trip's slice b + 2, its share the one buffer (b + 2) % 6 held
    isplitl [Hm0]
    · iapply (Gfl_of_off_u m d L fs (t.val + 1) 0 _ 0 inb_S8x32x128_S1x32x128_0_0_0 (Transfers.shareTok (tq (wk L)) 8 (tokc (t.val + 1) 0)) (Transfers.shareTok (tq (wk L)) 8 (tokc t.val 2))
        (tokShare_step L t.val 0 2 (by omega)) (k0_off5 t 2#32) (off5_ck t 2 (by decide) 2#32 rfl (8 * (t.val + 1 + 1) + 0) (by omega)) (k0_off5_inb t 2) _ _)
      isplitr; swap
      · iexact Hm0
      · ipureintro
        exact gather_PayOf m d L fs (ck (8 * (t.val + 1 + 1) + 0)) (k0_off5 t 2#32) (k0_off5_inb t 2)
          (congrFun (off5_ck t 2 (by decide) 2#32 rfl (8 * (t.val + 1 + 1) + 0) (by omega)) 0) _ hq2
    isplitl [Hm1]
    · iapply (Gfl_of_off_u m d L fs (t.val + 1) 1 _ 1 inb_S8x32x128_S1x32x128_1_0_0 (Transfers.shareTok (tq (wk L)) 8 (tokc (t.val + 1) 1)) (Transfers.shareTok (tq (wk L)) 8 (tokc t.val 3))
        (tokShare_step L t.val 1 3 (by omega)) (k0_off5 t 3#32) (off5_ck t 3 (by decide) 3#32 rfl (8 * (t.val + 1 + 1) + 1) (by omega)) (k0_off5_inb t 3) _ _)
      isplitr; swap
      · iexact Hm1
      · ipureintro
        exact gather_PayOf m d L fs (ck (8 * (t.val + 1 + 1) + 1)) (k0_off5 t 3#32) (k0_off5_inb t 3)
          (congrFun (off5_ck t 3 (by decide) 3#32 rfl (8 * (t.val + 1 + 1) + 1) (by omega)) 0) _ hq3
    isplitl [Hm2]
    · iapply (Gfl_of_off_u m d L fs (t.val + 1) 2 _ 2 inb_S8x32x128_S1x32x128_2_0_0 (Transfers.shareTok (tq (wk L)) 8 (tokc (t.val + 1) 2)) (Transfers.shareTok (tq (wk L)) 8 (tokc t.val 4))
        (tokShare_step L t.val 2 4 (by omega)) (k0_off5 t 4#32) (off5_ck t 4 (by decide) 4#32 rfl (8 * (t.val + 1 + 1) + 2) (by omega)) (k0_off5_inb t 4) _ _)
      isplitr; swap
      · iexact Hm2
      · ipureintro
        exact gather_PayOf m d L fs (ck (8 * (t.val + 1 + 1) + 2)) (k0_off5 t 4#32) (k0_off5_inb t 4)
          (congrFun (off5_ck t 4 (by decide) 4#32 rfl (8 * (t.val + 1 + 1) + 2) (by omega)) 0) _ hq4
    isplitl [Hm3]
    · iapply (Gfl_of_off_u m d L fs (t.val + 1) 3 _ 3 inb_S8x32x128_S1x32x128_3_0_0 (Transfers.shareTok (tq (wk L)) 8 (tokc (t.val + 1) 3)) (Transfers.shareTok (tq (wk L)) 8 (tokc t.val 5))
        (tokShare_step L t.val 3 5 (by omega)) (k0_off5 t 5#32) (off5_ck t 5 (by decide) 5#32 rfl (8 * (t.val + 1 + 1) + 3) (by omega)) (k0_off5_inb t 5) _ _)
      isplitr; swap
      · iexact Hm3
      · ipureintro
        exact gather_PayOf m d L fs (ck (8 * (t.val + 1 + 1) + 3)) (k0_off5 t 5#32) (k0_off5_inb t 5)
          (congrFun (off5_ck t 5 (by decide) 5#32 rfl (8 * (t.val + 1 + 1) + 3) (by omega)) 0) _ hq5
    isplitl [Hm4]
    · iapply (Gfl_of_off_u m d L fs (t.val + 1) 4 _ 4 inb_S8x32x128_S1x32x128_4_0_0 (Transfers.shareTok (tq (wk L)) 8 (tokc (t.val + 1) 4)) (Transfers.shareTok (tq (wk L)) 8 (tokc t.val 0))
        (tokShare_step L t.val 4 0 (by omega)) (k0_off5 t 6#32) (off5_ck t 6 (by decide) 6#32 rfl (8 * (t.val + 1 + 1) + 4) (by omega)) (k0_off5_inb t 6) _ _)
      isplitr; swap
      · iexact Hm4
      · ipureintro
        exact gather_PayOf m d L fs (ck (8 * (t.val + 1 + 1) + 4)) (k0_off5 t 6#32) (k0_off5_inb t 6)
          (congrFun (off5_ck t 6 (by decide) 6#32 rfl (8 * (t.val + 1 + 1) + 4) (by omega)) 0) _ hq6
    isplitl [Hm5]
    · iapply (Gfl_of_off_u m d L fs (t.val + 1) 5 _ 5 inb_S8x32x128_S1x32x128_5_0_0 (Transfers.shareTok (tq (wk L)) 8 (tokc (t.val + 1) 5)) (Transfers.shareTok (tq (wk L)) 8 (tokc t.val 1))
        (tokShare_step L t.val 5 1 (by omega)) (k0_off5 t 7#32) (off5_ck t 7 (by decide) 7#32 rfl (8 * (t.val + 1 + 1) + 5) (by omega)) (k0_off5_inb t 7) _ _)
      isplitr; swap
      · iexact Hm5
      · ipureintro
        exact gather_PayOf m d L fs (ck (8 * (t.val + 1 + 1) + 5)) (k0_off5 t 7#32) (k0_off5_inb t 7)
          (congrFun (off5_ck t 7 (by decide) 7#32 rfl (8 * (t.val + 1 + 1) + 5) (by omega)) 0) _ hq7
    -- the shares' empty remainders, moved round likewise
    isplitl [Ht2']
    · iapply (Entails.of_eq (tokRest_step m d L t.val 0 2 (by omega)))
      iexact Ht2'
    isplitl [Ht3']
    · iapply (Entails.of_eq (tokRest_step m d L t.val 1 3 (by omega)))
      iexact Ht3'
    isplitl [Ht4']
    · iapply (Entails.of_eq (tokRest_step m d L t.val 2 4 (by omega)))
      iexact Ht4'
    isplitl [Ht5']
    · iapply (Entails.of_eq (tokRest_step m d L t.val 3 5 (by omega)))
      iexact Ht5'
    isplitl [Ht0']
    · iapply (Entails.of_eq (tokRest_step m d L t.val 4 0 (by omega)))
      iexact Ht0'
    isplitl [Ht1']
    · iapply (Entails.of_eq (tokRest_step m d L t.val 5 1 (by omega)))
      iexact Ht1'
    isplitl [Ht6']; · iexact Ht6'
    isplitl [Ht7']; · iexact Ht7'
    -- the two copies out in flight: chunks 8 (t + 1) + 6 and + 7, from buffers 6 and 7, gathered by the trip's slices 0 and 1
    isplitl [Hm14]
    · iapply (Ofl_of_off_u m d L (k0_off4 L t 6#32) (ck (8 * (t.val + 1 + 1) - 2)) (off4_ck L t 6 (by decide) 6#32 rfl (8 * (t.val + 1 + 1) - 2) (by omega)) (k0_off4_inb L t 6) 14 _ 6 inb_S8x32x128_S1x32x128_6_0_0 _ _ _)
      isplitr; swap
      · iexact Hm14
      · ipureintro
        exact fun x => (congrFun (read_writes_whole _ _ _) x).trans
          (gather_PayOf m d L fs (ck (8 * (t.val + 1 + 1) - 2)) (k0_off5 t 0#32) (k0_off5_inb t 0)
            (congrFun (off5_ck t 0 (by decide) 0#32 rfl (8 * (t.val + 1 + 1) - 2) (by omega)) 0) _ hq0 x)
    isplitl [Hm15]
    · iapply (Ofl_of_off_u m d L (k0_off4 L t 7#32) (ck (8 * (t.val + 1 + 1) - 1)) (off4_ck L t 7 (by decide) 7#32 rfl (8 * (t.val + 1 + 1) - 1) (by omega)) (k0_off4_inb L t 7) 15 _ 7 inb_S8x32x128_S1x32x128_7_0_0 _ _ _)
      isplitr; swap
      · iexact Hm15
      · ipureintro
        exact fun x => (congrFun (read_writes_whole _ _ _) x).trans
          (gather_PayOf m d L fs (ck (8 * (t.val + 1 + 1) - 1)) (k0_off5 t 1#32) (k0_off5_inb t 1)
            (congrFun (off5_ck t 1 (by decide) 1#32 rfl (8 * (t.val + 1 + 1) - 1) (by omega)) 0) _ hq1 x)
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm16]; · iexact Hm16
    -- the list slices held: the six whose gathers were waited for, the two gathered by and waited for within the trip, the core
    isplitl [Hm0_dst_and Hm1_dst_and Hm2_dst_and Hm3_dst_and Hm4_dst_and Hm5_dst_and Hl0' Hl1' Hsc]
    · iapply (Entails.of_eq eSg.symm)
      isplitl [Hm0_dst_and]; · iexact Hm0_dst_and
      isplitl [Hm1_dst_and]; · iexact Hm1_dst_and
      isplitl [Hm2_dst_and]; · iexact Hm2_dst_and
      isplitl [Hm3_dst_and]; · iexact Hm3_dst_and
      isplitl [Hm4_dst_and]; · iexact Hm4_dst_and
      isplitl [Hm5_dst_and]; · iexact Hm5_dst_and
      isplitl [Hl0']
      · iapply (Entails.of_eq (sPc_off d L (k0_off5 t 0#32) (ck (8 * (t.val + 1) + 6)) (off5_ck t 0 (by decide) 0#32 rfl (8 * (t.val + 1) + 6) (by omega)) (k0_off5_inb t 0) (fiOf m d L fs)))
        iexact Hl0'
      isplitl [Hl1']
      · iapply (Entails.of_eq (sPc_off d L (k0_off5 t 1#32) (ck (8 * (t.val + 1) + 7)) (off5_ck t 1 (by decide) 1#32 rfl (8 * (t.val + 1) + 7) (by omega)) (k0_off5_inb t 1) (fiOf m d L fs)))
        iexact Hl1'
      iexact Hsc
    -- the chunks written: the two whose copies out were in flight, the six copied out and waited for, those before
    isplitl [Hm14_dst Hm15_dst Hq0' Hq1' Hq2' Hq3' Hq4' Hq5' Hod]
    · iapply (Entails.of_eq (Odone_give' m d L t.val ht).symm)
      isplitl [Hm14_dst]
      · iapply (Entails.of_eq (oPc_value m d L (ck (8 * (t.val + 1) - 2)) fo6 pay6 hp6))
        iexact Hm14_dst
      isplitl [Hm15_dst]
      · iapply (Entails.of_eq (oPc_value m d L (ck (8 * (t.val + 1) - 1)) fo7 pay7 hp7))
        iexact Hm15_dst
      isplitl [Hq0']
      · iapply (oDone_off' m d L (k0_off4 L t 0#32) (ck (8 * (t.val + 1) + 0)) (off4_ck L t 0 (by decide) 0#32 rfl (8 * (t.val + 1) + 0) (by omega)) (k0_off4_inb L t 0) _ _)
        isplitr; swap
        · iexact Hq0'
        · ipureintro
          exact fun x => (congrFun hr0 x).trans (hp0 x)
      isplitl [Hq1']
      · iapply (oDone_off' m d L (k0_off4 L t 1#32) (ck (8 * (t.val + 1) + 1)) (off4_ck L t 1 (by decide) 1#32 rfl (8 * (t.val + 1) + 1) (by omega)) (k0_off4_inb L t 1) _ _)
        isplitr; swap
        · iexact Hq1'
        · ipureintro
          exact fun x => (congrFun hr1 x).trans (hp1 x)
      isplitl [Hq2']
      · iapply (oDone_off' m d L (k0_off4 L t 2#32) (ck (8 * (t.val + 1) + 2)) (off4_ck L t 2 (by decide) 2#32 rfl (8 * (t.val + 1) + 2) (by omega)) (k0_off4_inb L t 2) _ _)
        isplitr; swap
        · iexact Hq2'
        · ipureintro
          exact fun x => (congrFun hr2 x).trans (hp2 x)
      isplitl [Hq3']
      · iapply (oDone_off' m d L (k0_off4 L t 3#32) (ck (8 * (t.val + 1) + 3)) (off4_ck L t 3 (by decide) 3#32 rfl (8 * (t.val + 1) + 3) (by omega)) (k0_off4_inb L t 3) _ _)
        isplitr; swap
        · iexact Hq3'
        · ipureintro
          exact fun x => (congrFun hr3 x).trans (hp3 x)
      isplitl [Hq4']
      · iapply (oDone_off' m d L (k0_off4 L t 4#32) (ck (8 * (t.val + 1) + 4)) (off4_ck L t 4 (by decide) 4#32 rfl (8 * (t.val + 1) + 4) (by omega)) (k0_off4_inb L t 4) _ _)
        isplitr; swap
        · iexact Hq4'
        · ipureintro
          exact fun x => (congrFun hr4 x).trans (hp4 x)
      isplitl [Hq5']
      · iapply (oDone_off' m d L (k0_off4 L t 5#32) (ck (8 * (t.val + 1) + 5)) (off4_ck L t 5 (by decide) 5#32 rfl (8 * (t.val + 1) + 5) (by omega)) (k0_off4_inb L t 5) _ _)
        isplitr; swap
        · iexact Hq5'
        · ipureintro
          exact fun x => (congrFun hr5 x).trans (hp5 x)
      iexact Hod
    isplitl [Hof]; · iexact Hof
    iexists _; isplitr
    swap; · iexact HO
    ipureintro
    repeat' apply waits_insert
    exact hW'
  · -- the state at the loop's head is the invariant before trip 0
    -- the values in flight and written
    have hg0 : PayOf m d L (ck (8 * (0 + 1) + 0)) (tile_body.sl.gather5_1 m d L fs hin8) :=
      gather_PayOf m d L fs _ ![256] inb_S13312_S32_256 rfl _ hin8
    have hg1 : PayOf m d L (ck (8 * (0 + 1) + 1)) (tile_body.sl.gather7 m d L fs hin9) :=
      gather_PayOf m d L fs _ ![288] inb_S13312_S32_288 rfl _ hin9
    have hg2 : PayOf m d L (ck (8 * (0 + 1) + 2)) (tile_body.sl.gather9 m d L fs hin10) :=
      gather_PayOf m d L fs _ ![320] inb_S13312_S32_320 rfl _ hin10
    have hg3 : PayOf m d L (ck (8 * (0 + 1) + 3)) (tile_body.sl.gather11 m d L fs hin11) :=
      gather_PayOf m d L fs _ ![352] inb_S13312_S32_352 rfl _ hin11
    have hg4 : PayOf m d L (ck (8 * (0 + 1) + 4)) (tile_body.sl.gather13 m d L fs hin12) :=
      gather_PayOf m d L fs _ ![384] inb_S13312_S32_384 rfl _ hin12
    have hg5 : PayOf m d L (ck (8 * (0 + 1) + 5)) (tile_body.sl.gather15 m d L fs hin13) :=
      gather_PayOf m d L fs _ ![416] inb_S13312_S32_416 rfl _ hin13
    have hq0 : PayOf m d L (ck 0) (tile_body.sl.dma0_1 m d L fs fr hin0 hin1 hin2 hin3 hin4 hin5) := fun x =>
      (congrFun (slot_read_after5 0 1 2 3 4 5 inb_S8x32x128_S1x32x128_0_0_0 inb_S8x32x128_S1x32x128_1_0_0 inb_S8x32x128_S1x32x128_2_0_0 inb_S8x32x128_S1x32x128_3_0_0 inb_S8x32x128_S1x32x128_4_0_0 inb_S8x32x128_S1x32x128_5_0_0
        (by decide) (by decide) (by decide) (by decide) (by decide) _ _ _ _ _ _ _) x).trans
        (gather_PayOf m d L fs (ck 0) ![0] inb_S13312_S32_0 rfl _ hin0 x)
    have hq1 : PayOf m d L (ck 1) (tile_body.sl.dma0_2 m d L fs fr hin0 hin1 hin2 hin3 hin4 hin5 hin6) := fun x =>
      (congrFun (slot_read_after5 1 2 3 4 5 6 inb_S8x32x128_S1x32x128_1_0_0 inb_S8x32x128_S1x32x128_2_0_0 inb_S8x32x128_S1x32x128_3_0_0 inb_S8x32x128_S1x32x128_4_0_0 inb_S8x32x128_S1x32x128_5_0_0 inb_S8x32x128_S1x32x128_6_0_0
        (by decide) (by decide) (by decide) (by decide) (by decide) _ _ _ _ _ _ _) x).trans
        (gather_PayOf m d L fs (ck 1) ![32] inb_S13312_S32_32 rfl _ hin1 x)
    have hq2 : PayOf m d L (ck 2) (tile_body.sl.dma0_3 m d L fs fr hin0 hin1 hin2 hin3 hin4 hin5 hin6 hin7) := fun x =>
      (congrFun (slot_read_after5 2 3 4 5 6 7 inb_S8x32x128_S1x32x128_2_0_0 inb_S8x32x128_S1x32x128_3_0_0 inb_S8x32x128_S1x32x128_4_0_0 inb_S8x32x128_S1x32x128_5_0_0 inb_S8x32x128_S1x32x128_6_0_0 inb_S8x32x128_S1x32x128_7_0_0
        (by decide) (by decide) (by decide) (by decide) (by decide) _ _ _ _ _ _ _) x).trans
        (gather_PayOf m d L fs (ck 2) ![64] inb_S13312_S32_64 rfl _ hin2 x)
    have hq3 : PayOf m d L (ck 3) (tile_body.sl.dma0_4 m d L fs fr hin0 hin1 hin2 hin3 hin4 hin5 hin6 hin7 hin8) := fun x =>
      (congrFun (slot_read_after5 3 4 5 6 7 0 inb_S8x32x128_S1x32x128_3_0_0 inb_S8x32x128_S1x32x128_4_0_0 inb_S8x32x128_S1x32x128_5_0_0 inb_S8x32x128_S1x32x128_6_0_0 inb_S8x32x128_S1x32x128_7_0_0 inb_S8x32x128_S1x32x128_0_0_0
        (by decide) (by decide) (by decide) (by decide) (by decide) _ _ _ _ _ _ _) x).trans
        (gather_PayOf m d L fs (ck 3) ![96] inb_S13312_S32_96 rfl _ hin3 x)
    have hq4 : PayOf m d L (ck 4) (tile_body.sl.dma0_5 m d L fs fr hin0 hin1 hin2 hin3 hin4 hin5 hin6 hin7 hin8 hin9) := fun x =>
      (congrFun (slot_read_after5 4 5 6 7 0 1 inb_S8x32x128_S1x32x128_4_0_0 inb_S8x32x128_S1x32x128_5_0_0 inb_S8x32x128_S1x32x128_6_0_0 inb_S8x32x128_S1x32x128_7_0_0 inb_S8x32x128_S1x32x128_0_0_0 inb_S8x32x128_S1x32x128_1_0_0
        (by decide) (by decide) (by decide) (by decide) (by decide) _ _ _ _ _ _ _) x).trans
        (gather_PayOf m d L fs (ck 4) ![128] inb_S13312_S32_128 rfl _ hin4 x)
    have hq5 : PayOf m d L (ck 5) (tile_body.sl.dma0_6 m d L fs fr hin0 hin1 hin2 hin3 hin4 hin5 hin6 hin7 hin8 hin9 hin10) := fun x =>
      (congrFun (slot_read_after5 5 6 7 0 1 2 inb_S8x32x128_S1x32x128_5_0_0 inb_S8x32x128_S1x32x128_6_0_0 inb_S8x32x128_S1x32x128_7_0_0 inb_S8x32x128_S1x32x128_0_0_0 inb_S8x32x128_S1x32x128_1_0_0 inb_S8x32x128_S1x32x128_2_0_0
        (by decide) (by decide) (by decide) (by decide) (by decide) _ _ _ _ _ _ _) x).trans
        (gather_PayOf m d L fs (ck 5) ![160] inb_S13312_S32_160 rfl _ hin5 x)
    have hq6 : PayOf m d L (ck 6) (tile_body.sl.dma0_7 m d L fs fr hin0 hin1 hin2 hin3 hin4 hin5 hin6 hin7 hin8 hin9 hin10 hin11) := fun x =>
      (congrFun (slot_read_after5 6 7 0 1 2 3 inb_S8x32x128_S1x32x128_6_0_0 inb_S8x32x128_S1x32x128_7_0_0 inb_S8x32x128_S1x32x128_0_0_0 inb_S8x32x128_S1x32x128_1_0_0 inb_S8x32x128_S1x32x128_2_0_0 inb_S8x32x128_S1x32x128_3_0_0
        (by decide) (by decide) (by decide) (by decide) (by decide) _ _ _ _ _ _ _) x).trans
        (gather_PayOf m d L fs (ck 6) ![192] inb_S13312_S32_192 rfl _ hin6 x)
    have hq7 : PayOf m d L (ck 7) (tile_body.sl.dma0_8 m d L fs fr hin0 hin1 hin2 hin3 hin4 hin5 hin6 hin7 hin8 hin9 hin10 hin11 hin12) := fun x =>
      (congrFun (slot_read_after5 7 0 1 2 3 4 inb_S8x32x128_S1x32x128_7_0_0 inb_S8x32x128_S1x32x128_0_0_0 inb_S8x32x128_S1x32x128_1_0_0 inb_S8x32x128_S1x32x128_2_0_0 inb_S8x32x128_S1x32x128_3_0_0 inb_S8x32x128_S1x32x128_4_0_0
        (by decide) (by decide) (by decide) (by decide) (by decide) _ _ _ _ _ _ _) x).trans
        (gather_PayOf m d L fs (ck 7) ![224] inb_S13312_S32_224 rfl _ hin7 x)
    delta inv
    isplitr
    · iexact Hmw
    isplitl [Hm0]
    · iapply (Gfl_of_write m d L fs 0 0 _ 0 inb_S8x32x128_S1x32x128_0_0_0 (Transfers.shareTok (tq (wk L)) 8 0) _ _ hg0)
      iexact Hm0
    isplitl [Hm1]
    · iapply (Gfl_of_write m d L fs 0 1 _ 1 inb_S8x32x128_S1x32x128_1_0_0 (Transfers.shareTok (tq (wk L)) 8 1) _ _ hg1)
      iexact Hm1
    isplitl [Hm2]
    · iapply (Gfl_of_write m d L fs 0 2 _ 2 inb_S8x32x128_S1x32x128_2_0_0 (Transfers.shareTok (tq (wk L)) 8 2) _ _ hg2)
      iexact Hm2
    isplitl [Hm3]
    · iapply (Gfl_of_write m d L fs 0 3 _ 3 inb_S8x32x128_S1x32x128_3_0_0 (Transfers.shareTok (tq (wk L)) 8 3) _ _ hg3)
      iexact Hm3
    isplitl [Hm4]
    · iapply (Gfl_of_write m d L fs 0 4 _ 4 inb_S8x32x128_S1x32x128_4_0_0 (Transfers.shareTok (tq (wk L)) 8 4) _ _ hg4)
      iexact Hm4
    isplitl [Hm5]
    · iapply (Gfl_of_write m d L fs 0 5 _ 5 inb_S8x32x128_S1x32x128_5_0_0 (Transfers.shareTok (tq (wk L)) 8 5) _ _ hg5)
      iexact Hm5
    isplitl [Ht0']
    · iexact Ht0'
    isplitl [Ht1']
    · iexact Ht1'
    isplitl [Ht2']
    · iexact Ht2'
    isplitl [Ht3']
    · iexact Ht3'
    isplitl [Ht4']
    · iexact Ht4'
    isplitl [Ht5']
    · iexact Ht5'
    isplitl [Ht6']
    · iexact Ht6'
    isplitl [Ht7']
    · iexact Ht7'
    isplitl [Hm14]
    · iapply (Ofl_of_off m d L _ (ck (8 * (0 + 1) - 2)) (off2_eq L 6) _ 14 _ 6 inb_S8x32x128_S1x32x128_6_0_0 _ _ _ hq6)
      iexact Hm14
    isplitl [Hm15]
    · iapply (Ofl_of_off m d L _ (ck (8 * (0 + 1) - 1)) (off2_eq L 7) _ 15 _ 7 inb_S8x32x128_S1x32x128_7_0_0 _ _ _ hq7)
      iexact Hm15
    isplitl [Hm6]
    · iexact Hm6
    isplitl [Hm7]
    · iexact Hm7
    isplitl [Hm8]
    · iexact Hm8
    isplitl [Hm9]
    · iexact Hm9
    isplitl [Hm10]
    · iexact Hm10
    isplitl [Hm11]
    · iexact Hm11
    isplitl [Hm12]
    · iexact Hm12
    isplitl [Hm13]
    · iexact Hm13
    isplitl [Hm16]
    · iexact Hm16
    isplitl [Hs']
    · iapply (Entails.of_eq (Sheld_head d L fs m _ _ _ _ _ _))
      iexact Hs'
    isplitl [Ho0' Ho1' Ho2' Ho3' Ho4' Ho5']
    · iapply (Entails.of_eq (Odone_head m d L).symm)
      isplitl [Ho0']
      · iapply (Entails.of_eq (oDone_off m d L _ (ck 0) (off2_eq L 0) _ _ _ hq0))
        iexact Ho0'
      isplitl [Ho1']
      · iapply (Entails.of_eq (oDone_off m d L _ (ck 1) (off2_eq L 1) _ _ _ hq1))
        iexact Ho1'
      isplitl [Ho2']
      · iapply (Entails.of_eq (oDone_off m d L _ (ck 2) (off2_eq L 2) _ _ _ hq2))
        iexact Ho2'
      isplitl [Ho3']
      · iapply (Entails.of_eq (oDone_off m d L _ (ck 3) (off2_eq L 3) _ _ _ hq3))
        iexact Ho3'
      isplitl [Ho4']
      · iapply (Entails.of_eq (oDone_off m d L _ (ck 4) (off2_eq L 4) _ _ _ hq4))
        iexact Ho4'
      iapply (Entails.of_eq (oDone_off m d L _ (ck 5) (off2_eq L 5) _ _ _ hq5))
      iexact Ho5'
    isplitl [Horest]
    · iapply (Entails.of_eq (Ofut_head m d L))
      iexact Horest
    iexists _
    isplitr
    rotate_left
    · iexact HO
    · ipureintro
      repeat' apply waits_insert
      exact fun p hp => Or.inl hp
  -- after the last trip: the eight closing steps, the eight final waits, and everything handed back
  iintro %_ HI
  have h50 : Scf.trips k0_t1_loop.lb k0_t1_loop.ub k0_t1_loop.st = 50 := trips_eq
  ihave HI' := (Entails.of_eq ((congrArg (fun t => inv m d L fs O W t _) h50).trans (inv_eq m d L fs O W 50 _))) $$ HI
  icases HI' with ⟨-, G0, G1, G2, G3, G4, G5, Hk0, Hk1, Hk2, Hk3, Hk4, Hk5, Ht6', Ht7', F14, F15, Hm6, Hm7, Hm8, Hm9, Hm10, Hm11, Hm12, Hm13, Hm16, Hsh, Hdone, Hfut, %W1, %hW1, HO⟩
  ihave G0' := (Entails.of_eq (Gfl_eq m d L fs 50 0 _ 0 _ _)) $$ G0
  icases G0' with ⟨%fc0, %pay0, %hp0, %hr0, Fl0⟩
  ihave G1' := (Entails.of_eq (Gfl_eq m d L fs 50 1 _ 1 _ _)) $$ G1
  icases G1' with ⟨%fc1, %pay1, %hp1, %hr1, Fl1⟩
  ihave G2' := (Entails.of_eq (Gfl_eq m d L fs 50 2 _ 2 _ _)) $$ G2
  icases G2' with ⟨%fc2, %pay2, %hp2, %hr2, Fl2⟩
  ihave G3' := (Entails.of_eq (Gfl_eq m d L fs 50 3 _ 3 _ _)) $$ G3
  icases G3' with ⟨%fc3, %pay3, %hp3, %hr3, Fl3⟩
  ihave G4' := (Entails.of_eq (Gfl_eq m d L fs 50 4 _ 4 _ _)) $$ G4
  icases G4' with ⟨%fc4, %pay4, %hp4, %hr4, Fl4⟩
  ihave G5' := (Entails.of_eq (Gfl_eq m d L fs 50 5 _ 5 _ _)) $$ G5
  icases G5' with ⟨%fc5, %pay5, %hp5, %hr5, Fl5⟩
  ihave F14' := (Entails.of_eq (Ofl_eq m d L _ 14 _ 6 _)) $$ F14
  icases F14' with ⟨%fo14, %fb14, %pay14, %hp14, Fl14⟩
  ihave F15' := (Entails.of_eq (Ofl_eq m d L _ 15 _ 7 _)) $$ F15
  icases F15' with ⟨%fo15, %fb15, %pay15, %hp15, Fl15⟩
  -- the last eight chunks of the output, in the straight-line code's spelling
  ihave Hfut' := (Entails.of_eq (Ofut50 m d L)) $$ Hfut
  icases Hfut' with ⟨Ho8, Ho9, Ho10, Ho11, Ho12, Ho13, Ho14, Ho15, -⟩
  ihave Ho8' := (Entails.of_eq (oPiece2 (F := F) d L 8 408 rfl (m (oLoc d)))) $$ Ho8
  ihave Ho9' := (Entails.of_eq (oPiece2 (F := F) d L 9 409 rfl (m (oLoc d)))) $$ Ho9
  ihave Ho10' := (Entails.of_eq (oPiece2 (F := F) d L 10 410 rfl (m (oLoc d)))) $$ Ho10
  ihave Ho11' := (Entails.of_eq (oPiece2 (F := F) d L 11 411 rfl (m (oLoc d)))) $$ Ho11
  ihave Ho12' := (Entails.of_eq (oPiece2 (F := F) d L 12 412 rfl (m (oLoc d)))) $$ Ho12
  ihave Ho13' := (Entails.of_eq (oPiece2 (F := F) d L 13 413 rfl (m (oLoc d)))) $$ Ho13
  ihave Ho14' := (Entails.of_eq (oPiece2 (F := F) d L 14 414 rfl (m (oLoc d)))) $$ Ho14
  ihave Ho15' := (Entails.of_eq (oPiece2 (F := F) d L 15 415 rfl (m (oLoc d)))) $$ Ho15
  -- the list slices of chunks 414 and 415, at their literal offsets
  ihave Hsh' := (Entails.of_eq (Sheld50 m d L fs)) $$ Hsh
  icases Hsh' with ⟨Hl14, Hl15, Hshr⟩
  ihave Hl14' := (Entails.of_eq (lstPiece_off (F := F) d L (32 * (414 : Fin 416).val) 13248 rfl _ inb_S13312_S32_13248 (fiOf m d L fs))) $$ Hl14
  ihave Hl15' := (Entails.of_eq (lstPiece_off (F := F) d L (32 * (415 : Fin 416).val) 13280 rfl _ inb_S13312_S32_13280 (fiOf m d L fs))) $$ Hl15
  have hin14' : ∀ x, ((sV.slice (Rect.unit (s := S13312) ![13248] S32.size inb_S13312_S32_13248) (fun _ => rfl)).view.read (Elt F)
      (fiOf m d L fs) x).toNat < S100000x128.size gathers_S100000x128_S32x128.axis :=
    list_inb m d L hpre fs _ rfl _ _
  have hin15' : ∀ x, ((sV.slice (Rect.unit (s := S13312) ![13280] S32.size inb_S13312_S32_13280) (fun _ => rfl)).view.read (Elt F)
      (fiOf m d L fs) x).toNat < S100000x128.size gathers_S100000x128_S32x128.axis :=
    list_inb m d L hpre fs _ rfl _ _
  sl_exec
  sl_step
  -- the ten last chunks hold the output function
  ihave C6 := (Entails.of_eq ((chunk_written m d L _ fo14 pay14 hp14).trans
    (congrArg (fun c : Fin 416 => (oLoc d ↦[(oCh L c).view.set]{fullShare} out0 m d : sProp 𝕄)) (show ck (8 * (50 + 1) - 2) = 406 from rfl)))) $$ Fl14_dst
  ihave C7 := (Entails.of_eq ((chunk_written m d L _ fo15 pay15 hp15).trans
    (congrArg (fun c : Fin 416 => (oLoc d ↦[(oCh L c).view.set]{fullShare} out0 m d : sProp 𝕄)) (show ck (8 * (50 + 1) - 1) = 407 from rfl)))) $$ Fl15_dst
  ihave C8 := (chunk_done2 m d L 8 408 rfl (m (oLoc d)) _) $$ [Ho8']
  · isplitl [Ho8']; · iexact Ho8'
    ipureintro; exact payOf_read m d L 408 (slotAt 0 inb_S8x32x128_S1x32x128_0_0_0).view fc0 pay0 hr0 hp0
  ihave C9 := (chunk_done2 m d L 9 409 rfl (m (oLoc d)) _) $$ [Ho9']
  · isplitl [Ho9']; · iexact Ho9'
    ipureintro; exact payOf_read m d L 409 (slotAt 1 inb_S8x32x128_S1x32x128_1_0_0).view fc1 pay1 hr1 hp1
  ihave C10 := (chunk_done2 m d L 10 410 rfl (m (oLoc d)) _) $$ [Ho10']
  · isplitl [Ho10']; · iexact Ho10'
    ipureintro; exact payOf_read m d L 410 (slotAt 2 inb_S8x32x128_S1x32x128_2_0_0).view fc2 pay2 hr2 hp2
  ihave C11 := (chunk_done2 m d L 11 411 rfl (m (oLoc d)) _) $$ [Ho11']
  · isplitl [Ho11']; · iexact Ho11'
    ipureintro; exact payOf_read m d L 411 (slotAt 3 inb_S8x32x128_S1x32x128_3_0_0).view fc3 pay3 hr3 hp3
  ihave C12 := (chunk_done2 m d L 12 412 rfl (m (oLoc d)) _) $$ [Ho12']
  · isplitl [Ho12']; · iexact Ho12'
    ipureintro; exact payOf_read m d L 412 (slotAt 4 inb_S8x32x128_S1x32x128_4_0_0).view fc4 pay4 hr4 hp4
  ihave C13 := (chunk_done2 m d L 13 413 rfl (m (oLoc d)) _) $$ [Ho13']
  · isplitl [Ho13']; · iexact Ho13'
    ipureintro; exact payOf_read m d L 413 (slotAt 5 inb_S8x32x128_S1x32x128_5_0_0).view fc5 pay5 hr5 hp5
  ihave C14 := (chunk_done2 m d L 14 414 rfl (m (oLoc d)) _) $$ [Ho14']
  · isplitl [Ho14']; · iexact Ho14'
    ipureintro
    exact payOf_slot_writes m d L 414 (slotAt 6 inb_S8x32x128_S1x32x128_6_0_0).view fb14 _
      (payOf_gather m d L fs 414 ![13248] rfl inb_S13312_S32_13248 _ hin14')
  ihave C15 := (chunk_done2 m d L 15 415 rfl (m (oLoc d)) _) $$ [Ho15']
  · isplitl [Ho15']; · iexact Ho15'
    ipureintro
    exact payOf_slot_writes m d L 415 (slotAt 7 inb_S8x32x128_S1x32x128_7_0_0).view fb15 _
      (payOf_gather m d L fs 415 ![13280] rfl inb_S13312_S32_13280 _ hin15')
  -- the index scratch whole again: the eight last list slices and the pieces held through the last trip
  ihave P14 := (Entails.of_eq (lstPiece_off (F := F) d L (32 * (414 : Fin 416).val) 13248 rfl (lstK_inb 414) inb_S13312_S32_13248 (fiOf m d L fs)).symm) $$ Hl14'
  ihave P15 := (Entails.of_eq (lstPiece_off (F := F) d L (32 * (415 : Fin 416).val) 13280 rfl (lstK_inb 415) inb_S13312_S32_13280 (fiOf m d L fs)).symm) $$ Hl15'
  ihave P8 := (Entails.of_eq (lstC50 (F := F) d L 0 408 rfl (fiOf m d L fs))) $$ Fl0_dst_and
  ihave P9 := (Entails.of_eq (lstC50 (F := F) d L 1 409 rfl (fiOf m d L fs))) $$ Fl1_dst_and
  ihave P10 := (Entails.of_eq (lstC50 (F := F) d L 2 410 rfl (fiOf m d L fs))) $$ Fl2_dst_and
  ihave P11 := (Entails.of_eq (lstC50 (F := F) d L 3 411 rfl (fiOf m d L fs))) $$ Fl3_dst_and
  ihave P12 := (Entails.of_eq (lstC50 (F := F) d L 4 412 rfl (fiOf m d L fs))) $$ Fl4_dst_and
  ihave P13 := (Entails.of_eq (lstC50 (F := F) d L 5 413 rfl (fiOf m d L fs))) $$ Fl5_dst_and
  ihave Hs0 := (Entails.of_eq (sAll50 (F := F) d L (fiOf m d L fs)).symm) $$ [P14 P15 P8 P9 P10 P11 P12 P13 Hshr]
  · isplitl [P14]; · iexact P14
    isplitl [P15]; · iexact P15
    isplitl [P8]; · iexact P8
    isplitl [P9]; · iexact P9
    isplitl [P10]; · iexact P10
    isplitl [P11]; · iexact P11
    isplitl [P12]; · iexact P12
    isplitl [P13]; · iexact P13
    iexact Hshr
  -- the row buffers whole again
  ihave Hr0 := (join_rows (F := F) (ℓ := (TH d L).loc cc0_scratch1) _ _ _ _ _ _ _ _ _ _ _ _ _ _ _ _ _) $$ [Hr' Fl0_dst Fl1_dst Fl2_dst Fl3_dst Fl4_dst Fl5_dst Fl14_src Fl15_src]
  · isplitl [Hr']; · iexact Hr'
    isplitl [Fl0_dst]; · iexact Fl0_dst
    isplitl [Fl1_dst]; · iexact Fl1_dst
    isplitl [Fl2_dst]; · iexact Fl2_dst
    isplitl [Fl3_dst]; · iexact Fl3_dst
    isplitl [Fl4_dst]; · iexact Fl4_dst
    isplitl [Fl5_dst]; · iexact Fl5_dst
    isplitl [Fl14_src]; · iexact Fl14_src
    iexact Fl15_src
  -- what the task hands back
  isplitl [Hi' C6 C7 C8 C9 C10 C11 C12 C13 C14 C15 Hdone]
  · iapply (Entails.of_eq (tdP_eq m d L).symm)
    isplitl [Hi']; · iexact Hi'
    iapply (Entails.of_eq (outPts50 m d L).symm)
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    iexact Hdone
  isplitl [Hs0 Hr0 Hbufs]
  · isplitl [Hs0]
    · iexists _; iexact Hs0
    isplitl [Hr0]; · iexact Hr0
    iexact Hbufs
  isplitl [Fl0 Fl1 Fl2 Fl3 Fl4 Fl5 Hm6 Hm7 Hm8 Hm9 Hm10 Hm11 Hm12 Hm13 Fl14 Fl15 Hm16 Hsems]
  · isplitl [Fl0]; · iexact Fl0
    isplitl [Fl1]; · iexact Fl1
    isplitl [Fl2]; · iexact Fl2
    isplitl [Fl3]; · iexact Fl3
    isplitl [Fl4]; · iexact Fl4
    isplitl [Fl5]; · iexact Fl5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Fl14]; · iexact Fl14
    isplitl [Fl15]; · iexact Fl15
    isplitl [Hm16]; · iexact Hm16
    iexact Hsems
  iexists _
  isplitr
  rotate_left
  · iexact HO
  ipureintro
  iterate 18 refine xwaits_ins _ ?_
  exact hW1

/-! ## The obligation -/

theorem defs₀_vector (c : Fin τ.nSC) (s : Fin τ.nSub) :
    defs₀ (F := F) (.scVector c s) 0 ()
      = SparseCore.onTile hcore0 hsub0 (fun c s => cc0_gather_k (crd c s)
          tV (Memref.isWhole_whole _) fV (Memref.isWhole_whole _) oV (Memref.isWhole_whole _)
          sV (Memref.isWhole_whole _) rV (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (crd ⟨_, hc.1⟩ ⟨_, hc.2⟩) hF hpre O W hO).trans (wp_mono frame _ _ fun _ => obl_post)

end Tile

end Cert.Proof.KB

end
-- ==== Proof.KI.Parts.lean ====
/-
  The partitions the launch hands out, and the value the last host operation leaves.

  A share halved n times is its 2 ^ n leaves. An array whose element sets are the fibres of a function into a finite
  type is those sets at once: the flattened index array is the 32 workers' slices (position r belongs to worker
  r / 13312), the output is the 32 x 416 chunks (element (j, i, k) lies in global chunk 512 j + i / 32, that chunk
  belongs to worker chunk / 416 as its local chunk chunk % 416). The last host operation exchanges axes 0 and 1 of
  the output, which gives the lookup of the launch table at the launch indices.
-/
import proofs.«207811_g81140522156160_cont_9to1c4b_295_10_alg».proof.Proof.KI.Setup
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## Shares: a share halved `n` times is its 2 ^ n leaves -/

/-- The leaf number is read modulo 2 ^ n. -/
theorem leaf_mod : ∀ (n : ℕ) (q : PosShare TreeShare) (i : ℕ), leaf n q (i % 2 ^ n) = leaf n q i
  | 0, _, _ => rfl
  | n + 1, q, i => by
    have hd : 2 ^ n ∣ 2 ^ (n + 1) := ⟨2, by rw [pow_succ]⟩
    have e1 : i % 2 ^ (n + 1) % 2 ^ (n + 1) = i % 2 ^ (n + 1) := Nat.mod_mod _ _
    have e2 : i % 2 ^ (n + 1) % 2 ^ n = i % 2 ^ n := Nat.mod_mod_of_dvd _ hd
    show (if i % 2 ^ (n + 1) % 2 ^ (n + 1) < 2 ^ n then leaf n q.left (i % 2 ^ (n + 1)) else leaf n q.right (i % 2 ^ (n + 1)))
      = if i % 2 ^ (n + 1) < 2 ^ n then leaf n q.left i else leaf n q.right i
    rw [e1, ← leaf_mod n q.left (i % 2 ^ (n + 1)), ← leaf_mod n q.right (i % 2 ^ (n + 1)), e2, leaf_mod n q.left i, leaf_mod n q.right i]

/-- Below 2 ^ n the leaves of depth n + 1 are the left half's. -/
theorem leaf_lo (n : ℕ) (q : PosShare TreeShare) {i : ℕ} (h : i < 2 ^ n) : leaf (n + 1) q i = leaf n q.left i := by
  have h2 : i % 2 ^ (n + 1) = i := Nat.mod_eq_of_lt (by rw [pow_succ]; omega)
  show (if i % 2 ^ (n + 1) < 2 ^ n then _ else _) = _
  rw [h2, if_pos h]

/-- From 2 ^ n on they are the right half's. -/
theorem leaf_hi (n : ℕ) (q : PosShare TreeShare) {i : ℕ} (h : i < 2 ^ n) : leaf (n + 1) q (2 ^ n + i) = leaf n q.right i := by
  have h2 : (2 ^ n + i) % 2 ^ (n + 1) = 2 ^ n + i := Nat.mod_eq_of_lt (by rw [pow_succ]; omega)
  show (if (2 ^ n + i) % 2 ^ (n + 1) < 2 ^ n then _ else _) = _
  rw [h2, if_neg (by omega), ← leaf_mod n q.right (2 ^ n + i), Nat.add_mod_left, leaf_mod]

/-- A points-to at a share is its leaves' at once. -/
theorem pointsTo_leaf {ℓ : Loc nD τ sig} (I : Finset (Idx ℓ)) (f : Buf (Elt F) ℓ) :
    ∀ (n : ℕ) (q : PosShare TreeShare), (ℓ ↦[I]{q} f : sProp 𝕄) = bigSep (Finset.range (2 ^ n)) fun i => ℓ ↦[I]{leaf n q i} f
  | 0, q => by
    rw [pow_zero, Finset.range_one, bigSep_singleton]; rfl
  | n + 1, q => by
    rw [BI.Entails.antisymm (pointsTo_share (PosShare.mem_left_op_right q)).1 (pointsTo_share (PosShare.mem_left_op_right q)).2,
      pointsTo_leaf I f n q.left, pointsTo_leaf I f n q.right,
      show 2 ^ (n + 1) = 2 ^ n + 2 ^ n by rw [pow_succ]; omega, Finset.range_add,
      bigSep_union (Finset.disjoint_range_addLeftEmbedding _ _), bigSep_map]
    congr 1
    · exact bigSep_congr fun i hi => by rw [leaf_lo n q (Finset.mem_range.mp hi)]
    · exact bigSep_congr fun i hi => by
        show _ = (ℓ ↦[I]{leaf (n + 1) q (2 ^ n + i)} f : sProp 𝕄)
        rw [leaf_hi n q (Finset.mem_range.mp hi)]

/-! ## Cutting an array among finitely many classes -/

/-- Element sets that are the fibres of a function are pairwise disjoint and cover the array: the whole array's
    points-to is the fibres' at once. -/
theorem pointsTo_classes {ℓ : Loc nD τ sig} {T : Type} [Fintype T] [DecidableEq T] (Kt : T → Finset (Idx ℓ)) (cls : Idx ℓ → T)
    (h : ∀ i t, i ∈ Kt t ↔ cls i = t) (q : PosShare TreeShare) (f : Buf (Elt F) ℓ) :
    (ℓ ↦{q} f : sProp 𝕄) = bigSep Finset.univ fun t => ℓ ↦[Kt t]{q} f := by
  have hc : (Finset.univ : Finset T).biUnion Kt = Finset.univ := by
    ext i
    simp only [Finset.mem_biUnion, Finset.mem_univ, true_and, iff_true]
    exact ⟨cls i, (h i _).mpr rfl⟩
  rw [← pointsTo_biUnion Finset.univ Kt fun t _ t' _ hne => Finset.disjoint_left.mpr fun i hi hi' =>
    hne (((h i t).mp hi).symm.trans ((h i t').mp hi')), hc]

/-! ## The workers' slices of the flattened index array -/

/-- The pairs (SparseCore, task) of the call. -/
abbrev Wk : Type := Fin ((K (F := F)).nCore 0) × Fin ((K (F := F)).nSub 0)

theorem wk_crdK (p : Wk (F := F)) : wk (crdK p.1 p.2) = 2 * p.2.val + p.1.val := rfl

/-- Worker w's slice is positions [13312 w, 13312 (w + 1)). -/
theorem mem_fSl (L : grid0.Coords) (i : S425984.Idx) :
    i ∈ (fSl L).view.set ↔ 13312 * wk L ≤ (i 0).val ∧ (i 0).val < 13312 * wk L + 13312 := by
  show i ∈ ((View.whole (main_v1_scv : Ref sig .scVector)).slice (Rect.unit (s := S425984) (k0_off1 L) S13312.size (k0_off1_inb L))).set ↔ _
  rw [View.set_slice_whole, Rect.mem_set_unit]
  have e : k0_off1 L 0 = 26624 * (L 1).val + 13312 * (L 0).val := by rw [k0_off1_eq]; rfl
  unfold wk
  constructor
  · intro h
    have h0 : k0_off1 L 0 ≤ (i 0).val ∧ (i 0).val < k0_off1 L 0 + 13312 := h 0
    rw [e] at h0; omega
  · intro h a
    match a with
    | ⟨0, _⟩ =>
      show k0_off1 L 0 ≤ (i 0).val ∧ (i 0).val < k0_off1 L 0 + 13312
      rw [e]; omega

/-- The worker whose slice holds a position. -/
def clsF (i : S425984.Idx) : Wk (F := F) :=
  (⟨(i 0).val / 13312 % 2, Nat.mod_lt _ (by decide)⟩,
   ⟨(i 0).val / 13312 / 2, by have : (i 0).val < 425984 := (i 0).isLt; show _ < 16; omega⟩)

theorem fSl_classes (i : S425984.Idx) (p : Wk (F := F)) : i ∈ (fSl (crdK p.1 p.2)).view.set ↔ clsF i = p := by
  rw [mem_fSl, wk_crdK, Prod.ext_iff, Fin.ext_iff, Fin.ext_iff]
  have hi : (i 0).val < 425984 := (i 0).isLt
  have hc : p.1.val < 2 := p.1.isLt
  have hs : p.2.val < 16 := p.2.isLt
  show _ ↔ (i 0).val / 13312 % 2 = p.1.val ∧ (i 0).val / 13312 / 2 = p.2.val
  omega

/-- The flattened index array is the workers' slices at once. -/
theorem fPts_slices (d : Dev nD) (f : Buf (Elt F) (fLoc d)) :
    (fLoc d ↦{fullShare} f : sProp 𝕄) = bigSep Finset.univ fun p : Wk (F := F) => idxPts d (crdK p.1 p.2) f :=
  pointsTo_classes (ℓ := fLoc d) (fun p : Wk (F := F) => (fSl (crdK p.1 p.2)).view.set) clsF fSl_classes fullShare f

/-! ## The workers' chunks of the output -/

/-- The triples (SparseCore, task, chunk). -/
abbrev Ck : Type := Wk (F := F) × Fin 416

theorem cg_crdK (t : Ck (F := F)) : cg (crdK t.1.1 t.1.2) t.2 = 416 * (2 * t.1.2.val + t.1.1.val) + t.2.val := rfl

/-- Chunk number g of the output is row g / 512 of axis 0 and rows [32 (g % 512), 32 (g % 512) + 32) of axis 1. -/
theorem mem_oCh (L : grid0.Coords) (k : Fin 416) (i : S26x16384x128.Idx) :
    i ∈ (oCh L k).view.set ↔ 512 * (i 0).val + (i 1).val / 32 = cg L k := by
  show i ∈ (((View.whole (main_v2_scv : Ref sig .scVector)).slice (Rect.unit (s := S26x16384x128) (offC L k) S1x32x128.size (offC_inb L k))).reshape
    S32x128 squeezes_S1x32x128_S32x128.numel_eq).set ↔ _
  rw [View.set_reshape, View.set_slice_whole, Rect.mem_set_unit]
  have h1 : (i 1).val < 16384 := (i 1).isLt
  have h2 : (i 2).val < 128 := (i 2).isLt
  constructor
  · intro h
    have a0 : cg L k / 512 ≤ (i 0).val ∧ (i 0).val < cg L k / 512 + 1 := h 0
    have a1 : cg L k % 512 * 32 ≤ (i 1).val ∧ (i 1).val < cg L k % 512 * 32 + 32 := h 1
    omega
  · intro h a
    match a with
    | ⟨0, _⟩ => show cg L k / 512 ≤ (i 0).val ∧ (i 0).val < cg L k / 512 + 1; omega
    | ⟨1, _⟩ => show cg L k % 512 * 32 ≤ (i 1).val ∧ (i 1).val < cg L k % 512 * 32 + 32; omega
    | ⟨2, _⟩ => show 0 ≤ (i 2).val ∧ (i 2).val < 0 + 128; omega

/-- The chunk that holds an element, and its worker. -/
def clsO (i : S26x16384x128.Idx) : Ck (F := F) :=
  have h0 : (i 0).val < 26 := (i 0).isLt
  have h1 : (i 1).val < 16384 := (i 1).isLt
  ((⟨(512 * (i 0).val + (i 1).val / 32) / 416 % 2, Nat.mod_lt _ (by decide)⟩,
    ⟨(512 * (i 0).val + (i 1).val / 32) / 416 / 2, by show _ < 16; omega⟩),
   ⟨(512 * (i 0).val + (i 1).val / 32) % 416, Nat.mod_lt _ (by decide)⟩)

theorem oCh_classes (i : S26x16384x128.Idx) (t : Ck (F := F)) : i ∈ (oCh (crdK t.1.1 t.1.2) t.2).view.set ↔ clsO i = t := by
  rw [mem_oCh, cg_crdK, Prod.ext_iff, Prod.ext_iff, Fin.ext_iff, Fin.ext_iff, Fin.ext_iff]
  have h0 : (i 0).val < 26 := (i 0).isLt
  have h1 : (i 1).val < 16384 := (i 1).isLt
  have hc : t.1.1.val < 2 := t.1.1.isLt
  have hs : t.1.2.val < 16 := t.1.2.isLt
  have hk : t.2.val < 416 := t.2.isLt
  show _ ↔ ((512 * (i 0).val + (i 1).val / 32) / 416 % 2 = t.1.1.val ∧ (512 * (i 0).val + (i 1).val / 32) / 416 / 2 = t.1.2.val)
    ∧ (512 * (i 0).val + (i 1).val / 32) % 416 = t.2.val
  omega

/-- The output is the workers' chunks at once. -/
theorem oPts_chunks (d : Dev nD) (f : Buf (Elt F) (oLoc d)) :
    (oLoc d ↦{fullShare} f : sProp 𝕄) = bigSep Finset.univ fun t : Ck (F := F) => oLoc d ↦[(oCh (crdK t.1.1 t.1.2) t.2).view.set]{fullShare} f :=
  pointsTo_classes (ℓ := oLoc d) (fun t : Ck (F := F) => (oCh (crdK t.1.1 t.1.2) t.2).view.set) clsO oCh_classes fullShare f

/-! ## The workers' shares of the table -/

/-- A family over the worker numbers below 32 is the family over the pairs (SparseCore, task). -/
theorem bigSep_workers (Φ : ℕ → sProp 𝕄) :
    bigSep (Finset.range 32) Φ = bigSep Finset.univ fun p : Wk (F := F) => Φ (2 * p.2.val + p.1.val) := by
  have himg : Finset.range 32 = (Finset.univ : Finset (Wk (F := F))).image fun p => 2 * p.2.val + p.1.val := by
    ext i
    simp only [Finset.mem_range, Finset.mem_image, Finset.mem_univ, true_and]
    constructor
    · intro hi
      exact ⟨(⟨i % 2, Nat.mod_lt _ (by decide)⟩, ⟨i / 2, by show i / 2 < 16; omega⟩), by show 2 * (i / 2) + i % 2 = i; omega⟩
    · rintro ⟨p, rfl⟩
      have hc : p.1.val < 2 := p.1.isLt
      have hs : p.2.val < 16 := p.2.isLt
      omega
  rw [himg, bigSep_image_of_injOn]
  intro p _ p' _ e
  have hc : p.1.val < 2 := p.1.isLt
  have hc' : p'.1.val < 2 := p'.1.isLt
  have e' : 2 * p.2.val + p.1.val = 2 * p'.2.val + p'.1.val := e
  exact Prod.ext (Fin.ext (by omega)) (Fin.ext (by omega))

/-- The table's right half is the workers' shares at once. -/
theorem tPts_shares (d : Dev nD) (f : Buf (Elt F) (tLoc d)) :
    (tLoc d ↦{(fullShare : PosShare TreeShare).right} f : sProp 𝕄)
      = bigSep Finset.univ fun p : Wk (F := F) => tLoc d ↦{tq (wk (crdK p.1 p.2))} f := by
  rw [pointsTo_leaf Finset.univ f 5 (fullShare : PosShare TreeShare).right, show (2 : ℕ) ^ 5 = 32 from rfl, bigSep_workers]
  rfl

section Value

/-! ## The last host operation, and the lookup it leaves -/

/-- What the last host operation computes from the kernel's output: axes 0 and 1 exchanged. -/
def resOf {α : Type} (o : S26x16384x128.Idx → α) : S16384x26x128.Idx → α :=
  transpose S16384x26x128 [1, 0, 2] o transposes_S26x16384x128_S16384x26x128_1_0_2

/-- The result at (n, s, k) is the output at (s, n, k). -/
theorem resOf_apply {α : Type} (o : S26x16384x128.Idx → α) (j : S16384x26x128.Idx) :
    resOf o j = o (ix3 (j 1) (j 0) (j 2)) := by
  unfold resOf
  refine transpose_apply _ _ _ j (ix3 (j 1) (j 0) (j 2)) fun b => ?_
  match b with
  | ⟨0, _⟩ => rfl
  | ⟨1, _⟩ => rfl
  | ⟨2, _⟩ => rfl

/-- Position 16384 * s + n of the flattened index array holds idx[n, s]. -/
theorem flatOf_apply (a : IVec S16384x26 32) (s : Fin 26) (n : Fin 16384) (h : s.val * 16384 + n.val < 425984) :
    flatOf a (ix1 ⟨s.val * 16384 + n.val, h⟩) = a (ix2 n s) := by
  unfold flatOf
  rw [shapeCast_apply _ _ (ix1 ⟨s.val * 16384 + n.val, h⟩) (ix2 s n : S26x16384.Idx) ?hk]
  case hk =>
    rw [Shape.rowMajor_val_two, Shape.rowMajor_val_one]
    rfl
  refine transpose_apply _ _ _ (ix2 s n : S26x16384.Idx) (ix2 n s : S16384x26.Idx) fun b => ?_
  match b with
  | ⟨0, _⟩ => rfl
  | ⟨1, _⟩ => rfl

variable (m : (ℓ : Loc nD τ sig) → Buf (Elt F) ℓ)

/-- The transposed output is the lookup of the launch table at the launch indices: both take the row number modulo the
    number of rows. -/
theorem resOf_out0 (d : Dev nD) (h : Cert.Proof.Spec.InRange (m (aLoc d))) :
    resOf (out0 m d) = Cert.Proof.Spec.take (m (tLoc d)) (m (aLoc d)) := by
  funext j
  rw [resOf_apply]
  have h0 : (j 0).val < 16384 := (j 0).isLt
  have h1 : (j 1).val < 26 := (j 1).isLt
  have e := flatOf_apply (m (aLoc d)) (j 1) (j 0) (by omega)
  show outG (m (tLoc d)) (flatOf (m (aLoc d))) (ix3 (j 1) (j 0) (j 2)) = _
  unfold outG Cert.Proof.Spec.take Cert.Proof.Spec.row
  exact congrArg (fun r : BitVec 32 => m (tLoc d) (ix2 (⟨r.toNat % 100000, Nat.mod_lt _ (by decide)⟩ : Fin 100000) (j 2))) e

end Value

end Cert.Proof.KI

end
-- ==== Proof.KI.Launch.lean ====
/-
  The launch side of the lookup kernel's run, at any float instance.

  The launch theorem is applied to one vector-subcore call on 2 SparseCores x 16 tasks. A SparseCore's resources are
  its sixteen workers' already, so the split among the tasks is the identity. The kernel keeps no ghost state of its
  own: the launch element is the handshakes' rounds beside the unit of the transfers' counters. On the TensorCore
  @main transposes and flattens the index array (which leaves the flattened array at `flat0` by definition), halves
  the table's share and keeps the left half for good, deals the right half in 32 leaves, the flattened indices in 32
  slices and the output in 32 x 416 chunks, runs the call, joins the chunks (all at the one function `out0`) back
  into the whole output, and exchanges the output's axes. The final memory agrees with the left half of the table,
  the index array and the result.
-/
import proofs.«207811_g81140522156160_cont_9to1c4b_295_10_alg».proof.Proof.KI.Parts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-! ## The split of a SparseCore's resources among its tasks: they are handed as the tasks' already -/

theorem P_st (d : Dev nD) (c : Fin ((K (F := F)).nCore 0)) :
    (P m).st 0 d c = bigSep Finset.univ fun i : Fin ((K (F := F)).nSub 0) => goP m d (crdK c i) := by unfold P; with_reducible rfl
theorem P_dn (d : Dev nD) (c : Fin ((K (F := F)).nCore 0)) :
    (P m).dn 0 d c = bigSep Finset.univ fun i : Fin ((K (F := F)).nSub 0) => tdP m d (crdK c i) := by unfold P; with_reducible rfl
theorem P_go (d : Dev nD) (c : Fin ((K (F := F)).nCore 0)) (i : Fin ((K (F := F)).nSub 0)) : (P m).go 0 d c i = goP m d (crdK c i) := by unfold P; rfl
theorem P_td (d : Dev nD) (c : Fin ((K (F := F)).nCore 0)) (i : Fin ((K (F := F)).nSub 0)) : (P m).td 0 d c i = tdP m d (crdK c i) := by unfold P; rfl

theorem vecSplit : (K (F := F)).VecSplit' (P m) 0 := by
  intro d c
  rw [P_st, P_dn]
  simp only [P_go, P_td]
  generalize (bigSep Finset.univ fun i : Fin ((K (F := F)).nSub 0) => goP m d (crdK c i)) = A
  generalize (bigSep Finset.univ fun i : Fin ((K (F := F)).nSub 0) => tdP m d (crdK c i)) = B
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What @main leaves, and how the final memory reads it -/

abbrev FIN (d : Dev nD) : sProp 𝕄 :=
  iprop(tblPts m d (fullShare : PosShare TreeShare).left ∗ (aLoc d ↦{fullShare} m (aLoc d)) ∗ rLoc d ↦{fullShare} resOf (out0 m d))

def fq (d : Dev nD) (s' : Phys nD τ sig (Elt F)) : Prop :=
  s'.mem.mem (rLoc d) = resOf (out0 m d) ∧ s'.mem.mem (tLoc d) = m (tLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ht, Ha, Hr⟩, HSI⟩
  ihave H := (persistent_entails_right (SI_pointsTo_agree (st := s') (ℓ := tLoc d) (I := Finset.univ) (q := (fullShare : PosShare TreeShare).left) (f := m (tLoc d)))) $$ [HSI Ht]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := resOf (out0 m d))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r =>
  ∀ c : Dev nD, r.2.mem (rLoc c) = resOf (out0 m c) ∧ r.2.mem (tLoc c) = m (tLoc c) ∧ r.2.mem (aLoc c) = m (aLoc c)

/-! ## @main on the TensorCore -/

abbrev bA : DevRef τ sig := Proc.devRef .tc (main_arg1 : Ref sig .tc)
abbrev bP : DevRef τ sig := Proc.devRef .tc (main_v0 : Ref sig .tc)
abbrev bF : DevRef τ sig := Proc.devRef .tc (main_v1 : Ref sig .tc)
abbrev bO : DevRef τ sig := Proc.devRef .tc (main_v2 : Ref sig .tc)
abbrev bR : DevRef τ sig := Proc.devRef .tc (main_v3 : Ref sig .tc)

/-- The three host operations of @main. -/
abbrev opT : HloOp τ sig (Elt F) :=
  StableHlo.unary main_arg1 main_v0 ((transpose S26x16384 [1, 0] · transposes_S16384x26_S26x16384_1_0) : (⟨S16384x26, .i32⟩ : BufTy).Contents (Elt F) → (⟨S26x16384, .i32⟩ : BufTy).Contents (Elt F))
abbrev opR : HloOp τ sig (Elt F) := StableHlo.reshape main_v0 main_v1 rfl shapeCasts_S26x16384_S425984
abbrev opU : HloOp τ sig (Elt F) :=
  StableHlo.unary main_v2 main_v3 ((transpose S16384x26x128 [1, 0, 2] · transposes_S26x16384x128_S16384x26x128_1_0_2) : (⟨S26x16384x128, .f32⟩ : BufTy).Contents (Elt F) → (⟨S16384x26x128, .f32⟩ : BufTy).Contents (Elt F))

theorem unscopedBufs_eq (d : Dev nD) (W : (b : Ref sig .tc) → Buf (Elt F) ((d.tc : Thread nD τ).loc b)) :
    (unscopedBufs d W : sProp 𝕄) = iprop((tLoc d ↦{fullShare} W main_arg0) ∗ (aLoc d ↦{fullShare} W main_arg1) ∗ (pLoc d ↦{fullShare} W main_v0)
      ∗ (fLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- Two different buffers of the device held whole. -/
theorem held_pair (d : Dev nD) (x y : DevRef τ sig) (h : x ≠ y) (W : Valuation τ sig (Elt F)) :
    (held (T d) {x, y} W : sProp 𝕄) = iprop((((d, x) : Loc nD τ sig) ↦{fullShare} W x) ∗ ((d, y) : Loc nD τ sig) ↦{fullShare} W y) := by
  unfold held
  rw [SparseCore.bigSep_insert' (by rw [Finset.mem_singleton]; exact h), bigSep_singleton]

/-- The launch contents as a valuation of the device's buffers. -/
abbrev V0 (d : Dev nD) : Valuation τ sig (Elt F) := fun b => m (d, b)

theorem opT_A (W : Valuation τ sig (Elt F)) : (opT (F := F)).result W bA = W bA :=
  StableHlo.unary_result_ne main_arg1 main_v0 _ _ _ W (r := main_arg1) (by decide)
theorem opT_F (W : Valuation τ sig (Elt F)) : (opT (F := F)).result W bF = W bF :=
  StableHlo.unary_result_ne main_arg1 main_v0 _ _ _ W (r := main_v1) (by decide)
theorem opT_P (W : Valuation τ sig (Elt F)) :
    (opT (F := F)).result W bP = transpose S26x16384 [1, 0] (W bA) transposes_S16384x26_S26x16384_1_0 :=
  StableHlo.unary_result main_arg1 main_v0 _ _ _ W
theorem opR_P (W : Valuation τ sig (Elt F)) : (opR (F := F)).result W bP = W bP :=
  StableHlo.reshape_result_ne main_v0 main_v1 rfl _ _ _ W (r := main_v0) (by decide)
theorem opR_F (W : Valuation τ sig (Elt F)) :
    (opR (F := F)).result W bF = shapeCast S425984 (W bP) shapeCasts_S26x16384_S425984 :=
  (StableHlo.reshape_result main_v0 main_v1 rfl _ _ _ W).trans rfl
theorem opU_O (W : Valuation τ sig (Elt F)) : (opU (F := F)).result W bO = W bO :=
  StableHlo.unary_result_ne main_v2 main_v3 _ _ _ W (r := main_v2) (by decide)
theorem opU_R (W : Valuation τ sig (Elt F)) : (opU (F := F)).result W bR = resOf (W bO) :=
  (StableHlo.unary_result main_v2 main_v3 _ _ _ W).trans rfl

theorem hT : (opT (F := F)).bufs ⊆ {bA, bP} := Finset.Subset.refl _
theorem hR : (opR (F := F)).bufs ⊆ {bP, bF} := Finset.Subset.refl _
theorem hU : (opU (F := F)).bufs ⊆ {bO, bR} := Finset.Subset.refl _

/-- After the two host operations the flattened index array holds `flat0`. -/
theorem flat_after (d : Dev nD) : (opR (F := F)).result ((opT (F := F)).result (V0 m d)) bF = flat0 m d := by
  rw [opR_F, opT_P]; rfl

/-- The output after the call, beside the launch contents. -/
def V3 (d : Dev nD) : Valuation τ sig (Elt F) := Function.update (V0 m d) bO (out0 m d)
theorem V3_O (d : Dev nD) : V3 m d bO = out0 m d := Function.update_self _ _ _
theorem V3_R (d : Dev nD) : V3 m d bR = m (rLoc d) := Function.update_of_ne (show bR ≠ bO by decide) _ _

/-- What the call takes for the two SparseCores: the workers' shares of the table, their slices of the flattened
    indices, their chunks of the output. -/
theorem st0_eq (d : Dev nD) :
    (bigSep Finset.univ fun c : Fin ((K (F := F)).nCore 0) => (P m).st 0 d c)
      = iprop((bigSep Finset.univ fun p : Wk (F := F) => tblPts m d (tq (wk (crdK p.1 p.2))))
          ∗ (bigSep Finset.univ fun p : Wk (F := F) => idxPts d (crdK p.1 p.2) (flat0 m d))
          ∗ bigSep Finset.univ fun t : Ck (F := F) => oLoc d ↦[(oCh (crdK t.1.1 t.1.2) t.2).view.set]{fullShare} m (oLoc d)) := by
  simp only [P_st]
  rw [← bigSep_univ_prod (fun p : Wk (F := F) => goP m d (crdK p.1 p.2))]
  unfold goP
  rw [bigSep_sep', bigSep_sep', ← bigSep_univ_prod (fun t : Ck (F := F) => (oLoc d ↦[(oCh (crdK t.1.1 t.1.2) t.2).view.set]{fullShare} m (oLoc d) : sProp 𝕄))]

/-- What it hands back: the slices, and the chunks holding the gathered rows. -/
theorem dn0_eq (d : Dev nD) :
    (bigSep Finset.univ fun c : Fin ((K (F := F)).nCore 0) => (P m).dn 0 d c)
      = iprop((bigSep Finset.univ fun p : Wk (F := F) => idxPts d (crdK p.1 p.2) (flat0 m d))
          ∗ bigSep Finset.univ fun t : Ck (F := F) => oLoc d ↦[(oCh (crdK t.1.1 t.1.2) t.2).view.set]{fullShare} out0 m d) := by
  simp only [P_dn]
  rw [← bigSep_univ_prod (fun p : Wk (F := F) => tdP m d (crdK p.1 p.2))]
  unfold tdP
  rw [bigSep_sep', ← bigSep_univ_prod (fun t : Ck (F := F) => (oLoc d ↦[(oCh (crdK t.1.1 t.1.2) t.2).view.set]{fullShare} out0 m d : sProp 𝕄))]

/-- The table: the left half kept, the right half the workers' shares. -/
theorem tPts_halve (d : Dev nD) (f : Buf (Elt F) (tLoc d)) :
    (tLoc d ↦{fullShare} f : sProp 𝕄)
      = iprop((tLoc d ↦{(fullShare : PosShare TreeShare).left} f) ∗ bigSep Finset.univ fun p : Wk (F := F) => tLoc d ↦{tq (wk (crdK p.1 p.2))} f) := by
  rw [BI.Entails.antisymm (pointsTo_share (PosShare.mem_left_op_right (fullShare : PosShare TreeShare))).1 (pointsTo_share (PosShare.mem_left_op_right fullShare)).2,
    tPts_shares]

variable [FloatOps F]

/-- @main on device `d`'s TensorCore: the index array transposed and flattened; the table halved, its right half dealt
    in 32 shares, the flattened indices in 32 slices, the output in 32 x 416 chunks, and the call; the chunks joined
    at the one function they all hold; the output's axes exchanged. The left half of the table, the index array and the
    result are kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Ha, Hp, Hf, Ho, Hr⟩, -, -⟩, -⟩
  -- the index array transposed
  iapply (wp_hlo_within 𝒱 (SparseCore.T d) none Set.univ (op := opT) (S := {bA, bP}) hT (V := V0 m d)) $$ [Hb Ha Hp]
  · isplitl [Hb]; · iexact Hb
    rw [held_pair d bA bP (by decide)]
    isplitl [Ha]; · iexact Ha
    iexact Hp
  iintro ⟨Hb, Hh⟩
  ihave Hh' := (Entails.of_eq (held_pair (F := F) d bA bP (by decide) _)) $$ Hh
  icases Hh' with ⟨Ha, Hp⟩
  rw [wp_ret]; imodintro
  -- and flattened
  iapply (wp_hlo_within 𝒱 (SparseCore.T d) none Set.univ (op := opR) (S := {bP, bF}) hR (V := (opT (F := F)).result (V0 m d))) $$ [Hb Hp Hf]
  · isplitl [Hb]; · iexact Hb
    rw [held_pair d bP bF (by decide), opT_F]
    isplitl [Hp]; · iexact Hp
    iexact Hf
  iintro ⟨Hb, Hh⟩
  ihave Hh' := (Entails.of_eq (held_pair (F := F) d bP bF (by decide) _)) $$ Hh
  icases Hh' with ⟨-, Hf⟩
  rw [wp_ret]; imodintro
  -- the table halved, its right half in shares; the flattened indices in slices; the output in chunks
  ihave Ht' := (Entails.of_eq (tPts_halve (F := F) d (m (tLoc d)))) $$ Ht
  icases Ht' with ⟨HtL, HtW⟩
  ihave HfW := (Entails.of_eq ((congrArg (fun g => (fLoc d ↦{fullShare} g : sProp 𝕄)) (flat_after m d)).trans (fPts_slices (F := F) d (flat0 m d)))) $$ Hf
  ihave HoW := (Entails.of_eq (oPts_chunks (F := F) d (m (oLoc d)))) $$ Ho
  -- the call
  iapply ((K (F := F)).wp_run (D (F := F)) 𝒱 (EH := EH) (P := P m) κ d 0) $$ [Hst HtL HtW HfW HoW Ha Hr Hb]
  isplitr; · iexact Hctx
  isplitl [Hst]; · iexact Hst
  isplitl [HtW HfW HoW]
  · rw [st0_eq]
    isplitl [HtW]; · iexact HtW
    isplitl [HfW]; · iexact HfW
    iexact HoW
  iintro ⟨Hst, Hdn⟩
  ihave Hdn' := (Entails.of_eq (dn0_eq m d)) $$ Hdn
  icases Hdn' with ⟨-, HoW⟩
  ihave Ho := (Entails.of_eq (oPts_chunks (F := F) d (out0 m d)).symm) $$ HoW
  -- the output's axes exchanged
  iapply (wp_hlo_within 𝒱 (SparseCore.T d) none Set.univ (op := opU) (S := {bO, bR}) hU (V := V3 m d)) $$ [Hb Ho Hr]
  · isplitl [Hb]; · iexact Hb
    rw [held_pair d bO bR (by decide), V3_O, V3_R]
    isplitl [Ho]; · iexact Ho
    iexact Hr
  iintro ⟨Hb, Hh⟩
  ihave Hh' := (Entails.of_eq (held_pair (F := F) d bO bR (by decide) _)) $$ Hh
  icases Hh' with ⟨-, Hr⟩
  rw [wp_ret]; imodintro; imodintro
  isplitl [Hst]; · iexact Hst
  rw [opT_A, opU_R, V3_O]
  isplitl [HtL]; · iexact HtL
  isplitl [Ha]; · iexact Ha
  iexact Hr

/-! ## The program's run -/

/-- Every weakly fair execution of the device's threads from the launch memory terminates, nothing faulting, no
    handshake unanswered; at the end the result array holds the output with axes 0 and 1 exchanged, the table and the
    index array are unchanged. The tile's body obligation is a hypothesis here. -/
theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KB.Parts.lean ====
/-
  The partitions the launch hands out, and the value the last host operation leaves.

  A share halved n times is its 2 ^ n leaves. An array whose element sets are the fibres of a function into a finite
  type is those sets at once: the flattened index array is the 32 workers' slices (position r belongs to worker
  r / 13312), the output is the 32 x 416 chunks (element (j, i, k) lies in global chunk 512 j + i / 32, that chunk
  belongs to worker chunk / 416 as its local chunk chunk % 416). The last host operation exchanges axes 0 and 1 of
  the output, which gives the lookup of the launch table at the launch indices.
-/
import proofs.«207811_g81140522156160_cont_9to1c4b_295_10_alg».proof.Proof.KB.Setup
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

/-! ## Shares: a share halved `n` times is its 2 ^ n leaves -/

/-- The leaf number is read modulo 2 ^ n. -/
theorem leaf_mod : ∀ (n : ℕ) (q : PosShare TreeShare) (i : ℕ), leaf n q (i % 2 ^ n) = leaf n q i
  | 0, _, _ => rfl
  | n + 1, q, i => by
    have hd : 2 ^ n ∣ 2 ^ (n + 1) := ⟨2, by rw [pow_succ]⟩
    have e1 : i % 2 ^ (n + 1) % 2 ^ (n + 1) = i % 2 ^ (n + 1) := Nat.mod_mod _ _
    have e2 : i % 2 ^ (n + 1) % 2 ^ n = i % 2 ^ n := Nat.mod_mod_of_dvd _ hd
    show (if i % 2 ^ (n + 1) % 2 ^ (n + 1) < 2 ^ n then leaf n q.left (i % 2 ^ (n + 1)) else leaf n q.right (i % 2 ^ (n + 1)))
      = if i % 2 ^ (n + 1) < 2 ^ n then leaf n q.left i else leaf n q.right i
    rw [e1, ← leaf_mod n q.left (i % 2 ^ (n + 1)), ← leaf_mod n q.right (i % 2 ^ (n + 1)), e2, leaf_mod n q.left i, leaf_mod n q.right i]

/-- Below 2 ^ n the leaves of depth n + 1 are the left half's. -/
theorem leaf_lo (n : ℕ) (q : PosShare TreeShare) {i : ℕ} (h : i < 2 ^ n) : leaf (n + 1) q i = leaf n q.left i := by
  have h2 : i % 2 ^ (n + 1) = i := Nat.mod_eq_of_lt (by rw [pow_succ]; omega)
  show (if i % 2 ^ (n + 1) < 2 ^ n then _ else _) = _
  rw [h2, if_pos h]

/-- From 2 ^ n on they are the right half's. -/
theorem leaf_hi (n : ℕ) (q : PosShare TreeShare) {i : ℕ} (h : i < 2 ^ n) : leaf (n + 1) q (2 ^ n + i) = leaf n q.right i := by
  have h2 : (2 ^ n + i) % 2 ^ (n + 1) = 2 ^ n + i := Nat.mod_eq_of_lt (by rw [pow_succ]; omega)
  show (if (2 ^ n + i) % 2 ^ (n + 1) < 2 ^ n then _ else _) = _
  rw [h2, if_neg (by omega), ← leaf_mod n q.right (2 ^ n + i), Nat.add_mod_left, leaf_mod]

/-- A points-to at a share is its leaves' at once. -/
theorem pointsTo_leaf {ℓ : Loc nD τ sig} (I : Finset (Idx ℓ)) (f : Buf (Elt F) ℓ) :
    ∀ (n : ℕ) (q : PosShare TreeShare), (ℓ ↦[I]{q} f : sProp 𝕄) = bigSep (Finset.range (2 ^ n)) fun i => ℓ ↦[I]{leaf n q i} f
  | 0, q => by
    rw [pow_zero, Finset.range_one, bigSep_singleton]; rfl
  | n + 1, q => by
    rw [BI.Entails.antisymm (pointsTo_share (PosShare.mem_left_op_right q)).1 (pointsTo_share (PosShare.mem_left_op_right q)).2,
      pointsTo_leaf I f n q.left, pointsTo_leaf I f n q.right,
      show 2 ^ (n + 1) = 2 ^ n + 2 ^ n by rw [pow_succ]; omega, Finset.range_add,
      bigSep_union (Finset.disjoint_range_addLeftEmbedding _ _), bigSep_map]
    congr 1
    · exact bigSep_congr fun i hi => by rw [leaf_lo n q (Finset.mem_range.mp hi)]
    · exact bigSep_congr fun i hi => by
        show _ = (ℓ ↦[I]{leaf (n + 1) q (2 ^ n + i)} f : sProp 𝕄)
        rw [leaf_hi n q (Finset.mem_range.mp hi)]

/-! ## Cutting an array among finitely many classes -/

/-- Element sets that are the fibres of a function are pairwise disjoint and cover the array: the whole array's
    points-to is the fibres' at once. -/
theorem pointsTo_classes {ℓ : Loc nD τ sig} {T : Type} [Fintype T] [DecidableEq T] (Kt : T → Finset (Idx ℓ)) (cls : Idx ℓ → T)
    (h : ∀ i t, i ∈ Kt t ↔ cls i = t) (q : PosShare TreeShare) (f : Buf (Elt F) ℓ) :
    (ℓ ↦{q} f : sProp 𝕄) = bigSep Finset.univ fun t => ℓ ↦[Kt t]{q} f := by
  have hc : (Finset.univ : Finset T).biUnion Kt = Finset.univ := by
    ext i
    simp only [Finset.mem_biUnion, Finset.mem_univ, true_and, iff_true]
    exact ⟨cls i, (h i _).mpr rfl⟩
  rw [← pointsTo_biUnion Finset.univ Kt fun t _ t' _ hne => Finset.disjoint_left.mpr fun i hi hi' =>
    hne (((h i t).mp hi).symm.trans ((h i t').mp hi')), hc]

/-! ## The workers' slices of the flattened index array -/

/-- The pairs (SparseCore, task) of the call. -/
abbrev Wk : Type := Fin ((K (F := F)).nCore 0) × Fin ((K (F := F)).nSub 0)

theorem wk_crdK (p : Wk (F := F)) : wk (crdK p.1 p.2) = 2 * p.2.val + p.1.val := rfl

/-- Worker w's slice is positions [13312 w, 13312 (w + 1)). -/
theorem mem_fSl (L : grid0.Coords) (i : S425984.Idx) :
    i ∈ (fSl L).view.set ↔ 13312 * wk L ≤ (i 0).val ∧ (i 0).val < 13312 * wk L + 13312 := by
  show i ∈ ((View.whole (main_v1_scv : Ref sig .scVector)).slice (Rect.unit (s := S425984) (k0_off1 L) S13312.size (k0_off1_inb L))).set ↔ _
  rw [View.set_slice_whole, Rect.mem_set_unit]
  have e : k0_off1 L 0 = 26624 * (L 1).val + 13312 * (L 0).val := by rw [k0_off1_eq]; rfl
  unfold wk
  constructor
  · intro h
    have h0 : k0_off1 L 0 ≤ (i 0).val ∧ (i 0).val < k0_off1 L 0 + 13312 := h 0
    rw [e] at h0; omega
  · intro h a
    match a with
    | ⟨0, _⟩ =>
      show k0_off1 L 0 ≤ (i 0).val ∧ (i 0).val < k0_off1 L 0 + 13312
      rw [e]; omega

/-- The worker whose slice holds a position. -/
def clsF (i : S425984.Idx) : Wk (F := F) :=
  (⟨(i 0).val / 13312 % 2, Nat.mod_lt _ (by decide)⟩,
   ⟨(i 0).val / 13312 / 2, by have : (i 0).val < 425984 := (i 0).isLt; show _ < 16; omega⟩)

theorem fSl_classes (i : S425984.Idx) (p : Wk (F := F)) : i ∈ (fSl (crdK p.1 p.2)).view.set ↔ clsF i = p := by
  rw [mem_fSl, wk_crdK, Prod.ext_iff, Fin.ext_iff, Fin.ext_iff]
  have hi : (i 0).val < 425984 := (i 0).isLt
  have hc : p.1.val < 2 := p.1.isLt
  have hs : p.2.val < 16 := p.2.isLt
  show _ ↔ (i 0).val / 13312 % 2 = p.1.val ∧ (i 0).val / 13312 / 2 = p.2.val
  omega

/-- The flattened index array is the workers' slices at once. -/
theorem fPts_slices (d : Dev nD) (f : Buf (Elt F) (fLoc d)) :
    (fLoc d ↦{fullShare} f : sProp 𝕄) = bigSep Finset.univ fun p : Wk (F := F) => idxPts d (crdK p.1 p.2) f :=
  pointsTo_classes (ℓ := fLoc d) (fun p : Wk (F := F) => (fSl (crdK p.1 p.2)).view.set) clsF fSl_classes fullShare f

/-! ## The workers' chunks of the output -/

/-- The triples (SparseCore, task, chunk). -/
abbrev Ck : Type := Wk (F := F) × Fin 416

theorem cg_crdK (t : Ck (F := F)) : cg (crdK t.1.1 t.1.2) t.2 = 416 * (2 * t.1.2.val + t.1.1.val) + t.2.val := rfl

/-- Chunk number g of the output is row g / 512 of axis 0 and rows [32 (g % 512), 32 (g % 512) + 32) of axis 1. -/
theorem mem_oCh (L : grid0.Coords) (k : Fin 416) (i : S26x16384x128.Idx) :
    i ∈ (oCh L k).view.set ↔ 512 * (i 0).val + (i 1).val / 32 = cg L k := by
  show i ∈ (((View.whole (main_v2_scv : Ref sig .scVector)).slice (Rect.unit (s := S26x16384x128) (offC L k) S1x32x128.size (offC_inb L k))).reshape
    S32x128 squeezes_S1x32x128_S32x128.numel_eq).set ↔ _
  rw [View.set_reshape, View.set_slice_whole, Rect.mem_set_unit]
  have h1 : (i 1).val < 16384 := (i 1).isLt
  have h2 : (i 2).val < 128 := (i 2).isLt
  constructor
  · intro h
    have a0 : cg L k / 512 ≤ (i 0).val ∧ (i 0).val < cg L k / 512 + 1 := h 0
    have a1 : cg L k % 512 * 32 ≤ (i 1).val ∧ (i 1).val < cg L k % 512 * 32 + 32 := h 1
    omega
  · intro h a
    match a with
    | ⟨0, _⟩ => show cg L k / 512 ≤ (i 0).val ∧ (i 0).val < cg L k / 512 + 1; omega
    | ⟨1, _⟩ => show cg L k % 512 * 32 ≤ (i 1).val ∧ (i 1).val < cg L k % 512 * 32 + 32; omega
    | ⟨2, _⟩ => show 0 ≤ (i 2).val ∧ (i 2).val < 0 + 128; omega

/-- The chunk that holds an element, and its worker. -/
def clsO (i : S26x16384x128.Idx) : Ck (F := F) :=
  have h0 : (i 0).val < 26 := (i 0).isLt
  have h1 : (i 1).val < 16384 := (i 1).isLt
  ((⟨(512 * (i 0).val + (i 1).val / 32) / 416 % 2, Nat.mod_lt _ (by decide)⟩,
    ⟨(512 * (i 0).val + (i 1).val / 32) / 416 / 2, by show _ < 16; omega⟩),
   ⟨(512 * (i 0).val + (i 1).val / 32) % 416, Nat.mod_lt _ (by decide)⟩)

theorem oCh_classes (i : S26x16384x128.Idx) (t : Ck (F := F)) : i ∈ (oCh (crdK t.1.1 t.1.2) t.2).view.set ↔ clsO i = t := by
  rw [mem_oCh, cg_crdK, Prod.ext_iff, Prod.ext_iff, Fin.ext_iff, Fin.ext_iff, Fin.ext_iff]
  have h0 : (i 0).val < 26 := (i 0).isLt
  have h1 : (i 1).val < 16384 := (i 1).isLt
  have hc : t.1.1.val < 2 := t.1.1.isLt
  have hs : t.1.2.val < 16 := t.1.2.isLt
  have hk : t.2.val < 416 := t.2.isLt
  show _ ↔ ((512 * (i 0).val + (i 1).val / 32) / 416 % 2 = t.1.1.val ∧ (512 * (i 0).val + (i 1).val / 32) / 416 / 2 = t.1.2.val)
    ∧ (512 * (i 0).val + (i 1).val / 32) % 416 = t.2.val
  omega

/-- The output is the workers' chunks at once. -/
theorem oPts_chunks (d : Dev nD) (f : Buf (Elt F) (oLoc d)) :
    (oLoc d ↦{fullShare} f : sProp 𝕄) = bigSep Finset.univ fun t : Ck (F := F) => oLoc d ↦[(oCh (crdK t.1.1 t.1.2) t.2).view.set]{fullShare} f :=
  pointsTo_classes (ℓ := oLoc d) (fun t : Ck (F := F) => (oCh (crdK t.1.1 t.1.2) t.2).view.set) clsO oCh_classes fullShare f

/-! ## The workers' shares of the table -/

/-- A family over the worker numbers below 32 is the family over the pairs (SparseCore, task). -/
theorem bigSep_workers (Φ : ℕ → sProp 𝕄) :
    bigSep (Finset.range 32) Φ = bigSep Finset.univ fun p : Wk (F := F) => Φ (2 * p.2.val + p.1.val) := by
  have himg : Finset.range 32 = (Finset.univ : Finset (Wk (F := F))).image fun p => 2 * p.2.val + p.1.val := by
    ext i
    simp only [Finset.mem_range, Finset.mem_image, Finset.mem_univ, true_and]
    constructor
    · intro hi
      exact ⟨(⟨i % 2, Nat.mod_lt _ (by decide)⟩, ⟨i / 2, by show i / 2 < 16; omega⟩), by show 2 * (i / 2) + i % 2 = i; omega⟩
    · rintro ⟨p, rfl⟩
      have hc : p.1.val < 2 := p.1.isLt
      have hs : p.2.val < 16 := p.2.isLt
      omega
  rw [himg, bigSep_image_of_injOn]
  intro p _ p' _ e
  have hc : p.1.val < 2 := p.1.isLt
  have hc' : p'.1.val < 2 := p'.1.isLt
  have e' : 2 * p.2.val + p.1.val = 2 * p'.2.val + p'.1.val := e
  exact Prod.ext (Fin.ext (by omega)) (Fin.ext (by omega))

/-- The table's right half is the workers' shares at once. -/
theorem tPts_shares (d : Dev nD) (f : Buf (Elt F) (tLoc d)) :
    (tLoc d ↦{(fullShare : PosShare TreeShare).right} f : sProp 𝕄)
      = bigSep Finset.univ fun p : Wk (F := F) => tLoc d ↦{tq (wk (crdK p.1 p.2))} f := by
  rw [pointsTo_leaf Finset.univ f 5 (fullShare : PosShare TreeShare).right, show (2 : ℕ) ^ 5 = 32 from rfl, bigSep_workers]
  rfl

section Value

/-! ## The last host operation, and the lookup it leaves -/

/-- What the last host operation computes from the kernel's output: axes 0 and 1 exchanged. -/
def resOf {α : Type} (o : S26x16384x128.Idx → α) : S16384x26x128.Idx → α :=
  transpose S16384x26x128 [1, 0, 2] o transposes_S26x16384x128_S16384x26x128_1_0_2

/-- The result at (n, s, k) is the output at (s, n, k). -/
theorem resOf_apply {α : Type} (o : S26x16384x128.Idx → α) (j : S16384x26x128.Idx) :
    resOf o j = o (ix3 (j 1) (j 0) (j 2)) := by
  unfold resOf
  refine transpose_apply _ _ _ j (ix3 (j 1) (j 0) (j 2)) fun b => ?_
  match b with
  | ⟨0, _⟩ => rfl
  | ⟨1, _⟩ => rfl
  | ⟨2, _⟩ => rfl

/-- Position 16384 * s + n of the flattened index array holds idx[n, s]. -/
theorem flatOf_apply (a : IVec S16384x26 32) (s : Fin 26) (n : Fin 16384) (h : s.val * 16384 + n.val < 425984) :
    flatOf a (ix1 ⟨s.val * 16384 + n.val, h⟩) = a (ix2 n s) := by
  unfold flatOf
  rw [shapeCast_apply _ _ (ix1 ⟨s.val * 16384 + n.val, h⟩) (ix2 s n : S26x16384.Idx) ?hk]
  case hk =>
    rw [Shape.rowMajor_val_two, Shape.rowMajor_val_one]
    rfl
  refine transpose_apply _ _ _ (ix2 s n : S26x16384.Idx) (ix2 n s : S16384x26.Idx) fun b => ?_
  match b with
  | ⟨0, _⟩ => rfl
  | ⟨1, _⟩ => rfl

variable (m : (ℓ : Loc nD τ sig) → Buf (Elt F) ℓ)

/-- The transposed output is the lookup of the launch table at the launch indices: both take the row number modulo the
    number of rows. -/
theorem resOf_out0 (d : Dev nD) (h : Cert.Proof.Spec.InRange (m (aLoc d))) :
    resOf (out0 m d) = Cert.Proof.Spec.take (m (tLoc d)) (m (aLoc d)) := by
  funext j
  rw [resOf_apply]
  have h0 : (j 0).val < 16384 := (j 0).isLt
  have h1 : (j 1).val < 26 := (j 1).isLt
  have e := flatOf_apply (m (aLoc d)) (j 1) (j 0) (by omega)
  show outG (m (tLoc d)) (flatOf (m (aLoc d))) (ix3 (j 1) (j 0) (j 2)) = _
  unfold outG Cert.Proof.Spec.take Cert.Proof.Spec.row
  exact congrArg (fun r : BitVec 32 => m (tLoc d) (ix2 (⟨r.toNat % 100000, Nat.mod_lt _ (by decide)⟩ : Fin 100000) (j 2))) e

end Value

end Cert.Proof.KB

end
-- ==== Proof.KB.Launch.lean ====
/-
  The launch side of the lookup kernel's run, at any float instance.

  The launch theorem is applied to one vector-subcore call on 2 SparseCores x 16 tasks. A SparseCore's resources are
  its sixteen workers' already, so the split among the tasks is the identity. The kernel keeps no ghost state of its
  own: the launch element is the handshakes' rounds beside the unit of the transfers' counters. On the TensorCore
  @main transposes and flattens the index array (which leaves the flattened array at `flat0` by definition), halves
  the table's share and keeps the left half for good, deals the right half in 32 leaves, the flattened indices in 32
  slices and the output in 32 x 416 chunks, runs the call, joins the chunks (all at the one function `out0`) back
  into the whole output, and exchanges the output's axes. The final memory agrees with the left half of the table,
  the index array and the result.
-/
import proofs.«207811_g81140522156160_cont_9to1c4b_295_10_alg».proof.Proof.KB.Parts

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-! ## The split of a SparseCore's resources among its tasks: they are handed as the tasks' already -/

theorem P_st (d : Dev nD) (c : Fin ((K (F := F)).nCore 0)) :
    (P m).st 0 d c = bigSep Finset.univ fun i : Fin ((K (F := F)).nSub 0) => goP m d (crdK c i) := by unfold P; with_reducible rfl
theorem P_dn (d : Dev nD) (c : Fin ((K (F := F)).nCore 0)) :
    (P m).dn 0 d c = bigSep Finset.univ fun i : Fin ((K (F := F)).nSub 0) => tdP m d (crdK c i) := by unfold P; with_reducible rfl
theorem P_go (d : Dev nD) (c : Fin ((K (F := F)).nCore 0)) (i : Fin ((K (F := F)).nSub 0)) : (P m).go 0 d c i = goP m d (crdK c i) := by unfold P; rfl
theorem P_td (d : Dev nD) (c : Fin ((K (F := F)).nCore 0)) (i : Fin ((K (F := F)).nSub 0)) : (P m).td 0 d c i = tdP m d (crdK c i) := by unfold P; rfl

theorem vecSplit : (K (F := F)).VecSplit' (P m) 0 := by
  intro d c
  rw [P_st, P_dn]
  simp only [P_go, P_td]
  generalize (bigSep Finset.univ fun i : Fin ((K (F := F)).nSub 0) => goP m d (crdK c i)) = A
  generalize (bigSep Finset.univ fun i : Fin ((K (F := F)).nSub 0) => tdP m d (crdK c i)) = B
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What @main leaves, and how the final memory reads it -/

abbrev FIN (d : Dev nD) : sProp 𝕄 :=
  iprop(tblPts m d (fullShare : PosShare TreeShare).left ∗ (aLoc d ↦{fullShare} m (aLoc d)) ∗ rLoc d ↦{fullShare} resOf (out0 m d))

def fq (d : Dev nD) (s' : Phys nD τ sig (Elt F)) : Prop :=
  s'.mem.mem (rLoc d) = resOf (out0 m d) ∧ s'.mem.mem (tLoc d) = m (tLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ht, Ha, Hr⟩, HSI⟩
  ihave H := (persistent_entails_right (SI_pointsTo_agree (st := s') (ℓ := tLoc d) (I := Finset.univ) (q := (fullShare : PosShare TreeShare).left) (f := m (tLoc d)))) $$ [HSI Ht]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := resOf (out0 m d))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r =>
  ∀ c : Dev nD, r.2.mem (rLoc c) = resOf (out0 m c) ∧ r.2.mem (tLoc c) = m (tLoc c) ∧ r.2.mem (aLoc c) = m (aLoc c)

/-! ## @main on the TensorCore -/

abbrev bA : DevRef τ sig := Proc.devRef .tc (main_arg1 : Ref sig .tc)
abbrev bP : DevRef τ sig := Proc.devRef .tc (main_v0 : Ref sig .tc)
abbrev bF : DevRef τ sig := Proc.devRef .tc (main_v1 : Ref sig .tc)
abbrev bO : DevRef τ sig := Proc.devRef .tc (main_v2 : Ref sig .tc)
abbrev bR : DevRef τ sig := Proc.devRef .tc (main_v3 : Ref sig .tc)

/-- The three host operations of @main. -/
abbrev opT : HloOp τ sig (Elt F) :=
  StableHlo.unary main_arg1 main_v0 ((transpose S26x16384 [1, 0] · transposes_S16384x26_S26x16384_1_0) : (⟨S16384x26, .i32⟩ : BufTy).Contents (Elt F) → (⟨S26x16384, .i32⟩ : BufTy).Contents (Elt F))
abbrev opR : HloOp τ sig (Elt F) := StableHlo.reshape main_v0 main_v1 rfl shapeCasts_S26x16384_S425984
abbrev opU : HloOp τ sig (Elt F) :=
  StableHlo.unary main_v2 main_v3 ((transpose S16384x26x128 [1, 0, 2] · transposes_S26x16384x128_S16384x26x128_1_0_2) : (⟨S26x16384x128, .f32⟩ : BufTy).Contents (Elt F) → (⟨S16384x26x128, .f32⟩ : BufTy).Contents (Elt F))

theorem unscopedBufs_eq (d : Dev nD) (W : (b : Ref sig .tc) → Buf (Elt F) ((d.tc : Thread nD τ).loc b)) :
    (unscopedBufs d W : sProp 𝕄) = iprop((tLoc d ↦{fullShare} W main_arg0) ∗ (aLoc d ↦{fullShare} W main_arg1) ∗ (pLoc d ↦{fullShare} W main_v0)
      ∗ (fLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- Two different buffers of the device held whole. -/
theorem held_pair (d : Dev nD) (x y : DevRef τ sig) (h : x ≠ y) (W : Valuation τ sig (Elt F)) :
    (held (T d) {x, y} W : sProp 𝕄) = iprop((((d, x) : Loc nD τ sig) ↦{fullShare} W x) ∗ ((d, y) : Loc nD τ sig) ↦{fullShare} W y) := by
  unfold held
  rw [SparseCore.bigSep_insert' (by rw [Finset.mem_singleton]; exact h), bigSep_singleton]

/-- The launch contents as a valuation of the device's buffers. -/
abbrev V0 (d : Dev nD) : Valuation τ sig (Elt F) := fun b => m (d, b)

theorem opT_A (W : Valuation τ sig (Elt F)) : (opT (F := F)).result W bA = W bA :=
  StableHlo.unary_result_ne main_arg1 main_v0 _ _ _ W (r := main_arg1) (by decide)
theorem opT_F (W : Valuation τ sig (Elt F)) : (opT (F := F)).result W bF = W bF :=
  StableHlo.unary_result_ne main_arg1 main_v0 _ _ _ W (r := main_v1) (by decide)
theorem opT_P (W : Valuation τ sig (Elt F)) :
    (opT (F := F)).result W bP = transpose S26x16384 [1, 0] (W bA) transposes_S16384x26_S26x16384_1_0 :=
  StableHlo.unary_result main_arg1 main_v0 _ _ _ W
theorem opR_P (W : Valuation τ sig (Elt F)) : (opR (F := F)).result W bP = W bP :=
  StableHlo.reshape_result_ne main_v0 main_v1 rfl _ _ _ W (r := main_v0) (by decide)
theorem opR_F (W : Valuation τ sig (Elt F)) :
    (opR (F := F)).result W bF = shapeCast S425984 (W bP) shapeCasts_S26x16384_S425984 :=
  (StableHlo.reshape_result main_v0 main_v1 rfl _ _ _ W).trans rfl
theorem opU_O (W : Valuation τ sig (Elt F)) : (opU (F := F)).result W bO = W bO :=
  StableHlo.unary_result_ne main_v2 main_v3 _ _ _ W (r := main_v2) (by decide)
theorem opU_R (W : Valuation τ sig (Elt F)) : (opU (F := F)).result W bR = resOf (W bO) :=
  (StableHlo.unary_result main_v2 main_v3 _ _ _ W).trans rfl

theorem hT : (opT (F := F)).bufs ⊆ {bA, bP} := Finset.Subset.refl _
theorem hR : (opR (F := F)).bufs ⊆ {bP, bF} := Finset.Subset.refl _
theorem hU : (opU (F := F)).bufs ⊆ {bO, bR} := Finset.Subset.refl _

/-- After the two host operations the flattened index array holds `flat0`. -/
theorem flat_after (d : Dev nD) : (opR (F := F)).result ((opT (F := F)).result (V0 m d)) bF = flat0 m d := by
  rw [opR_F, opT_P]; rfl

/-- The output after the call, beside the launch contents. -/
def V3 (d : Dev nD) : Valuation τ sig (Elt F) := Function.update (V0 m d) bO (out0 m d)
theorem V3_O (d : Dev nD) : V3 m d bO = out0 m d := Function.update_self _ _ _
theorem V3_R (d : Dev nD) : V3 m d bR = m (rLoc d) := Function.update_of_ne (show bR ≠ bO by decide) _ _

/-- What the call takes for the two SparseCores: the workers' shares of the table, their slices of the flattened
    indices, their chunks of the output. -/
theorem st0_eq (d : Dev nD) :
    (bigSep Finset.univ fun c : Fin ((K (F := F)).nCore 0) => (P m).st 0 d c)
      = iprop((bigSep Finset.univ fun p : Wk (F := F) => tblPts m d (tq (wk (crdK p.1 p.2))))
          ∗ (bigSep Finset.univ fun p : Wk (F := F) => idxPts d (crdK p.1 p.2) (flat0 m d))
          ∗ bigSep Finset.univ fun t : Ck (F := F) => oLoc d ↦[(oCh (crdK t.1.1 t.1.2) t.2).view.set]{fullShare} m (oLoc d)) := by
  simp only [P_st]
  rw [← bigSep_univ_prod (fun p : Wk (F := F) => goP m d (crdK p.1 p.2))]
  unfold goP
  rw [bigSep_sep', bigSep_sep', ← bigSep_univ_prod (fun t : Ck (F := F) => (oLoc d ↦[(oCh (crdK t.1.1 t.1.2) t.2).view.set]{fullShare} m (oLoc d) : sProp 𝕄))]

/-- What it hands back: the slices, and the chunks holding the gathered rows. -/
theorem dn0_eq (d : Dev nD) :
    (bigSep Finset.univ fun c : Fin ((K (F := F)).nCore 0) => (P m).dn 0 d c)
      = iprop((bigSep Finset.univ fun p : Wk (F := F) => idxPts d (crdK p.1 p.2) (flat0 m d))
          ∗ bigSep Finset.univ fun t : Ck (F := F) => oLoc d ↦[(oCh (crdK t.1.1 t.1.2) t.2).view.set]{fullShare} out0 m d) := by
  simp only [P_dn]
  rw [← bigSep_univ_prod (fun p : Wk (F := F) => tdP m d (crdK p.1 p.2))]
  unfold tdP
  rw [bigSep_sep', ← bigSep_univ_prod (fun t : Ck (F := F) => (oLoc d ↦[(oCh (crdK t.1.1 t.1.2) t.2).view.set]{fullShare} out0 m d : sProp 𝕄))]

/-- The table: the left half kept, the right half the workers' shares. -/
theorem tPts_halve (d : Dev nD) (f : Buf (Elt F) (tLoc d)) :
    (tLoc d ↦{fullShare} f : sProp 𝕄)
      = iprop((tLoc d ↦{(fullShare : PosShare TreeShare).left} f) ∗ bigSep Finset.univ fun p : Wk (F := F) => tLoc d ↦{tq (wk (crdK p.1 p.2))} f) := by
  rw [BI.Entails.antisymm (pointsTo_share (PosShare.mem_left_op_right (fullShare : PosShare TreeShare))).1 (pointsTo_share (PosShare.mem_left_op_right fullShare)).2,
    tPts_shares]

variable [FloatOps F]

/-- @main on device `d`'s TensorCore: the index array transposed and flattened; the table halved, its right half dealt
    in 32 shares, the flattened indices in 32 slices, the output in 32 x 416 chunks, and the call; the chunks joined
    at the one function they all hold; the output's axes exchanged. The left half of the table, the index array and the
    result are kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Ha, Hp, Hf, Ho, Hr⟩, -, -⟩, -⟩
  -- the index array transposed
  iapply (wp_hlo_within 𝒱 (SparseCore.T d) none Set.univ (op := opT) (S := {bA, bP}) hT (V := V0 m d)) $$ [Hb Ha Hp]
  · isplitl [Hb]; · iexact Hb
    rw [held_pair d bA bP (by decide)]
    isplitl [Ha]; · iexact Ha
    iexact Hp
  iintro ⟨Hb, Hh⟩
  ihave Hh' := (Entails.of_eq (held_pair (F := F) d bA bP (by decide) _)) $$ Hh
  icases Hh' with ⟨Ha, Hp⟩
  rw [wp_ret]; imodintro
  -- and flattened
  iapply (wp_hlo_within 𝒱 (SparseCore.T d) none Set.univ (op := opR) (S := {bP, bF}) hR (V := (opT (F := F)).result (V0 m d))) $$ [Hb Hp Hf]
  · isplitl [Hb]; · iexact Hb
    rw [held_pair d bP bF (by decide), opT_F]
    isplitl [Hp]; · iexact Hp
    iexact Hf
  iintro ⟨Hb, Hh⟩
  ihave Hh' := (Entails.of_eq (held_pair (F := F) d bP bF (by decide) _)) $$ Hh
  icases Hh' with ⟨-, Hf⟩
  rw [wp_ret]; imodintro
  -- the table halved, its right half in shares; the flattened indices in slices; the output in chunks
  ihave Ht' := (Entails.of_eq (tPts_halve (F := F) d (m (tLoc d)))) $$ Ht
  icases Ht' with ⟨HtL, HtW⟩
  ihave HfW := (Entails.of_eq ((congrArg (fun g => (fLoc d ↦{fullShare} g : sProp 𝕄)) (flat_after m d)).trans (fPts_slices (F := F) d (flat0 m d)))) $$ Hf
  ihave HoW := (Entails.of_eq (oPts_chunks (F := F) d (m (oLoc d)))) $$ Ho
  -- the call
  iapply ((K (F := F)).wp_run (D (F := F)) 𝒱 (EH := EH) (P := P m) κ d 0) $$ [Hst HtL HtW HfW HoW Ha Hr Hb]
  isplitr; · iexact Hctx
  isplitl [Hst]; · iexact Hst
  isplitl [HtW HfW HoW]
  · rw [st0_eq]
    isplitl [HtW]; · iexact HtW
    isplitl [HfW]; · iexact HfW
    iexact HoW
  iintro ⟨Hst, Hdn⟩
  ihave Hdn' := (Entails.of_eq (dn0_eq m d)) $$ Hdn
  icases Hdn' with ⟨-, HoW⟩
  ihave Ho := (Entails.of_eq (oPts_chunks (F := F) d (out0 m d)).symm) $$ HoW
  -- the output's axes exchanged
  iapply (wp_hlo_within 𝒱 (SparseCore.T d) none Set.univ (op := opU) (S := {bO, bR}) hU (V := V3 m d)) $$ [Hb Ho Hr]
  · isplitl [Hb]; · iexact Hb
    rw [held_pair d bO bR (by decide), V3_O, V3_R]
    isplitl [Ho]; · iexact Ho
    iexact Hr
  iintro ⟨Hb, Hh⟩
  ihave Hh' := (Entails.of_eq (held_pair (F := F) d bO bR (by decide) _)) $$ Hh
  icases Hh' with ⟨-, Hr⟩
  rw [wp_ret]; imodintro; imodintro
  isplitl [Hst]; · iexact Hst
  rw [opT_A, opU_R, V3_O]
  isplitl [HtL]; · iexact HtL
  isplitl [Ha]; · iexact Ha
  iexact Hr

/-! ## The program's run -/

/-- Every weakly fair execution of the device's threads from the launch memory terminates, nothing faulting, no
    handshake unanswered; at the end the result array holds the output with axes 0 and 1 exchanged, the table and the
    index array are unchanged. The tile's body obligation is a hypothesis here. -/
theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.lean ====
/-
  The certificate's claim, assembled.

  WHAT IS PROVED. The kernel and the reference both compute the embedding lookup out[n, s, :] = table[idx[n, s], :]
  (`Spec.take`) on every input the precondition admits, that is, on row numbers 0 ≤ idx[n, s] ≤ 99999.

  The kernel. Its 32 workers each fetch their 13312 row numbers of the flattened (transposed) index array and gather
  their 416 chunks of 32 table rows into the 26 x 16384 x 128 output; the last host operation exchanges that array's
  first two axes. One proof text, generic in the float instance, is stated of each of the two printed programs (they
  have the same text): its run terminates with the result at the lookup and the two arguments unchanged. Read at the
  bit-exact instance it gives the kernel's frame claim, read at the ideal instance the idealized kernel's frame claim
  and the kernel's side of the value claim. The program moves table entries and never computes with them, which is why
  one text serves both readings and why the idealization (which rewrote no operation) changes nothing.

  The reference. Its run is the fold of its 23 array operations; on row numbers in range the wrap of negative numbers,
  the clamp of the gather and the out-of-range mask are all the identity, so its result is the same lookup.

  The value claim is then the two runs side by side: the common value is the lookup of the kernel's launch table at its
  launch row numbers, which the reference's memory agrees with by hypothesis. The precondition is used through its
  integer half only (every row number in range); the finiteness of the table's entries is not needed.
-/
import proofs.«207811_g81140522156160_cont_9to1c4b_295_10_alg».proof.Defs
import proofs.«207811_g81140522156160_cont_9to1c4b_295_10_alg».proof.Proof.Gen.Kernel
import proofs.«207811_g81140522156160_cont_9to1c4b_295_10_alg».proof.Proof.Gen.Kernel.Skeleton
import proofs.«207811_g81140522156160_cont_9to1c4b_295_10_alg».proof.Proof.Gen.KernelIdeal
import proofs.«207811_g81140522156160_cont_9to1c4b_295_10_alg».proof.Proof.Gen.KernelIdeal.Skeleton
import proofs.«207811_g81140522156160_cont_9to1c4b_295_10_alg».proof.Proof.Gen.ReferenceIdeal
import proofs.«207811_g81140522156160_cont_9to1c4b_295_10_alg».proof.Proof.Gen.Pre_input_domain
import proofs.«207811_g81140522156160_cont_9to1c4b_295_10_alg».proof.Proof.PreRange
import proofs.«207811_g81140522156160_cont_9to1c4b_295_10_alg».proof.Proof.RefRun
import proofs.«207811_g81140522156160_cont_9to1c4b_295_10_alg».proof.Proof.KI.Body
import proofs.«207811_g81140522156160_cont_9to1c4b_295_10_alg».proof.Proof.KB.Body
import proofs.«207811_g81140522156160_cont_9to1c4b_295_10_alg».proof.Proof.KI.Launch
import proofs.«207811_g81140522156160_cont_9to1c4b_295_10_alg».proof.Proof.KB.Launch
import Idealize.ShloMosaic.Adequacy
import Idealize.ShloMosaic.Init

noncomputable section

namespace Cert.Proof

open Idealize.ShloMosaic Idealize.SL.Sem

/-! ## The precondition, decoded: every row number is in range -/

/-- At the bit-exact instance. -/
theorem preOK_kernel (m : (ℓ : Loc Cert.Kernel.nD Cert.Kernel.τ Cert.Kernel.sig) → Buf (Elt Bits) ℓ)
    (hpre : Cert.Pre_Kernel m) : KB.PreOK m :=
  fun d => PreRange.inRange_of_pre _ _ (hpre d)

/-- At the ideal instance. -/
theorem preOK_kernelIdeal (m : (ℓ : Loc Cert.KernelIdeal.nD Cert.KernelIdeal.τ Cert.KernelIdeal.sig) → Buf (Elt Ideal) ℓ)
    (hpre : Cert.Pre_KernelIdeal m) : KI.PreOK m :=
  fun d => PreRange.inRange_of_pre _ _ (hpre d)

/-! ## The frames -/

/-- The kernel runs and leaves its arguments: its run, read at the two arguments. -/
theorem frame_kernel : Cert.frame_Kernel := fun m g hpre =>
  (θ_run _ _ _).mono (fun _ h c => ⟨(h c).2.1, (h c).2.2⟩)
    (KB.run_main (F := Bits) m g (KB.tileObl m KB.facts (preOK_kernel m hpre)))

/-- The same of the idealized kernel. -/
theorem frame_kernelIdeal : Cert.frame_KernelIdeal := fun m g hpre =>
  (θ_run _ _ _).mono (fun _ h c => ⟨(h c).2.1, (h c).2.2⟩)
    (KI.run_main (F := Ideal) m g (KI.tileObl m KI.facts (preOK_kernelIdeal m hpre)))

/-- The reference runs and leaves its arguments: its run, with the value dropped. -/
theorem frame_referenceIdeal : Cert.frame_ReferenceIdeal := fun m g hpre =>
  (θ_run _ _ _).mono (fun _ h c => ⟨(h c).2.1, (h c).2.2⟩)
    (Ref.run m g fun c => PreRange.inRange_of_pre _ _ (hpre c))

/-! ## The value claim -/

/-- Both runs end with the lookup of the kernel's launch table at its launch row numbers: the kernel's run leaves the
    exchanged output, which is that lookup; the reference's leaves the lookup of its own arguments, which are the
    kernel's. -/
theorem algebraic : Cert.algebraic_KernelIdeal_ReferenceIdeal := by
  intro m g m' g' hpre hagree
  have hK : KI.PreOK m := preOK_kernelIdeal m hpre
  have hR : ∀ c : Dev Cert.ReferenceIdeal.nD,
      Cert.Proof.Spec.InRange (m' ((c.tc : Thread Cert.ReferenceIdeal.nD Cert.ReferenceIdeal.τ).loc Cert.ReferenceIdeal.main_arg1)) :=
    fun c => by rw [(hagree c).2]; exact hK c
  refine ⟨fun c => KI.resOf (KI.out0 m c),
    (θ_run _ _ _).mono (fun _ h c => h c) (KI.run_main (F := Ideal) m g (KI.tileObl m KI.facts hK)), ?_⟩
  refine (θ_run _ _ _).mono (fun _ h c => ⟨(h c).1.trans ?_, (h c).2⟩) (Ref.run m' g' hR)
  rw [(hagree c).1, (hagree c).2]
  exact (KI.resOf_out0 m c (hK c)).symm

/-- `Cert.Claim` (Defs.lean). -/
theorem claim : Cert.Claim :=
  ⟨Cert.Kernel.Gen.facts, Cert.KernelIdeal.Gen.facts, Cert.ReferenceIdeal.Gen.facts, Cert.Pre_input_domain.Gen.facts,
    frame_kernel, frame_kernelIdeal, frame_referenceIdeal, trivial, algebraic⟩

end Cert.Proof

end
